-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S200x16 .f32 .bf16
  ∧ IdealRules.truncf_extf.Statement Cert.KernelIdeal.S200x16 .f32 .bf16
  ∧ IdealRules.truncf_extf.Statement Cert.KernelIdeal.S200x16 .f32 .bf16
  ∧ IdealRules.truncf_extf.Statement Cert.KernelIdeal.S10000x16 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x16 : Shape := ⟨2, ![10000, 16]⟩
abbrev S16x4 : Shape := ⟨2, ![16, 4]⟩
abbrev S10000x4 : Shape := ⟨2, ![10000, 4]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x16 : S_.BroadcastsInDim S10000x16 (![] : Fin 0 → Fin S10000x16.rank)
  reducesTo_S10000x16_S_d0_1 : S10000x16.ReducesTo [0, 1] S_
  bcast_S_S16x4 : S_.BroadcastsInDim S16x4 (![] : Fin 0 → Fin S16x4.rank)
  reducesTo_S16x4_S_d0_1 : S16x4.ReducesTo [0, 1] S_
  bcast_S_S10000x4 : S_.BroadcastsInDim S10000x4 (![] : Fin 0 → Fin S10000x4.rank)
  reducesTo_S10000x4_S_d0_1 : S10000x4.ReducesTo [0, 1] S_

variable [Facts]

def fn_part3 {F : FTy → Type} [FloatOps F] (main_v48 : IVec S_ 1) (main_v49 : FVec F S10000x4 .f32) (main_v50 : FVec F S10000x4 .f32) : IVec S_ 1 :=
  let main_v51 : IVec S10000x4 1 := cmpf .olt main_v49 main_v50
  let main_c_19 : IVec S_ 1 := constantI S_ 1 1#1
  let main_v52 : IVec S_ 1 := (fun x v => Host.reduce IntOp.andi x v reducesTo_S10000x4_S_d0_1 h_S_) main_v51 main_c_19
  let main_v53 : IVec S_ 1 := andi main_v48 main_v52
  main_v53

def fn_part2 {F : FTy → Type} [FloatOps F] (main_arg7 : FVec F S16x4 .f32) (main_arg8 : FVec F S16x4 .f32) (main_arg9 : FVec F S10000x4 .f32) (main_arg10 : FVec F S10000x4 .f32) (main_v33 : IVec S_ 1) : IVec S_ 1 :=
  let main_v34 : FVec F S16x4 .f32 := Host.absf main_arg7
  let main_cst_12 : FVec F S_ .f32 := constant S_ .f32 0x7F800000#32
  let main_v35 : FVec F S16x4 .f32 := broadcastInDim S16x4 ![] bcast_S_S16x4 main_cst_12
  let main_v36 : IVec S16x4 1 := cmpf .olt main_v34 main_v35
  let main_c_13 : IVec S_ 1 := constantI S_ 1 1#1
  let main_v37 : IVec S_ 1 := (fun x v => Host.reduce IntOp.andi x v reducesTo_S16x4_S_d0_1 h_S_) main_v36 main_c_13
  let main_v38 : IVec S_ 1 := andi main_v33 main_v37
  let main_v39 : FVec F S16x4 .f32 := Host.absf main_arg8
  let main_cst_14 : FVec F S_ .f32 := constant S_ .f32 0x7F800000#32
  let main_v40 : FVec F S16x4 .f32 := broadcastInDim S16x4 ![] bcast_S_S16x4 main_cst_14
  let main_v41 : IVec S16x4 1 := cmpf .olt main_v39 main_v40
  let main_c_15 : IVec S_ 1 := constantI S_ 1 1#1
  let main_v42 : IVec S_ 1 := (fun x v => Host.reduce IntOp.andi x v reducesTo_S16x4_S_d0_1 h_S_) main_v41 main_c_15
  let main_v43 : IVec S_ 1 := andi main_v38 main_v42
  let main_v44 : FVec F S10000x4 .f32 := Host.absf main_arg9
  let main_cst_16 : FVec F S_ .f32 := constant S_ .f32 0x7F800000#32
  let main_v45 : FVec F S10000x4 .f32 := broadcastInDim S10000x4 ![] bcast_S_S10000x4 main_cst_16
  let main_v46 : IVec S10000x4 1 := cmpf .olt main_v44 main_v45
  let main_c_17 : IVec S_ 1 := constantI S_ 1 1#1
  let main_v47 : IVec S_ 1 := (fun x v => Host.reduce IntOp.andi x v reducesTo_S10000x4_S_d0_1 h_S_) main_v46 main_c_17
  let main_v48 : IVec S_ 1 := andi main_v43 main_v47
  let main_v49 : FVec F S10000x4 .f32 := Host.absf main_arg10
  let main_cst_18 : FVec F S_ .f32 := constant S_ .f32 0x7F800000#32
  let main_v50 : FVec F S10000x4 .f32 := broadcastInDim S10000x4 ![] bcast_S_S10000x4 main_cst_18
  fn_part3 (F := F) main_v48 main_v49 main_v50

def fn_part1 {F : FTy → Type} [FloatOps F] (main_arg4 : FVec F S16x4 .f32) (main_arg5 : FVec F S16x4 .f32) (main_arg6 : FVec F S10000x16 .f32) (main_arg7 : FVec F S16x4 .f32) (main_arg8 : FVec F S16x4 .f32) (main_arg9 : FVec F S10000x4 .f32) (main_arg10 : FVec F S10000x4 .f32) (main_v13 : IVec S_ 1) (main_v16 : IVec S10000x16 1) : IVec S_ 1 :=
  let main_c_5 : IVec S_ 1 := constantI S_ 1 1#1
  let main_v17 : IVec S_ 1 := (fun x v => Host.reduce IntOp.andi x v reducesTo_S10000x16_S_d0_1 h_S_) main_v16 main_c_5
  let main_v18 : IVec S_ 1 := andi main_v13 main_v17
  let main_v19 : FVec F S16x4 .f32 := Host.absf main_arg4
  let main_cst_6 : FVec F S_ .f32 := constant S_ .f32 0x7F800000#32
  let main_v20 : FVec F S16x4 .f32 := broadcastInDim S16x4 ![] bcast_S_S16x4 main_cst_6
  let main_v21 : IVec S16x4 1 := cmpf .olt main_v19 main_v20
  let main_c_7 : IVec S_ 1 := constantI S_ 1 1#1
  let main_v22 : IVec S_ 1 := (fun x v => Host.reduce IntOp.andi x v reducesTo_S16x4_S_d0_1 h_S_) main_v21 main_c_7
  let main_v23 : IVec S_ 1 := andi main_v18 main_v22
  let main_v24 : FVec F S16x4 .f32 := Host.absf main_arg5
  let main_cst_8 : FVec F S_ .f32 := constant S_ .f32 0x7F800000#32
  let main_v25 : FVec F S16x4 .f32 := broadcastInDim S16x4 ![] bcast_S_S16x4 main_cst_8
  let main_v26 : IVec S16x4 1 := cmpf .olt main_v24 main_v25
  let main_c_9 : IVec S_ 1 := constantI S_ 1 1#1
  let main_v27 : IVec S_ 1 := (fun x v => Host.reduce IntOp.andi x v reducesTo_S16x4_S_d0_1 h_S_) main_v26 main_c_9
  let main_v28 : IVec S_ 1 := andi main_v23 main_v27
  let main_v29 : FVec F S10000x16 .f32 := Host.absf main_arg6
  let main_cst_10 : FVec F S_ .f32 := constant S_ .f32 0x7F800000#32
  let main_v30 : FVec F S10000x16 .f32 := broadcastInDim S10000x16 ![] bcast_S_S10000x16 main_cst_10
  let main_v31 : IVec S10000x16 1 := cmpf .olt main_v29 main_v30
  let main_c_11 : IVec S_ 1 := constantI S_ 1 1#1
  let main_v32 : IVec S_ 1 := (fun x v => Host.reduce IntOp.andi x v reducesTo_S10000x16_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S10000x10000 .f32) (main_arg1 : FVec F S10000x10000 .f32) (main_arg2 : FVec F S10000x10000 .f32) (main_arg3 : FVec F S10000x16 .f32) (main_arg4 : FVec F S16x4 .f32) (main_arg5 : FVec F S16x4 .f32) (main_arg6 : FVec F S10000x16 .f32) (main_arg7 : FVec F S16x4 .f32) (main_arg8 : FVec F S16x4 .f32) (main_arg9 : FVec F S10000x4 .f32) (main_arg10 : FVec F S10000x4 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x16 .f32 := Host.absf main_arg3
  let main_cst_4 : FVec F S_ .f32 := constant S_ .f32 0x7F800000#32
  let main_v15 : FVec F S10000x16 .f32 := broadcastInDim S10000x16 ![] bcast_S_S10000x16 main_cst_4
  let main_v16 : IVec S10000x16 1 := cmpf .olt main_v14 main_v15
  fn_part1 (F := F) main_arg4 main_arg5 main_arg6 main_arg7 main_arg8 main_arg9 main_arg10 main_v13 main_v16
-- ==== Kernel.lean ====
abbrev S10000x10000 : Shape := ⟨2, ![10000, 10000]⟩
abbrev S10000x16 : Shape := ⟨2, ![10000, 16]⟩
abbrev S16x4 : Shape := ⟨2, ![16, 4]⟩
abbrev S10000x4 : Shape := ⟨2, ![10000, 4]⟩
abbrev S10000x32 : Shape := ⟨2, ![10000, 32]⟩
abbrev S200x10000 : Shape := ⟨2, ![200, 10000]⟩
abbrev S200x32 : Shape := ⟨2, ![200, 32]⟩
abbrev S200x16 : Shape := ⟨2, ![200, 16]⟩
abbrev S32x10000 : Shape := ⟨2, ![32, 10000]⟩
abbrev S16x10000 : Shape := ⟨2, ![16, 10000]⟩
abbrev S200x4 : Shape := ⟨2, ![200, 4]⟩
abbrev S4x10000 : Shape := ⟨2, ![4, 10000]⟩

abbrev nBuf : Space → Nat
  | .hbm => 18
  | .vmem => 40
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x10000, .f32⟩
  | .hbm, ⟨3, _⟩ => ⟨S10000x16, .f32⟩
  | .hbm, ⟨4, _⟩ => ⟨S16x4, .f32⟩
  | .hbm, ⟨5, _⟩ => ⟨S16x4, .f32⟩
  | .hbm, ⟨6, _⟩ => ⟨S10000x16, .f32⟩
  | .hbm, ⟨7, _⟩ => ⟨S16x4, .f32⟩
  | .hbm, ⟨8, _⟩ => ⟨S16x4, .f32⟩
  | .hbm, ⟨9, _⟩ => ⟨S10000x4, .f32⟩
  | .hbm, ⟨10, _⟩ => ⟨S10000x4, .f32⟩
  | .hbm, ⟨11, _⟩ => ⟨S10000x32, .bf16⟩
  | .hbm, ⟨12, _⟩ => ⟨S10000x32, .bf16⟩
  | .hbm, ⟨13, _⟩ => ⟨S10000x32, .bf16⟩
  | .hbm, ⟨14, _⟩ => ⟨S10000x32, .bf16⟩
  | .hbm, ⟨15, _⟩ => ⟨S10000x4, .f32⟩
  | .hbm, ⟨16, _⟩ => ⟨S10000x4, .f32⟩
  | .hbm, ⟨17, _⟩ => ⟨S10000x10000, .f32⟩
  | .local _ .vmem, ⟨0, _⟩ => ⟨S200x10000, .f32⟩
  | .local _ .vmem, ⟨1, _⟩ => ⟨S200x10000, .f32⟩
  | .local _ .vmem, ⟨2, _⟩ => ⟨S10000x16, .f32⟩
  | .local _ .vmem, ⟨3, _⟩ => ⟨S200x32, .bf16⟩
  | .local _ .vmem, ⟨4, _⟩ => ⟨S200x32, .bf16⟩
  | .local _ .vmem, ⟨5, _⟩ => ⟨S200x10000, .f32⟩
  | .local _ .vmem, ⟨6, _⟩ => ⟨S200x10000, .f32⟩
  | .local _ .vmem, ⟨7, _⟩ => ⟨S10000x16, .f32⟩
  | .local _ .vmem, ⟨8, _⟩ => ⟨S200x32, .bf16⟩
  | .local _ .vmem, ⟨9, _⟩ => ⟨S200x32, .bf16⟩
  | .local _ .vmem, ⟨10, _⟩ => ⟨S200x10000, .f32⟩
  | .local _ .vmem, ⟨11, _⟩ => ⟨S200x10000, .f32⟩
  | .local _ .vmem, ⟨12, _⟩ => ⟨S200x32, .bf16⟩
  | .local _ .vmem, ⟨13, _⟩ => ⟨S200x32, .bf16⟩
  | .local _ .vmem, ⟨14, _⟩ => ⟨S10000x32, .bf16⟩
  | .local _ .vmem, ⟨15, _⟩ => ⟨S10000x32, .bf16⟩
  | .local _ .vmem, ⟨16, _⟩ => ⟨S200x32, .bf16⟩
  | .local _ .vmem, ⟨17, _⟩ => ⟨S200x32, .bf16⟩
  | .local _ .vmem, ⟨18, _⟩ => ⟨S32x10000, .f32⟩
  | .local _ .vmem, ⟨19, _⟩ => ⟨S200x10000, .f32⟩
  | .local _ .vmem, ⟨20, _⟩ => ⟨S200x10000, .f32⟩
  | .local _ .vmem, ⟨21, _⟩ => ⟨S10000x32, .bf16⟩
  | .local _ .vmem, ⟨22, _⟩ => ⟨S200x32, .bf16⟩
  | .local _ .vmem, ⟨23, _⟩ => ⟨S200x32, .bf16⟩
  | .local _ .vmem, ⟨24, _⟩ => ⟨S16x4, .f32⟩
  | .local _ .vmem, ⟨25, _⟩ => ⟨S16x4, .f32⟩
  | .local _ .vmem, ⟨26, _⟩ => ⟨S16x4, .f32⟩
  | .local _ .vmem, ⟨27, _⟩ => ⟨S16x4, .f32⟩
  | .local _ .vmem, ⟨28, _⟩ => ⟨S200x4, .f32⟩
  | .local _ .vmem, ⟨29, _⟩ => ⟨S200x4, .f32⟩
  | .local _ .vmem, ⟨30, _⟩ => ⟨S10000x4, .f32⟩
  | .local _ .vmem, ⟨31, _⟩ => ⟨S200x4, .f32⟩
  | .local _ .vmem, ⟨32, _⟩ => ⟨S200x4, .f32⟩
  | .local _ .vmem, ⟨33, _⟩ => ⟨S10000x4, .f32⟩
  | .local _ .vmem, ⟨34, _⟩ => ⟨S32x10000, .f32⟩
  | .local _ .vmem, ⟨35, _⟩ => ⟨S200x4, .f32⟩
  | .local _ .vmem, ⟨36, _⟩ => ⟨S200x4, .f32⟩
  | .local _ .vmem, ⟨37, _⟩ => ⟨S10000x4, .f32⟩
  | .local _ .vmem, ⟨38, _⟩ => ⟨S200x10000, .f32⟩
  | .local _ .vmem, ⟨39, _⟩ => ⟨S200x10000, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v3_0 : Ref sig .tc := ⟨.hbm, 15, rfl⟩
abbrev main_v3_1 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg7_1 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg9_1 : Ref sig .tc := ⟨.vmem, 32, rfl⟩
abbrev cc3_stg10_0 : Ref sig .tc := ⟨.vmem, 33, rfl⟩
abbrev cc3_scratch0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem7_0 : DmaSem sig := 27
abbrev cc3_sem7_1 : DmaSem sig := 28
abbrev cc3_sem8_0 : DmaSem sig := 29
abbrev cc3_sem9_0 : DmaSem sig := 30
abbrev cc3_sem9_1 : DmaSem sig := 31
abbrev cc3_sem10_0 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def k2_cond3 (i : grid2.Coords) : BitVec 1 :=
  let arg0 : BitVec 32 := BitVec.ofNat 32 (i 0).val
  let c49_i32 : BitVec 32 := 49#32
  let v25 : BitVec 1 := Scalar.cmpi .eq arg0 c49_i32
  let v26 : BitVec 32 := Scalar.extui v25
  let c0_i32_12 : BitVec 32 := 0#32
  let v27 : BitVec 1 := Scalar.cmpi .ne v26 c0_i32_12
  v27

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x32 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x32 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S200x32 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def k3_cond3 (i : grid3.Coords) : BitVec 1 :=
  let arg0 : BitVec 32 := BitVec.ofNat 32 (i 0).val
  let c49_i32 : BitVec 32 := 49#32
  let v26 : BitVec 1 := Scalar.cmpi .eq arg0 c49_i32
  let v27 : BitVec 32 := Scalar.extui v26
  let c0_i32_19 : BitVec 32 := 0#32
  let v28 : BitVec 1 := Scalar.cmpi .ne v27 c0_i32_19
  v28

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S200x32 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x4 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x4 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S16x4 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S200x4 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S10000x4 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S200x4 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S10000x4 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S200x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S200x10000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S200x10000_S200x10000_0_0 : ∀ a, (![0, 0] : Fin 2 → Nat) a + S200x10000.size a ≤ S200x10000.size a
  h_S200x10000 : 0 < S200x10000.numel
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  concatenates_S200x16_S200x16_S200x32_d1 : Shape.Concatenates [S200x16, S200x16] S200x32 1
  inb_S200x32_S200x32_0_0 : ∀ a, (![0, 0] : Fin 2 → Nat) a + S200x32.size a ≤ S200x32.size a
  h_S200x32 : 0 < S200x32.numel
  packedbf16_S200x32_S200x32_0_0 : (Rect.unit (s := S200x32) ![0, 0] S200x32.size inb_S200x32_S200x32_0_0).PackedRows (EltTy.packing .bf16)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  slices_S200x32_o0_0_S200x16 : S200x32.Slices ![0, 0] S200x16
  slices_S200x32_o0_16_S200x16 : S200x32.Slices ![0, 16] S200x16
  shapeCasts_S200x32_S200x32 : S200x32.ShapeCasts S200x32
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  slices_S32x10000_o0_0_S16x10000 : S32x10000.Slices ![0, 0] S16x10000
  slices_S32x10000_o16_0_S16x10000 : S32x10000.Slices ![16, 0] S16x10000
  transposes_S16x10000_p1_0_S10000x16 : S16x10000.Transposes [1, 0] S10000x16
  concatenates_S10000x16_S10000x16_S10000x32_d1 : Shape.Concatenates [S10000x16, S10000x16] S10000x32 1
  packedbf16_S10000x32_S10000x32_0_0 : (Rect.unit (s := S10000x32) ![0, 0] S10000x32.size inb_S10000x32_S10000x32_0_0).PackedRows (EltTy.packing .bf16)
  inb_S16x4_S16x4_0_0 : ∀ a, (![0, 0] : Fin 2 → Nat) a + S16x4.size a ≤ S16x4.size a
  h_S16x4 : 0 < S16x4.numel
  inb_S200x4_S200x4_0_0 : ∀ a, (![0, 0] : Fin 2 → Nat) a + S200x4.size a ≤ S200x4.size a
  h_S200x4 : 0 < S200x4.numel
  inb_S10000x4_S10000x4_0_0 : ∀ a, (![0, 0] : Fin 2 → Nat) a + S10000x4.size a ≤ S10000x4.size a
  h_S10000x4 : 0 < S10000x4.numel
  transposes_S10000x4_p1_0_S4x10000 : S10000x4.Transposes [1, 0] S4x10000
  transposes_S4x10000_p1_0_S10000x4 : S4x10000.Transposes [1, 0] S10000x4
  shapeCasts_S200x4_S200x4 : S200x4.ShapeCasts S200x4
  shapeCasts_S10000x4_S10000x4 : S10000x4.ShapeCasts S10000x4
  dot_S200x10000_S10000x16_S200x16_1_0_0_1_n_n_wf : DotDims.WF S200x10000 S10000x16 S200x16 [1] [0] [0] [1] [] []
  dot_S200x10000_S10000x32_S200x32_1_0_0_1_n_n_wf : DotDims.WF S200x10000 S10000x32 S200x32 [1] [0] [0] [1] [] []
  dot_S200x32_S200x10000_S32x10000_0_0_1_1_n_n_wf : DotDims.WF S200x32 S200x10000 S32x10000 [0] [0] [1] [1] [] []
  dot_S200x16_S16x4_S200x4_1_0_0_1_n_n_wf : DotDims.WF S200x16 S16x4 S200x4 [1] [0] [0] [1] [] []
  dot_S16x4_S16x10000_S4x10000_0_0_1_1_n_n_wf : DotDims.WF S16x4 S16x10000 S4x10000 [0] [0] [1] [1] [] []
  dot_S200x4_S10000x4_S200x10000_1_1_0_0_n_n_wf : DotDims.WF S200x4 S10000x4 S200x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S10000x16.size a
  hwx0_1 : ∀ i : grid0.Coords, EltTy.bits .f32 = 32 ∨ (Rect.block (s := S10000x16) S10000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x32.size a ≤ S10000x32.size a
  hwx0_2 : ∀ i : grid0.Coords, EltTy.bits .bf16 = 32 ∨ (Rect.block (s := S10000x32) S200x32.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x32.size a ≤ S10000x32.size a
  hwx1_2 : ∀ i : grid1.Coords, EltTy.bits .bf16 = 32 ∨ (Rect.block (s := S10000x32) S200x32.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x32.size a ≤ S10000x32.size a
  hwx2_1 : ∀ i : grid2.Coords, EltTy.bits .bf16 = 32 ∨ (Rect.block (s := S10000x32) S200x32.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S10000x32.size a
  hwx2_2 : ∀ i : grid2.Coords, EltTy.bits .bf16 = 32 ∨ (Rect.block (s := S10000x32) S10000x32.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S10000x32.size a
  hwx2_3 : ∀ i : grid2.Coords, EltTy.bits .bf16 = 32 ∨ (Rect.block (s := S10000x32) S10000x32.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S200x32.size a ≤ S10000x32.size a
  hwx2_4 : ∀ i : grid2.Coords, EltTy.bits .bf16 = 32 ∨ (Rect.block (s := S10000x32) S200x32.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S10000x32.size a
  hwx3_1 : ∀ i : grid3.Coords, EltTy.bits .bf16 = 32 ∨ (Rect.block (s := S10000x32) S10000x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x32.size a ≤ S10000x32.size a
  hwx3_2 : ∀ i : grid3.Coords, EltTy.bits .bf16 = 32 ∨ (Rect.block (s := S10000x32) S200x32.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x4.size a ≤ S16x4.size a
  hwx3_3 : ∀ i : grid3.Coords, EltTy.bits .f32 = 32 ∨ (Rect.block (s := S16x4) S16x4.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x4.size a ≤ S16x4.size a
  hwx3_4 : ∀ i : grid3.Coords, EltTy.bits .f32 = 32 ∨ (Rect.block (s := S16x4) S16x4.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x4.size a ≤ S16x4.size a
  hwx3_5 : ∀ i : grid3.Coords, EltTy.bits .f32 = 32 ∨ (Rect.block (s := S16x4) S16x4.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S16x4.size a ≤ S16x4.size a
  hwx3_6 : ∀ i : grid3.Coords, EltTy.bits .f32 = 32 ∨ (Rect.block (s := S16x4) S16x4.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S200x4.size a ≤ S10000x4.size a
  hwx3_7 : ∀ i : grid3.Coords, EltTy.bits .f32 = 32 ∨ (Rect.block (s := S10000x4) S200x4.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S10000x4.size a ≤ S10000x4.size a
  hwx3_8 : ∀ i : grid3.Coords, EltTy.bits .f32 = 32 ∨ (Rect.block (s := S10000x4) S10000x4.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S200x4.size a ≤ S10000x4.size a
  hwx3_9 : ∀ i : grid3.Coords, EltTy.bits .f32 = 32 ∨ (Rect.block (s := S10000x4) S200x4.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S10000x4.size a ≤ S10000x4.size a
  hwx3_10 : ∀ i : grid3.Coords, EltTy.bits .f32 = 32 ∨ (Rect.block (s := S10000x4) S10000x4.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S200x4.size a ≤ S10000x4.size a
  hwx4_0 : ∀ i : grid4.Coords, EltTy.bits .f32 = 32 ∨ (Rect.block (s := S10000x4) S200x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x4.size a ≤ S10000x4.size a
  hwx4_1 : ∀ i : grid4.Coords, EltTy.bits .f32 = 32 ∨ (Rect.block (s := S10000x4) S10000x4.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S200x10000.size a ≤ S10000x10000.size a
  hwx4_2 : ∀ i : grid4.Coords, EltTy.bits .f32 = 32 ∨ (Rect.block (s := S10000x10000) S200x10000.size (cc4_transform_2 i) (hinb4_2 i)).WholeWords (EltTy.packing .f32)

variable [Facts₀]

def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf
def dot_S200x32_S200x10000_S32x10000_0_0_1_1_n_n : DotDims S200x32 S200x10000 S32x10000 where
  lhsContracting := [0]
  rhsContracting := [0]
  lhsNonContracting := [1]
  rhsNonContracting := [1]
  lhsBatch := []
  rhsBatch := []
  wf := dot_S200x32_S200x10000_S32x10000_0_0_1_1_n_n_wf
def dot_S200x16_S16x4_S200x4_1_0_0_1_n_n : DotDims S200x16 S16x4 S200x4 where
  lhsContracting := [1]
  rhsContracting := [0]
  lhsNonContracting := [0]
  rhsNonContracting := [1]
  lhsBatch := []
  rhsBatch := []
  wf := dot_S200x16_S16x4_S200x4_1_0_0_1_n_n_wf
def dot_S16x4_S16x10000_S4x10000_0_0_1_1_n_n : DotDims S16x4 S16x10000 S4x10000 where
  lhsContracting := [0]
  rhsContracting := [0]
  lhsNonContracting := [1]
  rhsNonContracting := [1]
  lhsBatch := []
  rhsBatch := []
  wf := dot_S16x4_S16x10000_S4x10000_0_0_1_1_n_n_wf
def dot_S200x4_S10000x4_S200x10000_1_1_0_0_n_n : DotDims S200x4 S10000x4 S200x10000 where
  lhsContracting := [1]
  rhsContracting := [1]
  lhsNonContracting := [0]
  rhsNonContracting := [0]
  lhsBatch := []
  rhsBatch := []
  wf := dot_S200x4_S10000x4_S200x10000_1_1_0_0_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10000x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S200x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S200x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S10000x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2_0) S10000x32.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2_1) S200x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond3 i == 1#1) | 4 => fun _ => false | ⟨_ + 5, h⟩ => absurd h (Nat.not_lt.2 (Nat.le_add_left _ _))

abbrev win3_0 : Pipeline.Window sig grid3 :=
  Pipeline.Window.ofSpec (Memref.whole main_arg2) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2_0) S10000x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2_1) S200x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg4) S16x4.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg5) S16x4.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg7) S16x4.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg8) S16x4.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg9) S200x4.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_arg10) S10000x4.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v3_0) S200x4.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v3_1) S10000x4.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev idle3 : Fin 11 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k3_cond3 i == 1#1) | ⟨_ + 11, h⟩ => absurd h (Nat.not_lt.2 (Nat.le_add_left _ _))

abbrev win4_0 : Pipeline.Window sig grid4 :=
  Pipeline.Window.ofSpec (Memref.whole main_v3_0) S200x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3_1) S10000x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S200x10000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x10000 : Shape := ⟨2, ![10000, 10000]⟩
abbrev S10000x16 : Shape := ⟨2, ![10000, 16]⟩
abbrev S16x4 : Shape := ⟨2, ![16, 4]⟩
abbrev S10000x4 : Shape := ⟨2, ![10000, 4]⟩
abbrev S_ : Shape := ⟨0, ![]⟩
abbrev S4x4 : Shape := ⟨2, ![4, 4]⟩
abbrev S4x10000 : Shape := ⟨2, ![4, 10000]⟩

abbrev nBuf : Space → Nat
  | .hbm => 56
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x10000, .f32⟩
  | .hbm, ⟨3, _⟩ => ⟨S10000x16, .f32⟩
  | .hbm, ⟨4, _⟩ => ⟨S16x4, .f32⟩
  | .hbm, ⟨5, _⟩ => ⟨S16x4, .f32⟩
  | .hbm, ⟨6, _⟩ => ⟨S10000x16, .f32⟩
  | .hbm, ⟨7, _⟩ => ⟨S16x4, .f32⟩
  | .hbm, ⟨8, _⟩ => ⟨S16x4, .f32⟩
  | .hbm, ⟨9, _⟩ => ⟨S10000x4, .f32⟩
  | .hbm, ⟨10, _⟩ => ⟨S10000x4, .f32⟩
  | .hbm, ⟨11, _⟩ => ⟨S10000x10000, .f32⟩
  | .hbm, ⟨12, _⟩ => ⟨S10000x16, .f32⟩
  | .hbm, ⟨13, _⟩ => ⟨S10000x16, .f32⟩
  | .hbm, ⟨14, _⟩ => ⟨S_, .f32⟩
  | .hbm, ⟨15, _⟩ => ⟨S10000x16, .f32⟩
  | .hbm, ⟨16, _⟩ => ⟨S10000x16, .f32⟩
  | .hbm, ⟨17, _⟩ => ⟨S10000x4, .f32⟩
  | .hbm, ⟨18, _⟩ => ⟨S10000x4, .f32⟩
  | .hbm, ⟨19, _⟩ => ⟨S10000x4, .f32⟩
  | .hbm, ⟨20, _⟩ => ⟨S10000x4, .f32⟩
  | .hbm, ⟨21, _⟩ => ⟨S10000x4, .f32⟩
  | .hbm, ⟨22, _⟩ => ⟨S10000x4, .f32⟩
  | .hbm, ⟨23, _⟩ => ⟨S10000x4, .f32⟩
  | .hbm, ⟨24, _⟩ => ⟨S10000x16, .f32⟩
  | .hbm, ⟨25, _⟩ => ⟨S10000x16, .f32⟩
  | .hbm, ⟨26, _⟩ => ⟨S_, .f32⟩
  | .hbm, ⟨27, _⟩ => ⟨S10000x16, .f32⟩
  | .hbm, ⟨28, _⟩ => ⟨S10000x16, .f32⟩
  | .hbm, ⟨29, _⟩ => ⟨S10000x10000, .f32⟩
  | .hbm, ⟨30, _⟩ => ⟨S10000x4, .f32⟩
  | .hbm, ⟨31, _⟩ => ⟨S10000x4, .f32⟩
  | .hbm, ⟨32, _⟩ => ⟨S10000x10000, .f32⟩
  | .hbm, ⟨33, _⟩ => ⟨S10000x4, .f32⟩
  | .hbm, ⟨34, _⟩ => ⟨S10000x4, .f32⟩
  | .hbm, ⟨35, _⟩ => ⟨S10000x4, .f32⟩
  | .hbm, ⟨36, _⟩ => ⟨S10000x4, .f32⟩
  | .hbm, ⟨37, _⟩ => ⟨S10000x4, .f32⟩
  | .hbm, ⟨38, _⟩ => ⟨S4x4, .i32⟩
  | .hbm, ⟨39, _⟩ => ⟨S4x4, .i32⟩
  | .hbm, ⟨40, _⟩ => ⟨S_, .i32⟩
  | .hbm, ⟨41, _⟩ => ⟨S4x4, .i32⟩
  | .hbm, ⟨42, _⟩ => ⟨S4x4, .i32⟩
  | .hbm, ⟨43, _⟩ => ⟨S4x4, .i1⟩
  | .hbm, ⟨44, _⟩ => ⟨S4x4, .f32⟩
  | .hbm, ⟨45, _⟩ => ⟨S10000x4, .f32⟩
  | .hbm, ⟨46, _⟩ => ⟨S4x10000, .f32⟩
  | .hbm, ⟨47, _⟩ => ⟨S10000x10000, .f32⟩
  | .hbm, ⟨48, _⟩ => ⟨S10000x10000, .f32⟩
  | .hbm, ⟨49, _⟩ => ⟨S10000x10000, .f32⟩
  | .hbm, ⟨50, _⟩ => ⟨S_, .f32⟩
  | .hbm, ⟨51, _⟩ => ⟨S10000x10000, .f32⟩
  | .hbm, ⟨52, _⟩ => ⟨S10000x10000, .f32⟩
  | .hbm, ⟨53, _⟩ => ⟨S_, .f32⟩
  | .hbm, ⟨54, _⟩ => ⟨S10000x10000, .f32⟩
  | .hbm, ⟨55, _⟩ => ⟨S10000x10000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_cst : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_cst : Ref sig .tc := ⟨.hbm, 26, rfl⟩
abbrev main_call1_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst : Ref sig .tc := ⟨.hbm, 50, rfl⟩
abbrev main_v34 : Ref sig .tc := ⟨.hbm, 51, rfl⟩
abbrev main_v35 : Ref sig .tc := ⟨.hbm, 52, rfl⟩
abbrev main_cst_0 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  transposes_S10000x10000_S10000x10000_1_0 : S10000x10000.Transposes [1, 0] S10000x10000
  bcast_S_S10000x16 : S_.BroadcastsInDim S10000x16 (![] : Fin 0 → Fin S10000x16.rank)
  bcast_S_S4x4 : S_.BroadcastsInDim S4x4 (![] : Fin 0 → Fin S4x4.rank)
  transposes_S10000x4_S4x10000_1_0 : S10000x4.Transposes [1, 0] S4x10000
  bcast_S_S10000x10000 : S_.BroadcastsInDim S10000x10000 (![] : Fin 0 → Fin S10000x10000.rank)
  dot_S10000x10000_S10000x16_S10000x16_1_0_0_1_n_n_wf : DotDims.WF S10000x10000 S10000x16 S10000x16 [1] [0] [0] [1] [] []
  dot_S10000x16_S16x4_S10000x4_1_0_0_1_n_n_wf : DotDims.WF S10000x16 S16x4 S10000x4 [1] [0] [0] [1] [] []
  dot_S10000x10000_S10000x4_S10000x4_1_0_0_1_n_n_wf : DotDims.WF S10000x10000 S10000x4 S10000x4 [1] [0] [0] [1] [] []
  dot_S10000x4_S4x4_S10000x4_1_0_0_1_n_n_wf : DotDims.WF S10000x4 S4x4 S10000x4 [1] [0] [0] [1] [] []
  dot_S10000x4_S4x10000_S10000x10000_1_0_0_1_n_n_wf : DotDims.WF S10000x4 S4x10000 S10000x10000 [1] [0] [0] [1] [] []

variable [Facts₀]

def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x4_S10000x4_1_0_0_1_n_n : DotDims S10000x16 S16x4 S10000x4 where
  lhsContracting := [1]
  rhsContracting := [0]
  lhsNonContracting := [0]
  rhsNonContracting := [1]
  lhsBatch := []
  rhsBatch := []
  wf := dot_S10000x16_S16x4_S10000x4_1_0_0_1_n_n_wf
def dot_S10000x10000_S10000x4_S10000x4_1_0_0_1_n_n : DotDims S10000x10000 S10000x4 S10000x4 where
  lhsContracting := [1]
  rhsContracting := [0]
  lhsNonContracting := [0]
  rhsNonContracting := [1]
  lhsBatch := []
  rhsBatch := []
  wf := dot_S10000x10000_S10000x4_S10000x4_1_0_0_1_n_n_wf
def dot_S10000x4_S4x4_S10000x4_1_0_0_1_n_n : DotDims S10000x4 S4x4 S10000x4 where
  lhsContracting := [1]
  rhsContracting := [0]
  lhsNonContracting := [0]
  rhsNonContracting := [1]
  lhsBatch := []
  rhsBatch := []
  wf := dot_S10000x4_S4x4_S10000x4_1_0_0_1_n_n_wf
def dot_S10000x4_S4x10000_S10000x10000_1_0_0_1_n_n : DotDims S10000x4 S4x10000 S10000x10000 where
  lhsContracting := [1]
  rhsContracting := [0]
  lhsNonContracting := [0]
  rhsNonContracting := [1]
  lhsBatch := []
  rhsBatch := []
  wf := dot_S10000x4_S4x10000_S10000x10000_1_0_0_1_n_n_wf

class Facts : Prop extends Facts₀ where

variable [Facts]
-- ==== Proof.XwFrame0.lean ====
import proofs.«111736_g88691074663054_cont_9to1c4b_58_39_alg».proof.Proof.Gen.KernelIdeal.Launch
import proofs.«111736_g88691074663054_cont_9to1c4b_58_39_alg».proof.Proof.Gen.KernelIdeal.Skeleton
import proofs.«111736_g88691074663054_cont_9to1c4b_58_39_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: the parameter everything below is stated at
variable (V : (c : Dev nD) → (b : Ref sig .tc) → Buf (Elt F) ((c : Thread nD τ).loc b))

/-! # Region 0: one row band of the product `X · W`, stored as the pair `[hi | lo]`

The grid has 50 points; point `t` reads rows `200·t … 200·t + 199` of the left factor (window 0), the whole
right factor (window 1, brought in once, at the first point), and writes the band's 200 × 32 block of the
result (window 2) at every point. The body has one control case: it loads its three staging buffers whole,
computes one payload from the two inputs, and stores it whole. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds the band of point `t` at every point, for any proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right factor's staging buffer holds the whole factor at every point, fetched there (the first point) or not
    (its block index never moves afterwards). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S200x10000 := Rect.unit (s := S200x10000) ![0, 0] S200x10000.size inb_S200x10000_S200x10000_0_0
abbrev r0_1 : Rect S10000x16 := Rect.unit (s := S10000x16) ![0, 0] S10000x16.size inb_S10000x16_S10000x16_0_0
abbrev r0_2 : Rect S200x32 := Rect.unit (s := S200x32) ![0, 0] S200x32.size inb_S200x32_S200x32_0_0

/-! ## What the body leaves in the output window's buffer -/

/-- The result band's staging buffer after the body, from the two input blocks: its one store, of the payload. -/
def out0_2 (x0 : Vec F S200x10000 .f32) (x1 : Vec F S10000x16 .f32) : Vec F S200x32 .bf16 :=
  View.canon [⟨r0_2, k0_pay1 (View.ld x0 r0_0) (View.ld x1 r0_1)⟩]

/-- The one store is of the whole buffer, so it covers it. -/
theorem cover0_2 (p0 : Vec F S200x32 .bf16) (y : S200x32.Idx) :
    ∃ pc ∈ ([⟨r0_2, p0⟩] : List (View.Piece (Elt F) S200x32 .bf16)), y ∈ pc.1.set :=
  View.cover_of_tiled [⟨r0_2, p0⟩] S200x32.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg0 : Memref sig .tc .vmem S200x10000 .f32) (harg0 : arg0.IsWhole) (arg1 : Memref sig .tc .vmem S10000x16 .f32) (harg1 : arg1.IsWhole) (arg2 : Memref sig .tc .vmem S200x32 .bf16) (harg2 : arg2.IsWhole)
    (x0 : Vec F S200x10000 .f32) (x1 : Vec F S10000x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__xw_body i arg0 harg0 arg1 harg1 arg2 harg2) K := by
  simp only [cc0__xw_body_eq_skeleton]; unfold cc0__xw_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of region 0 on core `c`: the arrays as the region finds them (`V`); after the body at point `t`
    each input's buffer at its block and the output's at `out0_2` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering the region: the invariant at the first point is the scoped rest and the generator register. -/
theorem hin0 (c : Dev nD) : Pipeline.ΦA spec0 c ⊢ (dat0 V c).Φ 0 := .rfl
/-- Leaving it: the invariant after the last point is the same. -/
theorem hout0 (c : Dev nD) : (dat0 V c).Φ (Fin.last cfg0.N) ⊢ Pipeline.ΦA spec0 c := .rfl

end Cert.KernelIdeal.Hand
-- ==== Proof.XwFrame1.lean ====
import proofs.«111736_g88691074663054_cont_9to1c4b_58_39_alg».proof.Proof.Gen.KernelIdeal.Launch
import proofs.«111736_g88691074663054_cont_9to1c4b_58_39_alg».proof.Proof.Gen.KernelIdeal.Skeleton
import proofs.«111736_g88691074663054_cont_9to1c4b_58_39_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: the parameter everything below is stated at
variable (V : (c : Dev nD) → (b : Ref sig .tc) → Buf (Elt F) ((c : Thread nD τ).loc b))

/-! # Region 1: one row band of the product `X · W`, stored as the pair `[hi | lo]`

The grid has 50 points; point `t` reads rows `200·t … 200·t + 199` of the left factor (window 0), the whole
right factor (window 1, brought in once, at the first point), and writes the band's 200 × 32 block of the
result (window 2) at every point. The body has one control case: it loads its three staging buffers whole,
computes one payload from the two inputs, and stores it whole. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds the band of point `t` at every point, for any proof data whose array is
    `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right factor's staging buffer holds the whole factor at every point, fetched there (the first point) or not
    (its block index never moves afterwards). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S200x10000 := Rect.unit (s := S200x10000) ![0, 0] S200x10000.size inb_S200x10000_S200x10000_0_0
abbrev r1_1 : Rect S10000x16 := Rect.unit (s := S10000x16) ![0, 0] S10000x16.size inb_S10000x16_S10000x16_0_0
abbrev r1_2 : Rect S200x32 := Rect.unit (s := S200x32) ![0, 0] S200x32.size inb_S200x32_S200x32_0_0

/-! ## What the body leaves in the output window's buffer -/

/-- The result band's staging buffer after the body, from the two input blocks: its one store, of the payload. -/
def out1_2 (x0 : Vec F S200x10000 .f32) (x1 : Vec F S10000x16 .f32) : Vec F S200x32 .bf16 :=
  View.canon [⟨r1_2, k1_pay1 (View.ld x0 r1_0) (View.ld x1 r1_1)⟩]

/-- The one store is of the whole buffer, so it covers it. -/
theorem cover1_2 (p0 : Vec F S200x32 .bf16) (y : S200x32.Idx) :
    ∃ pc ∈ ([⟨r1_2, p0⟩] : List (View.Piece (Elt F) S200x32 .bf16)), y ∈ pc.1.set :=
  View.cover_of_tiled [⟨r1_2, p0⟩] S200x32.size (by rfl) y

/-! ## The body's triple -/

set_option maxHeartbeats 1000000 in
/-- The body on whole staging memrefs, the inputs' at contents `x0`, `x1` and the output's at anything, runs to the
    continuation holding the inputs' as they were and the output's at `out1_2 x0 x1`. -/
theorem sound_kernel1 (c : Dev nD) (E : Set ℕ) (i : grid1.Coords) (arg0 : Memref sig .tc .vmem S200x10000 .f32) (harg0 : arg0.IsWhole) (arg1 : Memref sig .tc .vmem S10000x16 .f32) (harg1 : arg1.IsWhole) (arg2 : Memref sig .tc .vmem S200x32 .bf16) (harg2 : arg2.IsWhole)
    (x0 : Vec F S200x10000 .f32) (x1 : Vec F S10000x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__xw_body i arg0 harg0 arg1 harg1 arg2 harg2) K := by
  simp only [cc1__xw_body_eq_skeleton]; unfold cc1__xw_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of region 1 on core `c`: the arrays as the region finds them (`V`); after the body at point `t`
    each input's buffer at its block and the output's at `out1_2` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- Entering the region: the invariant at the first point is the scoped rest and the generator register. -/
theorem hin1 (c : Dev nD) : Pipeline.ΦA spec1 c ⊢ (dat1 V c).Φ 0 := .rfl
/-- Leaving it: the invariant after the last point is the same. -/
theorem hout1 (c : Dev nD) : (dat1 V c).Φ (Fin.last cfg1.N) ⊢ Pipeline.ΦA spec1 c := .rfl

end Cert.KernelIdeal.Hand
-- ==== Proof.PropInRuns.lean ====
/-
  Region 2 (the propagation of the two feature products through the adjacency matrix): what the three control
  cases of its body share.

  The body runs on a grid of 50 row bands of the adjacency matrix.  At every band it stores the band's rows of
  the second result (window 4).  It accumulates the first result's transposed sum in a scratch buffer carried
  from band to band: the first band (case A) stores its own contribution, every later band (cases B and C) adds
  its contribution to what the scratch held, and the last band (case C) then reads the finished sum and stores
  the first result whole (window 3, idle before).
-/
import proofs.«111736_g88691074663054_cont_9to1c4b_58_39_alg».proof.Proof.Gen.KernelIdeal.Launch
import proofs.«111736_g88691074663054_cont_9to1c4b_58_39_alg».proof.Proof.Gen.KernelIdeal.Skeleton
import proofs.«111736_g88691074663054_cont_9to1c4b_58_39_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinate -/

/-- The first conditional: the band is the first one. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second conditional: the band is not the first one. -/
abbrev cond2_1 (i : grid2.Coords) : Prop := (Scalar.cmpi .ne (Scalar.extui (Scalar.cmpi .ne (BitVec.ofNat 32 (i 0).val) 0#32)) 0#32) = 1#1
theorem hcond2_1 : ∀ t : Fin cfg2.N, cond2_1 (grid2.coords t) ↔ t.val ≠ 0 :=
  (by decide +kernel : ∀ t : Fin grid2.N, cond2_1 (grid2.coords t) ↔ t.val ≠ 0)

/-- The third conditional: the band is the last one. -/
abbrev cond2_2 (i : grid2.Coords) : Prop := k2_cond3 i = 1#1
theorem hcond2_2 : ∀ t : Fin cfg2.N, cond2_2 (grid2.coords t) ↔ t.val = 49 :=
  (by decide +kernel : ∀ t : Fin grid2.N, cond2_2 (grid2.coords t) ↔ t.val = 49)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_4 : ∀ t : Fin cfg2.N, cfg2.idle 4 (grid2.coords t) = false := by decide +kernel
/-- Before the last band nothing is stored into window 3, -/
theorem idleAt2_3 : ∀ t : Fin cfg2.N, ¬cond2_2 (grid2.coords t) → cfg2.idle 3 (grid2.coords t) = true := by decide +kernel
/-- and its block is not written back there. -/
theorem noFlush2_3 : ∀ t : Fin cfg2.N, ¬cond2_2 (grid2.coords t) → (cfg2.win 3).flush t = false := by decide +kernel
/-- At the last band it is stored. -/
theorem liveAt2_3 : ∀ t : Fin cfg2.N, cond2_2 (grid2.coords t) → cfg2.idle 3 (grid2.coords t) = false := by decide +kernel

/-! ## The memrefs the body is called with -/

/-- One staging buffer of each output window, through which its contents are stated. -/
abbrev VO2_3 : View sig .tc .vmem S10000x32 .bf16 := (Memref.whole cc2_stg3_0 : Memref sig .tc .vmem S10000x32 .bf16).view
abbrev VO2_4 : View sig .tc .vmem S200x32 .bf16 := (Memref.whole cc2_stg4_0 : Memref sig .tc .vmem S200x32 .bf16).view
/-- Each window's current staging memref at point `t`, and its wholeness. -/
abbrev ms2_0 (t : Fin cfg2.N) : Memref sig .tc .vmem S200x10000 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S200x32 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x32 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x32 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S200x32 .bf16 := win2_4.stage (cfg2.slots t 4)
abbrev hs2_4 (t : Fin cfg2.N) : (ms2_4 t).IsWhole := hstage2_4 ((cfg2.slots t 4).cast nbuf2_4)
/-- The scratch operand: a whole scoped buffer of the kernel's own, carried between points. -/
abbrev scM2 : Memref sig .tc .vmem S32x10000 .f32 := Memref.whole cc2_scratch0
abbrev VS2 : View sig .tc .vmem S32x10000 .f32 := scM2.view

/-- The scoped buffers of the core that the region's body never names. -/
abbrev restBut2 (c : Dev nD) : sProp 𝕄 :=
  Pipeline.scopedRestBut (Ix := Unit) (Name := ℕ) (U := UR sig nD τ) (Lvl := ℕ) (Val := Elt F) spec2 c [cc2_scratch0]

/-- The region's entry invariant with the scratch operand as a memref owned at some contents. -/
theorem PhiA2_eq (c : Dev nD) :
    (Pipeline.ΦA spec2 c : sProp 𝕄)
      = iprop(iprop((∃ d, owns (c : Thread nD τ) scM2 fullShare d) ∗ restBut2 (F := F) c) ∗ (∃ r, prngReg c r)) := by
  unfold Pipeline.ΦA; rw [scopedRest2_split]; simp only [scM2, owns_whole]; try rfl

/-! ## The body's triple, case by case -/

set_option maxHeartbeats 1000000 in
/-- CASE A (the first band).  On whole staging memrefs — the inputs' at their contents, window 3's (idle) at
    contents handed back untouched, window 4's and the scratch at anything — the body runs to the continuation
    holding the inputs' as they were, window 4's buffer and the scratch with the pieces the body stored
    (the pieces are the witness the run finds). -/
noncomputable def kernelRun2_A (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) :
    Σ' (L3 : List (View.Piece (Elt F) S10000x32 .bf16)) (L4 : List (View.Piece (Elt F) S200x32 .bf16)), { LS : List (View.Piece (Elt F) S32x10000 .f32) //
      ∀ (xi3 : Vec F S10000x32 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc2__h_body i arg1 harg1 arg2 harg2 arg3 harg3 arg4 harg4 arg5 harg5 arg6 harg6) K } := by
  refine ⟨[], ?_, ?_, fun xi3 E K => ?run⟩
  case run =>
    simp only [cc2__h_body_eq_skeleton]; unfold cc2__h_body_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

set_option maxHeartbeats 1000000 in
/-- CASE B (a band that is neither the first nor the last).  As case A, but the scratch comes at the contents
    `xs` the band before left, and the body adds to them. -/
noncomputable def kernelRun2_B (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) :
    Σ' (L3 : List (View.Piece (Elt F) S10000x32 .bf16)) (L4 : List (View.Piece (Elt F) S200x32 .bf16)), { LS : List (View.Piece (Elt F) S32x10000 .f32) //
      ∀ (xi3 : Vec F S10000x32 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc2__h_body i arg1 harg1 arg2 harg2 arg3 harg3 arg4 harg4 arg5 harg5 arg6 harg6) K } := by
  refine ⟨[], ?_, ?_, fun xi3 E K => ?run⟩
  case run =>
    simp only [cc2__h_body_eq_skeleton]; unfold cc2__h_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

set_option maxHeartbeats 1000000 in
/-- CASE C (the last band).  The scratch comes at the contents `xs` the band before left; the body adds to
    them, reads the sum back and stores window 3, whose buffer comes at anything. -/
noncomputable def kernelRun2_C (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) :
    Σ' (L3 : List (View.Piece (Elt F) S10000x32 .bf16)) (L4 : List (View.Piece (Elt F) S200x32 .bf16)), { LS : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc2__h_body i arg1 harg1 arg2 harg2 arg3 harg3 arg4 harg4 arg5 harg5 arg6 harg6) K } := by
  refine ⟨?_, ?_, ?_, fun E K => ?run⟩
  case run =>
    simp only [cc2__h_body_eq_skeleton]; unfold cc2__h_body_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg1.eq_unread hf0; obtain rfl := harg2.eq_unread hf1; obtain rfl := harg3.eq_unread hf2; obtain rfl := harg6.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS

end Cert.KernelIdeal.Hand

end
-- ==== Proof.PropInFrame.lean ====
/-
  Region 2: the frame.  What the three control cases leave in window 3, window 4 and the carried scratch;
  those contents band by band (`outsAt2`); the proof data of the region at entry contents `V`; the body
  obligation; and the invariant's two ends.
-/
import proofs.«111736_g88691074663054_cont_9to1c4b_58_39_alg».proof.Proof.PropInRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in window 3, window 4 and the scratch -/

/-- At the first band nothing is stored into window 3 (idle there, not written back): a placeholder nothing consults. -/
def out2_A_3 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) : Vec F S10000x32 .bf16 :=
  VO2_3.read (Elt F) (VO2_3.writes (Elt F) VO2_3.junk (kernelRun2_A c i arg1 harg1 arg2 harg2 arg3 harg3 arg4 harg4 arg5 harg5 arg6 harg6 hc0 hc1 hc2 x0 x1 x2).1)

/-- At the first band the one store into window 4 covers its block. -/
theorem cover2_A_4 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) (y : S200x32.Idx) :
    ∃ pc ∈ (kernelRun2_A c i arg1 harg1 arg2 harg2 arg3 harg3 arg4 harg4 arg5 harg5 arg6 harg6 hc0 hc1 hc2 x0 x1 x2).2.1, y ∈ pc.1.set :=
  View.cover_of_tiledL (kernelRun2_A c i arg1 harg1 arg2 harg2 arg3 harg3 arg4 harg4 arg5 harg5 arg6 harg6 hc0 hc1 hc2 x0 x1 x2).2.1 S200x32.size (by sl_kernel_rfl) y

/-- What the first band leaves in window 4's staging buffer: its pieces read back. -/
def out2_A_4 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) : Vec F S200x32 .bf16 :=
  VO2_4.read (Elt F) (VO2_4.writes (Elt F) VO2_4.junk (kernelRun2_A c i arg1 harg1 arg2 harg2 arg3 harg3 arg4 harg4 arg5 harg5 arg6 harg6 hc0 hc1 hc2 x0 x1 x2).2.1)

/-- At the first band the stores into the scratch cover it. -/
theorem scover2_A (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) (y : S32x10000.Idx) :
    ∃ pc ∈ (kernelRun2_A c i arg1 harg1 arg2 harg2 arg3 harg3 arg4 harg4 arg5 harg5 arg6 harg6 hc0 hc1 hc2 x0 x1 x2).2.2.1, y ∈ pc.1.set :=
  View.cover_of_tiledL (kernelRun2_A c i arg1 harg1 arg2 harg2 arg3 harg3 arg4 harg4 arg5 harg5 arg6 harg6 hc0 hc1 hc2 x0 x1 x2).2.2.1 S32x10000.size (by sl_kernel_rfl) y

/-- What the first band leaves in the scratch: its pieces read back. -/
def sout2_A (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) : Vec F S32x10000 .f32 :=
  VS2.read (Elt F) (VS2.writes (Elt F) VS2.junk (kernelRun2_A c i arg1 harg1 arg2 harg2 arg3 harg3 arg4 harg4 arg5 harg5 arg6 harg6 hc0 hc1 hc2 x0 x1 x2).2.2.1)

/-- At a middle band nothing is stored into window 3 (idle there, not written back): a placeholder nothing consults. -/
def out2_B_3 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) : Vec F S10000x32 .bf16 :=
  VO2_3.read (Elt F) (VO2_3.writes (Elt F) VO2_3.junk (kernelRun2_B c i arg1 harg1 arg2 harg2 arg3 harg3 arg4 harg4 arg5 harg5 arg6 harg6 hc0 hc1 hc2 x0 x1 x2 xs).1)

/-- At a middle band the one store into window 4 covers its block. -/
theorem cover2_B_4 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) (y : S200x32.Idx) :
    ∃ pc ∈ (kernelRun2_B c i arg1 harg1 arg2 harg2 arg3 harg3 arg4 harg4 arg5 harg5 arg6 harg6 hc0 hc1 hc2 x0 x1 x2 xs).2.1, y ∈ pc.1.set :=
  View.cover_of_tiledL (kernelRun2_B c i arg1 harg1 arg2 harg2 arg3 harg3 arg4 harg4 arg5 harg5 arg6 harg6 hc0 hc1 hc2 x0 x1 x2 xs).2.1 S200x32.size (by sl_kernel_rfl) y

/-- What a middle band leaves in window 4's staging buffer: its pieces read back. -/
def out2_B_4 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) : Vec F S200x32 .bf16 :=
  VO2_4.read (Elt F) (VO2_4.writes (Elt F) VO2_4.junk (kernelRun2_B c i arg1 harg1 arg2 harg2 arg3 harg3 arg4 harg4 arg5 harg5 arg6 harg6 hc0 hc1 hc2 x0 x1 x2 xs).2.1)

/-- At a middle band the stores into the scratch cover it. -/
theorem scover2_B (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) (y : S32x10000.Idx) :
    ∃ pc ∈ (kernelRun2_B c i arg1 harg1 arg2 harg2 arg3 harg3 arg4 harg4 arg5 harg5 arg6 harg6 hc0 hc1 hc2 x0 x1 x2 xs).2.2.1, y ∈ pc.1.set :=
  View.cover_of_tiledL (kernelRun2_B c i arg1 harg1 arg2 harg2 arg3 harg3 arg4 harg4 arg5 harg5 arg6 harg6 hc0 hc1 hc2 x0 x1 x2 xs).2.2.1 S32x10000.size (by sl_kernel_rfl) y

/-- What a middle band leaves in the scratch: its pieces read back. -/
def sout2_B (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) : Vec F S32x10000 .f32 :=
  VS2.read (Elt F) (VS2.writes (Elt F) VS2.junk (kernelRun2_B c i arg1 harg1 arg2 harg2 arg3 harg3 arg4 harg4 arg5 harg5 arg6 harg6 hc0 hc1 hc2 x0 x1 x2 xs).2.2.1)

/-- At the last band the one store into window 3 covers its block. -/
theorem cover2_C_3 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) (y : S10000x32.Idx) :
    ∃ pc ∈ (kernelRun2_C c i arg1 harg1 arg2 harg2 arg3 harg3 arg4 harg4 arg5 harg5 arg6 harg6 hc0 hc1 hc2 x0 x1 x2 xs).1, y ∈ pc.1.set :=
  View.cover_of_tiledL (kernelRun2_C c i arg1 harg1 arg2 harg2 arg3 harg3 arg4 harg4 arg5 harg5 arg6 harg6 hc0 hc1 hc2 x0 x1 x2 xs).1 S10000x32.size (by sl_kernel_rfl) y

/-- What the last band leaves in window 3's staging buffer: its pieces read back. -/
def out2_C_3 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) : Vec F S10000x32 .bf16 :=
  VO2_3.read (Elt F) (VO2_3.writes (Elt F) VO2_3.junk (kernelRun2_C c i arg1 harg1 arg2 harg2 arg3 harg3 arg4 harg4 arg5 harg5 arg6 harg6 hc0 hc1 hc2 x0 x1 x2 xs).1)

/-- At the last band the one store into window 4 covers its block. -/
theorem cover2_C_4 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) (y : S200x32.Idx) :
    ∃ pc ∈ (kernelRun2_C c i arg1 harg1 arg2 harg2 arg3 harg3 arg4 harg4 arg5 harg5 arg6 harg6 hc0 hc1 hc2 x0 x1 x2 xs).2.1, y ∈ pc.1.set :=
  View.cover_of_tiledL (kernelRun2_C c i arg1 harg1 arg2 harg2 arg3 harg3 arg4 harg4 arg5 harg5 arg6 harg6 hc0 hc1 hc2 x0 x1 x2 xs).2.1 S200x32.size (by sl_kernel_rfl) y

/-- What the last band leaves in window 4's staging buffer: its pieces read back. -/
def out2_C_4 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) : Vec F S200x32 .bf16 :=
  VO2_4.read (Elt F) (VO2_4.writes (Elt F) VO2_4.junk (kernelRun2_C c i arg1 harg1 arg2 harg2 arg3 harg3 arg4 harg4 arg5 harg5 arg6 harg6 hc0 hc1 hc2 x0 x1 x2 xs).2.1)

/-- At the last band the stores into the scratch cover it. -/
theorem scover2_C (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) (y : S32x10000.Idx) :
    ∃ pc ∈ (kernelRun2_C c i arg1 harg1 arg2 harg2 arg3 harg3 arg4 harg4 arg5 harg5 arg6 harg6 hc0 hc1 hc2 x0 x1 x2 xs).2.2.1, y ∈ pc.1.set :=
  View.cover_of_tiledL (kernelRun2_C c i arg1 harg1 arg2 harg2 arg3 harg3 arg4 harg4 arg5 harg5 arg6 harg6 hc0 hc1 hc2 x0 x1 x2 xs).2.2.1 S32x10000.size (by sl_kernel_rfl) y

/-- What the last band leaves in the scratch: its pieces read back. -/
def sout2_C (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) : Vec F S32x10000 .f32 :=
  VS2.read (Elt F) (VS2.writes (Elt F) VS2.junk (kernelRun2_C c i arg1 harg1 arg2 harg2 arg3 harg3 arg4 harg4 arg5 harg5 arg6 harg6 hc0 hc1 hc2 x0 x1 x2 xs).2.2.1)

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the outputs and the scratch hold after each band -/

/-- THE ACCUMULATION.  What window 3's buffer, window 4's buffer and the scratch hold after the body at band `n`:
    the first band by case A; a later band by case B, or C at the last, over the scratch the band before left. -/
def outsAt2 (c : Dev nD) : (n : ℕ) → n < cfg2.N → Vec F S10000x32 .bf16 × Vec F S200x32 .bf16 × Vec F S32x10000 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr rfl) (fun h => (hcond2_1 ⟨0, hn⟩).mp h rfl) (fun h => (fun h => by (try dsimp only at h); omega) ((hcond2_2 ⟨0, hn⟩).mp h)) (iblk2 V c 0 ⟨0, hn⟩) (iblk2 V c 1 ⟨0, hn⟩) (iblk2 V c 2 ⟨0, hn⟩), out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr rfl) (fun h => (hcond2_1 ⟨0, hn⟩).mp h rfl) (fun h => (fun h => by (try dsimp only at h); omega) ((hcond2_2 ⟨0, hn⟩).mp h)) (iblk2 V c 0 ⟨0, hn⟩) (iblk2 V c 1 ⟨0, hn⟩) (iblk2 V c 2 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr rfl) (fun h => (hcond2_1 ⟨0, hn⟩).mp h rfl) (fun h => (fun h => by (try dsimp only at h); omega) ((hcond2_2 ⟨0, hn⟩).mp h)) (iblk2 V c 0 ⟨0, hn⟩) (iblk2 V c 1 ⟨0, hn⟩) (iblk2 V c 2 ⟨0, hn⟩))
  | n + 1, hn =>
    if h2 : n + 1 = 49 then
      (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2_0 ⟨n + 1, hn⟩).mp h)) ((hcond2_1 ⟨n + 1, hn⟩).mpr (Nat.succ_ne_zero n)) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2_0 ⟨n + 1, hn⟩).mp h)) ((hcond2_1 ⟨n + 1, hn⟩).mpr (Nat.succ_ne_zero n)) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2.2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2_0 ⟨n + 1, hn⟩).mp h)) ((hcond2_1 ⟨n + 1, hn⟩).mpr (Nat.succ_ne_zero n)) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2.2)
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2_0 ⟨n + 1, hn⟩).mp h)) ((hcond2_1 ⟨n + 1, hn⟩).mpr (Nat.succ_ne_zero n)) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2, out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2_0 ⟨n + 1, hn⟩).mp h)) ((hcond2_1 ⟨n + 1, hn⟩).mpr (Nat.succ_ne_zero n)) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2_0 ⟨n + 1, hn⟩).mp h)) ((hcond2_1 ⟨n + 1, hn⟩).mpr (Nat.succ_ne_zero n)) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2)

/-- `outsAt2` at the first band. -/
theorem outsAt2_A (c : Dev nD) (t : Fin cfg2.N) (h0 : t.val = 0) (h2 : ¬t.val = 49) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => (hcond2_1 t).mp h h0) (fun h => h2 ((hcond2_2 t).mp h)) (iblk2 V c 0 t) (iblk2 V c 1 t) (iblk2 V c 2 t), out2_A_4 c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => (hcond2_1 t).mp h h0) (fun h => h2 ((hcond2_2 t).mp h)) (iblk2 V c 0 t) (iblk2 V c 1 t) (iblk2 V c 2 t), sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => (hcond2_1 t).mp h h0) (fun h => h2 ((hcond2_2 t).mp h)) (iblk2 V c 0 t) (iblk2 V c 1 t) (iblk2 V c 2 t)) := by
  obtain ⟨n, hn⟩ := t
  cases n with
  | zero => exact rfl
  | succ n => exact absurd h0 (Nat.succ_ne_zero n)

/-- `outsAt2` at a middle band: over what the band before left. -/
theorem outsAt2_B (c : Dev nD) (t : Fin cfg2.N) (h0 : ¬t.val = 0) (h2 : ¬t.val = 49) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) (fun h => h2 ((hcond2_2 t).mp h)) (iblk2 V c 0 t) (iblk2 V c 1 t) (iblk2 V c 2 t) (outsAt2 V c (t.val - 1) (Nat.lt_of_le_of_lt (Nat.sub_le _ _) t.isLt)).2.2, out2_B_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) (fun h => h2 ((hcond2_2 t).mp h)) (iblk2 V c 0 t) (iblk2 V c 1 t) (iblk2 V c 2 t) (outsAt2 V c (t.val - 1) (Nat.lt_of_le_of_lt (Nat.sub_le _ _) t.isLt)).2.2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) (fun h => h2 ((hcond2_2 t).mp h)) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact absurd rfl h0
  | succ n => exact (dif_neg h2).trans rfl

/-- `outsAt2` at the last band: over what the band before left. -/
theorem outsAt2_C (c : Dev nD) (t : Fin cfg2.N) (h0 : ¬t.val = 0) (h2 : t.val = 49) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) ((hcond2_2 t).mpr h2) (iblk2 V c 0 t) (iblk2 V c 1 t) (iblk2 V c 2 t) (outsAt2 V c (t.val - 1) (Nat.lt_of_le_of_lt (Nat.sub_le _ _) t.isLt)).2.2, out2_C_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) ((hcond2_2 t).mpr h2) (iblk2 V c 0 t) (iblk2 V c 1 t) (iblk2 V c 2 t) (outsAt2 V c (t.val - 1) (Nat.lt_of_le_of_lt (Nat.sub_le _ _) t.isLt)).2.2, sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) ((hcond2_2 t).mpr h2) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact absurd rfl h0
  | succ n => exact (dif_pos h2).trans rfl

/-! ## The region's invariant -/

/-- Before band `n`: before the first band what the launch hands the region; afterwards the scratch at what the band
    before left in it, the core's other scoped buffers unopened, and the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2.2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2.2) ∗ restBut2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2.2) ∗ restBut2 (F := F) c) ∗ (∃ r, prngReg c r)) := by
  cases n with
  | zero => exact absurd rfl hz
  | succ n => rfl

/-! ## The region's proof data -/

/-- The proof data of region 2 on core `c`: the arrays as the region finds them (`V`); after the body at band `t`
    each input's buffer at its block, the outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic band -/

/-- What the body is called with at band `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any band: the inputs' memrefs hold their blocks; the band's position says which case it is in; the
    invariant hands the body the scratch at what the band before left (at anything at the first band) and takes it
    back at this band's contents; window 3's buffer is handed back untouched before the last band. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  by_cases h0 : t.val = 0
  · have h2 : ¬t.val = 49 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 4 t = owns (c : Thread nD τ) (ms2_4 t) fullShare ((dat2 V c).after 4 t) from by
      unfold Dat.leavesExact; rw [liveAt2_4 t], after2_4]
    rw [Dat.leavesExact_idle (dat2 V c) 3 t (idleAt2_3 t (fun h => h2 ((hcond2_2 t).mp h))) (noFlush2_3 t (fun h => h2 ((hcond2_2 t).mp h)))]
    rw [outsAt2_A V c t h0 h2]
    unfold out2_A_4 sout2_A; (try dsimp only)
    rw [PhiS2_castSucc V c t, PhiS2_zero V c _ _ h0, PhiA2_eq]
    iintro ⟨⟨⟨HS, HR⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ ((hcond2_0 t).mpr h0) (fun h => (hcond2_1 t).mp h h0) (fun h => h2 ((hcond2_2 t).mp h)) (iblk2 V c 0 t) (iblk2 V c 1 t) (iblk2 V c 2 t)).2.2.2 _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HR Hg]
    · isplitl [HS HR]
      · isplitl [HS]
        · unfold owns; iexists _; isplitr
          swap; · iexact HS
          ipureintro; exact View.read_writes_of_cover _ _ _ _ _ (scover2_A c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexists _; iexact H3
    unfold owns; iexists _; isplitr
    swap; · iexact H4
    ipureintro; exact View.read_writes_of_cover _ _ _ _ _ (cover2_A_4 c _ _ _ _ _ _ _ _ _ _ _ _ _ _ _ _ _ _ _)
  · by_cases h2 : t.val = 49
    · have hz : t.val ≠ 0 := h0
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 4 t = owns (c : Thread nD τ) (ms2_4 t) fullShare ((dat2 V c).after 4 t) from by
        unfold Dat.leavesExact; rw [liveAt2_4 t], after2_4]
      rw [show (dat2 V c).leavesExact 3 t = owns (c : Thread nD τ) (ms2_3 t) fullShare ((dat2 V c).after 3 t) from by
        unfold Dat.leavesExact; rw [liveAt2_3 t ((hcond2_2 t).mpr h2)], after2_3]
      rw [outsAt2_C V c t h0 h2]
      unfold out2_C_3 out2_C_4 sout2_C; (try dsimp only)
      rw [PhiS2_castSucc V c t, PhiS2_pos V c _ _ h0]
      iintro ⟨⟨⟨HS, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h0) ((hcond2_2 t).mpr h2) (iblk2 V c 0 t) (iblk2 V c 1 t) (iblk2 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _ _)
    · have hz : t.val ≠ 0 := h0
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 3 t (idleAt2_3 t (fun h => h2 ((hcond2_2 t).mp h))) (noFlush2_3 t (fun h => h2 ((hcond2_2 t).mp h)))]
      rw [outsAt2_B V c t h0 h2]
      unfold out2_B_4 sout2_B; (try dsimp only)
      rw [PhiS2_castSucc V c t, PhiS2_pos V c _ _ h0]
      iintro ⟨⟨⟨HS, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) ((hcond2_1 t).mpr h0) (fun h => h2 ((hcond2_2 t).mp h)) (iblk2 V c 0 t) (iblk2 V c 1 t) (iblk2 V c 2 t) _).2.2.2 _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (cover2_B_4 c _ _ _ _ _ _ _ _ _ _ _ _ _ _ _ _ _ _ _ _)

/-- The library's body obligation, at every band. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first band. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any band the invariant gives the entry invariant back: the scratch's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

/-- The same after the last band. -/
theorem hout2 (c : Dev nD) : (dat2 V c).Φ (Fin.last cfg2.N) ⊢ Pipeline.ΦA spec2 c :=
  Phi_out2 V c _ (by rw [Fin.val_last]; have : cfg2.N = 50 := N_2; omega)

end Cert.KernelIdeal.Hand

end
-- ==== Proof.PropOutRuns.lean ====
/- The fourth tiled stage: the blocks of its windows, its three control cases in closed form, the buffers its body is
   called with, and the body's run at the first band. -/
import proofs.«111736_g88691074663054_cont_9to1c4b_58_39_alg».proof.Proof.Gen.KernelIdeal.Launch
import proofs.«111736_g88691074663054_cont_9to1c4b_58_39_alg».proof.Proof.Gen.KernelIdeal.Skeleton
import proofs.«111736_g88691074663054_cont_9to1c4b_58_39_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # The fourth tiled stage (the second propagation): what the case runs share

The stage walks the fifty row bands of the adjacency matrix. At each band it writes the band's rows of the first
result, and adds the band's contribution to an accumulator it keeps between bands; at the last band it turns the
accumulator into the second result. Three control cases: the first band (the accumulator is set), a middle band
(it is added to), the last band (it is added to, then read). -/

section Region3
variable (V : (c : Dev nD) → (b : Ref sig .tc) → Buf (Elt F) ((c : Thread nD τ).loc b))

/-- Window `w`'s block at point `t`, read off its array as the stage finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input's current buffer holds its block at every point, fetched there or not: where it is not fetched its
    block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The three conditions, in closed form over the fifty points -/

/-- "this is the first band". -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
/-- "this is not the first band". -/
abbrev cond3_1 (i : grid3.Coords) : Prop := (Scalar.cmpi .ne (Scalar.extui (Scalar.cmpi .ne (BitVec.ofNat 32 (i 0).val) 0#32)) 0#32) = 1#1
theorem hcond3_1 : ∀ t : Fin cfg3.N, cond3_1 (grid3.coords t) ↔ ¬t.val = 0 :=
  (by decide +kernel : ∀ t : Fin grid3.N, cond3_1 (grid3.coords t) ↔ ¬t.val = 0)
/-- "this is the last band". -/
abbrev cond3_2 (i : grid3.Coords) : Prop := k3_cond3 i = 1#1
theorem hcond3_2 : ∀ t : Fin cfg3.N, cond3_2 (grid3.coords t) ↔ t.val = 49 :=
  (by decide +kernel : ∀ t : Fin grid3.N, cond3_2 (grid3.coords t) ↔ t.val = 49)

/-! ## Where the windows are idle: only the second result's, away from the last band -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
theorem liveAt3_8 : ∀ t : Fin cfg3.N, cfg3.idle 8 (grid3.coords t) = false := by decide +kernel
theorem liveAt3_9 : ∀ t : Fin cfg3.N, cfg3.idle 9 (grid3.coords t) = false := by decide +kernel
theorem idleAt3_10 : ∀ t : Fin cfg3.N, ¬cond3_2 (grid3.coords t) → cfg3.idle 10 (grid3.coords t) = true := by decide +kernel
theorem noFlush3_10 : ∀ t : Fin cfg3.N, ¬cond3_2 (grid3.coords t) → (cfg3.win 10).flush t = false := by decide +kernel
theorem liveAt3_10 : ∀ t : Fin cfg3.N, cond3_2 (grid3.coords t) → cfg3.idle 10 (grid3.coords t) = false := by decide +kernel

/-! ## The buffers the body is called with -/

abbrev ms3_0 (t : Fin cfg3.N) : Memref sig .tc .vmem S200x10000 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x32 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S200x32 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S16x4 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S16x4 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S16x4 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S16x4 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S200x4 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S10000x4 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S200x4 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S10000x4 .f32 := win3_10.stage (cfg3.slots t 10)
abbrev hs3_10 (t : Fin cfg3.N) : (ms3_10 t).IsWhole := hstage3_10 ((cfg3.slots t 10).cast nbuf3_10)
/-- The accumulator: a whole buffer of the stage's own, passed beside the windows. -/
abbrev scM3_0 : Memref sig .tc .vmem S32x10000 .f32 := Memref.whole cc3_scratch0
abbrev VS3_0 : View sig .tc .vmem S32x10000 .f32 := scM3_0.view
/-- One buffer of each result window, through which its contents are stated. -/
abbrev VO3_9 : View sig .tc .vmem S200x4 .f32 := (Memref.whole cc3_stg9_0 : Memref sig .tc .vmem S200x4 .f32).view
abbrev VO3_10 : View sig .tc .vmem S10000x4 .f32 := (Memref.whole cc3_stg10_0 : Memref sig .tc .vmem S10000x4 .f32).view

/-- What the launch hands the stage, with the accumulator split off as a whole buffer at some contents; the other
    scoped buffers stay unopened. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

set_option maxHeartbeats 4000000 in
/-- The body at the first point (the first conditional taken, the other two not): the pieces its stores leave in the block of the first result and in
    the accumulator, with the proof that on whole buffers — the nine inputs at their contents, the first result's at anything,
    the second result's handed back as found, the accumulator at anything — the body runs to the continuation holding
    the inputs as they were and each stored buffer with its pieces written. -/
noncomputable def kernelRun3_A (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) :
    Σ' (L9 : List (View.Piece (Elt F) S200x4 .f32)), { LS0 : List (View.Piece (Elt F) S32x10000 .f32) //
      ∀ (xi10 : Vec F S10000x4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc3__z_body i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc3__z_body_eq_skeleton]; unfold cc3__z_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.KernelIdeal.Hand

end
-- ==== Proof.PropOutRunB.lean ====
/- The fourth tiled stage: the body's run at a middle band. -/
import proofs.«111736_g88691074663054_cont_9to1c4b_58_39_alg».proof.Proof.PropOutRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (the second conditional taken, the other two not): the pieces its stores leave in the block of the first result and in
    the accumulator, with the proof that on whole buffers — the nine inputs at their contents, the first result's at anything,
    the second result's handed back as found, the accumulator at what the point before left — the body runs to the continuation holding
    the inputs as they were and each stored buffer with its pieces written. -/
noncomputable def kernelRun3_B (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) :
    Σ' (L9 : List (View.Piece (Elt F) S200x4 .f32)), { LS0 : List (View.Piece (Elt F) S32x10000 .f32) //
      ∀ (xi10 : Vec F S10000x4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc3__z_body i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc3__z_body_eq_skeleton]; unfold cc3__z_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.KernelIdeal.Hand

end
-- ==== Proof.PropOutRunC.lean ====
/- The fourth tiled stage: the body's run at the last band. -/
import proofs.«111736_g88691074663054_cont_9to1c4b_58_39_alg».proof.Proof.PropOutRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (the second and third conditionals taken, the first not): the pieces its stores leave in the block of the first result, in the second result's buffer and in
    the accumulator, with the proof that on whole buffers — the nine inputs at their contents, the first result's at anything,
    the second result's at anything, the accumulator at what the point before left — the body runs to the continuation holding
    the inputs as they were and each stored buffer with its pieces written. -/
noncomputable def kernelRun3_C (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) :
    Σ' (L9 : List (View.Piece (Elt F) S200x4 .f32)) (L10 : List (View.Piece (Elt F) S10000x4 .f32)), { LS0 : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc3__z_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc3__z_body_eq_skeleton]; unfold cc3__z_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.KernelIdeal.Hand

end
-- ==== Proof.PropOutFrame.lean ====
/- The fourth tiled stage: what each control case leaves in the two results' buffers and in the accumulator, band by
   band; the proof data; the body obligation; the invariant at the stage's two ends. -/
import proofs.«111736_g88691074663054_cont_9to1c4b_58_39_alg».proof.Proof.PropOutRunB
import proofs.«111736_g88691074663054_cont_9to1c4b_58_39_alg».proof.Proof.PropOutRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first band the pieces stored into the first result's block tile it. -/
theorem cover3_A_9 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (y : S200x4.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).1 S200x4.size (by sl_kernel_rfl) y

/-- What the first band leaves in the first result's block: its pieces read back. -/
def out3_A_9 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) : Vec F S200x4 .f32 :=
  VO3_9.read (Elt F) (VO3_9.writes (Elt F) VO3_9.junk (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).1)

/-- At the first band the pieces stored into the accumulator tile it. -/
theorem scover3_A_0 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (y : S32x10000.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.1 S32x10000.size (by sl_kernel_rfl) y

/-- What the first band leaves in the accumulator: its pieces read back. -/
def sout3_A_0 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) : Vec F S32x10000 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.1)

/-- At a middle band the pieces stored into the first result's block tile it. -/
theorem cover3_B_9 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) (y : S200x4.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1 S200x4.size (by sl_kernel_rfl) y

/-- What a middle band leaves in the first result's block: its pieces read back. -/
def out3_B_9 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) : Vec F S200x4 .f32 :=
  VO3_9.read (Elt F) (VO3_9.writes (Elt F) VO3_9.junk (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1)

/-- At a middle band the pieces stored into the accumulator tile it. -/
theorem scover3_B_0 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) (y : S32x10000.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1 S32x10000.size (by sl_kernel_rfl) y

/-- What a middle band leaves in the accumulator: its pieces read back. -/
def sout3_B_0 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) : Vec F S32x10000 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1)

/-- At the last band the pieces stored into the first result's block tile it. -/
theorem cover3_C_9 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) (y : S200x4.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1 S200x4.size (by sl_kernel_rfl) y

/-- What the last band leaves in the first result's block: its pieces read back. -/
def out3_C_9 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) : Vec F S200x4 .f32 :=
  VO3_9.read (Elt F) (VO3_9.writes (Elt F) VO3_9.junk (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1)

/-- At the last band the pieces stored into the accumulator tile it. -/
theorem scover3_C_0 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) (y : S32x10000.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1 S32x10000.size (by sl_kernel_rfl) y

/-- What the last band leaves in the accumulator: its pieces read back. -/
def sout3_C_0 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) : Vec F S32x10000 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1)

/-- At the last band the pieces stored into the second result's buffer tile it. -/
theorem cover3_C_10 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) (y : S10000x4.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1 S10000x4.size (by sl_kernel_rfl) y

/-- What the last band leaves in the second result's buffer: its pieces read back. -/
def out3_C_10 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) : Vec F S10000x4 .f32 :=
  VO3_10.read (Elt F) (VO3_10.writes (Elt F) VO3_10.junk (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1)

/-- Away from the last band nothing is stored into the second result's buffer: a placeholder nothing consults
    (the buffer is handed back as found, and is not written back there). -/
def idle3_10 : Vec F S10000x4 .f32 := VO3_10.read (Elt F) (VO3_10.writes (Elt F) VO3_10.junk [])

section Region3
variable (V : (c : Dev nD) → (b : Ref sig .tc) → Buf (Elt F) ((c : Thread nD τ).loc b))

/-! ## What the result buffers and the accumulator hold after each band -/

/-- After the body at band `n`: the first result's block, the second result's buffer, the accumulator — the case the
    band is in, run on the band's blocks, the accumulator taken from the band before. -/
def outsAt3 (c : Dev nD) : (n : ℕ) → n < cfg3.N → Vec F S200x4 .f32 × Vec F S10000x4 .f32 × Vec F S32x10000 .f32
  | 0, hn => (out3_A_9 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) scM3_0 (Memref.isWhole_whole _) ((hcond3_0 ⟨0, hn⟩).mpr (rfl : (0 : ℕ) = 0)) (fun h => (hcond3_1 ⟨0, hn⟩).mp h (rfl : (0 : ℕ) = 0)) (fun h => absurd (((hcond3_2 ⟨0, hn⟩).mp h).symm.trans (rfl : (0 : ℕ) = 0)) (by decide)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩), idle3_10, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) scM3_0 (Memref.isWhole_whole _) ((hcond3_0 ⟨0, hn⟩).mpr (rfl : (0 : ℕ) = 0)) (fun h => (hcond3_1 ⟨0, hn⟩).mp h (rfl : (0 : ℕ) = 0)) (fun h => absurd (((hcond3_2 ⟨0, hn⟩).mp h).symm.trans (rfl : (0 : ℕ) = 0)) (by decide)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩))
  | n + 1, hn =>
    if h2 : n + 1 = 49 then
      (out3_C_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => (Nat.succ_ne_zero n) ((hcond3_0 ⟨n + 1, hn⟩).mp h)) ((hcond3_1 ⟨n + 1, hn⟩).mpr (Nat.succ_ne_zero n)) ((hcond3_2 ⟨n + 1, hn⟩).mpr h2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2, out3_C_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => (Nat.succ_ne_zero n) ((hcond3_0 ⟨n + 1, hn⟩).mp h)) ((hcond3_1 ⟨n + 1, hn⟩).mpr (Nat.succ_ne_zero n)) ((hcond3_2 ⟨n + 1, hn⟩).mpr h2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => (Nat.succ_ne_zero n) ((hcond3_0 ⟨n + 1, hn⟩).mp h)) ((hcond3_1 ⟨n + 1, hn⟩).mpr (Nat.succ_ne_zero n)) ((hcond3_2 ⟨n + 1, hn⟩).mpr h2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2)
    else
      (out3_B_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => (Nat.succ_ne_zero n) ((hcond3_0 ⟨n + 1, hn⟩).mp h)) ((hcond3_1 ⟨n + 1, hn⟩).mpr (Nat.succ_ne_zero n)) (fun h => h2 ((hcond3_2 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2, idle3_10, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => (Nat.succ_ne_zero n) ((hcond3_0 ⟨n + 1, hn⟩).mp h)) ((hcond3_1 ⟨n + 1, hn⟩).mpr (Nat.succ_ne_zero n)) (fun h => h2 ((hcond3_2 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2)

theorem outsAt3_A (c : Dev nD) (t : Fin cfg3.N) (h0 : t.val = 0) :
    outsAt3 V c t.val t.isLt = (out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) ((hcond3_0 t).mpr h0) (fun h => (hcond3_1 t).mp h h0) (fun h => absurd (((hcond3_2 t).mp h).symm.trans h0) (by decide)) (iblk3 V c 0 t) (iblk3 V c 1 t) (iblk3 V c 2 t) (iblk3 V c 3 t) (iblk3 V c 4 t) (iblk3 V c 5 t) (iblk3 V c 6 t) (iblk3 V c 7 t) (iblk3 V c 8 t), idle3_10, sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) ((hcond3_0 t).mpr h0) (fun h => (hcond3_1 t).mp h h0) (fun h => absurd (((hcond3_2 t).mp h).symm.trans h0) (by decide)) (iblk3 V c 0 t) (iblk3 V c 1 t) (iblk3 V c 2 t) (iblk3 V c 3 t) (iblk3 V c 4 t) (iblk3 V c 5 t) (iblk3 V c 6 t) (iblk3 V c 7 t) (iblk3 V c 8 t)) := by
  obtain ⟨n, hn⟩ := t
  cases n with
  | zero => exact rfl
  | succ n => exact absurd h0 (Nat.succ_ne_zero n)

theorem outsAt3_B (c : Dev nD) (t : Fin cfg3.N) (h0 : ¬t.val = 0) (h2 : ¬t.val = 49) :
    outsAt3 V c t.val t.isLt = (out3_B_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, idle3_10, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2) := by
  obtain ⟨n, hn⟩ := t
  cases n with
  | zero => exact absurd rfl h0
  | succ n => exact (dif_neg h2).trans rfl

theorem outsAt3_C (c : Dev nD) (t : Fin cfg3.N) (h0 : ¬t.val = 0) (h2 : t.val = 49) :
    outsAt3 V c t.val t.isLt = (out3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, out3_C_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2) := by
  obtain ⟨n, hn⟩ := t
  cases n with
  | zero => exact absurd rfl h0
  | succ n => exact (dif_pos h2).trans rfl

/-- The stage's invariant before band `n`: before the first band what the launch hands over (the accumulator at
    anything); afterwards the accumulator at what the band before left, the other scoped buffers unopened, the generator
    register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the stage finds them; after the body at band `t` each input's buffer at its block, the results'
    buffers at `outsAt3`'s components; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => (outsAt3 V c t.val t.isLt).1
    | ⟨10, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = (outsAt3 V c t.val t.isLt).1 := by dsimp only [dat3]
theorem after3_10 (c : Dev nD) (t : Fin cfg3.N) : (dat3 V c).after 10 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! What the body must leave in each window's buffer, window by window. -/
theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (ms3_3 t) fullShare (iblk3 V c 3 t) := by
  unfold Dat.leavesExact; rw [liveAt3_3 t, after3_3]
theorem leaves3_4 (c : Dev nD) (t : Fin cfg3.N) :
    (dat3 V c).leavesExact 4 t = owns (c : Thread nD τ) (ms3_4 t) fullShare (iblk3 V c 4 t) := by
  unfold Dat.leavesExact; rw [liveAt3_4 t, after3_4]
theorem leaves3_5 (c : Dev nD) (t : Fin cfg3.N) :
    (dat3 V c).leavesExact 5 t = owns (c : Thread nD τ) (ms3_5 t) fullShare (iblk3 V c 5 t) := by
  unfold Dat.leavesExact; rw [liveAt3_5 t, after3_5]
theorem leaves3_6 (c : Dev nD) (t : Fin cfg3.N) :
    (dat3 V c).leavesExact 6 t = owns (c : Thread nD τ) (ms3_6 t) fullShare (iblk3 V c 6 t) := by
  unfold Dat.leavesExact; rw [liveAt3_6 t, after3_6]
theorem leaves3_7 (c : Dev nD) (t : Fin cfg3.N) :
    (dat3 V c).leavesExact 7 t = owns (c : Thread nD τ) (ms3_7 t) fullShare (iblk3 V c 7 t) := by
  unfold Dat.leavesExact; rw [liveAt3_7 t, after3_7]
theorem leaves3_8 (c : Dev nD) (t : Fin cfg3.N) :
    (dat3 V c).leavesExact 8 t = owns (c : Thread nD τ) (ms3_8 t) fullShare (iblk3 V c 8 t) := by
  unfold Dat.leavesExact; rw [liveAt3_8 t, after3_8]
theorem leaves3_9 (c : Dev nD) (t : Fin cfg3.N) :
    (dat3 V c).leavesExact 9 t = owns (c : Thread nD τ) (ms3_9 t) fullShare ((outsAt3 V c t.val t.isLt).1) := by
  unfold Dat.leavesExact; rw [liveAt3_9 t, after3_9]
theorem leaves3_10_live (c : Dev nD) (t : Fin cfg3.N) (h : cond3_2 (grid3.coords t)) :
    (dat3 V c).leavesExact 10 t = owns (c : Thread nD τ) (ms3_10 t) fullShare ((outsAt3 V c t.val t.isLt).2.1) := by
  unfold Dat.leavesExact; rw [liveAt3_10 t h, after3_10]

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t)

set_option maxHeartbeats 8000000 in
/-- The body at any band: the inputs' buffers hold their blocks; the band's number says which case it is; the case's
    run applies, taking the accumulator from the invariant (at anything before the first band, at what the band before
    left afterwards) and handing it back at this band's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0 V, before3_1 V, before3_2 V, before3_3 V, before3_4 V, before3_5 V, before3_6 V, before3_7 V, before3_8 V]
  rw [show (dat3 V c).owesAt () t.succ = (dat3 V c).owesAt () t.castSucc from rfl]
  rw [show (dat3 V c).Φ t.succ = PhiS3 V c (t.val + 1) t.isLt from rfl, PhiS3_succ]
  rw [leaves3_0 V c t, leaves3_1 V c t, leaves3_2 V c t, leaves3_3 V c t, leaves3_4 V c t, leaves3_5 V c t, leaves3_6 V c t, leaves3_7 V c t, leaves3_8 V c t, leaves3_9 V c t]
  have hN : t.val < 50 := lt_of_lt_of_eq t.isLt (show cfg3.N = 50 from N_3)
  by_cases h0 : t.val = 0
  · have hc2 : ¬cond3_2 (grid3.coords t) := fun h => by have := (hcond3_2 t).mp h; omega
    rw [Dat.leavesExact_idle (dat3 V c) 10 t (idleAt3_10 t hc2) (noFlush3_10 t hc2)]
    rw [outsAt3_A V c t h0]
    unfold out3_A_9 sout3_A_0; (try dsimp only)
    rw [PhiS3_castSucc V c t, PhiS3_zero V c _ _ h0, PhiA3_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun3_A c (grid3.coords t) _ _ _ _ _ _ _ _ _ _ _ _ _ _ _ _ _ _ _ _ _ _ _ _ ((hcond3_0 t).mpr h0) (fun h => (hcond3_1 t).mp h h0) (fun h => absurd (((hcond3_2 t).mp h).symm.trans h0) (by decide)) (iblk3 V c 0 t) (iblk3 V c 1 t) (iblk3 V c 2 t) (iblk3 V c 3 t) (iblk3 V c 4 t) (iblk3 V c 5 t) (iblk3 V c 6 t) (iblk3 V c 7 t) (iblk3 V c 8 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [HS0]; · iexact HS0
    iintro ⟨H0, H1, H2, H3, H4, H5, H6, H7, H8, ⟨%e9, H9⟩, H10, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover3_A_9 c _ _ _ _ _ _ _ _ _ _ _ _ _ _ _ _ _ _ _ _ _ _ _ _ _ _ _ _ _ _ _ _ _ _ _ _ _)
    iexists _; iexact H10
  · by_cases h2 : t.val = 49
    · have hc2 : cond3_2 (grid3.coords t) := (hcond3_2 t).mpr h2
      rw [leaves3_10_live V c t hc2]
      rw [outsAt3_C V c t h0 h2]
      unfold out3_C_9 out3_C_10 sout3_C_0; (try dsimp only)
      rw [PhiS3_castSucc V c t, PhiS3_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_C c (grid3.coords t) _ _ _ _ _ _ _ _ _ _ _ _ _ _ _ _ _ _ _ _ _ _ _ _ (fun h => h0 ((hcond3_0 t).mp h)) ((hcond3_1 t).mpr h0) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, ⟨%e9, H9⟩, ⟨%e10, H10⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover3_C_9 c _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover3_C_10 c _ _ _ _ _ _ _ _ _ _ _ _ _ _ _ _ _ _ _ _ _ _ _ _ _ _ _ _ _ _ _ _ _ _ _ _ _ _)
    · have hc2 : ¬cond3_2 (grid3.coords t) := fun h => h2 ((hcond3_2 t).mp h)
      rw [Dat.leavesExact_idle (dat3 V c) 10 t (idleAt3_10 t hc2) (noFlush3_10 t hc2)]
      rw [outsAt3_B V c t h0 h2]
      unfold out3_B_9 sout3_B_0; (try dsimp only)
      rw [PhiS3_castSucc V c t, PhiS3_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_B c (grid3.coords t) _ _ _ _ _ _ _ _ _ _ _ _ _ _ _ _ _ _ _ _ _ _ _ _ (fun h => h0 ((hcond3_0 t).mp h)) ((hcond3_1 t).mpr h0) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS0]; · iexact HS0
      iintro ⟨H0, H1, H2, H3, H4, H5, H6, H7, H8, ⟨%e9, H9⟩, H10, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover3_B_9 c _ _ _ _ _ _ _ _ _ _ _ _ _ _ _ _ _ _ _ _ _ _ _ _ _ _ _ _ _ _ _ _ _ _ _ _ _ _)
      iexists _; iexact H10

/-- The library's body obligation, at every band. -/
theorem body_obligation3 (c : Dev nD) : BodyObligation (dat3 (F := F) V c) (defs₀ (F := F)) Variants.none () Set.univ := fun t => by
  rw [bigSep_W3, bigSep_W3]
  exact sound_body3 V c t

/-- What the launch hands the stage is the invariant before the first band. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any band the invariant gives back what the launch handed over: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

theorem hout3 (c : Dev nD) : (dat3 V c).Φ (Fin.last cfg3.N) ⊢ Pipeline.ΦA spec3 c :=
  Phi_out3 V c _ (by rw [Fin.val_last]; have : cfg3.N = 50 := N_3; omega)

end Region3

end Cert.KernelIdeal.Hand

end
-- ==== Proof.DecodeFrame.lean ====
import proofs.«111736_g88691074663054_cont_9to1c4b_58_39_alg».proof.Proof.Gen.KernelIdeal.Launch
import proofs.«111736_g88691074663054_cont_9to1c4b_58_39_alg».proof.Proof.Gen.KernelIdeal.Skeleton
import proofs.«111736_g88691074663054_cont_9to1c4b_58_39_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural recursion goes once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: the parameter everything below is stated at
variable (V : (c : Dev nD) → (b : Ref sig .tc) → Buf (Elt F) ((c : Thread nD τ).loc b))

/-! # Region 4: one row band of `logistic (Z₁ · Z₂ᵀ)`

The grid has 50 points; point `t` reads rows `200·t … 200·t + 199` of `Z₁` (window 0), the whole of `Z₂`
(window 1, brought in once, at the first point), and writes the band's 200 × 10000 block of the result
(window 2) at every point. The body has one control case: it loads its three staging buffers whole,
computes one payload from the two inputs, and stores it whole. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first factor's staging buffer holds the band of point `t` at every point, for any proof data whose array is
    `V`'s and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The second factor's staging buffer holds the whole factor at every point, fetched there (the first point) or not
    (its block index never moves afterwards). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S200x4 := Rect.unit (s := S200x4) ![0, 0] S200x4.size inb_S200x4_S200x4_0_0
abbrev r4_1 : Rect S10000x4 := Rect.unit (s := S10000x4) ![0, 0] S10000x4.size inb_S10000x4_S10000x4_0_0
abbrev r4_2 : Rect S200x10000 := Rect.unit (s := S200x10000) ![0, 0] S200x10000.size inb_S200x10000_S200x10000_0_0

/-! ## What the body leaves in the output window's buffer -/

/-- The result band's staging buffer after the body, from the two input blocks: its one store, of the payload. -/
def out4_2 (x0 : Vec F S200x4 .f32) (x1 : Vec F S10000x4 .f32) : Vec F S200x10000 .f32 :=
  View.canon [⟨r4_2, k4_pay1 (View.ld x0 r4_0) (View.ld x1 r4_1)⟩]

/-- The one store is of the whole buffer, so it covers it. -/
theorem cover4_2 (p0 : Vec F S200x10000 .f32) (y : S200x10000.Idx) :
    ∃ pc ∈ ([⟨r4_2, p0⟩] : List (View.Piece (Elt F) S200x10000 .f32)), y ∈ pc.1.set :=
  View.cover_of_tiled [⟨r4_2, p0⟩] S200x10000.size (by rfl) y

/-! ## The body's triple -/

set_option maxHeartbeats 1000000 in
/-- The body on whole staging memrefs, the inputs' at contents `x0`, `x1` and the output's at anything, runs to the
    continuation holding the inputs' as they were and the output's at `out4_2 x0 x1`. -/
theorem sound_kernel4 (c : Dev nD) (E : Set ℕ) (i : grid4.Coords) (arg0 : Memref sig .tc .vmem S200x4 .f32) (harg0 : arg0.IsWhole) (arg1 : Memref sig .tc .vmem S10000x4 .f32) (harg1 : arg1.IsWhole) (arg2 : Memref sig .tc .vmem S200x10000 .f32) (harg2 : arg2.IsWhole)
    (x0 : Vec F S200x4 .f32) (x1 : Vec F S10000x4 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__dec_body i arg0 harg0 arg1 harg1 arg2 harg2) K := by
  simp only [cc4__dec_body_eq_skeleton]; unfold cc4__dec_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of region 4 on core `c`: the arrays as the region finds them (`V`); after the body at point `t`
    each input's buffer at its block and the output's at `out4_2` of the input blocks; the invariant is the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- Entering the region: the invariant at the first point is the scoped rest and the generator register. -/
theorem hin4 (c : Dev nD) : Pipeline.ΦA spec4 c ⊢ (dat4 V c).Φ 0 := .rfl
/-- Leaving it: the invariant after the last point is the same. -/
theorem hout4 (c : Dev nD) : (dat4 V c).Φ (Fin.last cfg4.N) ⊢ Pipeline.ΦA spec4 c := .rfl

end Cert.KernelIdeal.Hand
-- ==== Proof.KernelRun.lean ====
/-
  The five tiled stages chained: what every buffer outside the kernels' private memory holds between two
  stages (a fold from the launch memory: a stage's arrays at what its write-backs leave, every other buffer as it
  was), each stage entered from what the one before it left, and the whole program's run — every weakly fair
  execution terminates with every such buffer at the last fold.  From it: the argument arrays end unchanged
  (no stage writes one), and the three results are the last stages' arrays.
-/
import proofs.«111736_g88691074663054_cont_9to1c4b_58_39_alg».proof.Proof.XwFrame0
import proofs.«111736_g88691074663054_cont_9to1c4b_58_39_alg».proof.Proof.XwFrame1
import proofs.«111736_g88691074663054_cont_9to1c4b_58_39_alg».proof.Proof.PropInFrame
import proofs.«111736_g88691074663054_cont_9to1c4b_58_39_alg».proof.Proof.PropOutFrame
import proofs.«111736_g88691074663054_cont_9to1c4b_58_39_alg».proof.Proof.DecodeFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between stages -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After stage 0: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- An input window's array leaves the stage as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))

/-- After stage 1: its arrays at what its write-backs leave, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- An input window's array leaves the stage as it entered. -/
theorem W2_in (c : Dev nD) (w : Fin cfg1.W) (hw : (cfg1.win w).isOut = false) :
    W2 m ρ c (Proc.devRef .tc (Pipeline.arrRef spec1 w)) = W1 m ρ c (Proc.devRef .tc (Pipeline.arrRef spec1 w)) :=
  (W2_arr m ρ c w).trans (((dat1 (V1 m ρ) c).arrAt_in w hw _).trans (A_eq1 (V1 m ρ) c w))

/-- After stage 2: its arrays at what its write-backs leave, every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- An input window's array leaves the stage as it entered. -/
theorem W3_in (c : Dev nD) (w : Fin cfg2.W) (hw : (cfg2.win w).isOut = false) :
    W3 m ρ c (Proc.devRef .tc (Pipeline.arrRef spec2 w)) = W2 m ρ c (Proc.devRef .tc (Pipeline.arrRef spec2 w)) :=
  (W3_arr m ρ c w).trans (((dat2 (V2 m ρ) c).arrAt_in w hw _).trans (A_eq2 (V2 m ρ) c w))

/-- After stage 3: its arrays at what its write-backs leave, every other buffer as entered. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)
/-- An input window's array leaves the stage as it entered. -/
theorem W4_in (c : Dev nD) (w : Fin cfg3.W) (hw : (cfg3.win w).isOut = false) :
    W4 m ρ c (Proc.devRef .tc (Pipeline.arrRef spec3 w)) = W3 m ρ c (Proc.devRef .tc (Pipeline.arrRef spec3 w)) :=
  (W4_arr m ρ c w).trans (((dat3 (V3 m ρ) c).arrAt_in w hw _).trans (A_eq3 (V3 m ρ) c w))

/-- After stage 4: its arrays at what its write-backs leave, every other buffer as entered. -/
def W5 (c : Dev nD) : Valuation τ sig (Elt F) :=
  Pipeline.withArrays spec4 c (W4 m ρ c) fun w => (dat4 (V4 m ρ) c).arrAt w cfg4.N
theorem W5_arr (c : Dev nD) (w : Fin cfg4.W) :
    W5 m ρ c (Proc.devRef .tc (Pipeline.arrRef spec4 w)) = (dat4 (V4 m ρ) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
abbrev V5 : (c : Dev nD) → (b : Ref sig .tc) → Buf (Elt F) ((c : Thread nD τ).loc b) := fun c b => W5 m ρ c b
theorem hF4 (c : Dev nD) (w : Fin cfg4.W) : (dat4 (V4 m ρ) c).arrAt w cfg4.N = V5 m ρ c (Pipeline.arrRef spec4 w) :=
  (W5_arr m ρ c w).symm
theorem hrest4 (c : Dev nD) : ∀ b, b ∉ Finset.univ.image (Pipeline.arrRef spec4) → V5 m ρ c b = V4 m ρ c b :=
  fun b hb => W5_of_ne m ρ c b fun w e => hb (Finset.mem_image.mpr ⟨w, Finset.mem_univ _, e⟩)
/-- An input window's array leaves the stage as it entered. -/
theorem W5_in (c : Dev nD) (w : Fin cfg4.W) (hw : (cfg4.win w).isOut = false) :
    W5 m ρ c (Proc.devRef .tc (Pipeline.arrRef spec4 w)) = W4 m ρ c (Proc.devRef .tc (Pipeline.arrRef spec4 w)) :=
  (W5_arr m ρ c w).trans (((dat4 (V4 m ρ) c).arrAt_in w hw _).trans (A_eq4 (V4 m ρ) c w))

/-! ## The proof data family and the thread state -/

/-- No stage has a prefetched table. -/
abbrev adm : (p : Fin 5) → (pcfgs (F := F) p).Adm := fun p => (cfgs p).toPCfg_adm
/-- Every stage's proof data, each at the contents its stage is entered from. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every stage: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The stages as segments -/

set_option backward.isDefEq.respectTransparency.types false in
/-- Stage 0: entered from every buffer at `W0`, left at `W1`; its arrays split out of the buffers and put back at
    the exit contents; the generator register into the stage's invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m ρ) c
    unfold Pipeline.ΦA at h
    show _ ⊢ (dat0 (V0 m ρ) c).Φ 0
    iintro ⟨Hp, -, Hr⟩
    iapply h
    isplitl [Hr]; · iexact Hr
    iexact Hp
  hout c := by
    rw [Pipeline.ownSems0_none]
    have h := hout0 (V0 m ρ) c
    unfold Pipeline.ΦA at h
    show (dat0 (V0 m ρ) c).Φ (Fin.last _) ⊢ _
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1: entered from every buffer at `W1`, left at `W2`; its arrays split out of the buffers and put back at
    the exit contents; the generator register into the stage's invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun w => A_eq1 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V1 m ρ) c
    unfold Pipeline.ΦA at h
    show _ ⊢ (dat1 (V1 m ρ) c).Φ 0
    iintro ⟨Hp, -, Hr⟩
    iapply h
    isplitl [Hr]; · iexact Hr
    iexact Hp
  hout c := by
    rw [Pipeline.ownSems0_none]
    have h := hout1 (V1 m ρ) c
    unfold Pipeline.ΦA at h
    show (dat1 (V1 m ρ) c).Φ (Fin.last _) ⊢ _
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2: entered from every buffer at `W2`, left at `W3`; its arrays split out of the buffers and put back at
    the exit contents; the generator register into the stage's invariant and out; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun w => A_eq2 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V2 m ρ) c
    unfold Pipeline.ΦA at h
    show _ ⊢ (dat2 (V2 m ρ) c).Φ 0
    iintro ⟨Hp, -, Hr⟩
    iapply h
    isplitl [Hr]; · iexact Hr
    iexact Hp
  hout c := by
    rw [Pipeline.ownSems0_none]
    have h := hout2 (V2 m ρ) c
    unfold Pipeline.ΦA at h
    show (dat2 (V2 m ρ) c).Φ (Fin.last _) ⊢ _
    iintro Hphi
    ihave H := h $$ Hphi
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 3: entered from every buffer at `W3`, left at `W4`; its arrays split out of the buffers and put back at
    the exit contents; the generator register into the stage's invariant and out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun w => A_eq3 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (V3 m ρ) c
    unfold Pipeline.ΦA at h
    show _ ⊢ (dat3 (V3 m ρ) c).Φ 0
    iintro ⟨Hp, -, Hr⟩
    iapply h
    isplitl [Hr]; · iexact Hr
    iexact Hp
  hout c := by
    rw [Pipeline.ownSems0_none]
    have h := hout3 (V3 m ρ) c
    unfold Pipeline.ΦA at h
    show (dat3 (V3 m ρ) c).Φ (Fin.last _) ⊢ _
    iintro Hphi
    ihave H := h $$ Hphi
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 4: entered from every buffer at `W4`, left at `W5`; its arrays split out of the buffers and put back at
    the exit contents; the generator register into the stage's invariant and out; nothing owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V4 m ρ c) fun w => A_eq4 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V4 m ρ) c
    unfold Pipeline.ΦA at h
    show _ ⊢ (dat4 (V4 m ρ) c).Φ 0
    iintro ⟨Hp, -, Hr⟩
    iapply h
    isplitl [Hr]; · iexact Hr
    iexact Hp
  hout c := by
    rw [Pipeline.ownSems0_none]
    have h := hout4 (V4 m ρ) c
    unfold Pipeline.ΦA at h
    show (dat4 (V4 m ρ) c).Φ (Fin.last _) ⊢ _
    iintro Hphi
    ihave H := h $$ Hphi
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V4 m ρ c) (V5 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]

theorem main_run (c : Dev nD) : main (F := F) c = Pipeline.Seg.run (segs m ρ) := (main_chain c).trans (by chain_rfl)

set_option backward.isDefEq.respectTransparency.types false in
/-- Every weakly fair execution of the program terminates, nothing faulting, and every final state has every buffer
    outside the kernels' private memory at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! ## What a stage leaves alone -/

/-- A buffer that is no OUTPUT array of stage 0 leaves it as it entered. -/
theorem W1_keep (c : Dev nD) (b : Ref sig .tc) (h : ∀ w, (cfg0.win w).isOut = true → Pipeline.arrRef spec0 w ≠ b) :
    W1 m ρ c (Proc.devRef .tc b) = W0 m ρ c (Proc.devRef .tc b) := by
  by_cases hb : ∃ w, Pipeline.arrRef spec0 w = b
  · obtain ⟨w, rfl⟩ := hb
    cases ho : (cfg0.win w).isOut
    · exact W1_in m ρ c w ho
    · exact absurd rfl (h w ho)
  · exact W1_of_ne m ρ c b fun w e => hb ⟨w, e⟩

/-- A buffer that is no OUTPUT array of stage 1 leaves it as it entered. -/
theorem W2_keep (c : Dev nD) (b : Ref sig .tc) (h : ∀ w, (cfg1.win w).isOut = true → Pipeline.arrRef spec1 w ≠ b) :
    W2 m ρ c (Proc.devRef .tc b) = W1 m ρ c (Proc.devRef .tc b) := by
  by_cases hb : ∃ w, Pipeline.arrRef spec1 w = b
  · obtain ⟨w, rfl⟩ := hb
    cases ho : (cfg1.win w).isOut
    · exact W2_in m ρ c w ho
    · exact absurd rfl (h w ho)
  · exact W2_of_ne m ρ c b fun w e => hb ⟨w, e⟩

/-- A buffer that is no OUTPUT array of stage 2 leaves it as it entered. -/
theorem W3_keep (c : Dev nD) (b : Ref sig .tc) (h : ∀ w, (cfg2.win w).isOut = true → Pipeline.arrRef spec2 w ≠ b) :
    W3 m ρ c (Proc.devRef .tc b) = W2 m ρ c (Proc.devRef .tc b) := by
  by_cases hb : ∃ w, Pipeline.arrRef spec2 w = b
  · obtain ⟨w, rfl⟩ := hb
    cases ho : (cfg2.win w).isOut
    · exact W3_in m ρ c w ho
    · exact absurd rfl (h w ho)
  · exact W3_of_ne m ρ c b fun w e => hb ⟨w, e⟩

/-- A buffer that is no OUTPUT array of stage 3 leaves it as it entered. -/
theorem W4_keep (c : Dev nD) (b : Ref sig .tc) (h : ∀ w, (cfg3.win w).isOut = true → Pipeline.arrRef spec3 w ≠ b) :
    W4 m ρ c (Proc.devRef .tc b) = W3 m ρ c (Proc.devRef .tc b) := by
  by_cases hb : ∃ w, Pipeline.arrRef spec3 w = b
  · obtain ⟨w, rfl⟩ := hb
    cases ho : (cfg3.win w).isOut
    · exact W4_in m ρ c w ho
    · exact absurd rfl (h w ho)
  · exact W4_of_ne m ρ c b fun w e => hb ⟨w, e⟩

/-- A buffer that is no OUTPUT array of stage 4 leaves it as it entered. -/
theorem W5_keep (c : Dev nD) (b : Ref sig .tc) (h : ∀ w, (cfg4.win w).isOut = true → Pipeline.arrRef spec4 w ≠ b) :
    W5 m ρ c (Proc.devRef .tc b) = W4 m ρ c (Proc.devRef .tc b) := by
  by_cases hb : ∃ w, Pipeline.arrRef spec4 w = b
  · obtain ⟨w, rfl⟩ := hb
    cases ho : (cfg4.win w).isOut
    · exact W5_in m ρ c w ho
    · exact absurd rfl (h w ho)
  · exact W5_of_ne m ρ c b fun w e => hb ⟨w, e⟩

/-- A buffer no stage writes holds its launch contents at the end. -/
theorem W5_launch (c : Dev nD) (b : Ref sig .tc)
    (h0 : ∀ w, (cfg0.win w).isOut = true → Pipeline.arrRef spec0 w ≠ b) (h1 : ∀ w, (cfg1.win w).isOut = true → Pipeline.arrRef spec1 w ≠ b)
    (h2 : ∀ w, (cfg2.win w).isOut = true → Pipeline.arrRef spec2 w ≠ b) (h3 : ∀ w, (cfg3.win w).isOut = true → Pipeline.arrRef spec3 w ≠ b)
    (h4 : ∀ w, (cfg4.win w).isOut = true → Pipeline.arrRef spec4 w ≠ b) :
    W5 m ρ c (Proc.devRef .tc b) = m ((c : Thread nD τ).loc b) :=
  (W5_keep m ρ c b h4).trans <| (W4_keep m ρ c b h3).trans <| (W3_keep m ρ c b h2).trans <| (W2_keep m ρ c b h1).trans <| (W1_keep m ρ c b h0).trans rfl

/-! ## The frame: every argument array ends as launched -/

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W5_launch m ρ c main_arg0 (by decide) (by decide) (by decide) (by decide) (by decide)),
    (h c _ (mem_uc main_arg1 (by decide))).trans (W5_launch m ρ c main_arg1 (by decide) (by decide) (by decide) (by decide) (by decide)),
    (h c _ (mem_uc main_arg2 (by decide))).trans (W5_launch m ρ c main_arg2 (by decide) (by decide) (by decide) (by decide) (by decide)),
    (h c _ (mem_uc main_arg3 (by decide))).trans (W5_launch m ρ c main_arg3 (by decide) (by decide) (by decide) (by decide) (by decide)),
    (h c _ (mem_uc main_arg4 (by decide))).trans (W5_launch m ρ c main_arg4 (by decide) (by decide) (by decide) (by decide) (by decide)),
    (h c _ (mem_uc main_arg5 (by decide))).trans (W5_launch m ρ c main_arg5 (by decide) (by decide) (by decide) (by decide) (by decide)),
    (h c _ (mem_uc main_arg6 (by decide))).trans (W5_launch m ρ c main_arg6 (by decide) (by decide) (by decide) (by decide) (by decide)),
    (h c _ (mem_uc main_arg7 (by decide))).trans (W5_launch m ρ c main_arg7 (by decide) (by decide) (by decide) (by decide) (by decide)),
    (h c _ (mem_uc main_arg8 (by decide))).trans (W5_launch m ρ c main_arg8 (by decide) (by decide) (by decide) (by decide) (by decide)),
    (h c _ (mem_uc main_arg9 (by decide))).trans (W5_launch m ρ c main_arg9 (by decide) (by decide) (by decide) (by decide) (by decide)),
    (h c _ (mem_uc main_arg10 (by decide))).trans (W5_launch m ρ c main_arg10 (by decide) (by decide) (by decide) (by decide) (by decide))⟩) (run_all m ρ)

end Cert.KernelIdeal.Hand

end
-- ==== Proof.Spec.lean ====
/-
  The mathematics of the two programs, as whole-array functions on the extended reals, index by index.

  A graph auto-encoder on a bipartite graph with adjacency matrix `adj` (10000 × 10000): two feature products
  `X·W` (10000 × 16), one propagation through `adj` and one through its transpose, each followed by the positive
  part; a second propagation of each, composed with two 16 × 4 weight matrices, gives means and log standard
  deviations, from which `z = noise · exp(logstd) + mean`; the result is the logistic function of `z₁ · z₂ᵀ`.

  The tiled program keeps every 16-column intermediate as a 32-column pair `[y | y - y]` (the second half is the
  rounding residue of the first, which is zero on exact values) and adds the two halves back after each product; it
  sums the products against the transpose of `adj` band by band, 200 rows at a time.  The functions below spell
  exactly that; `bandSum` is the banded sum.
-/
import Idealize.ShloMosaic.PureOps.Ideal
import Idealize.ShloMosaic.Lib.ValueIdx

noncomputable section

namespace Cert.Spec

open Idealize.ShloMosaic Idealize.ShloMosaic.ValueIdx

abbrev Sh (a b : Nat) : Shape := ⟨2, ![a, b]⟩

/-- Rows times columns: `(X·W)(r, c) = Σ_k X(r, k) · W(k, c)`. -/
def mm {a k b : Nat} {φ₁ φ₂ : FTy} (X : FVec Ideal (Sh a k) φ₁) (W : FVec Ideal (Sh k b) φ₂) : FVec Ideal (Sh a b) .f32 :=
  fun j => ∑ q : Fin k, X (ix2 (j 0) q) * W (ix2 q (j 1))

/-- The product against the transposed second factor: `(X·Wᵀ)(r, c) = Σ_k X(r, k) · W(c, k)`. -/
def mmNT {a k b : Nat} {φ₁ φ₂ : FTy} (X : FVec Ideal (Sh a k) φ₁) (W : FVec Ideal (Sh b k) φ₂) : FVec Ideal (Sh a b) .f32 :=
  fun j => ∑ q : Fin k, X (ix2 (j 0) q) * W (ix2 (j 1) q)

/-- The product of the transposed first factor: `(Xᵀ·W)(r, c) = Σ_k X(k, r) · W(k, c)`. -/
def mmTN {a k b : Nat} {φ₁ φ₂ : FTy} (X : FVec Ideal (Sh k a) φ₁) (W : FVec Ideal (Sh k b) φ₂) : FVec Ideal (Sh a b) .f32 :=
  fun j => ∑ q : Fin k, X (ix2 q (j 0)) * W (ix2 q (j 1))

/-- `Xᵀ·W` summed band by band: the rows `200·b + r` of band `b` first, then the bands. -/
def bandSum {a b : Nat} {φ₁ φ₂ : FTy} (X : FVec Ideal (Sh 10000 a) φ₁) (W : FVec Ideal (Sh 10000 b) φ₂) : FVec Ideal (Sh a b) .f32 :=
  fun j => ∑ t : Fin 50, ∑ r : Fin 200, X (ix2 (⟨200 * t.val + r.val, by omega⟩ : Fin 10000) (j 0)) * W (ix2 (⟨200 * t.val + r.val, by omega⟩ : Fin 10000) (j 1))

/-- The transpose. -/
def tr {a b : Nat} {φ : FTy} (Y : FVec Ideal (Sh a b) φ) : FVec Ideal (Sh b a) φ := fun j => Y (ix2 (j 1) (j 0))

/-- The positive part. -/
def relu {a b : Nat} (Y : FVec Ideal (Sh a b) .f32) : FVec Ideal (Sh a b) .f32 := fun j => max (Y j) 0

/-- A 16-column array kept as a pair of halves `[y | y - y]`. -/
def hilo {n : Nat} (Y : FVec Ideal (Sh n 16) .f32) : FVec Ideal (Sh n 32) .bf16 :=
  fun j => if h : (j 1).val < 16 then Y (ix2 (j 0) ⟨(j 1).val, h⟩)
    else Y (ix2 (j 0) ⟨(j 1).val - 16, by have := idx2_lt1 j; omega⟩) - Y (ix2 (j 0) ⟨(j 1).val - 16, by have := idx2_lt1 j; omega⟩)

/-- The two column halves added back. -/
def halves {n : Nat} {φ : FTy} (Z : FVec Ideal (Sh n 32) φ) : FVec Ideal (Sh n 16) φ :=
  fun j => Z (ix2 (j 0) ⟨(j 1).val, by have := idx2_lt1 j; omega⟩) + Z (ix2 (j 0) ⟨(j 1).val + 16, by have := idx2_lt1 j; omega⟩)

/-- The two row halves added back. -/
def halves0 {n : Nat} {φ : FTy} (Z : FVec Ideal (Sh 32 n) φ) : FVec Ideal (Sh 16 n) φ :=
  fun j => Z (ix2 ⟨(j 0).val, by have := idx2_lt0 j; omega⟩ (j 1)) + Z (ix2 ⟨(j 0).val + 16, by have := idx2_lt0 j; omega⟩ (j 1))

/-- `noise · exp(logstd) + mean`, entry by entry. -/
def sample {a b : Nat} (noise logstd mean : FVec Ideal (Sh a b) .f32) : FVec Ideal (Sh a b) .f32 :=
  fun j => noise j * Ideal.exp (logstd j) + mean j

/-! ## The five tiled stages, each as a function of the arrays it is handed -/

/-- Stages 0 and 1: the feature product, kept as a pair of halves. -/
def xwPair (X : FVec Ideal (Sh 10000 10000) .f32) (W : FVec Ideal (Sh 10000 16) .f32) : FVec Ideal (Sh 10000 32) .bf16 :=
  hilo (mm X W)

/-- Stage 2, second result: the positive part of `adj · xw₂`, as a pair of halves. -/
def h2Pair (adj : FVec Ideal (Sh 10000 10000) .f32) (xw2 : FVec Ideal (Sh 10000 32) .bf16) : FVec Ideal (Sh 10000 32) .bf16 :=
  hilo (relu (halves (mm adj xw2)))

/-- Stage 2, first result: the positive part of `adjᵀ · xw₁` (summed band by band, transposed), as a pair of halves. -/
def h1Pair (adj : FVec Ideal (Sh 10000 10000) .f32) (xw1 : FVec Ideal (Sh 10000 32) .bf16) : FVec Ideal (Sh 10000 32) .bf16 :=
  hilo (tr (relu (halves0 (bandSum xw1 adj))))

/-- Stage 3, first result. -/
def z1 (adj : FVec Ideal (Sh 10000 10000) .f32) (h1 : FVec Ideal (Sh 10000 32) .bf16) (wm wl : FVec Ideal (Sh 16 4) .f32)
    (noise : FVec Ideal (Sh 10000 4) .f32) : FVec Ideal (Sh 10000 4) .f32 :=
  sample noise (mm (halves (mm adj h1)) wl) (mm (halves (mm adj h1)) wm)

/-- Stage 3, second result. -/
def z2 (adj : FVec Ideal (Sh 10000 10000) .f32) (h2 : FVec Ideal (Sh 10000 32) .bf16) (wm wl : FVec Ideal (Sh 16 4) .f32)
    (noise : FVec Ideal (Sh 10000 4) .f32) : FVec Ideal (Sh 10000 4) .f32 :=
  tr (sample (tr noise) (mmTN wl (halves0 (bandSum h2 adj))) (mmTN wm (halves0 (bandSum h2 adj))))

/-- Stage 4: the logistic function of `z₁ · z₂ᵀ`. -/
def decode (y1 y2 : FVec Ideal (Sh 10000 4) .f32) : FVec Ideal (Sh 10000 10000) .f32 :=
  fun j => Ideal.logistic (mmNT y1 y2 j)

/-! ## The tiled program's three results, composed -/

def kZ1 (X1 adj : FVec Ideal (Sh 10000 10000) .f32) (Wb1 : FVec Ideal (Sh 10000 16) .f32) (Wm1 Wl1 : FVec Ideal (Sh 16 4) .f32)
    (n1 : FVec Ideal (Sh 10000 4) .f32) : FVec Ideal (Sh 10000 4) .f32 :=
  z1 adj (h1Pair adj (xwPair X1 Wb1)) Wm1 Wl1 n1

def kZ2 (X2 adj : FVec Ideal (Sh 10000 10000) .f32) (Wb2 : FVec Ideal (Sh 10000 16) .f32) (Wm2 Wl2 : FVec Ideal (Sh 16 4) .f32)
    (n2 : FVec Ideal (Sh 10000 4) .f32) : FVec Ideal (Sh 10000 4) .f32 :=
  z2 adj (h2Pair adj (xwPair X2 Wb2)) Wm2 Wl2 n2

/-! ## The plain program: the same mathematics without pairs, bands or regrouping -/

/-- `relu(adjᵀ · (X₁ · W))`. -/
def rH1 (X1 adj : FVec Ideal (Sh 10000 10000) .f32) (Wb1 : FVec Ideal (Sh 10000 16) .f32) : FVec Ideal (Sh 10000 16) .f32 :=
  relu (mm (tr adj) (mm X1 Wb1))

/-- `relu(adj · (X₂ · W))`. -/
def rH2 (X2 adj : FVec Ideal (Sh 10000 10000) .f32) (Wb2 : FVec Ideal (Sh 10000 16) .f32) : FVec Ideal (Sh 10000 16) .f32 :=
  relu (mm adj (mm X2 Wb2))

def rZ1 (X1 adj : FVec Ideal (Sh 10000 10000) .f32) (Wb1 : FVec Ideal (Sh 10000 16) .f32) (Wm1 Wl1 : FVec Ideal (Sh 16 4) .f32)
    (n1 : FVec Ideal (Sh 10000 4) .f32) : FVec Ideal (Sh 10000 4) .f32 :=
  sample n1 (mm adj (mm (rH1 X1 adj Wb1) Wl1)) (mm adj (mm (rH1 X1 adj Wb1) Wm1))

def rZ2 (X2 adj : FVec Ideal (Sh 10000 10000) .f32) (Wb2 : FVec Ideal (Sh 10000 16) .f32) (Wm2 Wl2 : FVec Ideal (Sh 16 4) .f32)
    (n2 : FVec Ideal (Sh 10000 4) .f32) : FVec Ideal (Sh 10000 4) .f32 :=
  sample n2 (mm (tr adj) (mm (rH2 X2 adj Wb2) Wl2)) (mm (tr adj) (mm (rH2 X2 adj Wb2) Wm2))

/-- The 4 × 4 identity matrix. -/
def eye4 : FVec Ideal (Sh 4 4) .f32 := fun j => if (j 0).val = (j 1).val then 1 else 0

/-- `logistic((z₁ · I) · z₂ᵀ)`. -/
def rDecode (y1 y2 : FVec Ideal (Sh 10000 4) .f32) : FVec Ideal (Sh 10000 10000) .f32 :=
  fun j => Ideal.logistic (mm (mm y1 eye4) (tr y2) j)

end Cert.Spec

end
-- ==== Proof.XwValue0.lean ====
import proofs.«111736_g88691074663054_cont_9to1c4b_58_39_alg».proof.Proof.XwFrame0
import proofs.«111736_g88691074663054_cont_9to1c4b_58_39_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! # Region 0 on the extended reals: the result array is `[X·W | X·W − X·W]`

Point `t` of the grid multiplies rows `200·t … 200·t + 199` of `X` by the whole of `W` and writes the 200 × 32
block `[P | P − P]` (`P` the 200 × 16 product) to the same rows of the result; the 50 points' blocks fill the
10000 rows. -/

theorem hz0 : (![0, 0] : Fin 2 → Nat) = fun _ => 0 := funext fun a => by fin_cases a <;> rfl

/-! ## The band's product at an index -/

section Tile

/-- The left operand's index at output `(p, q)` and contraction position `k` is `(p, k)`; -/
theorem tileL0_0 (i : S200x16.Idx) (q : dot_S200x10000_S10000x16_S200x16_1_0_0_1_n_n.contr.Idx) : (dot_S200x10000_S10000x16_S200x16_1_0_0_1_n_n.lhsIdx i q 0).val = (i 0).val := by
  unfold DotDims.lhsIdx
  rw [dif_neg (show ¬(0 : Fin S200x10000.rank) ∈ dot_S200x10000_S10000x16_S200x16_1_0_0_1_n_n.lhsBatch by decide), dif_pos (show (0 : Fin S200x10000.rank) ∈ dot_S200x10000_S10000x16_S200x16_1_0_0_1_n_n.lhsNonContracting by decide)]
  rfl
theorem tileL0_1 (i : S200x16.Idx) (q : dot_S200x10000_S10000x16_S200x16_1_0_0_1_n_n.contr.Idx) : (dot_S200x10000_S10000x16_S200x16_1_0_0_1_n_n.lhsIdx i q 1).val = (q ⟨0, by decide⟩).val :=
  dot_S200x10000_S10000x16_S200x16_1_0_0_1_n_n.lhsIdx_val_of_single rfl i q
/-- the right operand's is `(k, q)`. -/
theorem tileR0_0 (i : S200x16.Idx) (q : dot_S200x10000_S10000x16_S200x16_1_0_0_1_n_n.contr.Idx) : (dot_S200x10000_S10000x16_S200x16_1_0_0_1_n_n.rhsIdx i q 0).val = (q ⟨0, by decide⟩).val :=
  dot_S200x10000_S10000x16_S200x16_1_0_0_1_n_n.rhsIdx_val_of_single rfl i q
theorem tileR0_1 (i : S200x16.Idx) (q : dot_S200x10000_S10000x16_S200x16_1_0_0_1_n_n.contr.Idx) : (dot_S200x10000_S10000x16_S200x16_1_0_0_1_n_n.rhsIdx i q 1).val = (i 1).val := by
  unfold DotDims.rhsIdx
  rw [dif_neg (show ¬(1 : Fin S10000x16.rank) ∈ dot_S200x10000_S10000x16_S200x16_1_0_0_1_n_n.rhsBatch by decide), dif_pos (show (1 : Fin S10000x16.rank) ∈ dot_S200x10000_S10000x16_S200x16_1_0_0_1_n_n.rhsNonContracting by decide)]
  rfl

/-- The 200 × 10000 by 10000 × 16 product into a zero accumulator, at `(p, q)`: `Σ_k x0(p, k) · x1(k, q)`. -/
theorem tile0_apply (x0 : FVec Ideal S200x10000 .f32) (x1 : FVec Ideal S10000x16 .f32) (p : Fin 200) (q : Fin 16) :
    (matmul dot_S200x10000_S10000x16_S200x16_1_0_0_1_n_n none x0 x1 (constant (F := Ideal) S200x16 .f32 0x00000000#32) : FVec Ideal S200x16 .f32) (ix2 p q)
      = ∑ k : Fin 10000, x0 (ix2 p k) * x1 (ix2 k q) := by
  simp only [matmul]
  rw [Ideal.matmul_constant_zero_apply, ← Equiv.sum_comp (contrEquiv1 dot_S200x10000_S10000x16_S200x16_1_0_0_1_n_n 10000 rfl rfl).symm]
  refine Finset.sum_congr rfl fun k _ => ?_
  have hk := contrEquiv1_symm_val dot_S200x10000_S10000x16_S200x16_1_0_0_1_n_n 10000 rfl rfl k
  have el : dot_S200x10000_S10000x16_S200x16_1_0_0_1_n_n.lhsIdx (ix2 p q) ((contrEquiv1 dot_S200x10000_S10000x16_S200x16_1_0_0_1_n_n 10000 rfl rfl).symm k) = ix2 p k := funext fun a => Fin.ext (by
    match a with
    | ⟨0, _⟩ => exact tileL0_0 _ _
    | ⟨1, _⟩ => exact (tileL0_1 _ _).trans hk)
  have er : dot_S200x10000_S10000x16_S200x16_1_0_0_1_n_n.rhsIdx (ix2 p q) ((contrEquiv1 dot_S200x10000_S10000x16_S200x16_1_0_0_1_n_n 10000 rfl rfl).symm k) = ix2 k q := funext fun a => Fin.ext (by
    match a with
    | ⟨0, _⟩ => exact (tileR0_0 _ _).trans hk
    | ⟨1, _⟩ => exact tileR0_1 _ _)
  rw [el, er]

end Tile

/-! ## The pair of halves at an index -/

/-- A column below 16 of `[y | y − y]` reads `y`; -/
theorem hilo_lo {n : Nat} (Y : FVec Ideal (Cert.Spec.Sh n 16) .f32) (p : Fin n) (q : Fin 32) (h : q.val < 16) :
    Cert.Spec.hilo Y (ix2 p q) = Y (ix2 p ⟨q.val, h⟩) := dif_pos h
/-- a column from 16 on reads `y − y` sixteen columns to the left. -/
theorem hilo_hi {n : Nat} (Y : FVec Ideal (Cert.Spec.Sh n 16) .f32) (p : Fin n) (q : Fin 32) (h : ¬ q.val < 16) :
    Cert.Spec.hilo Y (ix2 p q) = Y (ix2 p ⟨q.val - 16, by omega⟩) - Y (ix2 p ⟨q.val - 16, by omega⟩) := dif_neg h

/-- The body's payload of its two loaded blocks is the pair of halves of their product. -/
theorem pay0_apply (x0 : Vec Ideal S200x10000 .f32) (x1 : Vec Ideal S10000x16 .f32) (y : S200x32.Idx) :
    k0_pay1 (F := Ideal) x0 x1 y = Cert.Spec.hilo (Cert.Spec.mm (a := 200) (k := 10000) (b := 16) (φ₁ := .f32) (φ₂ := .f32) x0 x1) y := by
  obtain ⟨p, q, rfl⟩ : ∃ (p : Fin 200) (q : Fin 32), y = ix2 p q := ⟨y 0, y 1, eq_ix2 y⟩
  unfold k0_pay1
  by_cases hq : q.val < 16
  · refine (concatenate_pair_apply_left (1 : Fin S200x32.rank) _ _ concatenates_S200x16_S200x16_S200x32_d1 (ix2 p q) rfl
      (ix2 p ⟨q.val, hq⟩) (fun b => by match b with | ⟨0, _⟩ => rfl | ⟨1, _⟩ => rfl)).trans ?_
    rw [hilo_lo _ p q hq]
    exact tile0_apply x0 x1 p ⟨q.val, hq⟩
  · refine (concatenate_pair_apply_right (1 : Fin S200x32.rank) _ _ concatenates_S200x16_S200x16_S200x32_d1 (ix2 p q) rfl rfl
      (ix2 p ⟨q.val - 16, by omega⟩) (fun b hb => by
        match b with
        | ⟨0, _⟩ => rfl
        | ⟨1, _⟩ => exact absurd rfl hb) (by show q.val - 16 + 16 = q.val; omega)).trans ?_
    rw [hilo_hi _ p q hq]
    show (matmul dot_S200x10000_S10000x16_S200x16_1_0_0_1_n_n none x0 x1 (constant (F := Ideal) S200x16 .f32 0x00000000#32) : FVec Ideal S200x16 .f32) (ix2 p ⟨q.val - 16, _⟩)
        - (matmul dot_S200x10000_S10000x16_S200x16_1_0_0_1_n_n none x0 x1 (constant (F := Ideal) S200x16 .f32 0x00000000#32) : FVec Ideal S200x16 .f32) (ix2 p ⟨q.val - 16, _⟩) = _
    rw [tile0_apply x0 x1 p ⟨q.val - 16, by omega⟩]
    rfl

/-! ## From a band to the array -/

/-- A band's pair of halves is the array's, at the band's rows: if `x0` is rows `200·n …` of `X` and `x1` is `W`,
    then entry `y` of the band's block is entry `(200·n + y₀, y₁)` of `[X·W | X·W − X·W]`. -/
theorem band0_eq (X : FVec Ideal (Cert.Spec.Sh 10000 10000) .f32) (W : FVec Ideal (Cert.Spec.Sh 10000 16) .f32)
    (x0 : Vec Ideal S200x10000 .f32) (x1 : Vec Ideal S10000x16 .f32) (n : Nat) (hn : n < 50)
    (h0 : ∀ (r : Fin 200) (k : Fin 10000), x0 (ix2 r k) = X (ix2 ⟨200 * n + r.val, by omega⟩ k))
    (h1 : ∀ z, x1 z = W z)
    (y : S200x32.Idx) (i : S10000x32.Idx) (hi0 : (i 0).val = 200 * n + (y 0).val) (hi1 : (i 1).val = (y 1).val) :
    Cert.Spec.hilo (Cert.Spec.mm (a := 200) (k := 10000) (b := 16) (φ₁ := .f32) (φ₂ := .f32) x0 x1) y = Cert.Spec.xwPair X W i := by
  obtain rfl : x1 = W := funext h1
  obtain ⟨p, q, rfl⟩ : ∃ (p : Fin 200) (q : Fin 32), y = ix2 p q := ⟨y 0, y 1, eq_ix2 y⟩
  have hb : 200 * n + p.val < 10000 := by have := p.isLt; omega
  obtain ⟨p', q', rfl⟩ : ∃ (p' : Fin 10000) (q' : Fin 32), i = ix2 p' q' := ⟨i 0, i 1, eq_ix2 i⟩
  obtain rfl : q' = q := Fin.ext hi1
  obtain rfl : p' = ⟨200 * n + p.val, hb⟩ := Fin.ext hi0
  have row : ∀ cq : Fin 16, Cert.Spec.mm (a := 200) (k := 10000) (b := 16) (φ₁ := .f32) (φ₂ := .f32) x0 x1 (ix2 p cq)
      = Cert.Spec.mm (φ₁ := .f32) (φ₂ := .f32) X x1 (ix2 ⟨200 * n + p.val, hb⟩ cq) := fun cq =>
    Finset.sum_congr rfl fun k _ => by
      show x0 (ix2 p k) * x1 (ix2 k cq) = X (ix2 ⟨200 * n + p.val, _⟩ k) * x1 (ix2 k cq)
      rw [h0]
  unfold Cert.Spec.xwPair
  by_cases hq : q'.val < 16
  · rw [hilo_lo _ _ _ hq, hilo_lo _ _ _ hq, row]
  · rw [hilo_hi _ _ _ hq, hilo_hi _ _ _ hq, row]

/-- The printed index maps, decided over the grid: point `t` takes band `t` of `X`, all of `W`, and writes band `t`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of `[X·W | X·W − X·W]` of the arrays as the region finds them. -/
theorem flushed0_2_eq (c : Dev nD) (t : Fin cfg0.N) :
    (dat0 (F := Ideal) V c).flushed 2 t = ((cfg0.win 2).blk t).view.read (Elt Ideal) (Cert.Spec.xwPair (V c main_arg0) (V c main_arg3)) := by
  show (cfg0.win 2).cut (grid0.coords t) ((dat0 V c).after 2 t) = _
  rw [after0_2]
  unfold out0_2
  rw [View.canon_unit_zero hz0]
  simp only [View.ld_unit_zero (S := S200x10000) hz0, View.ld_unit_zero (S := S10000x16) hz0]
  obtain ⟨e0, e1, e2, e3, e4, e5⟩ := idx_facts0 t
  have hN : t.val < 50 := lt_of_lt_of_eq t.isLt N_0
  funext y
  refine (pay0_apply (iblk0 V c 0 t) (iblk0 V c 1 t) y).trans ?_
  refine band0_eq (V c main_arg0) (V c main_arg3) (iblk0 V c 0 t) (iblk0 V c 1 t) t.val hN ?_ ?_ y (((cfg0.win 2).blk t).view.emb y) ?_ ?_
  · intro r k
    show V c main_arg0 (((cfg0.win 0).blk t).view.emb (ix2 r k)) = V c main_arg0 _
    refine congrArg _ (funext fun a => Fin.ext ?_)
    match a with
    | ⟨0, _⟩ => show win0_0.index t (0 : Fin 2) * 200 + 1 * r.val = 200 * t.val + r.val; omega
    | ⟨1, _⟩ => show win0_0.index t (1 : Fin 2) * 10000 + 1 * k.val = k.val; omega
  · intro z
    show V c main_arg3 (((cfg0.win 1).blk t).view.emb z) = V c main_arg3 z
    refine congrArg _ (funext fun a => Fin.ext ?_)
    match a with
    | ⟨0, _⟩ => show win0_1.index t (0 : Fin 2) * 10000 + 1 * (z 0).val = (z 0).val; omega
    | ⟨1, _⟩ => show win0_1.index t (1 : Fin 2) * 16 + 1 * (z 1).val = (z 1).val; omega
  · show win0_2.index t (0 : Fin 2) * 200 + 1 * (y 0).val = 200 * t.val + (y 0).val; omega
  · show win0_2.index t (1 : Fin 2) * 32 + 1 * (y 1).val = (y 1).val; omega

/-- An index of the result is in point `t`'s block iff each coordinate is in the block's range on its axis. -/
theorem mem_blk0_2 (t : Fin cfg0.N) (i : S10000x32.Idx) :
    i ∈ ((cfg0.win 2).blk t).view.set ↔ ∀ a : Fin 2, win0_2.index t a * S200x32.size a ≤ (i a).val ∧ (i a).val < win0_2.index t a * S200x32.size a + S200x32.size a := by
  show i ∈ ((View.whole main_v0).slice (win0_2.rect t)).set ↔ _
  rw [View.set_slice_whole, Rect.mem_set_unit]
  exact Iff.rfl

/-- Row `r` of the result is written by point `r / 200`. -/
theorem covered0_2 (i : S10000x32.Idx) :
    ∃ t : Fin cfg0.N, (cfg0.win 2).flush t = true ∧ i ∈ ((cfg0.win 2).blk t).view.set := by
  have hi0 : (i 0).val < 10000 := idx2_lt0 i
  have hi1 : (i 1).val < 32 := idx2_lt1 i
  let t : Fin cfg0.N := ⟨(i 0).val / 200, lt_of_lt_of_eq (by omega) N_0.symm⟩
  obtain ⟨e0, e1, e2, e3, e4, e5⟩ := idx_facts0 t
  have ht : t.val = (i 0).val / 200 := rfl
  refine ⟨t, flush0_2 t, ?_⟩
  rw [mem_blk0_2]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 32 ≤ (i 1).val ∧ (i 1).val < win0_2.index t (1 : Fin 2) * 32 + 32; omega

/-- THE RESULT ARRAY after the region: `[X·W | X·W − X·W]` of the two arrays the region was entered with. -/
theorem final0_2 (c : Dev nD) :
    (dat0 (F := Ideal) V c).arrAt 2 cfg0.N = Cert.Spec.xwPair (V c main_arg0) (V c main_arg3) :=
  (dat0 V c).arrAt_eq_of_cover 2 _ (fun t _ => flushed0_2_eq V c t) (covered0_2)

end Cert.KernelIdeal.Hand

end
-- ==== Proof.XwValue1.lean ====
import proofs.«111736_g88691074663054_cont_9to1c4b_58_39_alg».proof.Proof.XwFrame1
import proofs.«111736_g88691074663054_cont_9to1c4b_58_39_alg».proof.Proof.Spec
import proofs.«111736_g88691074663054_cont_9to1c4b_58_39_alg».proof.Proof.XwValue0
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! # Region 1 on the extended reals: the result array is `[X·W | X·W − X·W]`

Point `t` of the grid multiplies rows `200·t … 200·t + 199` of `X` by the whole of `W` and writes the 200 × 32
block `[P | P − P]` (`P` the 200 × 16 product) to the same rows of the result; the 50 points' blocks fill the
10000 rows. The product at an index, the pair of halves at an index and the passage from a band to the array
are region 0's: the two regions compute the same function of different arrays. -/

theorem hz1 : (![0, 0] : Fin 2 → Nat) = fun _ => 0 := funext fun a => by fin_cases a <;> rfl

/-- The body's payload of its two loaded blocks is the pair of halves of their product. -/
theorem pay1_apply (x0 : Vec Ideal S200x10000 .f32) (x1 : Vec Ideal S10000x16 .f32) (y : S200x32.Idx) :
    k1_pay1 (F := Ideal) x0 x1 y = Cert.Spec.hilo (Cert.Spec.mm (a := 200) (k := 10000) (b := 16) (φ₁ := .f32) (φ₂ := .f32) x0 x1) y := by
  obtain ⟨p, q, rfl⟩ : ∃ (p : Fin 200) (q : Fin 32), y = ix2 p q := ⟨y 0, y 1, eq_ix2 y⟩
  unfold k1_pay1
  by_cases hq : q.val < 16
  · refine (concatenate_pair_apply_left (1 : Fin S200x32.rank) _ _ concatenates_S200x16_S200x16_S200x32_d1 (ix2 p q) rfl
      (ix2 p ⟨q.val, hq⟩) (fun b => by match b with | ⟨0, _⟩ => rfl | ⟨1, _⟩ => rfl)).trans ?_
    rw [hilo_lo _ p q hq]
    exact tile0_apply x0 x1 p ⟨q.val, hq⟩
  · refine (concatenate_pair_apply_right (1 : Fin S200x32.rank) _ _ concatenates_S200x16_S200x16_S200x32_d1 (ix2 p q) rfl rfl
      (ix2 p ⟨q.val - 16, by omega⟩) (fun b hb => by
        match b with
        | ⟨0, _⟩ => rfl
        | ⟨1, _⟩ => exact absurd rfl hb) (by show q.val - 16 + 16 = q.val; omega)).trans ?_
    rw [hilo_hi _ p q hq]
    show (matmul dot_S200x10000_S10000x16_S200x16_1_0_0_1_n_n none x0 x1 (constant (F := Ideal) S200x16 .f32 0x00000000#32) : FVec Ideal S200x16 .f32) (ix2 p ⟨q.val - 16, _⟩)
        - (matmul dot_S200x10000_S10000x16_S200x16_1_0_0_1_n_n none x0 x1 (constant (F := Ideal) S200x16 .f32 0x00000000#32) : FVec Ideal S200x16 .f32) (ix2 p ⟨q.val - 16, _⟩) = _
    rw [tile0_apply x0 x1 p ⟨q.val - 16, by omega⟩]
    rfl

/-! ## From a band to the array -/

/-- The printed index maps, decided over the grid: point `t` takes band `t` of `X`, all of `W`, and writes band `t`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of `[X·W | X·W − X·W]` of the arrays as the region finds them. -/
theorem flushed1_2_eq (c : Dev nD) (t : Fin cfg1.N) :
    (dat1 (F := Ideal) V c).flushed 2 t = ((cfg1.win 2).blk t).view.read (Elt Ideal) (Cert.Spec.xwPair (V c main_arg1) (V c main_arg6)) := by
  show (cfg1.win 2).cut (grid1.coords t) ((dat1 V c).after 2 t) = _
  rw [after1_2]
  unfold out1_2
  rw [View.canon_unit_zero hz1]
  simp only [View.ld_unit_zero (S := S200x10000) hz1, View.ld_unit_zero (S := S10000x16) hz1]
  obtain ⟨e0, e1, e2, e3, e4, e5⟩ := idx_facts1 t
  have hN : t.val < 50 := lt_of_lt_of_eq t.isLt N_1
  funext y
  refine (pay1_apply (iblk1 V c 0 t) (iblk1 V c 1 t) y).trans ?_
  refine band0_eq (V c main_arg1) (V c main_arg6) (iblk1 V c 0 t) (iblk1 V c 1 t) t.val hN ?_ ?_ y (((cfg1.win 2).blk t).view.emb y) ?_ ?_
  · intro r k
    show V c main_arg1 (((cfg1.win 0).blk t).view.emb (ix2 r k)) = V c main_arg1 _
    refine congrArg _ (funext fun a => Fin.ext ?_)
    match a with
    | ⟨0, _⟩ => show win1_0.index t (0 : Fin 2) * 200 + 1 * r.val = 200 * t.val + r.val; omega
    | ⟨1, _⟩ => show win1_0.index t (1 : Fin 2) * 10000 + 1 * k.val = k.val; omega
  · intro z
    show V c main_arg6 (((cfg1.win 1).blk t).view.emb z) = V c main_arg6 z
    refine congrArg _ (funext fun a => Fin.ext ?_)
    match a with
    | ⟨0, _⟩ => show win1_1.index t (0 : Fin 2) * 10000 + 1 * (z 0).val = (z 0).val; omega
    | ⟨1, _⟩ => show win1_1.index t (1 : Fin 2) * 16 + 1 * (z 1).val = (z 1).val; omega
  · show win1_2.index t (0 : Fin 2) * 200 + 1 * (y 0).val = 200 * t.val + (y 0).val; omega
  · show win1_2.index t (1 : Fin 2) * 32 + 1 * (y 1).val = (y 1).val; omega

/-- An index of the result is in point `t`'s block iff each coordinate is in the block's range on its axis. -/
theorem mem_blk1_2 (t : Fin cfg1.N) (i : S10000x32.Idx) :
    i ∈ ((cfg1.win 2).blk t).view.set ↔ ∀ a : Fin 2, win1_2.index t a * S200x32.size a ≤ (i a).val ∧ (i a).val < win1_2.index t a * S200x32.size a + S200x32.size a := by
  show i ∈ ((View.whole main_v1).slice (win1_2.rect t)).set ↔ _
  rw [View.set_slice_whole, Rect.mem_set_unit]
  exact Iff.rfl

/-- Row `r` of the result is written by point `r / 200`. -/
theorem covered1_2 (i : S10000x32.Idx) :
    ∃ t : Fin cfg1.N, (cfg1.win 2).flush t = true ∧ i ∈ ((cfg1.win 2).blk t).view.set := by
  have hi0 : (i 0).val < 10000 := idx2_lt0 i
  have hi1 : (i 1).val < 32 := idx2_lt1 i
  let t : Fin cfg1.N := ⟨(i 0).val / 200, lt_of_lt_of_eq (by omega) N_1.symm⟩
  obtain ⟨e0, e1, e2, e3, e4, e5⟩ := idx_facts1 t
  have ht : t.val = (i 0).val / 200 := rfl
  refine ⟨t, flush1_2 t, ?_⟩
  rw [mem_blk1_2]
  intro a
  match a with
  | ⟨0, _⟩ => show win1_2.index t (0 : Fin 2) * 200 ≤ (i 0).val ∧ (i 0).val < win1_2.index t (0 : Fin 2) * 200 + 200; omega
  | ⟨1, _⟩ => show win1_2.index t (1 : Fin 2) * 32 ≤ (i 1).val ∧ (i 1).val < win1_2.index t (1 : Fin 2) * 32 + 32; omega

/-- THE RESULT ARRAY after the region: `[X·W | X·W − X·W]` of the two arrays the region was entered with. -/
theorem final1_2 (c : Dev nD) :
    (dat1 (F := Ideal) V c).arrAt 2 cfg1.N = Cert.Spec.xwPair (V c main_arg1) (V c main_arg6) :=
  (dat1 V c).arrAt_eq_of_cover 2 _ (fun t _ => flushed1_2_eq V c t) (covered1_2)

end Cert.KernelIdeal.Hand

end
-- ==== Proof.PropInPieces.lean ====
/-
  Region 2: what the frame's found contents ARE, as the body's payloads of the blocks it loaded — case by case,
  then band by band (the scratch after band `n` is the running sum `acc2`).
-/
import proofs.«111736_g88691074663054_cont_9to1c4b_58_39_alg».proof.Proof.PropInFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- At the first band the one store into window 4 writes the payload of the adjacency band and the whole second product. -/
theorem out2_A_4_eq (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) :
    out2_A_4 c i arg1 harg1 arg2 harg2 arg3 harg3 arg4 harg4 arg5 harg5 arg6 harg6 hc0 hc1 hc2 x0 x1 x2 = k2_pay2 x0 x2 := by
  unfold out2_A_4
  rw [View.read_writes_eq_canon _ _ _ (cover2_A_4 c i arg1 harg1 arg2 harg2 arg3 harg3 arg4 harg4 arg5 harg5 arg6 harg6 hc0 hc1 hc2 x0 x1 x2)]
  unfold kernelRun2_A
  dsimp only
  sl_unfold_words
  rw [View.canon_unit_zero hz2]
  simp only [View.readAt_eq_ld, harg1.read_unread, harg3.read_unread, View.ld_unit_zero (S := S200x10000) hz2, View.ld_unit_zero (S := S200x32) hz2, View.ld_unit_zero (S := S10000x32) hz2, View.ld_unit_zero (S := S32x10000) hz2]

/-- At a middle band the one store into window 4 writes the payload of the adjacency band and the whole second product. -/
theorem out2_B_4_eq (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) :
    out2_B_4 c i arg1 harg1 arg2 harg2 arg3 harg3 arg4 harg4 arg5 harg5 arg6 harg6 hc0 hc1 hc2 x0 x1 x2 xs = k2_pay2 x0 x2 := by
  unfold out2_B_4
  rw [View.read_writes_eq_canon _ _ _ (cover2_B_4 c i arg1 harg1 arg2 harg2 arg3 harg3 arg4 harg4 arg5 harg5 arg6 harg6 hc0 hc1 hc2 x0 x1 x2 xs)]
  unfold kernelRun2_B
  dsimp only
  sl_unfold_words
  rw [View.canon_unit_zero hz2]
  simp only [View.readAt_eq_ld, harg1.read_unread, harg3.read_unread, View.ld_unit_zero (S := S200x10000) hz2, View.ld_unit_zero (S := S200x32) hz2, View.ld_unit_zero (S := S10000x32) hz2, View.ld_unit_zero (S := S32x10000) hz2]

/-- At the last band the one store into window 4 writes the payload of the adjacency band and the whole second product. -/
theorem out2_C_4_eq (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) :
    out2_C_4 c i arg1 harg1 arg2 harg2 arg3 harg3 arg4 harg4 arg5 harg5 arg6 harg6 hc0 hc1 hc2 x0 x1 x2 xs = k2_pay2 x0 x2 := by
  unfold out2_C_4
  rw [View.read_writes_eq_canon _ _ _ (cover2_C_4 c i arg1 harg1 arg2 harg2 arg3 harg3 arg4 harg4 arg5 harg5 arg6 harg6 hc0 hc1 hc2 x0 x1 x2 xs)]
  unfold kernelRun2_C
  dsimp only
  sl_unfold_words
  rw [View.canon_unit_zero hz2]
  simp only [View.readAt_eq_ld, harg1.read_unread, harg3.read_unread, View.ld_unit_zero (S := S200x10000) hz2, View.ld_unit_zero (S := S200x32) hz2, View.ld_unit_zero (S := S10000x32) hz2, View.ld_unit_zero (S := S32x10000) hz2]

/-- The first band stores its own contribution into the scratch. -/
theorem sout2_A_eq (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) :
    sout2_A c i arg1 harg1 arg2 harg2 arg3 harg3 arg4 harg4 arg5 harg5 arg6 harg6 hc0 hc1 hc2 x0 x1 x2 = k2_pay4 x0 x1 := by
  unfold sout2_A
  rw [View.read_writes_eq_canon _ _ _ (scover2_A c i arg1 harg1 arg2 harg2 arg3 harg3 arg4 harg4 arg5 harg5 arg6 harg6 hc0 hc1 hc2 x0 x1 x2)]
  unfold kernelRun2_A
  dsimp only
  sl_unfold_words
  rw [View.canon_unit_zero hz2]
  simp only [View.readAt_eq_ld, harg1.read_unread, harg2.read_unread, View.ld_unit_zero (S := S200x10000) hz2, View.ld_unit_zero (S := S200x32) hz2, View.ld_unit_zero (S := S10000x32) hz2, View.ld_unit_zero (S := S32x10000) hz2]

/-- A later band adds its contribution to what the scratch held. -/
theorem sout2_B_eq (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) :
    sout2_B c i arg1 harg1 arg2 harg2 arg3 harg3 arg4 harg4 arg5 harg5 arg6 harg6 hc0 hc1 hc2 x0 x1 x2 xs = k2_pay5 x0 x1 xs := by
  unfold sout2_B
  rw [View.read_writes_eq_canon _ _ _ (scover2_B c i arg1 harg1 arg2 harg2 arg3 harg3 arg4 harg4 arg5 harg5 arg6 harg6 hc0 hc1 hc2 x0 x1 x2 xs)]
  unfold kernelRun2_B
  dsimp only
  sl_unfold_words
  rw [View.canon_unit_zero hz2]
  simp only [View.readAt_eq_ld, harg1.read_unread, harg2.read_unread, harg6.read_unread, View.ld_unit_zero (S := S200x10000) hz2, View.ld_unit_zero (S := S200x32) hz2, View.ld_unit_zero (S := S10000x32) hz2, View.ld_unit_zero (S := S32x10000) hz2]

/-- A later band adds its contribution to what the scratch held. -/
theorem sout2_C_eq (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) :
    sout2_C c i arg1 harg1 arg2 harg2 arg3 harg3 arg4 harg4 arg5 harg5 arg6 harg6 hc0 hc1 hc2 x0 x1 x2 xs = k2_pay5 x0 x1 xs := by
  unfold sout2_C
  rw [View.read_writes_eq_canon _ _ _ (scover2_C c i arg1 harg1 arg2 harg2 arg3 harg3 arg4 harg4 arg5 harg5 arg6 harg6 hc0 hc1 hc2 x0 x1 x2 xs)]
  unfold kernelRun2_C
  dsimp only
  sl_unfold_words
  rw [View.canon_unit_zero hz2]
  simp only [View.readAt_eq_ld, harg1.read_unread, harg2.read_unread, harg6.read_unread, View.ld_unit_zero (S := S200x10000) hz2, View.ld_unit_zero (S := S200x32) hz2, View.ld_unit_zero (S := S10000x32) hz2, View.ld_unit_zero (S := S32x10000) hz2]

/-- The last band reads the finished sum back from the scratch and stores window 3 whole. -/
theorem out2_C_3_eq (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) :
    out2_C_3 c i arg1 harg1 arg2 harg2 arg3 harg3 arg4 harg4 arg5 harg5 arg6 harg6 hc0 hc1 hc2 x0 x1 x2 xs = k2_pay6 (k2_pay5 x0 x1 xs) := by
  unfold out2_C_3
  rw [View.read_writes_eq_canon _ _ _ (cover2_C_3 c i arg1 harg1 arg2 harg2 arg3 harg3 arg4 harg4 arg5 harg5 arg6 harg6 hc0 hc1 hc2 x0 x1 x2 xs)]
  unfold kernelRun2_C
  dsimp only
  sl_unfold_words
  rw [View.canon_unit_zero hz2, View.readCov_unit_zero (S := S32x10000) _ hz2]
  simp only [View.readAt_eq_ld, harg1.read_unread, harg2.read_unread, harg6.read_unread, View.ld_unit_zero (S := S200x10000) hz2, View.ld_unit_zero (S := S200x32) hz2, View.ld_unit_zero (S := S10000x32) hz2, View.ld_unit_zero (S := S32x10000) hz2]

end Cert.KernelIdeal.Hand

end
-- ==== Proof.PropInBands.lean ====
/-
  Region 2: what the frame found in window 4 after each band is the payload of the band's blocks, whichever of the
  three control cases the band is in.
-/
import proofs.«111736_g88691074663054_cont_9to1c4b_58_39_alg».proof.Proof.PropInPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the frame found in window 4 after band `t`: the payload of the band's blocks. -/
theorem outsAt2_win4 (c : Dev nD) (t : Fin cfg2.N) :
    (outsAt2 V c t.val t.isLt).2.1 = k2_pay2 (iblk2 V c 0 t) (iblk2 V c 2 t) := by
  by_cases h0 : t.val = 0
  · have hN : t.val < 50 := lt_of_lt_of_eq t.isLt (show cfg2.N = 50 from N_2)
    have h2 : ¬t.val = 49 := by omega
    rw [outsAt2_A V c t h0 h2]
    dsimp only
    exact out2_A_4_eq c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => (hcond2_1 t).mp h h0) (fun h => h2 ((hcond2_2 t).mp h)) (iblk2 V c 0 t) (iblk2 V c 1 t) (iblk2 V c 2 t)
  · by_cases h2 : t.val = 49
    · rw [outsAt2_C V c t h0 h2]
      dsimp only
      exact out2_C_4_eq c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) ((hcond2_2 t).mpr h2) (iblk2 V c 0 t) (iblk2 V c 1 t) (iblk2 V c 2 t) (outsAt2 V c (t.val - 1) (Nat.lt_of_le_of_lt (Nat.sub_le _ _) t.isLt)).2.2
    · rw [outsAt2_B V c t h0 h2]
      dsimp only
      exact out2_B_4_eq c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) (fun h => h2 ((hcond2_2 t).mp h)) (iblk2 V c 0 t) (iblk2 V c 1 t) (iblk2 V c 2 t) (outsAt2 V c (t.val - 1) (Nat.lt_of_le_of_lt (Nat.sub_le _ _) t.isLt)).2.2

end Cert.KernelIdeal.Hand

end
-- ==== Proof.PropInOps.lean ====
/-
  Region 2 at the ideal instance: the body's layout and pointwise operations are the specification's functions.

  A pair of halves `[y | y - y]` is a concatenation along the columns; adding the two halves back is a sum of two
  slices; the positive part is the maximum with the zero splat; and the block product is the sum over the shared
  index.  With these the payload stored into window 4 is `hilo (relu (halves (x₀ · x₂)))` of the loaded blocks.
-/
import proofs.«111736_g88691074663054_cont_9to1c4b_58_39_alg».proof.Proof.Spec
import proofs.«111736_g88691074663054_cont_9to1c4b_58_39_alg».proof.Proof.Gen.KernelIdeal.Skeleton
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open Cert.Spec (Sh mm mmTN hilo relu halves halves0 tr)

/-! ## Layout and pointwise operations, for any number of rows -/

/-- The concatenation `[y | y - y]` along the columns is the pair of halves of `y`. -/
theorem concat_hilo {n : Nat} (Y : FVec Ideal (Sh n 16) .f32) (hb : FTy.bf16.bits < FTy.f32.bits)
    (hc : Shape.Concatenates [Sh n 16, Sh n 16] (Sh n 32) (1 : Fin 2)) :
    concatenate (Sh n 32) (1 : Fin 2) [⟨Sh n 16, truncf .bf16 Y hb⟩, ⟨Sh n 16, truncf .bf16 (subf Y Y) hb⟩] hc = hilo Y := by
  funext j
  obtain ⟨r, col, rfl⟩ : ∃ (r : Fin n) (col : Fin 32), j = ix2 r col := ⟨j 0, j 1, eq_ix2 j⟩
  have hcol : col.val < 32 := col.isLt
  unfold hilo
  by_cases h : col.val < 16
  · rw [dif_pos (show ((ix2 r col : (Sh n 32).Idx) 1).val < 16 from h)]
    exact concatenate_pair_apply_left (t := Sh n 32) (s₁ := Sh n 16) (s₂ := Sh n 16) (1 : Fin 2) _ _ hc (ix2 r col) rfl (ix2 r ⟨col.val, h⟩)
      (fun b => match b with | ⟨0, _⟩ => rfl | ⟨1, _⟩ => rfl)
  · rw [dif_neg (show ¬((ix2 r col : (Sh n 32).Idx) 1).val < 16 from h)]
    exact concatenate_pair_apply_right (t := Sh n 32) (s₁ := Sh n 16) (s₂ := Sh n 16) (1 : Fin 2) _ _ hc (ix2 r col) rfl rfl (ix2 r ⟨col.val - 16, by omega⟩)
      (fun b hb => match b, hb with | ⟨0, _⟩, _ => rfl | ⟨1, _⟩, hb => absurd rfl hb)
      (by show col.val - 16 + 16 = col.val; omega)

/-- The two column halves of a 32-column array, sliced out and added. -/
theorem slices_halves {n : Nat} (Z : FVec Ideal (Sh n 32) .f32) (h1 : (Sh n 32).Slices ![0, 0] (Sh n 16))
    (h2 : (Sh n 32).Slices ![0, 16] (Sh n 16)) :
    addf (extractStridedSlice (Sh n 16) ![0, 0] Z h1) (extractStridedSlice (Sh n 16) ![0, 16] Z h2) = halves Z := by
  funext j
  obtain ⟨r, p, rfl⟩ : ∃ (r : Fin n) (p : Fin 16), j = ix2 r p := ⟨j 0, j 1, eq_ix2 j⟩
  have hp : p.val < 16 := p.isLt
  show extractStridedSlice (Sh n 16) ![0, 0] Z h1 (ix2 r p) + extractStridedSlice (Sh n 16) ![0, 16] Z h2 (ix2 r p) = _
  rw [extractStridedSlice_apply ![0, 0] Z h1 (ix2 r p) (ix2 r ⟨p.val, by omega⟩)
        (fun a => match a with | ⟨0, _⟩ => by show r.val = 0 + r.val; omega | ⟨1, _⟩ => by show p.val = 0 + p.val; omega),
    extractStridedSlice_apply ![0, 16] Z h2 (ix2 r p) (ix2 r ⟨p.val + 16, by omega⟩)
        (fun a => match a with | ⟨0, _⟩ => by show r.val = 0 + r.val; omega | ⟨1, _⟩ => by show p.val + 16 = 16 + p.val; omega)]
  rfl

/-- The two row halves of a 32-row array, sliced out and added. -/
theorem slices_halves0 {n : Nat} (Z : FVec Ideal (Sh 32 n) .f32) (h1 : (Sh 32 n).Slices ![0, 0] (Sh 16 n))
    (h2 : (Sh 32 n).Slices ![16, 0] (Sh 16 n)) :
    addf (extractStridedSlice (Sh 16 n) ![0, 0] Z h1) (extractStridedSlice (Sh 16 n) ![16, 0] Z h2) = halves0 Z := by
  funext j
  obtain ⟨p, q, rfl⟩ : ∃ (p : Fin 16) (q : Fin n), j = ix2 p q := ⟨j 0, j 1, eq_ix2 j⟩
  have hp : p.val < 16 := p.isLt
  show extractStridedSlice (Sh 16 n) ![0, 0] Z h1 (ix2 p q) + extractStridedSlice (Sh 16 n) ![16, 0] Z h2 (ix2 p q) = _
  rw [extractStridedSlice_apply ![0, 0] Z h1 (ix2 p q) (ix2 ⟨p.val, by omega⟩ q)
        (fun a => match a with | ⟨0, _⟩ => by show p.val = 0 + p.val; omega | ⟨1, _⟩ => by show q.val = 0 + q.val; omega),
    extractStridedSlice_apply ![16, 0] Z h2 (ix2 p q) (ix2 ⟨p.val + 16, by omega⟩ q)
        (fun a => match a with | ⟨0, _⟩ => by show p.val + 16 = 16 + p.val; omega | ⟨1, _⟩ => by show q.val = 0 + q.val; omega)]
  rfl

/-- The maximum with the zero splat is the positive part. -/
theorem max_zero_relu {a b : Nat} (Y : FVec Ideal (Sh a b) .f32) :
    maximumf Y (broadcast (Sh a b) (Scalar.ofBits (F := Ideal) .f32 0x00000000#32)) = relu Y := by
  funext j
  show max (Y j) (Ideal.ofBits .f32 0x00000000#32) = max (Y j) 0
  rw [Ideal.ofBits_zero_f32]

/-- The transposition of a 16-row array. -/
theorem transpose_tr {n : Nat} (Y : FVec Ideal (Sh 16 n) .f32) (h : (Sh 16 n).Transposes [1, 0] (Sh n 16)) :
    transpose (Sh n 16) [1, 0] Y h = tr Y := by
  funext j
  obtain ⟨q, p, rfl⟩ : ∃ (q : Fin n) (p : Fin 16), j = ix2 q p := ⟨j 0, j 1, eq_ix2 j⟩
  exact transpose_ix2_apply Y h q p

/-! ## Rows: each of the specification's functions reads one row of its argument -/

theorem mm_row {a a' k b : Nat} {φ₁ φ₂ : FTy} (X : FVec Ideal (Sh a k) φ₁) (X' : FVec Ideal (Sh a' k) φ₁)
    (W W' : FVec Ideal (Sh k b) φ₂) (r : Fin a) (R : Fin a') (hX : ∀ q : Fin k, X (ix2 r q) = X' (ix2 R q))
    (hW : ∀ (q : Fin k) (c : Fin b), W (ix2 q c) = W' (ix2 q c)) (c : Fin b) :
    mm X W (ix2 r c) = mm X' W' (ix2 R c) := by
  show (∑ q : Fin k, X (ix2 r q) * W (ix2 q c)) = ∑ q : Fin k, X' (ix2 R q) * W' (ix2 q c)
  exact Finset.sum_congr rfl fun q _ => by rw [hX, hW]

theorem halves_row {n n' : Nat} {φ : FTy} (Z : FVec Ideal (Sh n 32) φ) (Z' : FVec Ideal (Sh n' 32) φ) (r : Fin n) (R : Fin n')
    (h : ∀ q : Fin 32, Z (ix2 r q) = Z' (ix2 R q)) (p : Fin 16) : halves Z (ix2 r p) = halves Z' (ix2 R p) := by
  have hp : p.val < 16 := p.isLt
  show Z (ix2 r ⟨p.val, by omega⟩) + Z (ix2 r ⟨p.val + 16, by omega⟩) = Z' (ix2 R ⟨p.val, by omega⟩) + Z' (ix2 R ⟨p.val + 16, by omega⟩)
  rw [h, h]

theorem relu_row {a a' b : Nat} (Y : FVec Ideal (Sh a b) .f32) (Y' : FVec Ideal (Sh a' b) .f32) (r : Fin a) (R : Fin a') (p : Fin b)
    (h : Y (ix2 r p) = Y' (ix2 R p)) : relu Y (ix2 r p) = relu Y' (ix2 R p) := by
  show max (Y (ix2 r p)) 0 = max (Y' (ix2 R p)) 0
  rw [h]

theorem hilo_row {n n' : Nat} (Y : FVec Ideal (Sh n 16) .f32) (Y' : FVec Ideal (Sh n' 16) .f32) (r : Fin n) (R : Fin n')
    (h : ∀ p : Fin 16, Y (ix2 r p) = Y' (ix2 R p)) (col : Fin 32) : hilo Y (ix2 r col) = hilo Y' (ix2 R col) := by
  have hcol : col.val < 32 := col.isLt
  show (if hh : col.val < 16 then Y (ix2 r ⟨col.val, hh⟩) else Y (ix2 r ⟨col.val - 16, by omega⟩) - Y (ix2 r ⟨col.val - 16, by omega⟩))
    = (if hh : col.val < 16 then Y' (ix2 R ⟨col.val, hh⟩) else Y' (ix2 R ⟨col.val - 16, by omega⟩) - Y' (ix2 R ⟨col.val - 16, by omega⟩))
  split
  · exact h _
  · rw [h]

/-! ## The block product of an adjacency band with the whole second feature product -/

private abbrev D1 := dot_S200x10000_S10000x32_S200x32_1_0_0_1_n_n

theorem lhs1_0 (j : S200x32.Idx) (q : D1.contr.Idx) : (D1.lhsIdx j q 0).val = (j 0).val := by
  unfold DotDims.lhsIdx
  rw [dif_neg (show ¬(0 : Fin S200x10000.rank) ∈ D1.lhsBatch by decide), dif_pos (show (0 : Fin S200x10000.rank) ∈ D1.lhsNonContracting by decide)]
  rfl
theorem lhs1_1 (j : S200x32.Idx) (q : D1.contr.Idx) : (D1.lhsIdx j q 1).val = (q ⟨0, by decide⟩).val :=
  D1.lhsIdx_val_of_single rfl j q
theorem rhs1_0 (j : S200x32.Idx) (q : D1.contr.Idx) : (D1.rhsIdx j q 0).val = (q ⟨0, by decide⟩).val :=
  D1.rhsIdx_val_of_single rfl j q
theorem rhs1_1 (j : S200x32.Idx) (q : D1.contr.Idx) : (D1.rhsIdx j q 1).val = (j 1).val := by
  unfold DotDims.rhsIdx
  rw [dif_neg (show ¬(1 : Fin S10000x32.rank) ∈ D1.rhsBatch by decide), dif_pos (show (1 : Fin S10000x32.rank) ∈ D1.rhsNonContracting by decide)]
  rfl

/-- Into the zero accumulator, the block product is rows times columns. -/
theorem matmul1_eq (A : FVec Ideal S200x10000 .bf16) (B : FVec Ideal S10000x32 .bf16) :
    matmul D1 none A B (constant (F := Ideal) S200x32 .f32 0x00000000#32) = mm (a := 200) (k := 10000) (b := 32) A B := by
  funext j
  obtain ⟨r, q, rfl⟩ : ∃ (r : Fin 200) (q : Fin 32), j = ix2 r q := ⟨j 0, j 1, eq_ix2 j⟩
  unfold mm
  show FloatOps.matmul D1 none A B (constant (F := Ideal) S200x32 .f32 0x00000000#32) (ix2 r q) = ∑ k : Fin 10000, A (ix2 r k) * B (ix2 k q)
  rw [Ideal.matmul_constant_zero_apply, ← Equiv.sum_comp (contrEquiv1 D1 10000 rfl rfl).symm]
  refine Finset.sum_congr rfl fun k _ => ?_
  have hk := contrEquiv1_symm_val D1 10000 rfl rfl k
  have el : D1.lhsIdx (ix2 r q) ((contrEquiv1 D1 10000 rfl rfl).symm k) = ix2 r k := funext fun a => Fin.ext (by
    match a with
    | ⟨0, _⟩ => exact lhs1_0 _ _
    | ⟨1, _⟩ => exact (lhs1_1 _ _).trans hk)
  have er : D1.rhsIdx (ix2 r q) ((contrEquiv1 D1 10000 rfl rfl).symm k) = ix2 k q := funext fun a => Fin.ext (by
    match a with
    | ⟨0, _⟩ => exact (rhs1_0 _ _).trans hk
    | ⟨1, _⟩ => exact rhs1_1 _ _)
  rw [el, er]

/-! ## The payload stored into window 4 -/

/-- The positive part of the band's rows of `adj · xw₂`, halves added back, as a pair of halves. -/
theorem pay2_eq (x0 : Vec Ideal S200x10000 .f32) (x2 : Vec Ideal S10000x32 .bf16) :
    k2_pay2 (F := Ideal) x0 x2 = hilo (relu (halves (mm (a := 200) (k := 10000) (b := 32) (φ₁ := .f32) (φ₂ := .bf16) x0 x2))) := by
  unfold k2_pay2 k2_pay1
  refine (concat_hilo (n := 200) _ _ _).trans ?_
  refine congrArg hilo ?_
  refine (max_zero_relu _).trans ?_
  refine congrArg relu ?_
  refine (slices_halves (n := 200) _ _ _).trans ?_
  refine congrArg halves ?_
  refine (congrArg (fun B => matmul D1 none (truncf .bf16 x0 bitsLt_bf16_f32) B (constant (F := Ideal) S200x32 .f32 0x00000000#32)) (shapeCast_self x2 _)).trans ?_
  exact matmul1_eq _ _

end Cert.KernelIdeal.Hand

end
-- ==== Proof.PropInValue.lean ====
/-
  Region 2 at the ideal instance: the second result.  Every band writes its 200 rows of window 4 back, and those
  rows are the same rows of `hilo (relu (halves (adj · xw₂)))`: row `200 t + r` of the product reads row `r` of
  the band's block of `adj` and the whole of `xw₂`.  The bands tile the array, so it ends at that function.
-/
import proofs.«111736_g88691074663054_cont_9to1c4b_58_39_alg».proof.Proof.PropInBands
import proofs.«111736_g88691074663054_cont_9to1c4b_58_39_alg».proof.Proof.PropInOps
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Spec (Sh mm hilo relu halves)

variable (V : (c : Dev nD) → (b : Ref sig .tc) → Buf (Elt Ideal) ((c : Thread nD τ).loc b))

/-- The printed index maps over the grid: the adjacency band and window 4's block move with the band, the second
    feature product stays whole. -/
theorem idx_facts2 : ∀ t : Fin cfg2.N, win2_0.index t (0 : Fin 2) = t.val ∧ win2_0.index t (1 : Fin 2) = 0
    ∧ win2_2.index t (0 : Fin 2) = 0 ∧ win2_2.index t (1 : Fin 2) = 0
    ∧ win2_4.index t (0 : Fin 2) = t.val ∧ win2_4.index t (1 : Fin 2) = 0 :=
  (by decide +kernel : ∀ t : Fin grid2.N, _)

theorem band_lt (t : Fin cfg2.N) (r : Fin 200) : 200 * t.val + r.val < 10000 := by
  have ht : t.val < 50 := lt_of_lt_of_eq t.isLt (show cfg2.N = 50 from N_2)
  have hr : r.val < 200 := r.isLt
  omega

/-- Row `r` of the adjacency block at band `t` is row `200 t + r` of the adjacency matrix. -/
theorem iblk2_0_apply (c : Dev nD) (t : Fin cfg2.N) (r : Fin 200) (k : Fin 10000) :
    (iblk2 V c 0 t : Vec Ideal S200x10000 .f32) (ix2 r k) = (V c main_arg2 : S10000x10000.Idx → Ideal .f32) (ix2 ⟨200 * t.val + r.val, band_lt t r⟩ k) := by
  obtain ⟨e0, e1, -⟩ := idx_facts2 t
  unfold iblk2
  rw [View.read_apply]
  show V c main_arg2 _ = V c main_arg2 _
  congr 1
  funext a
  apply Fin.ext
  match a with
  | ⟨0, _⟩ => show win2_0.index t (0 : Fin 2) * 200 + 1 * r.val = 200 * t.val + r.val; rw [e0]; omega
  | ⟨1, _⟩ => show win2_0.index t (1 : Fin 2) * 10000 + 1 * k.val = k.val; rw [e1]; omega

/-- The block of the second feature product is the whole array, at every band. -/
theorem iblk2_2_apply (c : Dev nD) (t : Fin cfg2.N) (k : Fin 10000) (q : Fin 32) :
    (iblk2 V c 2 t : Vec Ideal S10000x32 .bf16) (ix2 k q) = (V c main_v1 : S10000x32.Idx → Ideal .bf16) (ix2 k q) := by
  obtain ⟨-, -, e0, e1, -⟩ := idx_facts2 t
  unfold iblk2
  rw [View.read_apply]
  show V c main_v1 _ = V c main_v1 _
  congr 1
  funext a
  apply Fin.ext
  match a with
  | ⟨0, _⟩ => show win2_2.index t (0 : Fin 2) * 10000 + 1 * k.val = k.val; rw [e0]; omega
  | ⟨1, _⟩ => show win2_2.index t (1 : Fin 2) * 32 + 1 * q.val = q.val; rw [e1]; omega

/-- The payload of a band's blocks, read at row `r`, is row `R` of the whole-array function whenever row `r` of the
    adjacency block is row `R` of the adjacency matrix. -/
theorem pay2_row (x0 : Vec Ideal S200x10000 .f32) (x2 : Vec Ideal S10000x32 .bf16)
    (adj : FVec Ideal (Sh 10000 10000) .f32) (xw2 : FVec Ideal (Sh 10000 32) .bf16) (r : Fin 200) (R : Fin 10000) (col : Fin 32)
    (h0 : ∀ k : Fin 10000, x0 (ix2 r k) = adj (ix2 R k)) (h2 : ∀ (k : Fin 10000) (q : Fin 32), x2 (ix2 k q) = xw2 (ix2 k q)) :
    k2_pay2 (F := Ideal) x0 x2 (ix2 r col) = Cert.Spec.h2Pair adj xw2 (ix2 R col) := by
  rw [pay2_eq]
  show hilo (relu (halves (mm (a := 200) (k := 10000) (b := 32) (φ₁ := .f32) (φ₂ := .bf16) x0 x2))) (ix2 r col)
    = hilo (relu (halves (mm adj xw2))) (ix2 R col)
  refine hilo_row _ _ r R (fun p => ?_) col
  refine relu_row _ _ r R p ?_
  refine halves_row _ _ r R (fun q => ?_) p
  exact mm_row _ _ _ _ r R h0 h2 q

/-- WHAT BAND `t` WRITES BACK to window 4's array is block `t` of the whole-array function. -/
theorem flushed2_4_eq (c : Dev nD) (t : Fin cfg2.N) :
    (dat2 V c).flushed 4 t = ((cfg2.win 4).blk t).view.read (Elt Ideal) (Cert.Spec.h2Pair (V c main_arg2) (V c main_v1)) := by
  show (cfg2.win 4).cut (grid2.coords t) ((dat2 V c).after 4 t) = _
  rw [after2_4, outsAt2_win4]
  obtain ⟨-, -, -, -, e0, e1⟩ := idx_facts2 t
  funext j
  obtain ⟨r, col, rfl⟩ : ∃ (r : Fin 200) (col : Fin 32), j = ix2 r col := ⟨j 0, j 1, eq_ix2 j⟩
  rw [View.read_apply]
  have hemb : ((cfg2.win 4).blk t).view.emb (ix2 r col) = (ix2 ⟨200 * t.val + r.val, band_lt t r⟩ col : S10000x32.Idx) := by
    funext a
    apply Fin.ext
    match a with
    | ⟨0, _⟩ => show win2_4.index t (0 : Fin 2) * 200 + 1 * r.val = 200 * t.val + r.val; rw [e0]; omega
    | ⟨1, _⟩ => show win2_4.index t (1 : Fin 2) * 32 + 1 * col.val = col.val; rw [e1]; omega
  rw [hemb]
  exact pay2_row (iblk2 V c 0 t) (iblk2 V c 2 t) (V c main_arg2) (V c main_v1) r ⟨200 * t.val + r.val, band_lt t r⟩ col
    (fun k => iblk2_0_apply V c t r k) (fun k q => iblk2_2_apply V c t k q)

/-- An index of the array is in band `t`'s block iff each coordinate is in the block's range on its axis. -/
theorem mem_blk2_4 (t : Fin cfg2.N) (i : S10000x32.Idx) :
    i ∈ ((cfg2.win 4).blk t).view.set ↔ ∀ a : Fin 2, win2_4.index t a * S200x32.size a ≤ (i a).val ∧ (i a).val < win2_4.index t a * S200x32.size a + S200x32.size a := by
  show i ∈ ((View.whole main_v2_1).slice (win2_4.rect t)).set ↔ _
  rw [View.set_slice_whole, Rect.mem_set_unit]
  exact Iff.rfl

/-- THE SECOND RESULT after the region: the positive part of `adj · xw₂`, as a pair of halves. -/
theorem final2_4 (c : Dev nD) :
    (dat2 (F := Ideal) V c).arrAt 4 cfg2.N = Cert.Spec.h2Pair (V c main_arg2) (V c main_v1) :=
  (dat2 V c).arrAt_eq_of_cover 4 _ (fun t _ => flushed2_4_eq V c t) (fun i => by
    have hi0 : (i 0).val < 10000 := (i 0).isLt
    have hi1 : (i 1).val < 32 := (i 1).isLt
    have hN : cfg2.N = 50 := N_2
    have hb : (i 0).val / 200 < cfg2.N := by rw [hN]; omega
    obtain ⟨-, -, -, -, e0, e1⟩ := idx_facts2 ⟨(i 0).val / 200, hb⟩
    refine ⟨⟨(i 0).val / 200, hb⟩, flush2_4 _, ?_⟩
    rw [mem_blk2_4]
    intro a
    match a with
    | ⟨0, _⟩ =>
      show win2_4.index ⟨(i 0).val / 200, hb⟩ (0 : Fin 2) * 200 ≤ (i 0).val ∧ (i 0).val < win2_4.index ⟨(i 0).val / 200, hb⟩ (0 : Fin 2) * 200 + 200
      rw [e0]; dsimp only; omega
    | ⟨1, _⟩ =>
      show win2_4.index ⟨(i 0).val / 200, hb⟩ (1 : Fin 2) * 32 ≤ (i 1).val ∧ (i 1).val < win2_4.index ⟨(i 0).val / 200, hb⟩ (1 : Fin 2) * 32 + 32
      rw [e1]; omega)

end Cert.KernelIdeal.Hand

end
-- ==== Proof.PropInScratch.lean ====
/-
  Region 2: the scratch band by band, and window 3 at the last band, as payloads of the band's blocks and of what
  the band before left — whichever control case the band is in.
-/
import proofs.«111736_g88691074663054_cont_9to1c4b_58_39_alg».proof.Proof.PropInPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- After the first band the scratch holds that band's contribution. -/
theorem scratch2_first (c : Dev nD) (t : Fin cfg2.N) (h0 : t.val = 0) :
    (outsAt2 V c t.val t.isLt).2.2 = k2_pay4 (iblk2 V c 0 t) (iblk2 V c 1 t) := by
  have hN : t.val < 50 := lt_of_lt_of_eq t.isLt (show cfg2.N = 50 from N_2)
  have h2 : ¬t.val = 49 := by omega
  rw [outsAt2_A V c t h0 h2]
  dsimp only
  exact sout2_A_eq c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => (hcond2_1 t).mp h h0) (fun h => h2 ((hcond2_2 t).mp h)) (iblk2 V c 0 t) (iblk2 V c 1 t) (iblk2 V c 2 t)

/-- After a later band the scratch holds that band's contribution added to what the band before left. -/
theorem scratch2_later (c : Dev nD) (t : Fin cfg2.N) (h0 : ¬t.val = 0) :
    (outsAt2 V c t.val t.isLt).2.2 = k2_pay5 (iblk2 V c 0 t) (iblk2 V c 1 t) (outsAt2 V c (t.val - 1) (Nat.lt_of_le_of_lt (Nat.sub_le _ _) t.isLt)).2.2 := by
  by_cases h2 : t.val = 49
  · rw [outsAt2_C V c t h0 h2]
    dsimp only
    exact sout2_C_eq c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) ((hcond2_2 t).mpr h2) (iblk2 V c 0 t) (iblk2 V c 1 t) (iblk2 V c 2 t) (outsAt2 V c (t.val - 1) (Nat.lt_of_le_of_lt (Nat.sub_le _ _) t.isLt)).2.2
  · rw [outsAt2_B V c t h0 h2]
    dsimp only
    exact sout2_B_eq c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) (fun h => h2 ((hcond2_2 t).mp h)) (iblk2 V c 0 t) (iblk2 V c 1 t) (iblk2 V c 2 t) (outsAt2 V c (t.val - 1) (Nat.lt_of_le_of_lt (Nat.sub_le _ _) t.isLt)).2.2

/-- After the last band window 3 holds the payload of the finished sum. -/
theorem win3_last (c : Dev nD) (t : Fin cfg2.N) (h2 : t.val = 49) :
    (outsAt2 V c t.val t.isLt).1 = k2_pay6 (k2_pay5 (iblk2 V c 0 t) (iblk2 V c 1 t) (outsAt2 V c (t.val - 1) (Nat.lt_of_le_of_lt (Nat.sub_le _ _) t.isLt)).2.2) := by
  have h0 : ¬t.val = 0 := by omega
  rw [outsAt2_C V c t h0 h2]
  dsimp only
  exact out2_C_3_eq c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) ((hcond2_2 t).mpr h2) (iblk2 V c 0 t) (iblk2 V c 1 t) (iblk2 V c 2 t) (outsAt2 V c (t.val - 1) (Nat.lt_of_le_of_lt (Nat.sub_le _ _) t.isLt)).2.2

end Cert.KernelIdeal.Hand

end
-- ==== Proof.AccInOps.lean ====
/-
  Region 2's carried sum and its last store, as functions on the extended reals.

  The band's contribution to the carried sum is `xw₁(band)ᵀ · adj(band)`: entry `(p, q)` is
  `Σ_r xw₁(r, p) · adj(r, q)` over the band's 200 rows.  The first band stores it, a later band adds it to what the
  sum held.  The last store takes the finished 32 × 10000 sum, adds its two row halves, takes the positive part,
  transposes, and writes the result as a pair of halves `[y | y - y]`.
-/
import proofs.«111736_g88691074663054_cont_9to1c4b_58_39_alg».proof.Proof.Gen.KernelIdeal.Skeleton
import proofs.«111736_g88691074663054_cont_9to1c4b_58_39_alg».proof.Proof.Spec
import Idealize.ShloMosaic.Lib.Pipeline.Value
import Idealize.ShloMosaic.Lib.ValueIdx
import Idealize.ShloMosaic.PureOps.Ideal.Laws

noncomputable section

namespace Cert.KernelIdeal.Hand.AccIn

open Cert.KernelIdeal Cert.KernelIdeal.Gen Idealize.ShloMosaic Idealize.ShloMosaic.ValueIdx
open scoped BigOperators

/-! ## The band's contribution at an index -/

/-- The contraction of the band's 200 rows: the left operand's first axis against the right operand's first axis. -/
abbrev DT := dot_S200x32_S200x10000_S32x10000_0_0_1_1_n_n

/-- The left operand's index at output `(p, q)` and contraction position `k` is `(k, p)`; -/
theorem accL_0 (i : S32x10000.Idx) (k : DT.contr.Idx) : (DT.lhsIdx i k 0).val = (k ⟨0, by decide⟩).val :=
  DT.lhsIdx_val_of_single rfl i k
theorem accL_1 (i : S32x10000.Idx) (k : DT.contr.Idx) : (DT.lhsIdx i k 1).val = (i 0).val := by
  unfold DotDims.lhsIdx
  rw [dif_neg (show ¬(1 : Fin S200x32.rank) ∈ DT.lhsBatch by decide), dif_pos (show (1 : Fin S200x32.rank) ∈ DT.lhsNonContracting by decide)]
  rfl
/-- the right operand's is `(k, q)`. -/
theorem accR_0 (i : S32x10000.Idx) (k : DT.contr.Idx) : (DT.rhsIdx i k 0).val = (k ⟨0, by decide⟩).val :=
  DT.rhsIdx_val_of_single rfl i k
theorem accR_1 (i : S32x10000.Idx) (k : DT.contr.Idx) : (DT.rhsIdx i k 1).val = (i 1).val := by
  unfold DotDims.rhsIdx
  rw [dif_neg (show ¬(1 : Fin S200x10000.rank) ∈ DT.rhsBatch by decide), dif_pos (show (1 : Fin S200x10000.rank) ∈ DT.rhsNonContracting by decide)]
  rfl

/-- The band's contribution at `(p, q)`: `Σ_r xw₁(r, p) · adj(r, q)` over the band's rows. -/
theorem pay3_apply (v0 : Vec Ideal S200x10000 .f32) (v16 : Vec Ideal S200x32 .bf16) (p : Fin 32) (q : Fin 10000) :
    k2_pay3 (F := Ideal) v0 v16 (ix2 p q) = ∑ r : Fin 200, v16 (ix2 r p) * v0 (ix2 r q) := by
  unfold k2_pay3 k2_pay1
  show (matmul DT none (shapeCast S200x32 v16 shapeCasts_S200x32_S200x32) (truncf .bf16 v0 bitsLt_bf16_f32)
      (constant (F := Ideal) S32x10000 .f32 0x00000000#32) : FVec Ideal S32x10000 .f32) (ix2 p q) = _
  rw [shapeCast_self]
  simp only [matmul]
  rw [Ideal.matmul_constant_zero_apply, ← Equiv.sum_comp (contrEquiv1 DT 200 rfl rfl).symm]
  refine Finset.sum_congr rfl fun k _ => ?_
  have hk := contrEquiv1_symm_val DT 200 rfl rfl k
  have el : DT.lhsIdx (ix2 p q) ((contrEquiv1 DT 200 rfl rfl).symm k) = ix2 k p := funext fun a => Fin.ext (by
    match a with
    | ⟨0, _⟩ => exact (accL_0 _ _).trans hk
    | ⟨1, _⟩ => exact accL_1 _ _)
  have er : DT.rhsIdx (ix2 p q) ((contrEquiv1 DT 200 rfl rfl).symm k) = ix2 k q := funext fun a => Fin.ext (by
    match a with
    | ⟨0, _⟩ => exact (accR_0 _ _).trans hk
    | ⟨1, _⟩ => exact accR_1 _ _)
  rw [el, er]
  rfl

/-- The first band stores its contribution as it is. -/
theorem pay4_eq (v0 : Vec Ideal S200x10000 .f32) (v16 : Vec Ideal S200x32 .bf16) :
    k2_pay4 (F := Ideal) v0 v16 = k2_pay3 (F := Ideal) v0 v16 := by
  unfold k2_pay4
  exact shapeCast_self _ _

/-- A later band adds its contribution to what the sum held. -/
theorem pay5_apply (v0 : Vec Ideal S200x10000 .f32) (v16 : Vec Ideal S200x32 .bf16) (xs : Vec Ideal S32x10000 .f32)
    (j : S32x10000.Idx) : k2_pay5 (F := Ideal) v0 v16 xs j = xs j + k2_pay3 (F := Ideal) v0 v16 j := by
  unfold k2_pay5
  exact congrFun (shapeCast_self _ _) j

/-! ## The last store -/

/-- The finished sum with its two row halves added, its positive part taken, transposed: entry `(p, q)`. -/
theorem h1t_apply (xs : Vec Ideal S32x10000 .f32) (p : Fin 10000) (q : Fin 16) :
    (transpose S10000x16 [1, 0]
        (maximumf (addf (extractStridedSlice S16x10000 ![0, 0] xs slices_S32x10000_o0_0_S16x10000)
            (extractStridedSlice S16x10000 ![16, 0] xs slices_S32x10000_o16_0_S16x10000))
          (broadcast S16x10000 (Scalar.ofBits (F := Ideal) .f32 0x00000000#32)))
        transposes_S16x10000_p1_0_S10000x16 : FVec Ideal S10000x16 .f32) (ix2 p q)
      = Cert.Spec.tr (Cert.Spec.relu (Cert.Spec.halves0 (φ := .f32) xs)) (ix2 p q) := by
  refine (transpose_apply [1, 0] _ transposes_S16x10000_p1_0_S10000x16 (ix2 p q) (ix2 q p)
    (fun b => by match b with | ⟨0, _⟩ => rfl | ⟨1, _⟩ => rfl)).trans ?_
  show max (extractStridedSlice S16x10000 ![0, 0] xs slices_S32x10000_o0_0_S16x10000 (ix2 q p)
        + extractStridedSlice S16x10000 ![16, 0] xs slices_S32x10000_o16_0_S16x10000 (ix2 q p))
      (Ideal.ofBits .f32 0x00000000#32)
    = max (xs (ix2 (⟨q.val, by omega⟩ : Fin 32) p) + xs (ix2 (⟨q.val + 16, by omega⟩ : Fin 32) p)) 0
  rw [extractStridedSlice_apply ![0, 0] xs slices_S32x10000_o0_0_S16x10000 (ix2 q p) (ix2 (⟨q.val, by omega⟩ : Fin 32) p)
      (fun a => by
        match a with
        | ⟨0, _⟩ => show q.val = 0 + q.val; omega
        | ⟨1, _⟩ => show p.val = 0 + p.val; omega),
    extractStridedSlice_apply ![16, 0] xs slices_S32x10000_o16_0_S16x10000 (ix2 q p) (ix2 (⟨q.val + 16, by omega⟩ : Fin 32) p)
      (fun a => by
        match a with
        | ⟨0, _⟩ => show q.val + 16 = 16 + q.val; omega
        | ⟨1, _⟩ => show p.val = 0 + p.val; omega),
    Ideal.ofBits_zero_f32]

/-- A column below 16 of `[y | y - y]` reads `y`; -/
theorem pair_lo {n : Nat} (Y : FVec Ideal (Cert.Spec.Sh n 16) .f32) (p : Fin n) (q : Fin 32) (h : q.val < 16) :
    Cert.Spec.hilo Y (ix2 p q) = Y (ix2 p ⟨q.val, h⟩) := dif_pos h
/-- a column from 16 on reads `y - y` sixteen columns to the left. -/
theorem pair_hi {n : Nat} (Y : FVec Ideal (Cert.Spec.Sh n 16) .f32) (p : Fin n) (q : Fin 32) (h : ¬ q.val < 16) :
    Cert.Spec.hilo Y (ix2 p q) = Y (ix2 p ⟨q.val - 16, by omega⟩) - Y (ix2 p ⟨q.val - 16, by omega⟩) := dif_neg h

/-- The last store writes the pair of halves of the transposed positive part of the halves' sum. -/
theorem pay6_eq (xs : Vec Ideal S32x10000 .f32) :
    k2_pay6 (F := Ideal) xs = Cert.Spec.hilo (Cert.Spec.tr (Cert.Spec.relu (Cert.Spec.halves0 (φ := .f32) xs))) := by
  funext y
  obtain ⟨p, q, rfl⟩ : ∃ (p : Fin 10000) (q : Fin 32), y = ix2 p q := ⟨y 0, y 1, eq_ix2 y⟩
  unfold k2_pay6
  by_cases hq : q.val < 16
  · refine (concatenate_pair_apply_left (1 : Fin S10000x32.rank) _ _ concatenates_S10000x16_S10000x16_S10000x32_d1 (ix2 p q) rfl
      (ix2 p ⟨q.val, hq⟩) (fun b => by match b with | ⟨0, _⟩ => rfl | ⟨1, _⟩ => rfl)).trans ?_
    refine (h1t_apply xs p ⟨q.val, hq⟩).trans ?_
    exact (pair_lo _ p q hq).symm
  · refine (concatenate_pair_apply_right (1 : Fin S10000x32.rank) _ _ concatenates_S10000x16_S10000x16_S10000x32_d1 (ix2 p q) rfl rfl
      (ix2 p ⟨q.val - 16, by omega⟩) (fun b hb => by
        match b with
        | ⟨0, _⟩ => rfl
        | ⟨1, _⟩ => exact absurd rfl hb) (by show q.val - 16 + 16 = q.val; omega)).trans ?_
    have e := h1t_apply xs p ⟨q.val - 16, by omega⟩
    refine Eq.trans ?_ (pair_hi _ p q hq).symm
    exact congrArg₂ (· - ·) e e

/-! ## The carried sum, band after band -/

/-- Band `t`'s contribution at `(p, q)`, in terms of the two whole arrays: `Σ_r xw₁(200·t + r, p) · adj(200·t + r, q)`. -/
def bandTerm (A : FVec Ideal (Cert.Spec.Sh 10000 10000) .f32) (X : FVec Ideal (Cert.Spec.Sh 10000 32) .bf16) (t : ℕ)
    (p : Fin 32) (q : Fin 10000) : EReal :=
  if ht : t < 50 then
    ∑ r : Fin 200, X (ix2 (⟨200 * t + r.val, by omega⟩ : Fin 10000) p) * A (ix2 (⟨200 * t + r.val, by omega⟩ : Fin 10000) q)
  else 0

/-- The carried sum after band `n`: the contributions of bands `0 … n`. -/
def bands (A : FVec Ideal (Cert.Spec.Sh 10000 10000) .f32) (X : FVec Ideal (Cert.Spec.Sh 10000 32) .bf16) (n : ℕ) :
    FVec Ideal (Cert.Spec.Sh 32 10000) .f32 :=
  fun j => ∑ t ∈ Finset.range (n + 1), bandTerm A X t (j 0) (j 1)

section Bands

variable (A : FVec Ideal (Cert.Spec.Sh 10000 10000) .f32) (X : FVec Ideal (Cert.Spec.Sh 10000 32) .bf16)
  (x0 : Vec Ideal S200x10000 .f32) (x1 : Vec Ideal S200x32 .bf16)

/-- If the two loaded blocks are band `t`'s rows of the two arrays, the body's contribution is band `t`'s. -/
theorem pay3_band (t : ℕ) (ht : t < 50)
    (h0 : ∀ (r : Fin 200) (k : Fin 10000), x0 (ix2 r k) = A (ix2 (⟨200 * t + r.val, by omega⟩ : Fin 10000) k))
    (h1 : ∀ (r : Fin 200) (p : Fin 32), x1 (ix2 r p) = X (ix2 (⟨200 * t + r.val, by omega⟩ : Fin 10000) p))
    (p : Fin 32) (q : Fin 10000) : k2_pay3 (F := Ideal) x0 x1 (ix2 p q) = bandTerm A X t p q := by
  refine (pay3_apply x0 x1 p q).trans ?_
  unfold bandTerm
  rw [dif_pos ht]
  exact Finset.sum_congr rfl fun r _ => by rw [h0, h1]

/-- After the first band the carried sum holds band 0's contribution. -/
theorem band_first
    (h0 : ∀ (r : Fin 200) (k : Fin 10000), x0 (ix2 r k) = A (ix2 (⟨200 * 0 + r.val, by omega⟩ : Fin 10000) k))
    (h1 : ∀ (r : Fin 200) (p : Fin 32), x1 (ix2 r p) = X (ix2 (⟨200 * 0 + r.val, by omega⟩ : Fin 10000) p)) :
    k2_pay4 (F := Ideal) x0 x1 = bands A X 0 := by
  funext j
  obtain ⟨p, q, rfl⟩ : ∃ (p : Fin 32) (q : Fin 10000), j = ix2 p q := ⟨j 0, j 1, eq_ix2 j⟩
  refine (congrFun (pay4_eq x0 x1) (ix2 p q)).trans ?_
  refine (pay3_band A X x0 x1 0 (by omega) h0 h1 p q).trans ?_
  show bandTerm A X 0 p q = ∑ t ∈ Finset.range (0 + 1), bandTerm A X t p q
  rw [Finset.sum_range_succ, Finset.sum_range_zero, zero_add]

/-- After a later band the carried sum holds one contribution more. -/
theorem band_next (xs : Vec Ideal S32x10000 .f32) (n m : ℕ) (hm : m = n + 1) (hlt : m < 50)
    (h0 : ∀ (r : Fin 200) (k : Fin 10000), x0 (ix2 r k) = A (ix2 (⟨200 * m + r.val, by omega⟩ : Fin 10000) k))
    (h1 : ∀ (r : Fin 200) (p : Fin 32), x1 (ix2 r p) = X (ix2 (⟨200 * m + r.val, by omega⟩ : Fin 10000) p))
    (hxs : xs = bands A X n) : k2_pay5 (F := Ideal) x0 x1 xs = bands A X m := by
  subst hm
  funext j
  obtain ⟨p, q, rfl⟩ : ∃ (p : Fin 32) (q : Fin 10000), j = ix2 p q := ⟨j 0, j 1, eq_ix2 j⟩
  refine (pay5_apply x0 x1 xs (ix2 p q)).trans ?_
  rw [pay3_band A X x0 x1 (n + 1) hlt h0 h1 p q, hxs]
  show (∑ t ∈ Finset.range (n + 1), bandTerm A X t p q) + bandTerm A X (n + 1) p q
      = ∑ t ∈ Finset.range (n + 1 + 1), bandTerm A X t p q
  exact (Finset.sum_range_succ _ _).symm

/-- After the last band the carried sum is the banded sum of the specification. -/
theorem bands_last : bands A X 49 = Cert.Spec.bandSum X A := by
  funext j
  show ∑ t ∈ Finset.range 50, bandTerm A X t (j 0) (j 1)
    = ∑ t : Fin 50, ∑ r : Fin 200, X (ix2 (⟨200 * t.val + r.val, by omega⟩ : Fin 10000) (j 0))
        * A (ix2 (⟨200 * t.val + r.val, by omega⟩ : Fin 10000) (j 1))
  rw [Finset.sum_range]
  exact Finset.sum_congr rfl fun t _ => dif_pos t.isLt

/-- The last store, over the finished sum, is the first result of the specification's second stage. -/
theorem pay6_bands : k2_pay6 (F := Ideal) (bands A X 49) = Cert.Spec.h1Pair A X := by
  rw [pay6_eq, bands_last]
  rfl

end Bands

end Cert.KernelIdeal.Hand.AccIn

end
-- ==== Proof.PropInValue3.lean ====
/-
  Region 2, first result: the array window 3 is written back to after the region is the specification's `h1Pair`.

  Window 3's block is the whole 10000 × 32 array; it is stored, and written back, once: at the last of the 50 bands.
  What is stored there is the last store's payload of the carried sum, and the carried sum after band `n` holds the
  contributions of bands `0 … n` of the two arrays the region was entered with (by induction on the band: the first
  band stores its contribution, a later band adds its own to what the band before left).
-/
import proofs.«111736_g88691074663054_cont_9to1c4b_58_39_alg».proof.Proof.PropInScratch
import proofs.«111736_g88691074663054_cont_9to1c4b_58_39_alg».proof.Proof.AccInOps

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace AccIn

/-- The printed index maps, decided over the grid: band `t` takes rows `200·t …` of the adjacency matrix and of the
    first feature product; window 3's block is the whole array. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_3.index t (0 : Fin 2) = 0 ∧ win2_3.index t (1 : Fin 2) = 0 :=
  (by decide +kernel : ∀ t : Fin grid2.N, _)

/-- Window 0's block at band `t` is rows `200·t …` of the adjacency matrix. -/
theorem blk0_read (c : Dev nD) (t : Fin cfg2.N) (ht : t.val < 50) (r : Fin 200) (k : Fin 10000) :
    (iblk2 (F := Ideal) V c 0 t : Vec Ideal S200x10000 .f32) (ix2 r k)
      = V c main_arg2 (ix2 (⟨200 * t.val + r.val, by omega⟩ : Fin 10000) k) := by
  obtain ⟨e0, e1, e2, e3, e4, e5⟩ := idx_facts2 t
  show V c main_arg2 (((cfg2.win 0).blk t).view.emb (ix2 r k)) = V c main_arg2 _
  refine congrArg _ (funext fun a => Fin.ext ?_)
  match a with
  | ⟨0, _⟩ => show win2_0.index t (0 : Fin 2) * 200 + 1 * r.val = 200 * t.val + r.val; omega
  | ⟨1, _⟩ => show win2_0.index t (1 : Fin 2) * 10000 + 1 * k.val = k.val; omega

/-- Window 1's block at band `t` is rows `200·t …` of the first feature product's pair. -/
theorem blk1_read (c : Dev nD) (t : Fin cfg2.N) (ht : t.val < 50) (r : Fin 200) (p : Fin 32) :
    (iblk2 (F := Ideal) V c 1 t : Vec Ideal S200x32 .bf16) (ix2 r p)
      = V c main_v0 (ix2 (⟨200 * t.val + r.val, by omega⟩ : Fin 10000) p) := by
  obtain ⟨e0, e1, e2, e3, e4, e5⟩ := idx_facts2 t
  show V c main_v0 (((cfg2.win 1).blk t).view.emb (ix2 r p)) = V c main_v0 _
  refine congrArg _ (funext fun a => Fin.ext ?_)
  match a with
  | ⟨0, _⟩ => show win2_1.index t (0 : Fin 2) * 200 + 1 * r.val = 200 * t.val + r.val; omega
  | ⟨1, _⟩ => show win2_1.index t (1 : Fin 2) * 32 + 1 * p.val = p.val; omega

/-- The same two reads, with the band's number named. -/
theorem blk0_at (c : Dev nD) (t : Fin cfg2.N) (m : ℕ) (hm : t.val = m) (hlt : m < 50) (r : Fin 200) (k : Fin 10000) :
    (iblk2 (F := Ideal) V c 0 t : Vec Ideal S200x10000 .f32) (ix2 r k)
      = V c main_arg2 (ix2 (⟨200 * m + r.val, by omega⟩ : Fin 10000) k) := by
  subst hm
  exact blk0_read V c t hlt r k

theorem blk1_at (c : Dev nD) (t : Fin cfg2.N) (m : ℕ) (hm : t.val = m) (hlt : m < 50) (r : Fin 200) (p : Fin 32) :
    (iblk2 (F := Ideal) V c 1 t : Vec Ideal S200x32 .bf16) (ix2 r p)
      = V c main_v0 (ix2 (⟨200 * m + r.val, by omega⟩ : Fin 10000) p) := by
  subst hm
  exact blk1_read V c t hlt r p

/-- THE CARRIED SUM after band `n` holds the contributions of bands `0 … n`: by induction on the band (the first
    band stores its contribution; a later band adds its own to what the band before left). -/
theorem scratch_eq (c : Dev nD) : ∀ (n : ℕ) (t : Fin cfg2.N), t.val = n →
    (outsAt2 (F := Ideal) V c t.val t.isLt).2.2 = bands (V c main_arg2) (V c main_v0) n
  | 0, t, ht => by
    rw [scratch2_first V c t ht]
    exact band_first (V c main_arg2) (V c main_v0) (iblk2 V c 0 t) (iblk2 V c 1 t)
      (fun r k => blk0_at V c t 0 ht (by omega) r k) (fun r p => blk1_at V c t 0 ht (by omega) r p)
  | n + 1, t, ht => by
    have hN : t.val < 50 := lt_of_lt_of_eq t.isLt N_2
    have h0 : ¬t.val = 0 := by omega
    have ih := scratch_eq c n ⟨t.val - 1, Nat.lt_of_le_of_lt (Nat.sub_le _ _) t.isLt⟩ (by show t.val - 1 = n; omega)
    rw [scratch2_later V c t h0]
    exact band_next (V c main_arg2) (V c main_v0) (iblk2 V c 0 t) (iblk2 V c 1 t) _ n (n + 1) rfl (by omega)
      (fun r k => blk0_at V c t (n + 1) ht (by omega) r k) (fun r p => blk1_at V c t (n + 1) ht (by omega) r p) ih

/-- What the last band leaves in window 3's buffer is the specification's `h1Pair` of the two arrays. -/
theorem win3_eq (c : Dev nD) (t : Fin cfg2.N) (h49 : t.val = 49) :
    (outsAt2 (F := Ideal) V c t.val t.isLt).1 = Cert.Spec.h1Pair (V c main_arg2) (V c main_v0) := by
  have ih := scratch_eq V c 48 ⟨t.val - 1, Nat.lt_of_le_of_lt (Nat.sub_le _ _) t.isLt⟩ (by show t.val - 1 = 48; omega)
  rw [win3_last V c t h49]
  have hs := band_next (V c main_arg2) (V c main_v0) (iblk2 V c 0 t) (iblk2 V c 1 t) _ 48 49 rfl (by omega)
    (fun r k => blk0_at V c t 49 h49 (by omega) r k) (fun r p => blk1_at V c t 49 h49 (by omega) r p) ih
  exact (congrArg (k2_pay6 (F := Ideal)) hs).trans (pay6_bands (V c main_arg2) (V c main_v0))

/-- What the last band writes back is the whole of `h1Pair`. -/
theorem flushed2_3_eq (c : Dev nD) (t : Fin cfg2.N) (hf : (cfg2.win 3).flush t = true) :
    (dat2 (F := Ideal) V c).flushed 3 t
      = ((cfg2.win 3).blk t).view.read (Elt Ideal) (Cert.Spec.h1Pair (V c main_arg2) (V c main_v0)) := by
  have hN : t.val < 50 := lt_of_lt_of_eq t.isLt N_2
  have h49 : t.val = 49 := by have := (flush2_3 t).mp hf; omega
  obtain ⟨e0, e1, e2, e3, e4, e5⟩ := idx_facts2 t
  show (cfg2.win 3).cut (grid2.coords t) ((dat2 V c).after 3 t) = _
  rw [after2_3, win3_eq V c t h49]
  funext y
  show Cert.Spec.h1Pair (V c main_arg2) (V c main_v0) y
    = Cert.Spec.h1Pair (V c main_arg2) (V c main_v0) (((cfg2.win 3).blk t).view.emb y)
  refine congrArg _ (funext fun a => Fin.ext ?_)
  match a with
  | ⟨0, _⟩ => show (y 0).val = win2_3.index t (0 : Fin 2) * 10000 + 1 * (y 0).val; omega
  | ⟨1, _⟩ => show (y 1).val = win2_3.index t (1 : Fin 2) * 32 + 1 * (y 1).val; omega

/-- An index of the result is in band `t`'s block of window 3 iff each coordinate is in the block's range. -/
theorem mem_blk2_3 (t : Fin cfg2.N) (i : S10000x32.Idx) :
    i ∈ ((cfg2.win 3).blk t).view.set ↔ ∀ a : Fin 2, win2_3.index t a * S10000x32.size a ≤ (i a).val
      ∧ (i a).val < win2_3.index t a * S10000x32.size a + S10000x32.size a := by
  show i ∈ ((View.whole main_v2_0).slice (win2_3.rect t)).set ↔ _
  rw [View.set_slice_whole, Rect.mem_set_unit]
  exact Iff.rfl

/-- Every index of the result is written back by the last band. -/
theorem covered2_3 (i : S10000x32.Idx) :
    ∃ t : Fin cfg2.N, (cfg2.win 3).flush t = true ∧ i ∈ ((cfg2.win 3).blk t).view.set := by
  have hi0 : (i 0).val < 10000 := idx2_lt0 i
  have hi1 : (i 1).val < 32 := idx2_lt1 i
  let t : Fin cfg2.N := ⟨49, lt_of_lt_of_eq (by omega) N_2.symm⟩
  obtain ⟨e0, e1, e2, e3, e4, e5⟩ := idx_facts2 t
  refine ⟨t, (flush2_3 t).mpr rfl, ?_⟩
  rw [mem_blk2_3]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 32 ≤ (i 1).val ∧ (i 1).val < win2_3.index t (1 : Fin 2) * 32 + 32; omega

end AccIn

/-- THE FIRST RESULT of region 2: the array window 3 is written back to holds `h1Pair` of the adjacency matrix and
    the first feature product's pair, as the region was entered with them. -/
theorem final2_3 (c : Dev nD) :
    (dat2 (F := Ideal) V c).arrAt 3 cfg2.N = Cert.Spec.h1Pair (V c main_arg2) (V c main_v0) :=
  (dat2 V c).arrAt_eq_of_cover 3 _ (fun t hf => AccIn.flushed2_3_eq V c t hf) AccIn.covered2_3

end Cert.KernelIdeal.Hand

end
-- ==== Proof.PropOutPieces.lean ====
/- The fourth tiled stage: what each control case leaves, read back as the body's payloads of the band's blocks; the
   accumulator after each band as a recursion over the bands. -/
import proofs.«111736_g88691074663054_cont_9to1c4b_58_39_alg».proof.Proof.PropOutFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

/-- At the first band the first result's block is left at the payload of the band's blocks. -/
theorem out3_A_9_eq (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) :
    out3_A_9 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 = k3_pay2 x0 x1 x3 x4 x7 := by
  unfold out3_A_9
  rw [View.read_writes_eq_canon _ _ _ (cover3_A_9 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8)]
  unfold kernelRun3_A
  dsimp only
  rw [View.canon_unit_zero hz3]
  simp only [View.readAt_eq_ld, harg1.read_unread, harg2.read_unread, harg3.read_unread, harg4.read_unread, harg5.read_unread, harg6.read_unread, harg7.read_unread, harg8.read_unread, harg9.read_unread, View.ld_unit_zero (S := S200x10000) hz3, View.ld_unit_zero (S := S10000x32) hz3, View.ld_unit_zero (S := S200x32) hz3, View.ld_unit_zero (S := S16x4) hz3, View.ld_unit_zero (S := S200x4) hz3, View.ld_unit_zero (S := S10000x4) hz3, View.ld_unit_zero (S := S32x10000) hz3]

/-- At a middle band the first result's block is left at the payload of the band's blocks. -/
theorem out3_B_9_eq (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) :
    out3_B_9 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0 = k3_pay2 x0 x1 x3 x4 x7 := by
  unfold out3_B_9
  rw [View.read_writes_eq_canon _ _ _ (cover3_B_9 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0)]
  unfold kernelRun3_B
  dsimp only
  rw [View.canon_unit_zero hz3]
  simp only [View.readAt_eq_ld, harg1.read_unread, harg2.read_unread, harg3.read_unread, harg4.read_unread, harg5.read_unread, harg6.read_unread, harg7.read_unread, harg8.read_unread, harg9.read_unread, View.ld_unit_zero (S := S200x10000) hz3, View.ld_unit_zero (S := S10000x32) hz3, View.ld_unit_zero (S := S200x32) hz3, View.ld_unit_zero (S := S16x4) hz3, View.ld_unit_zero (S := S200x4) hz3, View.ld_unit_zero (S := S10000x4) hz3, View.ld_unit_zero (S := S32x10000) hz3]

/-- At the last band the first result's block is left at the payload of the band's blocks. -/
theorem out3_C_9_eq (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) :
    out3_C_9 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0 = k3_pay2 x0 x1 x3 x4 x7 := by
  unfold out3_C_9
  rw [View.read_writes_eq_canon _ _ _ (cover3_C_9 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0)]
  unfold kernelRun3_C
  dsimp only
  rw [View.canon_unit_zero hz3]
  simp only [View.readAt_eq_ld, harg1.read_unread, harg2.read_unread, harg3.read_unread, harg4.read_unread, harg5.read_unread, harg6.read_unread, harg7.read_unread, harg8.read_unread, harg9.read_unread, View.ld_unit_zero (S := S200x10000) hz3, View.ld_unit_zero (S := S10000x32) hz3, View.ld_unit_zero (S := S200x32) hz3, View.ld_unit_zero (S := S16x4) hz3, View.ld_unit_zero (S := S200x4) hz3, View.ld_unit_zero (S := S10000x4) hz3, View.ld_unit_zero (S := S32x10000) hz3]

/-- At the first band the accumulator is left at the band's contribution. -/
theorem sout3_A_0_eq (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) :
    sout3_A_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 = k3_pay4 x0 x2 := by
  unfold sout3_A_0
  rw [View.read_writes_eq_canon _ _ _ (scover3_A_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8)]
  unfold kernelRun3_A
  dsimp only
  rw [View.canon_unit_zero hz3]
  simp only [View.readAt_eq_ld, harg1.read_unread, harg2.read_unread, harg3.read_unread, harg4.read_unread, harg5.read_unread, harg6.read_unread, harg7.read_unread, harg8.read_unread, harg9.read_unread, harg12.read_unread, View.ld_unit_zero (S := S200x10000) hz3, View.ld_unit_zero (S := S10000x32) hz3, View.ld_unit_zero (S := S200x32) hz3, View.ld_unit_zero (S := S16x4) hz3, View.ld_unit_zero (S := S200x4) hz3, View.ld_unit_zero (S := S10000x4) hz3, View.ld_unit_zero (S := S32x10000) hz3]

/-- At a middle band the accumulator is left at what it held plus the band's contribution. -/
theorem sout3_B_0_eq (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) :
    sout3_B_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0 = k3_pay5 x0 x2 xs0 := by
  unfold sout3_B_0
  rw [View.read_writes_eq_canon _ _ _ (scover3_B_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0)]
  unfold kernelRun3_B
  dsimp only
  rw [View.canon_unit_zero hz3]
  simp only [View.readAt_eq_ld, harg1.read_unread, harg2.read_unread, harg3.read_unread, harg4.read_unread, harg5.read_unread, harg6.read_unread, harg7.read_unread, harg8.read_unread, harg9.read_unread, harg12.read_unread, View.ld_unit_zero (S := S200x10000) hz3, View.ld_unit_zero (S := S10000x32) hz3, View.ld_unit_zero (S := S200x32) hz3, View.ld_unit_zero (S := S16x4) hz3, View.ld_unit_zero (S := S200x4) hz3, View.ld_unit_zero (S := S10000x4) hz3, View.ld_unit_zero (S := S32x10000) hz3]

/-- At the last band the accumulator is left at what it held plus the band's contribution. -/
theorem sout3_C_0_eq (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) :
    sout3_C_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0 = k3_pay5 x0 x2 xs0 := by
  unfold sout3_C_0
  rw [View.read_writes_eq_canon _ _ _ (scover3_C_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0)]
  unfold kernelRun3_C
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg12.read_unread, View.ld_unit_zero (S := S200x10000) hz3, View.ld_unit_zero (S := S10000x32) hz3, View.ld_unit_zero (S := S200x32) hz3, View.ld_unit_zero (S := S16x4) hz3, View.ld_unit_zero (S := S200x4) hz3, View.ld_unit_zero (S := S10000x4) hz3, View.ld_unit_zero (S := S32x10000) hz3]

/-- At the last band the second result's buffer is left at the payload of the accumulator as just updated. -/
theorem out3_C_10_eq (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) :
    out3_C_10 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0 = k3_pay6 (k3_pay5 x0 x2 xs0) x5 x6 x8 := by
  unfold out3_C_10
  rw [View.read_writes_eq_canon _ _ _ (cover3_C_10 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0)]
  unfold kernelRun3_C
  dsimp only
  sl_unfold_words
  rw [View.canon_unit_zero hz3, View.readCov_unit_zero (S := S32x10000) _ hz3]
  simp only [View.readAt_eq_ld, harg1.read_unread, harg2.read_unread, harg3.read_unread, harg4.read_unread, harg5.read_unread, harg6.read_unread, harg7.read_unread, harg8.read_unread, harg9.read_unread, harg12.read_unread, View.ld_unit_zero (S := S200x10000) hz3, View.ld_unit_zero (S := S10000x32) hz3, View.ld_unit_zero (S := S200x32) hz3, View.ld_unit_zero (S := S16x4) hz3, View.ld_unit_zero (S := S200x4) hz3, View.ld_unit_zero (S := S10000x4) hz3, View.ld_unit_zero (S := S32x10000) hz3]

section Region3
variable (V : (c : Dev nD) → (b : Ref sig .tc) → Buf (Elt F) ((c : Thread nD τ).loc b))

set_option maxHeartbeats 1000000 in
/-- After every band the first result's block holds the payload of that band's blocks. -/
theorem outsAt3_fst (c : Dev nD) (t : Fin cfg3.N) :
    (outsAt3 V c t.val t.isLt).1 = k3_pay2 (iblk3 V c 0 t) (iblk3 V c 1 t) (iblk3 V c 3 t) (iblk3 V c 4 t) (iblk3 V c 7 t) := by
  by_cases h0 : t.val = 0
  · exact (congrArg Prod.fst (outsAt3_A V c t h0)).trans
      (out3_A_9_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) ((hcond3_0 t).mpr h0) (fun hq => (hcond3_1 t).mp hq h0) (fun hq => absurd (((hcond3_2 t).mp hq).symm.trans h0) (by decide)) (iblk3 V c 0 t) (iblk3 V c 1 t) (iblk3 V c 2 t) (iblk3 V c 3 t) (iblk3 V c 4 t) (iblk3 V c 5 t) (iblk3 V c 6 t) (iblk3 V c 7 t) (iblk3 V c 8 t))
  · by_cases h2 : t.val = 49
    · exact (congrArg Prod.fst (outsAt3_C V c t h0 h2)).trans
        (out3_C_9_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun hq => h0 ((hcond3_0 t).mp hq)) ((hcond3_1 t).mpr h0) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2)
    · exact (congrArg Prod.fst (outsAt3_B V c t h0 h2)).trans
        (out3_B_9_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun hq => h0 ((hcond3_0 t).mp hq)) ((hcond3_1 t).mpr h0) (fun hq => h2 ((hcond3_2 t).mp hq)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2)

end Region3

end Cert.KernelIdeal.Hand

end
-- ==== Proof.PropOutPayloads.lean ====
/- The arithmetic of the fourth tiled stage's body on the extended reals: each stored value as a function of the
   loaded blocks, in the vocabulary of the specification (products, the two halves added back, the transpose,
   `noise · exp(logstd) + mean`). -/
import proofs.«111736_g88691074663054_cont_9to1c4b_58_39_alg».proof.Proof.Spec
import proofs.«111736_g88691074663054_cont_9to1c4b_58_39_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The four tile products -/

theorem lhs3_adjH (i : S200x32.Idx) (q : dot_S200x10000_S10000x32_S200x32_1_0_0_1_n_n.contr.Idx) : (dot_S200x10000_S10000x32_S200x32_1_0_0_1_n_n.lhsIdx i q 0).val = (i 0).val := by
  unfold DotDims.lhsIdx
  rw [dif_neg (show ¬(0 : Fin S200x10000.rank) ∈ dot_S200x10000_S10000x32_S200x32_1_0_0_1_n_n.lhsBatch by decide), dif_pos (show (0 : Fin S200x10000.rank) ∈ dot_S200x10000_S10000x32_S200x32_1_0_0_1_n_n.lhsNonContracting by decide)]
  rfl
theorem rhs3_adjH (i : S200x32.Idx) (q : dot_S200x10000_S10000x32_S200x32_1_0_0_1_n_n.contr.Idx) : (dot_S200x10000_S10000x32_S200x32_1_0_0_1_n_n.rhsIdx i q 1).val = (i 1).val := by
  unfold DotDims.rhsIdx
  rw [dif_neg (show ¬(1 : Fin S10000x32.rank) ∈ dot_S200x10000_S10000x32_S200x32_1_0_0_1_n_n.rhsBatch by decide), dif_pos (show (1 : Fin S10000x32.rank) ∈ dot_S200x10000_S10000x32_S200x32_1_0_0_1_n_n.rhsNonContracting by decide)]
  rfl
/-- The tile product into a zero accumulator is the plain product, entry by entry. -/
theorem dot3_adjH {φ₁ φ₂ : FTy} (L : FVec Ideal S200x10000 φ₁) (R : FVec Ideal S10000x32 φ₂) :
    matmul dot_S200x10000_S10000x32_S200x32_1_0_0_1_n_n none L R (constant (F := Ideal) S200x32 .f32 0x00000000#32) = Cert.Spec.mm L R := by
  funext j
  simp only [matmul]
  rw [Ideal.matmul_constant_zero_apply, ← Equiv.sum_comp (contrEquiv1 dot_S200x10000_S10000x32_S200x32_1_0_0_1_n_n 10000 rfl rfl).symm]
  show _ = ∑ k : Fin 10000, L (ix2 (j 0) k) * R (ix2 k (j 1))
  refine Finset.sum_congr rfl fun k _ => ?_
  have hk := contrEquiv1_symm_val dot_S200x10000_S10000x32_S200x32_1_0_0_1_n_n 10000 rfl rfl k
  have el : dot_S200x10000_S10000x32_S200x32_1_0_0_1_n_n.lhsIdx j ((contrEquiv1 dot_S200x10000_S10000x32_S200x32_1_0_0_1_n_n 10000 rfl rfl).symm k) = ix2 (j 0) k := funext fun a => Fin.ext (by
    match a with
    | ⟨0, _⟩ => exact lhs3_adjH _ _
    | ⟨1, _⟩ => exact (dot_S200x10000_S10000x32_S200x32_1_0_0_1_n_n.lhsIdx_val_of_single rfl j _).trans hk)
  have er : dot_S200x10000_S10000x32_S200x32_1_0_0_1_n_n.rhsIdx j ((contrEquiv1 dot_S200x10000_S10000x32_S200x32_1_0_0_1_n_n 10000 rfl rfl).symm k) = ix2 k (j 1) := funext fun a => Fin.ext (by
    match a with
    | ⟨0, _⟩ => exact (dot_S200x10000_S10000x32_S200x32_1_0_0_1_n_n.rhsIdx_val_of_single rfl j _).trans hk
    | ⟨1, _⟩ => exact rhs3_adjH _ _)
  rw [el, er]
  rfl

theorem lhs3_aW (i : S200x4.Idx) (q : dot_S200x16_S16x4_S200x4_1_0_0_1_n_n.contr.Idx) : (dot_S200x16_S16x4_S200x4_1_0_0_1_n_n.lhsIdx i q 0).val = (i 0).val := by
  unfold DotDims.lhsIdx
  rw [dif_neg (show ¬(0 : Fin S200x16.rank) ∈ dot_S200x16_S16x4_S200x4_1_0_0_1_n_n.lhsBatch by decide), dif_pos (show (0 : Fin S200x16.rank) ∈ dot_S200x16_S16x4_S200x4_1_0_0_1_n_n.lhsNonContracting by decide)]
  rfl
theorem rhs3_aW (i : S200x4.Idx) (q : dot_S200x16_S16x4_S200x4_1_0_0_1_n_n.contr.Idx) : (dot_S200x16_S16x4_S200x4_1_0_0_1_n_n.rhsIdx i q 1).val = (i 1).val := by
  unfold DotDims.rhsIdx
  rw [dif_neg (show ¬(1 : Fin S16x4.rank) ∈ dot_S200x16_S16x4_S200x4_1_0_0_1_n_n.rhsBatch by decide), dif_pos (show (1 : Fin S16x4.rank) ∈ dot_S200x16_S16x4_S200x4_1_0_0_1_n_n.rhsNonContracting by decide)]
  rfl
/-- The tile product into a zero accumulator is the plain product, entry by entry. -/
theorem dot3_aW {φ₁ φ₂ : FTy} (L : FVec Ideal S200x16 φ₁) (R : FVec Ideal S16x4 φ₂) :
    matmul dot_S200x16_S16x4_S200x4_1_0_0_1_n_n none L R (constant (F := Ideal) S200x4 .f32 0x00000000#32) = Cert.Spec.mm L R := by
  funext j
  simp only [matmul]
  rw [Ideal.matmul_constant_zero_apply, ← Equiv.sum_comp (contrEquiv1 dot_S200x16_S16x4_S200x4_1_0_0_1_n_n 16 rfl rfl).symm]
  show _ = ∑ k : Fin 16, L (ix2 (j 0) k) * R (ix2 k (j 1))
  refine Finset.sum_congr rfl fun k _ => ?_
  have hk := contrEquiv1_symm_val dot_S200x16_S16x4_S200x4_1_0_0_1_n_n 16 rfl rfl k
  have el : dot_S200x16_S16x4_S200x4_1_0_0_1_n_n.lhsIdx j ((contrEquiv1 dot_S200x16_S16x4_S200x4_1_0_0_1_n_n 16 rfl rfl).symm k) = ix2 (j 0) k := funext fun a => Fin.ext (by
    match a with
    | ⟨0, _⟩ => exact lhs3_aW _ _
    | ⟨1, _⟩ => exact (dot_S200x16_S16x4_S200x4_1_0_0_1_n_n.lhsIdx_val_of_single rfl j _).trans hk)
  have er : dot_S200x16_S16x4_S200x4_1_0_0_1_n_n.rhsIdx j ((contrEquiv1 dot_S200x16_S16x4_S200x4_1_0_0_1_n_n 16 rfl rfl).symm k) = ix2 k (j 1) := funext fun a => Fin.ext (by
    match a with
    | ⟨0, _⟩ => exact (dot_S200x16_S16x4_S200x4_1_0_0_1_n_n.rhsIdx_val_of_single rfl j _).trans hk
    | ⟨1, _⟩ => exact rhs3_aW _ _)
  rw [el, er]
  rfl

theorem lhs3_hAdj (i : S32x10000.Idx) (q : dot_S200x32_S200x10000_S32x10000_0_0_1_1_n_n.contr.Idx) : (dot_S200x32_S200x10000_S32x10000_0_0_1_1_n_n.lhsIdx i q 1).val = (i 0).val := by
  unfold DotDims.lhsIdx
  rw [dif_neg (show ¬(1 : Fin S200x32.rank) ∈ dot_S200x32_S200x10000_S32x10000_0_0_1_1_n_n.lhsBatch by decide), dif_pos (show (1 : Fin S200x32.rank) ∈ dot_S200x32_S200x10000_S32x10000_0_0_1_1_n_n.lhsNonContracting by decide)]
  rfl
theorem rhs3_hAdj (i : S32x10000.Idx) (q : dot_S200x32_S200x10000_S32x10000_0_0_1_1_n_n.contr.Idx) : (dot_S200x32_S200x10000_S32x10000_0_0_1_1_n_n.rhsIdx i q 1).val = (i 1).val := by
  unfold DotDims.rhsIdx
  rw [dif_neg (show ¬(1 : Fin S200x10000.rank) ∈ dot_S200x32_S200x10000_S32x10000_0_0_1_1_n_n.rhsBatch by decide), dif_pos (show (1 : Fin S200x10000.rank) ∈ dot_S200x32_S200x10000_S32x10000_0_0_1_1_n_n.rhsNonContracting by decide)]
  rfl
/-- The tile product into a zero accumulator is the plain product, entry by entry. -/
theorem dot3_hAdj {φ₁ φ₂ : FTy} (L : FVec Ideal S200x32 φ₁) (R : FVec Ideal S200x10000 φ₂) :
    matmul dot_S200x32_S200x10000_S32x10000_0_0_1_1_n_n none L R (constant (F := Ideal) S32x10000 .f32 0x00000000#32) = Cert.Spec.mmTN L R := by
  funext j
  simp only [matmul]
  rw [Ideal.matmul_constant_zero_apply, ← Equiv.sum_comp (contrEquiv1 dot_S200x32_S200x10000_S32x10000_0_0_1_1_n_n 200 rfl rfl).symm]
  show _ = ∑ k : Fin 200, L (ix2 k (j 0)) * R (ix2 k (j 1))
  refine Finset.sum_congr rfl fun k _ => ?_
  have hk := contrEquiv1_symm_val dot_S200x32_S200x10000_S32x10000_0_0_1_1_n_n 200 rfl rfl k
  have el : dot_S200x32_S200x10000_S32x10000_0_0_1_1_n_n.lhsIdx j ((contrEquiv1 dot_S200x32_S200x10000_S32x10000_0_0_1_1_n_n 200 rfl rfl).symm k) = ix2 k (j 0) := funext fun a => Fin.ext (by
    match a with
    | ⟨1, _⟩ => exact lhs3_hAdj _ _
    | ⟨0, _⟩ => exact (dot_S200x32_S200x10000_S32x10000_0_0_1_1_n_n.lhsIdx_val_of_single rfl j _).trans hk)
  have er : dot_S200x32_S200x10000_S32x10000_0_0_1_1_n_n.rhsIdx j ((contrEquiv1 dot_S200x32_S200x10000_S32x10000_0_0_1_1_n_n 200 rfl rfl).symm k) = ix2 k (j 1) := funext fun a => Fin.ext (by
    match a with
    | ⟨0, _⟩ => exact (dot_S200x32_S200x10000_S32x10000_0_0_1_1_n_n.rhsIdx_val_of_single rfl j _).trans hk
    | ⟨1, _⟩ => exact rhs3_hAdj _ _)
  rw [el, er]
  rfl

theorem lhs3_wA (i : S4x10000.Idx) (q : dot_S16x4_S16x10000_S4x10000_0_0_1_1_n_n.contr.Idx) : (dot_S16x4_S16x10000_S4x10000_0_0_1_1_n_n.lhsIdx i q 1).val = (i 0).val := by
  unfold DotDims.lhsIdx
  rw [dif_neg (show ¬(1 : Fin S16x4.rank) ∈ dot_S16x4_S16x10000_S4x10000_0_0_1_1_n_n.lhsBatch by decide), dif_pos (show (1 : Fin S16x4.rank) ∈ dot_S16x4_S16x10000_S4x10000_0_0_1_1_n_n.lhsNonContracting by decide)]
  rfl
theorem rhs3_wA (i : S4x10000.Idx) (q : dot_S16x4_S16x10000_S4x10000_0_0_1_1_n_n.contr.Idx) : (dot_S16x4_S16x10000_S4x10000_0_0_1_1_n_n.rhsIdx i q 1).val = (i 1).val := by
  unfold DotDims.rhsIdx
  rw [dif_neg (show ¬(1 : Fin S16x10000.rank) ∈ dot_S16x4_S16x10000_S4x10000_0_0_1_1_n_n.rhsBatch by decide), dif_pos (show (1 : Fin S16x10000.rank) ∈ dot_S16x4_S16x10000_S4x10000_0_0_1_1_n_n.rhsNonContracting by decide)]
  rfl
/-- The tile product into a zero accumulator is the plain product, entry by entry. -/
theorem dot3_wA {φ₁ φ₂ : FTy} (L : FVec Ideal S16x4 φ₁) (R : FVec Ideal S16x10000 φ₂) :
    matmul dot_S16x4_S16x10000_S4x10000_0_0_1_1_n_n none L R (constant (F := Ideal) S4x10000 .f32 0x00000000#32) = Cert.Spec.mmTN L R := by
  funext j
  simp only [matmul]
  rw [Ideal.matmul_constant_zero_apply, ← Equiv.sum_comp (contrEquiv1 dot_S16x4_S16x10000_S4x10000_0_0_1_1_n_n 16 rfl rfl).symm]
  show _ = ∑ k : Fin 16, L (ix2 k (j 0)) * R (ix2 k (j 1))
  refine Finset.sum_congr rfl fun k _ => ?_
  have hk := contrEquiv1_symm_val dot_S16x4_S16x10000_S4x10000_0_0_1_1_n_n 16 rfl rfl k
  have el : dot_S16x4_S16x10000_S4x10000_0_0_1_1_n_n.lhsIdx j ((contrEquiv1 dot_S16x4_S16x10000_S4x10000_0_0_1_1_n_n 16 rfl rfl).symm k) = ix2 k (j 0) := funext fun a => Fin.ext (by
    match a with
    | ⟨1, _⟩ => exact lhs3_wA _ _
    | ⟨0, _⟩ => exact (dot_S16x4_S16x10000_S4x10000_0_0_1_1_n_n.lhsIdx_val_of_single rfl j _).trans hk)
  have er : dot_S16x4_S16x10000_S4x10000_0_0_1_1_n_n.rhsIdx j ((contrEquiv1 dot_S16x4_S16x10000_S4x10000_0_0_1_1_n_n 16 rfl rfl).symm k) = ix2 k (j 1) := funext fun a => Fin.ext (by
    match a with
    | ⟨0, _⟩ => exact (dot_S16x4_S16x10000_S4x10000_0_0_1_1_n_n.rhsIdx_val_of_single rfl j _).trans hk
    | ⟨1, _⟩ => exact rhs3_wA _ _)
  rw [el, er]
  rfl

/-! ## The two halves of a 32-wide pair, added back -/

/-- Columns `0..15` plus columns `16..31`. -/
theorem halves3_cols (Z : FVec Ideal S200x32 .f32) (h0 : S200x32.Slices ![0, 0] S200x16) (h16 : S200x32.Slices ![0, 16] S200x16) :
    addf (extractStridedSlice S200x16 ![0, 0] Z h0) (extractStridedSlice S200x16 ![0, 16] Z h16) = Cert.Spec.halves Z := by
  funext j
  rw [addf_apply]
  show _ = Z (ix2 (j 0) ⟨(j 1).val, _⟩) + Z (ix2 (j 0) ⟨(j 1).val + 16, _⟩)
  rw [extractStridedSlice_apply ![0, 0] Z h0 j (ix2 (j 0) ⟨(j 1).val, by have := idx2_lt1 j; omega⟩) (fun a => by
      match a with
      | ⟨0, _⟩ => show (j 0).val = 0 + (j 0).val; omega
      | ⟨1, _⟩ => show (j 1).val = 0 + (j 1).val; omega),
    extractStridedSlice_apply ![0, 16] Z h16 j (ix2 (j 0) ⟨(j 1).val + 16, by have := idx2_lt1 j; omega⟩) (fun a => by
      match a with
      | ⟨0, _⟩ => show (j 0).val = 0 + (j 0).val; omega
      | ⟨1, _⟩ => show (j 1).val + 16 = 16 + (j 1).val; omega)]

/-- Rows `0..15` plus rows `16..31`. -/
theorem halves3_rows (Z : FVec Ideal S32x10000 .f32) (h0 : S32x10000.Slices ![0, 0] S16x10000) (h16 : S32x10000.Slices ![16, 0] S16x10000) :
    addf (extractStridedSlice S16x10000 ![0, 0] Z h0) (extractStridedSlice S16x10000 ![16, 0] Z h16) = Cert.Spec.halves0 Z := by
  funext j
  rw [addf_apply]
  show _ = Z (ix2 ⟨(j 0).val, _⟩ (j 1)) + Z (ix2 ⟨(j 0).val + 16, _⟩ (j 1))
  rw [extractStridedSlice_apply ![0, 0] Z h0 j (ix2 ⟨(j 0).val, by have := idx2_lt0 j; omega⟩ (j 1)) (fun a => by
      match a with
      | ⟨0, _⟩ => show (j 0).val = 0 + (j 0).val; omega
      | ⟨1, _⟩ => show (j 1).val = 0 + (j 1).val; omega),
    extractStridedSlice_apply ![16, 0] Z h16 j (ix2 ⟨(j 0).val + 16, by have := idx2_lt0 j; omega⟩ (j 1)) (fun a => by
      match a with
      | ⟨0, _⟩ => show (j 0).val + 16 = 16 + (j 0).val; omega
      | ⟨1, _⟩ => show (j 1).val = 0 + (j 1).val; omega)]

/-! ## The transposes -/

theorem tr3_in (Y : FVec Ideal S10000x4 .f32) (h : S10000x4.Transposes [1, 0] S4x10000) :
    transpose S4x10000 [1, 0] Y h = Cert.Spec.tr Y := by
  funext j
  exact transpose_apply [1, 0] Y h j (ix2 (j 1) (j 0)) (fun b => by
    match b with
    | ⟨0, _⟩ => rfl
    | ⟨1, _⟩ => rfl)

theorem tr3_out (Y : FVec Ideal S4x10000 .f32) (h : S4x10000.Transposes [1, 0] S10000x4) :
    transpose S10000x4 [1, 0] Y h = Cert.Spec.tr Y := by
  funext j
  exact transpose_apply [1, 0] Y h j (ix2 (j 1) (j 0)) (fun b => by
    match b with
    | ⟨0, _⟩ => rfl
    | ⟨1, _⟩ => rfl)

/-! ## The stored values -/

/-- The band's rows of the first result: `noise · exp(a · W_logstd) + a · W_mean` with `a` the two halves of
    `adj_band · h₁` added back. -/
theorem k3_pay2_eq (x0 : Vec Ideal S200x10000 .f32) (x1 : Vec Ideal S10000x32 .bf16) (x3 x4 : Vec Ideal S16x4 .f32) (x7 : Vec Ideal S200x4 .f32) :
    k3_pay2 (F := Ideal) x0 x1 x3 x4 x7
      = Cert.Spec.sample x7 (Cert.Spec.mm (φ₁ := .f32) (φ₂ := .f32) (Cert.Spec.halves (Cert.Spec.mm (φ₁ := .f32) (φ₂ := .bf16) x0 x1)) x4)
          (Cert.Spec.mm (φ₁ := .f32) (φ₂ := .f32) (Cert.Spec.halves (Cert.Spec.mm (φ₁ := .f32) (φ₂ := .bf16) x0 x1)) x3) := by
  unfold k3_pay2 k3_pay1
  dsimp only
  rw [shapeCast_self, dot3_adjH, halves3_cols, dot3_aW, dot3_aW]
  rfl

/-- The band's contribution to the accumulator: `h₂_bandᵀ · adj_band`. -/
theorem k3_pay4_eq (x0 : Vec Ideal S200x10000 .f32) (x2 : Vec Ideal S200x32 .bf16) :
    k3_pay4 (F := Ideal) x0 x2 = Cert.Spec.mmTN (φ₁ := .bf16) (φ₂ := .f32) x2 x0 := by
  unfold k3_pay4 k3_pay3 k3_pay1
  dsimp only
  rw [shapeCast_self, shapeCast_self, dot3_hAdj]
  rfl

/-- The accumulator plus the band's contribution. -/
theorem k3_pay5_eq (x0 : Vec Ideal S200x10000 .f32) (x2 : Vec Ideal S200x32 .bf16) (xs : Vec Ideal S32x10000 .f32) :
    k3_pay5 (F := Ideal) x0 x2 xs = fun j => xs j + Cert.Spec.mmTN (φ₁ := .bf16) (φ₂ := .f32) x2 x0 j := by
  unfold k3_pay5 k3_pay3 k3_pay1
  dsimp only
  rw [shapeCast_self, shapeCast_self, dot3_hAdj]
  rfl

/-- The second result from the finished accumulator `s`: with `a` its two row halves added back, the transpose of
    `noiseᵀ · exp(W_logstdᵀ · a) + W_meanᵀ · a`. -/
theorem k3_pay6_eq (s : Vec Ideal S32x10000 .f32) (x5 x6 : Vec Ideal S16x4 .f32) (x8 : Vec Ideal S10000x4 .f32) :
    k3_pay6 (F := Ideal) s x5 x6 x8
      = Cert.Spec.tr (φ := .f32) (Cert.Spec.sample (Cert.Spec.tr (φ := .f32) x8) (Cert.Spec.mmTN (φ₁ := .f32) (φ₂ := .f32) x6 (Cert.Spec.halves0 (φ := .f32) s))
          (Cert.Spec.mmTN (φ₁ := .f32) (φ₂ := .f32) x5 (Cert.Spec.halves0 (φ := .f32) s))) := by
  unfold k3_pay6
  dsimp only
  rw [halves3_rows, dot3_wA, dot3_wA, tr3_in, tr3_out]
  rfl

end Cert.KernelIdeal.Hand

end
-- ==== Proof.PropOutValue.lean ====
/- The first result of the fourth tiled stage as one whole-array function of the arrays the stage is handed: its rows
   `200·t .. 200·t + 199` are written at band `t` from the same rows of the adjacency matrix and of the noise, and the
   fifty bands tile the array. -/
import proofs.«111736_g88691074663054_cont_9to1c4b_58_39_alg».proof.Proof.PropOutPieces
import proofs.«111736_g88691074663054_cont_9to1c4b_58_39_alg».proof.Proof.PropOutPayloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- Rows `200·t .. 200·t + 199` of an array of 10000 rows. -/
def band3 {n : ℕ} {φ : FTy} (t : Fin cfg3.N) (X : FVec Ideal (Cert.Spec.Sh 10000 n) φ) : FVec Ideal (Cert.Spec.Sh 200 n) φ :=
  fun j => X (ix2 (⟨200 * t.val + (j 0).val, by
    have h0 := idx2_lt0 j; have ht : t.val < 50 := lt_of_lt_of_eq t.isLt (show cfg3.N = 50 from N_3); omega⟩ : Fin 10000) (j 1))

/-- The stage's index maps over the fifty bands: the banded windows move one block of rows per band, the whole-array
    windows stay. -/
theorem idx_facts3_9 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_7.index t (0 : Fin 2) = t.val ∧ win3_7.index t (1 : Fin 2) = 0
    ∧ win3_9.index t (0 : Fin 2) = t.val ∧ win3_9.index t (1 : Fin 2) = 0 :=
  (by decide +kernel : ∀ t : Fin grid3.N, _)

/-! ## Where a block's entry sits in its array -/

theorem emb3_0 (t : Fin cfg3.N) (j : S200x10000.Idx) :
    ((cfg3.win 0).blk t).view.emb j = ix2 (⟨200 * t.val + (j 0).val, by
      have h0 := idx2_lt0 j; have ht : t.val < 50 := lt_of_lt_of_eq t.isLt (show cfg3.N = 50 from N_3); omega⟩ : Fin 10000) (j 1) := by
  obtain ⟨e00, e01, -⟩ := idx_facts3_9 t
  funext a; apply Fin.ext
  match a with
  | ⟨0, _⟩ => show win3_0.index t (0 : Fin 2) * 200 + 1 * (j 0).val = 200 * t.val + (j 0).val; rw [e00]; omega
  | ⟨1, _⟩ => show win3_0.index t (1 : Fin 2) * 10000 + 1 * (j 1).val = (j 1).val; rw [e01]; omega

theorem emb3_7 (t : Fin cfg3.N) (j : S200x4.Idx) :
    ((cfg3.win 7).blk t).view.emb j = ix2 (⟨200 * t.val + (j 0).val, by
      have h0 := idx2_lt0 j; have ht : t.val < 50 := lt_of_lt_of_eq t.isLt (show cfg3.N = 50 from N_3); omega⟩ : Fin 10000) (j 1) := by
  obtain ⟨-, -, -, -, -, -, -, -, e70, e71, -⟩ := idx_facts3_9 t
  funext a; apply Fin.ext
  match a with
  | ⟨0, _⟩ => show win3_7.index t (0 : Fin 2) * 200 + 1 * (j 0).val = 200 * t.val + (j 0).val; rw [e70]; omega
  | ⟨1, _⟩ => show win3_7.index t (1 : Fin 2) * 4 + 1 * (j 1).val = (j 1).val; rw [e71]; omega

theorem emb3_9 (t : Fin cfg3.N) (j : S200x4.Idx) :
    ((cfg3.win 9).blk t).view.emb j = ix2 (⟨200 * t.val + (j 0).val, by
      have h0 := idx2_lt0 j; have ht : t.val < 50 := lt_of_lt_of_eq t.isLt (show cfg3.N = 50 from N_3); omega⟩ : Fin 10000) (j 1) := by
  obtain ⟨-, -, -, -, -, -, -, -, -, -, e90, e91⟩ := idx_facts3_9 t
  funext a; apply Fin.ext
  match a with
  | ⟨0, _⟩ => show win3_9.index t (0 : Fin 2) * 200 + 1 * (j 0).val = 200 * t.val + (j 0).val; rw [e90]; omega
  | ⟨1, _⟩ => show win3_9.index t (1 : Fin 2) * 4 + 1 * (j 1).val = (j 1).val; rw [e91]; omega

theorem emb3_1 (t : Fin cfg3.N) (j : S10000x32.Idx) : ((cfg3.win 1).blk t).view.emb j = j := by
  obtain ⟨-, -, e10, e11, -⟩ := idx_facts3_9 t
  funext a; apply Fin.ext
  match a with
  | ⟨0, _⟩ => show win3_1.index t (0 : Fin 2) * 10000 + 1 * (j 0).val = (j 0).val; rw [e10]; omega
  | ⟨1, _⟩ => show win3_1.index t (1 : Fin 2) * 32 + 1 * (j 1).val = (j 1).val; rw [e11]; omega

theorem emb3_3 (t : Fin cfg3.N) (j : S16x4.Idx) : ((cfg3.win 3).blk t).view.emb j = j := by
  obtain ⟨-, -, -, -, e30, e31, -⟩ := idx_facts3_9 t
  funext a; apply Fin.ext
  match a with
  | ⟨0, _⟩ => show win3_3.index t (0 : Fin 2) * 16 + 1 * (j 0).val = (j 0).val; rw [e30]; omega
  | ⟨1, _⟩ => show win3_3.index t (1 : Fin 2) * 4 + 1 * (j 1).val = (j 1).val; rw [e31]; omega

theorem emb3_4 (t : Fin cfg3.N) (j : S16x4.Idx) : ((cfg3.win 4).blk t).view.emb j = j := by
  obtain ⟨-, -, -, -, -, -, e40, e41, -⟩ := idx_facts3_9 t
  funext a; apply Fin.ext
  match a with
  | ⟨0, _⟩ => show win3_4.index t (0 : Fin 2) * 16 + 1 * (j 0).val = (j 0).val; rw [e40]; omega
  | ⟨1, _⟩ => show win3_4.index t (1 : Fin 2) * 4 + 1 * (j 1).val = (j 1).val; rw [e41]; omega

section Region3
variable (V : (c : Dev nD) → (b : Ref sig .tc) → Buf (Elt Ideal) ((c : Thread nD τ).loc b))

/-! ## The blocks the body reads at band `t` -/

theorem iblk3_0_eq (c : Dev nD) (t : Fin cfg3.N) : (iblk3 V c 0 t : Vec Ideal S200x10000 .f32) = band3 (φ := .f32) t (V c main_arg2) :=
  funext fun j => congrArg (V c main_arg2) (emb3_0 t j)
theorem iblk3_7_eq (c : Dev nD) (t : Fin cfg3.N) : (iblk3 V c 7 t : Vec Ideal S200x4 .f32) = band3 (φ := .f32) t (V c main_arg9) :=
  funext fun j => congrArg (V c main_arg9) (emb3_7 t j)
theorem iblk3_1_eq (c : Dev nD) (t : Fin cfg3.N) : (iblk3 V c 1 t : Vec Ideal S10000x32 .bf16) = V c main_v2_0 :=
  funext fun j => congrArg (V c main_v2_0) (emb3_1 t j)
theorem iblk3_3_eq (c : Dev nD) (t : Fin cfg3.N) : (iblk3 V c 3 t : Vec Ideal S16x4 .f32) = V c main_arg4 :=
  funext fun j => congrArg (V c main_arg4) (emb3_3 t j)
theorem iblk3_4_eq (c : Dev nD) (t : Fin cfg3.N) : (iblk3 V c 4 t : Vec Ideal S16x4 .f32) = V c main_arg5 :=
  funext fun j => congrArg (V c main_arg5) (emb3_4 t j)

/-- The specification's first result (stage 3), of the arrays the stage is handed. -/
abbrev G3_9 (c : Dev nD) : FVec Ideal (Cert.Spec.Sh 10000 4) .f32 :=
  Cert.Spec.z1 (V c main_arg2) (V c main_v2_0) (V c main_arg4) (V c main_arg5) (V c main_arg9)

/-- A row of the result depends on the same row of the adjacency matrix and of the noise only: the band's payload is the
    band's rows of the whole-array function. -/
theorem block3_9 (c : Dev nD) (t : Fin cfg3.N) :
    k3_pay2 (F := Ideal) (iblk3 V c 0 t) (iblk3 V c 1 t) (iblk3 V c 3 t) (iblk3 V c 4 t) (iblk3 V c 7 t) = band3 t (G3_9 V c) := by
  refine (k3_pay2_eq (iblk3 V c 0 t) (iblk3 V c 1 t) (iblk3 V c 3 t) (iblk3 V c 4 t) (iblk3 V c 7 t)).trans ?_
  rw [iblk3_0_eq V c t, iblk3_1_eq V c t, iblk3_3_eq V c t, iblk3_4_eq V c t, iblk3_7_eq V c t]
  rfl

/-- What band `t` writes back is block `t` of the whole-array function. -/
theorem flushed3_9_eq (c : Dev nD) (t : Fin cfg3.N) :
    (dat3 V c).flushed 9 t = ((cfg3.win 9).blk t).view.read (Elt Ideal) (G3_9 V c) := by
  show (cfg3.win 9).cut (grid3.coords t) ((dat3 V c).after 9 t) = _
  rw [after3_9, outsAt3_fst V c t, block3_9 V c t]
  funext j
  show G3_9 V c _ = G3_9 V c (((cfg3.win 9).blk t).view.emb j)
  exact congrArg (G3_9 V c) (emb3_9 t j).symm

/-- An index of the array is in band `t`'s block iff each coordinate is in the block's range on its axis. -/
theorem mem_blk3_9 (t : Fin cfg3.N) (i : S10000x4.Idx) :
    i ∈ ((cfg3.win 9).blk t).view.set ↔ ∀ a : Fin 2, win3_9.index t a * S200x4.size a ≤ (i a).val ∧ (i a).val < win3_9.index t a * S200x4.size a + S200x4.size a := by
  show i ∈ ((View.whole main_v3_0).slice (win3_9.rect t)).set ↔ _
  rw [View.set_slice_whole, Rect.mem_set_unit]
  exact Iff.rfl

/-- The fifty bands tile the array: row `r` is in band `r / 200`. -/
theorem covered3_9 (i : S10000x4.Idx) : ∃ t : Fin cfg3.N, (cfg3.win 9).flush t = true ∧ i ∈ ((cfg3.win 9).blk t).view.set := by
  have hi0 : (i 0).val < 10000 := (i 0).isLt
  have hi1 : (i 1).val < 4 := (i 1).isLt
  have hN : cfg3.N = 50 := N_3
  obtain ⟨t, ht⟩ : ∃ t : Fin cfg3.N, t.val = (i 0).val / 200 := ⟨⟨(i 0).val / 200, by omega⟩, rfl⟩
  obtain ⟨-, -, -, -, -, -, -, -, -, -, e90, e91⟩ := idx_facts3_9 t
  refine ⟨t, flush3_9 t, ?_⟩
  rw [mem_blk3_9]
  intro a
  match a with
  | ⟨0, _⟩ => show win3_9.index t (0 : Fin 2) * 200 ≤ (i 0).val ∧ (i 0).val < win3_9.index t (0 : Fin 2) * 200 + 200; rw [e90]; omega
  | ⟨1, _⟩ => show win3_9.index t (1 : Fin 2) * 4 ≤ (i 1).val ∧ (i 1).val < win3_9.index t (1 : Fin 2) * 4 + 4; rw [e91]; omega

/-- THE FIRST RESULT after the stage: the specification's `z1` of the adjacency matrix, the first hidden pair, the two
    weight matrices and the noise, as the stage finds them. -/
theorem final3_9 (c : Dev nD) :
    (dat3 (F := Ideal) V c).arrAt 9 cfg3.N
      = Cert.Spec.z1 (V c main_arg2) (V c main_v2_0) (V c main_arg4) (V c main_arg5) (V c main_arg9) :=
  (dat3 V c).arrAt_eq_of_cover 9 (G3_9 V c) (fun t _ => flushed3_9_eq V c t) covered3_9

end Region3

end Cert.KernelIdeal.Hand

end
-- ==== Proof.PropOutScratch.lean ====
/-
  The fourth tiled stage: the accumulator band by band, and the second result's buffer at the last band, as payloads
  of the band's blocks and of what the band before left — whichever control case the band is in.
-/
import proofs.«111736_g88691074663054_cont_9to1c4b_58_39_alg».proof.Proof.PropOutPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- After the first band the accumulator holds that band's contribution. -/
theorem scratch3_first (c : Dev nD) (t : Fin cfg3.N) (h0 : t.val = 0) :
    (outsAt3 V c t.val t.isLt).2.2 = k3_pay4 (iblk3 V c 0 t) (iblk3 V c 2 t) := by
  rw [outsAt3_A V c t h0]
  dsimp only
  exact sout3_A_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) ((hcond3_0 t).mpr h0) (fun h => (hcond3_1 t).mp h h0) (fun h => absurd (((hcond3_2 t).mp h).symm.trans h0) (by decide)) (iblk3 V c 0 t) (iblk3 V c 1 t) (iblk3 V c 2 t) (iblk3 V c 3 t) (iblk3 V c 4 t) (iblk3 V c 5 t) (iblk3 V c 6 t) (iblk3 V c 7 t) (iblk3 V c 8 t)

/-- After a later band the accumulator holds that band's contribution added to what the band before left. -/
theorem scratch3_later (c : Dev nD) (t : Fin cfg3.N) (h0 : ¬t.val = 0) :
    (outsAt3 V c t.val t.isLt).2.2 = k3_pay5 (iblk3 V c 0 t) (iblk3 V c 2 t) (outsAt3 V c (t.val - 1) (Nat.lt_of_le_of_lt (Nat.sub_le _ _) t.isLt)).2.2 := by
  by_cases h2 : t.val = 49
  · rw [outsAt3_C V c t h0 h2]
    dsimp only
    exact sout3_C_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2
  · rw [outsAt3_B V c t h0 h2]
    dsimp only
    exact sout3_B_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2

/-- After the last band the second result's buffer holds the payload of the finished accumulator. -/
theorem win10_last (c : Dev nD) (t : Fin cfg3.N) (h2 : t.val = 49) :
    (outsAt3 V c t.val t.isLt).2.1 = k3_pay6 (k3_pay5 (iblk3 V c 0 t) (iblk3 V c 2 t) (outsAt3 V c (t.val - 1) (Nat.lt_of_le_of_lt (Nat.sub_le _ _) t.isLt)).2.2) (iblk3 V c 5 t) (iblk3 V c 6 t) (iblk3 V c 8 t) := by
  have h0 : ¬t.val = 0 := by omega
  rw [outsAt3_C V c t h0 h2]
  dsimp only
  exact out3_C_10_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2

end Cert.KernelIdeal.Hand

end
-- ==== Proof.PropOutAcc.lean ====
import proofs.«111736_g88691074663054_cont_9to1c4b_58_39_alg».proof.Proof.Gen.KernelIdeal.Skeleton
import proofs.«111736_g88691074663054_cont_9to1c4b_58_39_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic
open Idealize.ShloMosaic.ValueIdx

/-! # The fourth tiled stage's accumulator and second result, on the extended reals

A band's contribution to the accumulator is `Hᵀ · A` for the band's 200 rows `H` (200 × 32) of the pair of
halves and `A` (200 × 10000) of the adjacency matrix; the first band stores it, each later band adds it on.
After the last band the second result is computed from the accumulator `S` (32 × 10000): the two row halves of
`S` are added, the sum `T` (16 × 10000) is multiplied from the left by the transposes of the two 16 × 4 weight
matrices, and `noiseᵀ · exp(Wlᵀ·T) + Wmᵀ·T` is transposed back to 10000 × 4. -/

/-! ## A band's contribution -/

/-- The left operand's index at output `(a, r)` and contraction position `k` is `(k, a)`; -/
theorem acc3_dotL_0 (i : S32x10000.Idx) (q : dot_S200x32_S200x10000_S32x10000_0_0_1_1_n_n.contr.Idx) : (dot_S200x32_S200x10000_S32x10000_0_0_1_1_n_n.lhsIdx i q 0).val = (q ⟨0, by decide⟩).val :=
  dot_S200x32_S200x10000_S32x10000_0_0_1_1_n_n.lhsIdx_val_of_single rfl i q
theorem acc3_dotL_1 (i : S32x10000.Idx) (q : dot_S200x32_S200x10000_S32x10000_0_0_1_1_n_n.contr.Idx) : (dot_S200x32_S200x10000_S32x10000_0_0_1_1_n_n.lhsIdx i q 1).val = (i 0).val := by
  unfold DotDims.lhsIdx
  rw [dif_neg (show ¬(1 : Fin S200x32.rank) ∈ dot_S200x32_S200x10000_S32x10000_0_0_1_1_n_n.lhsBatch by decide), dif_pos (show (1 : Fin S200x32.rank) ∈ dot_S200x32_S200x10000_S32x10000_0_0_1_1_n_n.lhsNonContracting by decide)]
  rfl
/-- the right operand's is `(k, r)`. -/
theorem acc3_dotR_0 (i : S32x10000.Idx) (q : dot_S200x32_S200x10000_S32x10000_0_0_1_1_n_n.contr.Idx) : (dot_S200x32_S200x10000_S32x10000_0_0_1_1_n_n.rhsIdx i q 0).val = (q ⟨0, by decide⟩).val :=
  dot_S200x32_S200x10000_S32x10000_0_0_1_1_n_n.rhsIdx_val_of_single rfl i q
theorem acc3_dotR_1 (i : S32x10000.Idx) (q : dot_S200x32_S200x10000_S32x10000_0_0_1_1_n_n.contr.Idx) : (dot_S200x32_S200x10000_S32x10000_0_0_1_1_n_n.rhsIdx i q 1).val = (i 1).val := by
  unfold DotDims.rhsIdx
  rw [dif_neg (show ¬(1 : Fin S200x10000.rank) ∈ dot_S200x32_S200x10000_S32x10000_0_0_1_1_n_n.rhsBatch by decide), dif_pos (show (1 : Fin S200x10000.rank) ∈ dot_S200x32_S200x10000_S32x10000_0_0_1_1_n_n.rhsNonContracting by decide)]
  rfl

/-- The (200 × 32)ᵀ by 200 × 10000 product into a zero accumulator, at `(a, r)`: `Σ_k x0(k, a) · x1(k, r)`. -/
theorem acc3_dot_apply (x0 : FVec Ideal S200x32 .bf16) (x1 : FVec Ideal S200x10000 .bf16) (a : Fin 32) (r : Fin 10000) :
    (matmul dot_S200x32_S200x10000_S32x10000_0_0_1_1_n_n none x0 x1 (constant (F := Ideal) S32x10000 .f32 0x00000000#32) : FVec Ideal S32x10000 .f32) (ix2 a r)
      = ∑ k : Fin 200, x0 (ix2 k a) * x1 (ix2 k r) := by
  simp only [matmul]
  rw [Ideal.matmul_constant_zero_apply, ← Equiv.sum_comp (contrEquiv1 dot_S200x32_S200x10000_S32x10000_0_0_1_1_n_n 200 rfl rfl).symm]
  refine Finset.sum_congr rfl fun k _ => ?_
  have hk := contrEquiv1_symm_val dot_S200x32_S200x10000_S32x10000_0_0_1_1_n_n 200 rfl rfl k
  have el : dot_S200x32_S200x10000_S32x10000_0_0_1_1_n_n.lhsIdx (ix2 a r) ((contrEquiv1 dot_S200x32_S200x10000_S32x10000_0_0_1_1_n_n 200 rfl rfl).symm k) = ix2 k a := funext fun b => Fin.ext (by
    match b with
    | ⟨0, _⟩ => exact (acc3_dotL_0 _ _).trans hk
    | ⟨1, _⟩ => exact acc3_dotL_1 _ _)
  have er : dot_S200x32_S200x10000_S32x10000_0_0_1_1_n_n.rhsIdx (ix2 a r) ((contrEquiv1 dot_S200x32_S200x10000_S32x10000_0_0_1_1_n_n 200 rfl rfl).symm k) = ix2 k r := funext fun b => Fin.ext (by
    match b with
    | ⟨0, _⟩ => exact (acc3_dotR_0 _ _).trans hk
    | ⟨1, _⟩ => exact acc3_dotR_1 _ _)
  rw [el, er]

/-- A band's contribution is `Hᵀ · A` of its two blocks (the shape cast is of a shape to itself, the format change
    the identity). -/
theorem acc3_pay3_eq (v0 : Vec Ideal S200x10000 .f32) (v17 : Vec Ideal S200x32 .bf16) :
    k3_pay3 (F := Ideal) v0 v17 = Cert.Spec.mmTN (a := 32) (k := 200) (b := 10000) (φ₁ := .bf16) (φ₂ := .f32) v17 v0 := by
  funext y
  obtain ⟨a, r, rfl⟩ : ∃ (a : Fin 32) (r : Fin 10000), y = ix2 a r := ⟨y 0, y 1, eq_ix2 y⟩
  unfold k3_pay3 k3_pay1
  show (matmul (φ₁ := .bf16) (φ₂ := .bf16) dot_S200x32_S200x10000_S32x10000_0_0_1_1_n_n none (shapeCast S200x32 v17 shapeCasts_S200x32_S200x32) (truncf .bf16 v0 bitsLt_bf16_f32)
    (constant (F := Ideal) S32x10000 .f32 0x00000000#32) : FVec Ideal S32x10000 .f32) (ix2 a r) = _
  rw [shapeCast_self]
  exact (acc3_dot_apply v17 (truncf .bf16 v0 bitsLt_bf16_f32) a r).trans rfl

/-- The first band stores its contribution; -/
theorem acc3_pay4_eq (v0 : Vec Ideal S200x10000 .f32) (v17 : Vec Ideal S200x32 .bf16) :
    k3_pay4 (F := Ideal) v0 v17 = Cert.Spec.mmTN (a := 32) (k := 200) (b := 10000) (φ₁ := .bf16) (φ₂ := .f32) v17 v0 := by
  unfold k3_pay4
  show shapeCast S32x10000 (k3_pay3 (F := Ideal) v0 v17) shapeCasts_S32x10000_S32x10000 = _
  rw [shapeCast_self, acc3_pay3_eq]

/-- a later band adds it onto what the accumulator held. -/
theorem acc3_pay5_eq (v0 : Vec Ideal S200x10000 .f32) (v17 : Vec Ideal S200x32 .bf16) (v29 : Vec Ideal S32x10000 .f32) :
    k3_pay5 (F := Ideal) v0 v17 v29
      = fun j => v29 j + Cert.Spec.mmTN (a := 32) (k := 200) (b := 10000) (φ₁ := .bf16) (φ₂ := .f32) v17 v0 j := by
  unfold k3_pay5
  show shapeCast S32x10000 (addf (φ := .f32) v29 (k3_pay3 (F := Ideal) v0 v17)) shapeCasts_S32x10000_S32x10000 = _
  rw [shapeCast_self, acc3_pay3_eq]
  rfl

/-! ## The second result from the accumulator -/

/-- The left operand's index at output `(c, r)` and contraction position `k` is `(k, c)`; -/
theorem z2_dotL_0 (i : S4x10000.Idx) (q : dot_S16x4_S16x10000_S4x10000_0_0_1_1_n_n.contr.Idx) : (dot_S16x4_S16x10000_S4x10000_0_0_1_1_n_n.lhsIdx i q 0).val = (q ⟨0, by decide⟩).val :=
  dot_S16x4_S16x10000_S4x10000_0_0_1_1_n_n.lhsIdx_val_of_single rfl i q
theorem z2_dotL_1 (i : S4x10000.Idx) (q : dot_S16x4_S16x10000_S4x10000_0_0_1_1_n_n.contr.Idx) : (dot_S16x4_S16x10000_S4x10000_0_0_1_1_n_n.lhsIdx i q 1).val = (i 0).val := by
  unfold DotDims.lhsIdx
  rw [dif_neg (show ¬(1 : Fin S16x4.rank) ∈ dot_S16x4_S16x10000_S4x10000_0_0_1_1_n_n.lhsBatch by decide), dif_pos (show (1 : Fin S16x4.rank) ∈ dot_S16x4_S16x10000_S4x10000_0_0_1_1_n_n.lhsNonContracting by decide)]
  rfl
/-- the right operand's is `(k, r)`. -/
theorem z2_dotR_0 (i : S4x10000.Idx) (q : dot_S16x4_S16x10000_S4x10000_0_0_1_1_n_n.contr.Idx) : (dot_S16x4_S16x10000_S4x10000_0_0_1_1_n_n.rhsIdx i q 0).val = (q ⟨0, by decide⟩).val :=
  dot_S16x4_S16x10000_S4x10000_0_0_1_1_n_n.rhsIdx_val_of_single rfl i q
theorem z2_dotR_1 (i : S4x10000.Idx) (q : dot_S16x4_S16x10000_S4x10000_0_0_1_1_n_n.contr.Idx) : (dot_S16x4_S16x10000_S4x10000_0_0_1_1_n_n.rhsIdx i q 1).val = (i 1).val := by
  unfold DotDims.rhsIdx
  rw [dif_neg (show ¬(1 : Fin S16x10000.rank) ∈ dot_S16x4_S16x10000_S4x10000_0_0_1_1_n_n.rhsBatch by decide), dif_pos (show (1 : Fin S16x10000.rank) ∈ dot_S16x4_S16x10000_S4x10000_0_0_1_1_n_n.rhsNonContracting by decide)]
  rfl

/-- The (16 × 4)ᵀ by 16 × 10000 product into a zero accumulator, at `(c, r)`: `Σ_k x0(k, c) · x1(k, r)`. -/
theorem z2_dot_apply (x0 : FVec Ideal S16x4 .f32) (x1 : FVec Ideal S16x10000 .f32) (cc : Fin 4) (r : Fin 10000) :
    (matmul dot_S16x4_S16x10000_S4x10000_0_0_1_1_n_n none x0 x1 (constant (F := Ideal) S4x10000 .f32 0x00000000#32) : FVec Ideal S4x10000 .f32) (ix2 cc r)
      = ∑ k : Fin 16, x0 (ix2 k cc) * x1 (ix2 k r) := by
  simp only [matmul]
  rw [Ideal.matmul_constant_zero_apply, ← Equiv.sum_comp (contrEquiv1 dot_S16x4_S16x10000_S4x10000_0_0_1_1_n_n 16 rfl rfl).symm]
  refine Finset.sum_congr rfl fun k _ => ?_
  have hk := contrEquiv1_symm_val dot_S16x4_S16x10000_S4x10000_0_0_1_1_n_n 16 rfl rfl k
  have el : dot_S16x4_S16x10000_S4x10000_0_0_1_1_n_n.lhsIdx (ix2 cc r) ((contrEquiv1 dot_S16x4_S16x10000_S4x10000_0_0_1_1_n_n 16 rfl rfl).symm k) = ix2 k cc := funext fun b => Fin.ext (by
    match b with
    | ⟨0, _⟩ => exact (z2_dotL_0 _ _).trans hk
    | ⟨1, _⟩ => exact z2_dotL_1 _ _)
  have er : dot_S16x4_S16x10000_S4x10000_0_0_1_1_n_n.rhsIdx (ix2 cc r) ((contrEquiv1 dot_S16x4_S16x10000_S4x10000_0_0_1_1_n_n 16 rfl rfl).symm k) = ix2 k r := funext fun b => Fin.ext (by
    match b with
    | ⟨0, _⟩ => exact (z2_dotR_0 _ _).trans hk
    | ⟨1, _⟩ => exact z2_dotR_1 _ _)
  rw [el, er]

/-- Rows `0 … 15` and rows `16 … 31` of the accumulator, added: its two row halves added back. -/
theorem z2_halves_eq (acc : FVec Ideal S32x10000 .f32) :
    addf (φ := .f32) (extractStridedSlice S16x10000 ![0, 0] acc slices_S32x10000_o0_0_S16x10000)
        (extractStridedSlice S16x10000 ![16, 0] acc slices_S32x10000_o16_0_S16x10000)
      = Cert.Spec.halves0 (n := 10000) (φ := .f32) acc := by
  funext y
  obtain ⟨q, r, rfl⟩ : ∃ (q : Fin 16) (r : Fin 10000), y = ix2 q r := ⟨y 0, y 1, eq_ix2 y⟩
  show extractStridedSlice S16x10000 ![0, 0] acc slices_S32x10000_o0_0_S16x10000 (ix2 q r)
      + extractStridedSlice S16x10000 ![16, 0] acc slices_S32x10000_o16_0_S16x10000 (ix2 q r)
    = acc (ix2 ⟨q.val, by omega⟩ r) + acc (ix2 ⟨q.val + 16, by omega⟩ r)
  rw [extractStridedSlice_apply ![0, 0] acc slices_S32x10000_o0_0_S16x10000 (ix2 q r) (ix2 ⟨q.val, by omega⟩ r)
      (fun a => by match a with | ⟨0, _⟩ => exact (Nat.zero_add _).symm | ⟨1, _⟩ => exact (Nat.zero_add _).symm),
    extractStridedSlice_apply ![16, 0] acc slices_S32x10000_o16_0_S16x10000 (ix2 q r) (ix2 ⟨q.val + 16, by omega⟩ r)
      (fun a => by match a with | ⟨0, _⟩ => exact Nat.add_comm _ _ | ⟨1, _⟩ => exact (Nat.zero_add _).symm)]

/-- The second result from the accumulator `S`: `(noiseᵀ · exp(Wlᵀ·T) + Wmᵀ·T)ᵀ` with `T` the two row halves of
    `S` added. -/
theorem z2_pay6_eq (acc : Vec Ideal S32x10000 .f32) (wm wl : Vec Ideal S16x4 .f32) (noise : Vec Ideal S10000x4 .f32) :
    k3_pay6 (F := Ideal) acc wm wl noise
      = Cert.Spec.tr (a := 4) (b := 10000) (φ := .f32) (Cert.Spec.sample (a := 4) (b := 10000) (Cert.Spec.tr (a := 10000) (b := 4) (φ := .f32) noise)
          (Cert.Spec.mmTN (a := 4) (k := 16) (b := 10000) (φ₁ := .f32) (φ₂ := .f32) wl (Cert.Spec.halves0 (n := 10000) (φ := .f32) acc))
          (Cert.Spec.mmTN (a := 4) (k := 16) (b := 10000) (φ₁ := .f32) (φ₂ := .f32) wm (Cert.Spec.halves0 (n := 10000) (φ := .f32) acc))) := by
  funext y
  obtain ⟨r, cc, rfl⟩ : ∃ (r : Fin 10000) (cc : Fin 4), y = ix2 r cc := ⟨y 0, y 1, eq_ix2 y⟩
  unfold k3_pay6
  refine (transpose_apply [1, 0] _ transposes_S4x10000_p1_0_S10000x4 (ix2 r cc) (ix2 cc r)
    (fun b => by match b with | ⟨0, _⟩ => rfl | ⟨1, _⟩ => rfl)).trans ?_
  show (transpose S4x10000 [1, 0] noise transposes_S10000x4_p1_0_S4x10000) (ix2 cc r)
        * Ideal.exp ((matmul (φ₁ := .f32) (φ₂ := .f32) dot_S16x4_S16x10000_S4x10000_0_0_1_1_n_n none wl
            (addf (φ := .f32) (extractStridedSlice S16x10000 ![0, 0] acc slices_S32x10000_o0_0_S16x10000) (extractStridedSlice S16x10000 ![16, 0] acc slices_S32x10000_o16_0_S16x10000))
            (constant (F := Ideal) S4x10000 .f32 0x00000000#32) : FVec Ideal S4x10000 .f32) (ix2 cc r))
      + (matmul (φ₁ := .f32) (φ₂ := .f32) dot_S16x4_S16x10000_S4x10000_0_0_1_1_n_n none wm
            (addf (φ := .f32) (extractStridedSlice S16x10000 ![0, 0] acc slices_S32x10000_o0_0_S16x10000) (extractStridedSlice S16x10000 ![16, 0] acc slices_S32x10000_o16_0_S16x10000))
            (constant (F := Ideal) S4x10000 .f32 0x00000000#32) : FVec Ideal S4x10000 .f32) (ix2 cc r)
    = noise (ix2 r cc) * Ideal.exp (∑ k : Fin 16, wl (ix2 k cc) * Cert.Spec.halves0 (n := 10000) (φ := .f32) acc (ix2 k r))
      + ∑ k : Fin 16, wm (ix2 k cc) * Cert.Spec.halves0 (n := 10000) (φ := .f32) acc (ix2 k r)
  rw [z2_halves_eq, z2_dot_apply, z2_dot_apply,
    transpose_apply [1, 0] noise transposes_S10000x4_p1_0_S4x10000 (ix2 cc r) (ix2 r cc)
      (fun b => by match b with | ⟨0, _⟩ => rfl | ⟨1, _⟩ => rfl)]

end Cert.KernelIdeal.Hand

end
-- ==== Proof.PropOutValue10.lean ====
import proofs.«111736_g88691074663054_cont_9to1c4b_58_39_alg».proof.Proof.PropOutScratch
import proofs.«111736_g88691074663054_cont_9to1c4b_58_39_alg».proof.Proof.PropOutAcc
import proofs.«111736_g88691074663054_cont_9to1c4b_58_39_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! # The fourth tiled stage's second result on the extended reals

Band `t` adds `Hₜᵀ · Aₜ` to the accumulator, `Hₜ` and `Aₜ` being rows `200·t … 200·t + 199` of the pair of halves
`H` (10000 × 32) and of the adjacency matrix `A` (10000 × 10000). After band `n` the accumulator therefore holds the
sum of the first `n + 1` bands' terms (induction on the band); after the last band this is the banded sum of
`Hᵀ · A`, and the second result, computed from it and written back once, is the whole 10000 × 4 array. -/

/-! ## The accumulator, band by band -/

/-- The accumulator after the first band is that band's contribution; -/
theorem acc3_step_zero {F : FTy → Type} [FloatOps F] (V : (c : Dev nD) → (b : Ref sig .tc) → Buf (Elt F) ((c : Thread nD τ).loc b)) (c : Dev nD) (h : 0 < cfg3.N) :
    (outsAt3 V c 0 h).2.2 = k3_pay4 (iblk3 V c 0 ⟨0, h⟩) (iblk3 V c 2 ⟨0, h⟩) :=
  scratch3_first V c ⟨0, h⟩ rfl
/-- after a later band, what the band before left with this band's contribution added; -/
theorem acc3_step_succ {F : FTy → Type} [FloatOps F] (V : (c : Dev nD) → (b : Ref sig .tc) → Buf (Elt F) ((c : Thread nD τ).loc b)) (c : Dev nD) (n : ℕ) (h : n + 1 < cfg3.N) :
    (outsAt3 V c (n + 1) h).2.2 = k3_pay5 (iblk3 V c 0 ⟨n + 1, h⟩) (iblk3 V c 2 ⟨n + 1, h⟩) (outsAt3 V c n (Nat.lt_of_succ_lt h)).2.2 :=
  scratch3_later V c ⟨n + 1, h⟩ (Nat.succ_ne_zero n)
/-- and the last band leaves the second result's buffer at the payload of the accumulator as it has just updated it. -/
theorem acc3_step_last {F : FTy → Type} [FloatOps F] (V : (c : Dev nD) → (b : Ref sig .tc) → Buf (Elt F) ((c : Thread nD τ).loc b)) (c : Dev nD) (t : Fin cfg3.N) (h : t.val = 49) :
    (outsAt3 V c t.val t.isLt).2.1 = k3_pay6 (outsAt3 V c t.val t.isLt).2.2 (iblk3 V c 5 t) (iblk3 V c 6 t) (iblk3 V c 8 t) := by
  rw [scratch3_later V c t (by omega)]
  exact win10_last V c t h

/-- Band `t`'s term of the banded sum `Σ_t Σ_r H(200·t + r, ·) · A(200·t + r, ·)` (zero past the last band, so that
    the partial sums range over the naturals). -/
def acc3_term (H : FVec Ideal (Cert.Spec.Sh 10000 32) .bf16) (A : FVec Ideal (Cert.Spec.Sh 10000 10000) .f32) (t : ℕ) :
    FVec Ideal (Cert.Spec.Sh 32 10000) .f32 :=
  fun j => if h : t < 50 then ∑ r : Fin 200, H (ix2 ⟨200 * t + r.val, by omega⟩ (j 0)) * A (ix2 ⟨200 * t + r.val, by omega⟩ (j 1)) else 0

/-- The fifty terms added are the banded sum. -/
theorem acc3_sum_all (H : FVec Ideal (Cert.Spec.Sh 10000 32) .bf16) (A : FVec Ideal (Cert.Spec.Sh 10000 10000) .f32) :
    (fun j => ∑ t ∈ Finset.range 50, acc3_term H A t j) = Cert.Spec.bandSum H A := by
  funext j
  rw [Finset.sum_range]
  exact Finset.sum_congr rfl fun t _ => dif_pos t.isLt

/-- A band's contribution is its term: if `x0` is rows `200·n …` of `A` and `x2` is rows `200·n …` of `H`, then
    `x2ᵀ · x0` is term `n`. -/
theorem acc3_band_eq (H : FVec Ideal (Cert.Spec.Sh 10000 32) .bf16) (A : FVec Ideal (Cert.Spec.Sh 10000 10000) .f32)
    (x0 : Vec Ideal S200x10000 .f32) (x2 : Vec Ideal S200x32 .bf16) (n : ℕ) (hn : n < 50)
    (h0 : ∀ (r : Fin 200) (k : Fin 10000), x0 (ix2 r k) = A (ix2 ⟨200 * n + r.val, by omega⟩ k))
    (h2 : ∀ (r : Fin 200) (a : Fin 32), x2 (ix2 r a) = H (ix2 ⟨200 * n + r.val, by omega⟩ a)) :
    Cert.Spec.mmTN (a := 32) (k := 200) (b := 10000) (φ₁ := .bf16) (φ₂ := .f32) x2 x0 = acc3_term H A n := by
  funext j
  obtain ⟨a, r, rfl⟩ : ∃ (a : Fin 32) (r : Fin 10000), j = ix2 a r := ⟨j 0, j 1, eq_ix2 j⟩
  have e : acc3_term H A n (ix2 a r)
      = ∑ q : Fin 200, H (ix2 ⟨200 * n + q.val, by omega⟩ a) * A (ix2 ⟨200 * n + q.val, by omega⟩ r) := dif_pos hn
  rw [e]
  show ∑ q : Fin 200, x2 (ix2 q a) * x0 (ix2 q r) = _
  exact Finset.sum_congr rfl fun q _ => by rw [h2, h0]

/-- The printed index maps, decided over the grid: band `t` takes rows `200·t …` of `A` (window 0) and of `H`
    (window 2); the two weight matrices (windows 5, 6), the noise (window 8) and the second result (window 10) are
    whole arrays at every band. -/
theorem idx_facts3_10 : ∀ t : Fin cfg3.N, win3_0.index t (0 : Fin 2) = t.val ∧ win3_0.index t (1 : Fin 2) = 0
    ∧ win3_2.index t (0 : Fin 2) = t.val ∧ win3_2.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_8.index t (0 : Fin 2) = 0 ∧ win3_8.index t (1 : Fin 2) = 0
    ∧ win3_10.index t (0 : Fin 2) = 0 ∧ win3_10.index t (1 : Fin 2) = 0 :=
  (by decide +kernel : ∀ t : Fin grid3.N, _)

/-- The second result from its pieces: with the accumulator at the banded sum and the three whole-array blocks at
    their arrays, what the last band computes is the stage's second result. -/
theorem z2_assemble (A : FVec Ideal (Cert.Spec.Sh 10000 10000) .f32) (H : FVec Ideal (Cert.Spec.Sh 10000 32) .bf16)
    (wm wl : FVec Ideal (Cert.Spec.Sh 16 4) .f32) (noise : FVec Ideal (Cert.Spec.Sh 10000 4) .f32)
    (acc : Vec Ideal S32x10000 .f32) (x5 x6 : Vec Ideal S16x4 .f32) (x8 : Vec Ideal S10000x4 .f32)
    (hacc : acc = Cert.Spec.bandSum H A) (h5 : ∀ z, x5 z = wm z) (h6 : ∀ z, x6 z = wl z) (h8 : ∀ z, x8 z = noise z)
    (y i : S10000x4.Idx) (hi : i = y) :
    Cert.Spec.tr (a := 4) (b := 10000) (φ := .f32) (Cert.Spec.sample (a := 4) (b := 10000) (Cert.Spec.tr (a := 10000) (b := 4) (φ := .f32) x8)
        (Cert.Spec.mmTN (a := 4) (k := 16) (b := 10000) (φ₁ := .f32) (φ₂ := .f32) x6 (Cert.Spec.halves0 (n := 10000) (φ := .f32) acc))
        (Cert.Spec.mmTN (a := 4) (k := 16) (b := 10000) (φ₁ := .f32) (φ₂ := .f32) x5 (Cert.Spec.halves0 (n := 10000) (φ := .f32) acc))) y
      = Cert.Spec.z2 A H wm wl noise i := by
  obtain rfl : x5 = wm := funext h5
  obtain rfl : x6 = wl := funext h6
  obtain rfl : x8 = noise := funext h8
  subst hacc hi
  rfl

variable (V : (c : Dev nD) → (b : Ref sig .tc) → Buf (Elt Ideal) ((c : Thread nD τ).loc b))

/-- Band `t`'s contribution, from the blocks the stage reads there, is term `t` of the banded sum of the arrays the
    stage was entered with. -/
theorem acc3_block (c : Dev nD) (t : Fin cfg3.N) :
    Cert.Spec.mmTN (a := 32) (k := 200) (b := 10000) (φ₁ := .bf16) (φ₂ := .f32) (iblk3 V c 2 t) (iblk3 V c 0 t) = acc3_term (V c main_v2_1) (V c main_arg2) t.val := by
  obtain ⟨e0, e1, e2, e3, -⟩ := idx_facts3_10 t
  have hN : t.val < 50 := lt_of_lt_of_eq t.isLt N_3
  refine acc3_band_eq (V c main_v2_1) (V c main_arg2) (iblk3 V c 0 t) (iblk3 V c 2 t) t.val hN ?_ ?_
  · intro r k
    show V c main_arg2 (((cfg3.win 0).blk t).view.emb (ix2 r k)) = V c main_arg2 _
    refine congrArg _ (funext fun a => Fin.ext ?_)
    match a with
    | ⟨0, _⟩ => show win3_0.index t (0 : Fin 2) * 200 + 1 * r.val = 200 * t.val + r.val; omega
    | ⟨1, _⟩ => show win3_0.index t (1 : Fin 2) * 10000 + 1 * k.val = k.val; omega
  · intro r a
    show V c main_v2_1 (((cfg3.win 2).blk t).view.emb (ix2 r a)) = V c main_v2_1 _
    refine congrArg _ (funext fun b => Fin.ext ?_)
    match b with
    | ⟨0, _⟩ => show win3_2.index t (0 : Fin 2) * 200 + 1 * r.val = 200 * t.val + r.val; omega
    | ⟨1, _⟩ => show win3_2.index t (1 : Fin 2) * 32 + 1 * a.val = a.val; omega

/-- After band `n` the accumulator holds the first `n + 1` terms added: by induction on the band, the first band
    storing its term and each later band adding its own. -/
theorem acc3_sum (c : Dev nD) : ∀ (n : ℕ) (h : n < cfg3.N),
    (outsAt3 (F := Ideal) V c n h).2.2 = fun j => ∑ t ∈ Finset.range (n + 1), acc3_term (V c main_v2_1) (V c main_arg2) t j
  | 0, h => by
    refine (acc3_step_zero V c h).trans ?_
    refine (acc3_pay4_eq (iblk3 V c 0 ⟨0, h⟩) (iblk3 V c 2 ⟨0, h⟩)).trans ?_
    refine (acc3_block V c ⟨0, h⟩).trans ?_
    funext j
    exact (Finset.sum_range_one (fun t => acc3_term (V c main_v2_1) (V c main_arg2) t j)).symm
  | n + 1, h => by
    refine (acc3_step_succ V c n h).trans ?_
    refine (acc3_pay5_eq (iblk3 V c 0 ⟨n + 1, h⟩) (iblk3 V c 2 ⟨n + 1, h⟩) (outsAt3 V c n (Nat.lt_of_succ_lt h)).2.2).trans ?_
    rw [acc3_sum c n (Nat.lt_of_succ_lt h), acc3_block V c ⟨n + 1, h⟩]
    funext j
    exact (Finset.sum_range_succ (fun t => acc3_term (V c main_v2_1) (V c main_arg2) t j) (n + 1)).symm

/-- The one write-back of the second result, after the last band, writes the stage's second result: the block is the
    whole array. -/
theorem flushed3_10_eq (c : Dev nD) (t : Fin cfg3.N) (hf : (cfg3.win 10).flush t = true) :
    (dat3 (F := Ideal) V c).flushed 10 t
      = ((cfg3.win 10).blk t).view.read (Elt Ideal) (Cert.Spec.z2 (V c main_arg2) (V c main_v2_1) (V c main_arg7) (V c main_arg8) (V c main_arg10)) := by
  have hN : t.val < 50 := lt_of_lt_of_eq t.isLt N_3
  have h49 : t.val = 49 := by have := (flush3_10 t).mp hf; omega
  show (cfg3.win 10).cut (grid3.coords t) ((dat3 V c).after 10 t) = _
  rw [after3_10, acc3_step_last V c t h49]
  obtain ⟨e0, e1, e2, e3, e4, e5, e6, e7, e8, e9, e10, e11⟩ := idx_facts3_10 t
  funext y
  refine (congrFun (z2_pay6_eq (outsAt3 V c t.val t.isLt).2.2 (iblk3 V c 5 t) (iblk3 V c 6 t) (iblk3 V c 8 t)) y).trans ?_
  refine z2_assemble (V c main_arg2) (V c main_v2_1) (V c main_arg7) (V c main_arg8) (V c main_arg10)
    (outsAt3 V c t.val t.isLt).2.2 (iblk3 V c 5 t) (iblk3 V c 6 t) (iblk3 V c 8 t) ?_ ?_ ?_ ?_ y (((cfg3.win 10).blk t).view.emb y) ?_
  · rw [acc3_sum V c t.val t.isLt, h49]
    exact acc3_sum_all (V c main_v2_1) (V c main_arg2)
  · intro z
    show V c main_arg7 (((cfg3.win 5).blk t).view.emb z) = V c main_arg7 z
    refine congrArg _ (funext fun a => Fin.ext ?_)
    match a with
    | ⟨0, _⟩ => show win3_5.index t (0 : Fin 2) * 16 + 1 * (z 0).val = (z 0).val; omega
    | ⟨1, _⟩ => show win3_5.index t (1 : Fin 2) * 4 + 1 * (z 1).val = (z 1).val; omega
  · intro z
    show V c main_arg8 (((cfg3.win 6).blk t).view.emb z) = V c main_arg8 z
    refine congrArg _ (funext fun a => Fin.ext ?_)
    match a with
    | ⟨0, _⟩ => show win3_6.index t (0 : Fin 2) * 16 + 1 * (z 0).val = (z 0).val; omega
    | ⟨1, _⟩ => show win3_6.index t (1 : Fin 2) * 4 + 1 * (z 1).val = (z 1).val; omega
  · intro z
    show V c main_arg10 (((cfg3.win 8).blk t).view.emb z) = V c main_arg10 z
    refine congrArg _ (funext fun a => Fin.ext ?_)
    match a with
    | ⟨0, _⟩ => show win3_8.index t (0 : Fin 2) * 10000 + 1 * (z 0).val = (z 0).val; omega
    | ⟨1, _⟩ => show win3_8.index t (1 : Fin 2) * 4 + 1 * (z 1).val = (z 1).val; omega
  · refine funext fun a => Fin.ext ?_
    match a with
    | ⟨0, _⟩ => show win3_10.index t (0 : Fin 2) * 10000 + 1 * (y 0).val = (y 0).val; omega
    | ⟨1, _⟩ => show win3_10.index t (1 : Fin 2) * 4 + 1 * (y 1).val = (y 1).val; omega

/-- An index of the second result is in band `t`'s block iff each coordinate is in the block's range on its axis. -/
theorem mem_blk3_10 (t : Fin cfg3.N) (i : S10000x4.Idx) :
    i ∈ ((cfg3.win 10).blk t).view.set ↔ ∀ a : Fin 2, win3_10.index t a * S10000x4.size a ≤ (i a).val ∧ (i a).val < win3_10.index t a * S10000x4.size a + S10000x4.size a := by
  show i ∈ ((View.whole main_v3_1).slice (win3_10.rect t)).set ↔ _
  rw [View.set_slice_whole, Rect.mem_set_unit]
  exact Iff.rfl

/-- Every index of the second result is written by the last band. -/
theorem covered3_10 (i : S10000x4.Idx) :
    ∃ t : Fin cfg3.N, (cfg3.win 10).flush t = true ∧ i ∈ ((cfg3.win 10).blk t).view.set := by
  have hi0 : (i 0).val < 10000 := idx2_lt0 i
  have hi1 : (i 1).val < 4 := idx2_lt1 i
  let t : Fin cfg3.N := ⟨49, lt_of_lt_of_eq (by omega) N_3.symm⟩
  obtain ⟨-, -, -, -, -, -, -, -, -, -, e10, e11⟩ := idx_facts3_10 t
  refine ⟨t, (flush3_10 t).mpr rfl, ?_⟩
  rw [mem_blk3_10]
  intro a
  match a with
  | ⟨0, _⟩ => show win3_10.index t (0 : Fin 2) * 10000 ≤ (i 0).val ∧ (i 0).val < win3_10.index t (0 : Fin 2) * 10000 + 10000; omega
  | ⟨1, _⟩ => show win3_10.index t (1 : Fin 2) * 4 ≤ (i 1).val ∧ (i 1).val < win3_10.index t (1 : Fin 2) * 4 + 4; omega

/-- THE SECOND RESULT after the stage: the stage's function of the five arrays it was entered with. -/
theorem final3_10 (c : Dev nD) :
    (dat3 (F := Ideal) V c).arrAt 10 cfg3.N = Cert.Spec.z2 (V c main_arg2) (V c main_v2_1) (V c main_arg7) (V c main_arg8) (V c main_arg10) :=
  (dat3 V c).arrAt_eq_of_cover 10 _ (fun t hf => flushed3_10_eq V c t hf) (covered3_10)

end Cert.KernelIdeal.Hand

end
-- ==== Proof.DecodeValue.lean ====
import proofs.«111736_g88691074663054_cont_9to1c4b_58_39_alg».proof.Proof.DecodeFrame
import proofs.«111736_g88691074663054_cont_9to1c4b_58_39_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! # Region 4 on the extended reals: the result array is `logistic (Z₁ · Z₂ᵀ)`

Point `t` of the grid multiplies rows `200·t … 200·t + 199` of `Z₁` (10000 × 4) by the transpose of the whole of
`Z₂` (10000 × 4), applies the logistic function entry by entry, and writes the 200 × 10000 block to the same rows
of the result; the 50 points' blocks fill the 10000 rows. -/

theorem hz4 : (![0, 0] : Fin 2 → Nat) = fun _ => 0 := funext fun a => by fin_cases a <;> rfl

/-! ## The band's product at an index -/

/-- The left operand's index at output `(p, q)` and contraction position `k` is `(p, k)`; -/
theorem tileL4_0 (i : S200x10000.Idx) (q : dot_S200x4_S10000x4_S200x10000_1_1_0_0_n_n.contr.Idx) : (dot_S200x4_S10000x4_S200x10000_1_1_0_0_n_n.lhsIdx i q 0).val = (i 0).val := by
  unfold DotDims.lhsIdx
  rw [dif_neg (show ¬(0 : Fin S200x4.rank) ∈ dot_S200x4_S10000x4_S200x10000_1_1_0_0_n_n.lhsBatch by decide), dif_pos (show (0 : Fin S200x4.rank) ∈ dot_S200x4_S10000x4_S200x10000_1_1_0_0_n_n.lhsNonContracting by decide)]
  rfl
theorem tileL4_1 (i : S200x10000.Idx) (q : dot_S200x4_S10000x4_S200x10000_1_1_0_0_n_n.contr.Idx) : (dot_S200x4_S10000x4_S200x10000_1_1_0_0_n_n.lhsIdx i q 1).val = (q ⟨0, by decide⟩).val :=
  dot_S200x4_S10000x4_S200x10000_1_1_0_0_n_n.lhsIdx_val_of_single rfl i q
/-- the right operand's is `(q, k)`: the second factor enters transposed. -/
theorem tileR4_0 (i : S200x10000.Idx) (q : dot_S200x4_S10000x4_S200x10000_1_1_0_0_n_n.contr.Idx) : (dot_S200x4_S10000x4_S200x10000_1_1_0_0_n_n.rhsIdx i q 0).val = (i 1).val := by
  unfold DotDims.rhsIdx
  rw [dif_neg (show ¬(0 : Fin S10000x4.rank) ∈ dot_S200x4_S10000x4_S200x10000_1_1_0_0_n_n.rhsBatch by decide), dif_pos (show (0 : Fin S10000x4.rank) ∈ dot_S200x4_S10000x4_S200x10000_1_1_0_0_n_n.rhsNonContracting by decide)]
  rfl
theorem tileR4_1 (i : S200x10000.Idx) (q : dot_S200x4_S10000x4_S200x10000_1_1_0_0_n_n.contr.Idx) : (dot_S200x4_S10000x4_S200x10000_1_1_0_0_n_n.rhsIdx i q 1).val = (q ⟨0, by decide⟩).val :=
  dot_S200x4_S10000x4_S200x10000_1_1_0_0_n_n.rhsIdx_val_of_single rfl i q

/-- The 200 × 4 by (10000 × 4)ᵀ product into a zero accumulator, at `(p, q)`: `Σ_k x0(p, k) · x1(q, k)`. -/
theorem tile4_apply (x0 : FVec Ideal S200x4 .f32) (x1 : FVec Ideal S10000x4 .f32) (p : Fin 200) (q : Fin 10000) :
    (matmul dot_S200x4_S10000x4_S200x10000_1_1_0_0_n_n none x0 x1 (constant (F := Ideal) S200x10000 .f32 0x00000000#32) : FVec Ideal S200x10000 .f32) (ix2 p q)
      = ∑ k : Fin 4, x0 (ix2 p k) * x1 (ix2 q k) := by
  simp only [matmul]
  rw [Ideal.matmul_constant_zero_apply, ← Equiv.sum_comp (contrEquiv1 dot_S200x4_S10000x4_S200x10000_1_1_0_0_n_n 4 rfl rfl).symm]
  refine Finset.sum_congr rfl fun k _ => ?_
  have hk := contrEquiv1_symm_val dot_S200x4_S10000x4_S200x10000_1_1_0_0_n_n 4 rfl rfl k
  have el : dot_S200x4_S10000x4_S200x10000_1_1_0_0_n_n.lhsIdx (ix2 p q) ((contrEquiv1 dot_S200x4_S10000x4_S200x10000_1_1_0_0_n_n 4 rfl rfl).symm k) = ix2 p k := funext fun a => Fin.ext (by
    match a with
    | ⟨0, _⟩ => exact tileL4_0 _ _
    | ⟨1, _⟩ => exact (tileL4_1 _ _).trans hk)
  have er : dot_S200x4_S10000x4_S200x10000_1_1_0_0_n_n.rhsIdx (ix2 p q) ((contrEquiv1 dot_S200x4_S10000x4_S200x10000_1_1_0_0_n_n 4 rfl rfl).symm k) = ix2 q k := funext fun a => Fin.ext (by
    match a with
    | ⟨0, _⟩ => exact tileR4_0 _ _
    | ⟨1, _⟩ => exact (tileR4_1 _ _).trans hk)
  rw [el, er]

/-- The body's payload is the logistic function of the product of its two loaded blocks (the two shape casts are
    of a shape to itself). -/
theorem pay4_eq (x0 : Vec Ideal S200x4 .f32) (x1 : Vec Ideal S10000x4 .f32) :
    k4_pay1 (F := Ideal) x0 x1 = logistic (matmul (φ₁ := .f32) (φ₂ := .f32) dot_S200x4_S10000x4_S200x10000_1_1_0_0_n_n none x0 x1 (constant (F := Ideal) S200x10000 .f32 0x00000000#32)) := by
  unfold k4_pay1
  show logistic (matmul (φ₁ := .f32) (φ₂ := .f32) dot_S200x4_S10000x4_S200x10000_1_1_0_0_n_n none (shapeCast S200x4 x0 shapeCasts_S200x4_S200x4) (shapeCast S10000x4 x1 shapeCasts_S10000x4_S10000x4)
    (constant (F := Ideal) S200x10000 .f32 0x00000000#32)) = _
  rw [shapeCast_self, shapeCast_self]

/-- At an index: the logistic function of `Σ_k x0(p, k) · x1(q, k)`. -/
theorem pay4_apply (x0 : Vec Ideal S200x4 .f32) (x1 : Vec Ideal S10000x4 .f32) (y : S200x10000.Idx) :
    k4_pay1 (F := Ideal) x0 x1 y
      = Ideal.logistic (Cert.Spec.mmNT (a := 200) (k := 4) (b := 10000) (φ₁ := .f32) (φ₂ := .f32) x0 x1 y) := by
  obtain ⟨p, q, rfl⟩ : ∃ (p : Fin 200) (q : Fin 10000), y = ix2 p q := ⟨y 0, y 1, eq_ix2 y⟩
  rw [pay4_eq]
  show Ideal.logistic ((matmul (φ₁ := .f32) (φ₂ := .f32) dot_S200x4_S10000x4_S200x10000_1_1_0_0_n_n none x0 x1 (constant (F := Ideal) S200x10000 .f32 0x00000000#32) : FVec Ideal S200x10000 .f32) (ix2 p q)) = _
  rw [tile4_apply]
  rfl

/-! ## From a band to the array -/

/-- A band's entries are the array's, at the band's rows: if `x0` is rows `200·n …` of `Z₁` and `x1` is `Z₂`, then
    entry `y` of the band's block is entry `(200·n + y₀, y₁)` of `logistic (Z₁ · Z₂ᵀ)`. -/
theorem band4_eq (Y1 Y2 : FVec Ideal (Cert.Spec.Sh 10000 4) .f32)
    (x0 : Vec Ideal S200x4 .f32) (x1 : Vec Ideal S10000x4 .f32) (n : Nat) (hn : n < 50)
    (h0 : ∀ (r : Fin 200) (k : Fin 4), x0 (ix2 r k) = Y1 (ix2 ⟨200 * n + r.val, by omega⟩ k))
    (h1 : ∀ z, x1 z = Y2 z)
    (y : S200x10000.Idx) (i : S10000x10000.Idx) (hi0 : (i 0).val = 200 * n + (y 0).val) (hi1 : (i 1).val = (y 1).val) :
    Ideal.logistic (Cert.Spec.mmNT (a := 200) (k := 4) (b := 10000) (φ₁ := .f32) (φ₂ := .f32) x0 x1 y) = Cert.Spec.decode Y1 Y2 i := by
  obtain rfl : x1 = Y2 := funext h1
  obtain ⟨p, q, rfl⟩ : ∃ (p : Fin 200) (q : Fin 10000), y = ix2 p q := ⟨y 0, y 1, eq_ix2 y⟩
  have hb : 200 * n + p.val < 10000 := by have := p.isLt; omega
  obtain ⟨p', q', rfl⟩ : ∃ (p' : Fin 10000) (q' : Fin 10000), i = ix2 p' q' := ⟨i 0, i 1, eq_ix2 i⟩
  obtain rfl : q' = q := Fin.ext hi1
  obtain rfl : p' = ⟨200 * n + p.val, hb⟩ := Fin.ext hi0
  show Ideal.logistic (∑ k : Fin 4, x0 (ix2 p k) * x1 (ix2 q' k)) = Ideal.logistic (∑ k : Fin 4, Y1 (ix2 ⟨200 * n + p.val, hb⟩ k) * x1 (ix2 q' k))
  refine congrArg Ideal.logistic (Finset.sum_congr rfl fun k _ => ?_)
  rw [h0]

/-- The printed index maps, decided over the grid: point `t` takes band `t` of `Z₁`, all of `Z₂`, and writes band `t`. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point `t` writes back is block `t` of `logistic (Z₁ · Z₂ᵀ)` of the arrays as the region finds them. -/
theorem flushed4_2_eq (c : Dev nD) (t : Fin cfg4.N) :
    (dat4 (F := Ideal) V c).flushed 2 t = ((cfg4.win 2).blk t).view.read (Elt Ideal) (Cert.Spec.decode (V c main_v3_0) (V c main_v3_1)) := by
  show (cfg4.win 2).cut (grid4.coords t) ((dat4 V c).after 2 t) = _
  rw [after4_2]
  unfold out4_2
  rw [View.canon_unit_zero hz4]
  simp only [View.ld_unit_zero (S := S200x4) hz4, View.ld_unit_zero (S := S10000x4) hz4]
  obtain ⟨e0, e1, e2, e3, e4, e5⟩ := idx_facts4 t
  have hN : t.val < 50 := lt_of_lt_of_eq t.isLt N_4
  funext y
  refine (pay4_apply (iblk4 V c 0 t) (iblk4 V c 1 t) y).trans ?_
  refine band4_eq (V c main_v3_0) (V c main_v3_1) (iblk4 V c 0 t) (iblk4 V c 1 t) t.val hN ?_ ?_ y (((cfg4.win 2).blk t).view.emb y) ?_ ?_
  · intro r k
    show V c main_v3_0 (((cfg4.win 0).blk t).view.emb (ix2 r k)) = V c main_v3_0 _
    refine congrArg _ (funext fun a => Fin.ext ?_)
    match a with
    | ⟨0, _⟩ => show win4_0.index t (0 : Fin 2) * 200 + 1 * r.val = 200 * t.val + r.val; omega
    | ⟨1, _⟩ => show win4_0.index t (1 : Fin 2) * 4 + 1 * k.val = k.val; omega
  · intro z
    show V c main_v3_1 (((cfg4.win 1).blk t).view.emb z) = V c main_v3_1 z
    refine congrArg _ (funext fun a => Fin.ext ?_)
    match a with
    | ⟨0, _⟩ => show win4_1.index t (0 : Fin 2) * 10000 + 1 * (z 0).val = (z 0).val; omega
    | ⟨1, _⟩ => show win4_1.index t (1 : Fin 2) * 4 + 1 * (z 1).val = (z 1).val; omega
  · show win4_2.index t (0 : Fin 2) * 200 + 1 * (y 0).val = 200 * t.val + (y 0).val; omega
  · show win4_2.index t (1 : Fin 2) * 10000 + 1 * (y 1).val = (y 1).val; omega

/-- An index of the result is in point `t`'s block iff each coordinate is in the block's range on its axis. -/
theorem mem_blk4_2 (t : Fin cfg4.N) (i : S10000x10000.Idx) :
    i ∈ ((cfg4.win 2).blk t).view.set ↔ ∀ a : Fin 2, win4_2.index t a * S200x10000.size a ≤ (i a).val ∧ (i a).val < win4_2.index t a * S200x10000.size a + S200x10000.size a := by
  show i ∈ ((View.whole main_v4).slice (win4_2.rect t)).set ↔ _
  rw [View.set_slice_whole, Rect.mem_set_unit]
  exact Iff.rfl

/-- Row `r` of the result is written by point `r / 200`. -/
theorem covered4_2 (i : S10000x10000.Idx) :
    ∃ t : Fin cfg4.N, (cfg4.win 2).flush t = true ∧ i ∈ ((cfg4.win 2).blk t).view.set := by
  have hi0 : (i 0).val < 10000 := idx2_lt0 i
  have hi1 : (i 1).val < 10000 := idx2_lt1 i
  let t : Fin cfg4.N := ⟨(i 0).val / 200, lt_of_lt_of_eq (by omega) N_4.symm⟩
  obtain ⟨e0, e1, e2, e3, e4, e5⟩ := idx_facts4 t
  have ht : t.val = (i 0).val / 200 := rfl
  refine ⟨t, flush4_2 t, ?_⟩
  rw [mem_blk4_2]
  intro a
  match a with
  | ⟨0, _⟩ => show win4_2.index t (0 : Fin 2) * 200 ≤ (i 0).val ∧ (i 0).val < win4_2.index t (0 : Fin 2) * 200 + 200; omega
  | ⟨1, _⟩ => show win4_2.index t (1 : Fin 2) * 10000 ≤ (i 1).val ∧ (i 1).val < win4_2.index t (1 : Fin 2) * 10000 + 10000; omega

/-- THE RESULT ARRAY after the region: `logistic (Z₁ · Z₂ᵀ)` of the two arrays the region was entered with. -/
theorem final4_2 (c : Dev nD) :
    (dat4 (F := Ideal) V c).arrAt 2 cfg4.N = Cert.Spec.decode (V c main_v3_0) (V c main_v3_1) :=
  (dat4 V c).arrAt_eq_of_cover 2 _ (fun t _ => flushed4_2_eq V c t) (covered4_2)

end Cert.KernelIdeal.Hand

end
-- ==== Proof.KernelValue.lean ====
/-
  What the tiled program's three results hold at the end, at the exact values: following each intermediate array
  through the stages — a stage's output array is its value function of the arrays the stage was entered with, and an
  array a stage only reads (or does not touch) passes through it — the decoded matrix is the logistic function of
  `z₁ · z₂ᵀ` with `z₁`, `z₂` the two sampled embeddings in the tiled program's own arrangement of the sums.
-/
import proofs.«111736_g88691074663054_cont_9to1c4b_58_39_alg».proof.Proof.KernelRun
import proofs.«111736_g88691074663054_cont_9to1c4b_58_39_alg».proof.Proof.XwValue0
import proofs.«111736_g88691074663054_cont_9to1c4b_58_39_alg».proof.Proof.XwValue1
import proofs.«111736_g88691074663054_cont_9to1c4b_58_39_alg».proof.Proof.PropInValue
import proofs.«111736_g88691074663054_cont_9to1c4b_58_39_alg».proof.Proof.PropInValue3
import proofs.«111736_g88691074663054_cont_9to1c4b_58_39_alg».proof.Proof.PropOutValue
import proofs.«111736_g88691074663054_cont_9to1c4b_58_39_alg».proof.Proof.PropOutValue10
import proofs.«111736_g88691074663054_cont_9to1c4b_58_39_alg».proof.Proof.DecodeValue
import proofs.«111736_g88691074663054_cont_9to1c4b_58_39_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- A buffer's launch contents on core `c`. -/
abbrev at0 (c : Dev nD) (b : Ref sig .tc) : Buf (Elt Ideal) ((c : Thread nD τ).loc b) := m ((c : Thread nD τ).loc b)

/-! ## A buffer not yet written holds its launch contents -/

theorem W1_launch (c : Dev nD) (b : Ref sig .tc)
    (h0 : ∀ w, (cfg0.win w).isOut = true → Pipeline.arrRef spec0 w ≠ b) :
    W1 m ρ c (Proc.devRef .tc b) = at0 m c b := (W1_keep m ρ c b h0).trans rfl
theorem W2_launch (c : Dev nD) (b : Ref sig .tc)
    (h0 : ∀ w, (cfg0.win w).isOut = true → Pipeline.arrRef spec0 w ≠ b) (h1 : ∀ w, (cfg1.win w).isOut = true → Pipeline.arrRef spec1 w ≠ b) :
    W2 m ρ c (Proc.devRef .tc b) = at0 m c b := (W2_keep m ρ c b h1).trans (W1_launch m ρ c b h0)
theorem W3_launch (c : Dev nD) (b : Ref sig .tc)
    (h0 : ∀ w, (cfg0.win w).isOut = true → Pipeline.arrRef spec0 w ≠ b) (h1 : ∀ w, (cfg1.win w).isOut = true → Pipeline.arrRef spec1 w ≠ b)
    (h2 : ∀ w, (cfg2.win w).isOut = true → Pipeline.arrRef spec2 w ≠ b) :
    W3 m ρ c (Proc.devRef .tc b) = at0 m c b := (W3_keep m ρ c b h2).trans (W2_launch m ρ c b h0 h1)

/-! ## Each intermediate array, where it is read -/

/-- The first feature product, as stage 0 leaves it. -/
theorem v0_at1 (c : Dev nD) : W1 m ρ c (Proc.devRef .tc main_v0) = Cert.Spec.xwPair (at0 m c main_arg0) (at0 m c main_arg3) :=
  (W1_arr m ρ c 2).trans (final0_2 (V0 m ρ) c)
/-- Stage 1 does not touch it. -/
theorem v0_at2 (c : Dev nD) : W2 m ρ c (Proc.devRef .tc main_v0) = Cert.Spec.xwPair (at0 m c main_arg0) (at0 m c main_arg3) :=
  (W2_keep m ρ c main_v0 (by decide)).trans (v0_at1 m ρ c)
/-- The second feature product, as stage 1 leaves it. -/
theorem v1_at2 (c : Dev nD) : W2 m ρ c (Proc.devRef .tc main_v1) = Cert.Spec.xwPair (at0 m c main_arg1) (at0 m c main_arg6) := by
  refine (W2_arr m ρ c 2).trans ((final1_2 (V1 m ρ) c).trans ?_)
  rw [show V1 m ρ c main_arg1 = at0 m c main_arg1 from W1_launch m ρ c main_arg1 (by decide),
    show V1 m ρ c main_arg6 = at0 m c main_arg6 from W1_launch m ρ c main_arg6 (by decide)]
/-- The first hidden layer, as stage 2 leaves it. -/
theorem v20_at3 (c : Dev nD) : W3 m ρ c (Proc.devRef .tc main_v2_0)
    = Cert.Spec.h1Pair (at0 m c main_arg2) (Cert.Spec.xwPair (at0 m c main_arg0) (at0 m c main_arg3)) := by
  refine (W3_arr m ρ c 3).trans ((final2_3 (V2 m ρ) c).trans ?_)
  rw [show V2 m ρ c main_arg2 = at0 m c main_arg2 from W2_launch m ρ c main_arg2 (by decide) (by decide),
    show V2 m ρ c main_v0 = _ from v0_at2 m ρ c]
/-- The second hidden layer, as stage 2 leaves it. -/
theorem v21_at3 (c : Dev nD) : W3 m ρ c (Proc.devRef .tc main_v2_1)
    = Cert.Spec.h2Pair (at0 m c main_arg2) (Cert.Spec.xwPair (at0 m c main_arg1) (at0 m c main_arg6)) := by
  refine (W3_arr m ρ c 4).trans ((final2_4 (V2 m ρ) c).trans ?_)
  rw [show V2 m ρ c main_arg2 = at0 m c main_arg2 from W2_launch m ρ c main_arg2 (by decide) (by decide),
    show V2 m ρ c main_v1 = _ from v1_at2 m ρ c]
/-- The first embedding, as stage 3 leaves it. -/
theorem v30_at4 (c : Dev nD) : W4 m ρ c (Proc.devRef .tc main_v3_0)
    = Cert.Spec.kZ1 (at0 m c main_arg0) (at0 m c main_arg2) (at0 m c main_arg3) (at0 m c main_arg4) (at0 m c main_arg5) (at0 m c main_arg9) := by
  refine (W4_arr m ρ c 9).trans ((final3_9 (V3 m ρ) c).trans ?_)
  rw [show V3 m ρ c main_arg2 = at0 m c main_arg2 from W3_launch m ρ c main_arg2 (by decide) (by decide) (by decide),
    show V3 m ρ c main_v2_0 = _ from v20_at3 m ρ c,
    show V3 m ρ c main_arg4 = at0 m c main_arg4 from W3_launch m ρ c main_arg4 (by decide) (by decide) (by decide),
    show V3 m ρ c main_arg5 = at0 m c main_arg5 from W3_launch m ρ c main_arg5 (by decide) (by decide) (by decide),
    show V3 m ρ c main_arg9 = at0 m c main_arg9 from W3_launch m ρ c main_arg9 (by decide) (by decide) (by decide)]
  rfl
/-- The second embedding, as stage 3 leaves it. -/
theorem v31_at4 (c : Dev nD) : W4 m ρ c (Proc.devRef .tc main_v3_1)
    = Cert.Spec.kZ2 (at0 m c main_arg1) (at0 m c main_arg2) (at0 m c main_arg6) (at0 m c main_arg7) (at0 m c main_arg8) (at0 m c main_arg10) := by
  refine (W4_arr m ρ c 10).trans ((final3_10 (V3 m ρ) c).trans ?_)
  rw [show V3 m ρ c main_arg2 = at0 m c main_arg2 from W3_launch m ρ c main_arg2 (by decide) (by decide) (by decide),
    show V3 m ρ c main_v2_1 = _ from v21_at3 m ρ c,
    show V3 m ρ c main_arg7 = at0 m c main_arg7 from W3_launch m ρ c main_arg7 (by decide) (by decide) (by decide),
    show V3 m ρ c main_arg8 = at0 m c main_arg8 from W3_launch m ρ c main_arg8 (by decide) (by decide) (by decide),
    show V3 m ρ c main_arg10 = at0 m c main_arg10 from W3_launch m ρ c main_arg10 (by decide) (by decide) (by decide)]
  rfl
/-- Stage 4 only reads the two embeddings. -/
theorem v30_at5 (c : Dev nD) : W5 m ρ c (Proc.devRef .tc main_v3_0)
    = Cert.Spec.kZ1 (at0 m c main_arg0) (at0 m c main_arg2) (at0 m c main_arg3) (at0 m c main_arg4) (at0 m c main_arg5) (at0 m c main_arg9) :=
  (W5_keep m ρ c main_v3_0 (by decide)).trans (v30_at4 m ρ c)
theorem v31_at5 (c : Dev nD) : W5 m ρ c (Proc.devRef .tc main_v3_1)
    = Cert.Spec.kZ2 (at0 m c main_arg1) (at0 m c main_arg2) (at0 m c main_arg6) (at0 m c main_arg7) (at0 m c main_arg8) (at0 m c main_arg10) :=
  (W5_keep m ρ c main_v3_1 (by decide)).trans (v31_at4 m ρ c)
/-- The decoded matrix, as stage 4 leaves it. -/
theorem v4_at5 (c : Dev nD) : W5 m ρ c (Proc.devRef .tc main_v4)
    = Cert.Spec.decode (Cert.Spec.kZ1 (at0 m c main_arg0) (at0 m c main_arg2) (at0 m c main_arg3) (at0 m c main_arg4) (at0 m c main_arg5) (at0 m c main_arg9))
        (Cert.Spec.kZ2 (at0 m c main_arg1) (at0 m c main_arg2) (at0 m c main_arg6) (at0 m c main_arg7) (at0 m c main_arg8) (at0 m c main_arg10)) := by
  refine (W5_arr m ρ c 2).trans ((final4_2 (V4 m ρ) c).trans ?_)
  rw [show V4 m ρ c main_v3_0 = _ from v30_at4 m ρ c, show V4 m ρ c main_v3_1 = _ from v31_at4 m ρ c]

/-! ## The run, with the results named -/

theorem run_values : θ_run defs (onTc (τ := τ) (main (F := Ideal))) ⟨m, fun _ => 0, ρ⟩ (fun r => ∀ c : Dev nD,
      r.2.mem ((c.tc : Thread nD τ).loc main_v4)
        = Cert.Spec.decode (Cert.Spec.kZ1 (at0 m c main_arg0) (at0 m c main_arg2) (at0 m c main_arg3) (at0 m c main_arg4) (at0 m c main_arg5) (at0 m c main_arg9))
            (Cert.Spec.kZ2 (at0 m c main_arg1) (at0 m c main_arg2) (at0 m c main_arg6) (at0 m c main_arg7) (at0 m c main_arg8) (at0 m c main_arg10))
      ∧ r.2.mem ((c.tc : Thread nD τ).loc main_v3_0)
        = Cert.Spec.kZ1 (at0 m c main_arg0) (at0 m c main_arg2) (at0 m c main_arg3) (at0 m c main_arg4) (at0 m c main_arg5) (at0 m c main_arg9)
      ∧ r.2.mem ((c.tc : Thread nD τ).loc main_v3_1)
        = Cert.Spec.kZ2 (at0 m c main_arg1) (at0 m c main_arg2) (at0 m c main_arg6) (at0 m c main_arg7) (at0 m c main_arg8) (at0 m c main_arg10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v4 (by decide))).trans (v4_at5 m ρ c),
    (h c _ (mem_uc main_v3_0 (by decide))).trans (v30_at5 m ρ c),
    (h c _ (mem_uc main_v3_1 (by decide))).trans (v31_at5 m ρ c),
    (h c _ (mem_uc main_arg0 (by decide))).trans (W5_launch m ρ c main_arg0 (by decide) (by decide) (by decide) (by decide) (by decide)),
    (h c _ (mem_uc main_arg1 (by decide))).trans (W5_launch m ρ c main_arg1 (by decide) (by decide) (by decide) (by decide) (by decide)),
    (h c _ (mem_uc main_arg2 (by decide))).trans (W5_launch m ρ c main_arg2 (by decide) (by decide) (by decide) (by decide) (by decide)),
    (h c _ (mem_uc main_arg3 (by decide))).trans (W5_launch m ρ c main_arg3 (by decide) (by decide) (by decide) (by decide) (by decide)),
    (h c _ (mem_uc main_arg4 (by decide))).trans (W5_launch m ρ c main_arg4 (by decide) (by decide) (by decide) (by decide) (by decide)),
    (h c _ (mem_uc main_arg5 (by decide))).trans (W5_launch m ρ c main_arg5 (by decide) (by decide) (by decide) (by decide) (by decide)),
    (h c _ (mem_uc main_arg6 (by decide))).trans (W5_launch m ρ c main_arg6 (by decide) (by decide) (by decide) (by decide) (by decide)),
    (h c _ (mem_uc main_arg7 (by decide))).trans (W5_launch m ρ c main_arg7 (by decide) (by decide) (by decide) (by decide) (by decide)),
    (h c _ (mem_uc main_arg8 (by decide))).trans (W5_launch m ρ c main_arg8 (by decide) (by decide) (by decide) (by decide) (by decide)),
    (h c _ (mem_uc main_arg9 (by decide))).trans (W5_launch m ρ c main_arg9 (by decide) (by decide) (by decide) (by decide) (by decide)),
    (h c _ (mem_uc main_arg10 (by decide))).trans (W5_launch m ρ c main_arg10 (by decide) (by decide) (by decide) (by decide) (by decide))⟩) (run_all m ρ)

end Cert.KernelIdeal.Hand

end
-- ==== Proof.Word.XwFrame0.lean ====
import proofs.«111736_g88691074663054_cont_9to1c4b_58_39_alg».proof.Proof.Gen.Kernel.Launch
import proofs.«111736_g88691074663054_cont_9to1c4b_58_39_alg».proof.Proof.Gen.Kernel.Skeleton
import proofs.«111736_g88691074663054_cont_9to1c4b_58_39_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: the parameter everything below is stated at
variable (V : (c : Dev nD) → (b : Ref sig .tc) → Buf (Elt F) ((c : Thread nD τ).loc b))

/-! # Region 0: one row band of the product `X · W`, stored as the pair `[hi | lo]`

The grid has 50 points; point `t` reads rows `200·t … 200·t + 199` of the left factor (window 0), the whole
right factor (window 1, brought in once, at the first point), and writes the band's 200 × 32 block of the
result (window 2) at every point. The body has one control case: it loads its three staging buffers whole,
computes one payload from the two inputs, and stores it whole. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds the band of point `t` at every point, for any proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right factor's staging buffer holds the whole factor at every point, fetched there (the first point) or not
    (its block index never moves afterwards). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S200x10000 := Rect.unit (s := S200x10000) ![0, 0] S200x10000.size inb_S200x10000_S200x10000_0_0
abbrev r0_1 : Rect S10000x16 := Rect.unit (s := S10000x16) ![0, 0] S10000x16.size inb_S10000x16_S10000x16_0_0
abbrev r0_2 : Rect S200x32 := Rect.unit (s := S200x32) ![0, 0] S200x32.size inb_S200x32_S200x32_0_0

/-! ## What the body leaves in the output window's buffer -/

/-- The result band's staging buffer after the body, from the two input blocks: its one store, of the payload. -/
def out0_2 (x0 : Vec F S200x10000 .f32) (x1 : Vec F S10000x16 .f32) : Vec F S200x32 .bf16 :=
  View.canon [⟨r0_2, k0_pay1 (View.ld x0 r0_0) (View.ld x1 r0_1)⟩]

/-- The one store is of the whole buffer, so it covers it. -/
theorem cover0_2 (p0 : Vec F S200x32 .bf16) (y : S200x32.Idx) :
    ∃ pc ∈ ([⟨r0_2, p0⟩] : List (View.Piece (Elt F) S200x32 .bf16)), y ∈ pc.1.set :=
  View.cover_of_tiled [⟨r0_2, p0⟩] S200x32.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg0 : Memref sig .tc .vmem S200x10000 .f32) (harg0 : arg0.IsWhole) (arg1 : Memref sig .tc .vmem S10000x16 .f32) (harg1 : arg1.IsWhole) (arg2 : Memref sig .tc .vmem S200x32 .bf16) (harg2 : arg2.IsWhole)
    (x0 : Vec F S200x10000 .f32) (x1 : Vec F S10000x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__xw_body i arg0 harg0 arg1 harg1 arg2 harg2) K := by
  simp only [cc0__xw_body_eq_skeleton]; unfold cc0__xw_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of region 0 on core `c`: the arrays as the region finds them (`V`); after the body at point `t`
    each input's buffer at its block and the output's at `out0_2` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering the region: the invariant at the first point is the scoped rest and the generator register. -/
theorem hin0 (c : Dev nD) : Pipeline.ΦA spec0 c ⊢ (dat0 V c).Φ 0 := .rfl
/-- Leaving it: the invariant after the last point is the same. -/
theorem hout0 (c : Dev nD) : (dat0 V c).Φ (Fin.last cfg0.N) ⊢ Pipeline.ΦA spec0 c := .rfl

end Cert.Kernel.Hand
-- ==== Proof.Word.XwFrame1.lean ====
import proofs.«111736_g88691074663054_cont_9to1c4b_58_39_alg».proof.Proof.Gen.Kernel.Launch
import proofs.«111736_g88691074663054_cont_9to1c4b_58_39_alg».proof.Proof.Gen.Kernel.Skeleton
import proofs.«111736_g88691074663054_cont_9to1c4b_58_39_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: the parameter everything below is stated at
variable (V : (c : Dev nD) → (b : Ref sig .tc) → Buf (Elt F) ((c : Thread nD τ).loc b))

/-! # Region 1: one row band of the product `X · W`, stored as the pair `[hi | lo]`

The grid has 50 points; point `t` reads rows `200·t … 200·t + 199` of the left factor (window 0), the whole
right factor (window 1, brought in once, at the first point), and writes the band's 200 × 32 block of the
result (window 2) at every point. The body has one control case: it loads its three staging buffers whole,
computes one payload from the two inputs, and stores it whole. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds the band of point `t` at every point, for any proof data whose array is
    `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right factor's staging buffer holds the whole factor at every point, fetched there (the first point) or not
    (its block index never moves afterwards). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S200x10000 := Rect.unit (s := S200x10000) ![0, 0] S200x10000.size inb_S200x10000_S200x10000_0_0
abbrev r1_1 : Rect S10000x16 := Rect.unit (s := S10000x16) ![0, 0] S10000x16.size inb_S10000x16_S10000x16_0_0
abbrev r1_2 : Rect S200x32 := Rect.unit (s := S200x32) ![0, 0] S200x32.size inb_S200x32_S200x32_0_0

/-! ## What the body leaves in the output window's buffer -/

/-- The result band's staging buffer after the body, from the two input blocks: its one store, of the payload. -/
def out1_2 (x0 : Vec F S200x10000 .f32) (x1 : Vec F S10000x16 .f32) : Vec F S200x32 .bf16 :=
  View.canon [⟨r1_2, k1_pay1 (View.ld x0 r1_0) (View.ld x1 r1_1)⟩]

/-- The one store is of the whole buffer, so it covers it. -/
theorem cover1_2 (p0 : Vec F S200x32 .bf16) (y : S200x32.Idx) :
    ∃ pc ∈ ([⟨r1_2, p0⟩] : List (View.Piece (Elt F) S200x32 .bf16)), y ∈ pc.1.set :=
  View.cover_of_tiled [⟨r1_2, p0⟩] S200x32.size (by rfl) y

/-! ## The body's triple -/

set_option maxHeartbeats 1000000 in
/-- The body on whole staging memrefs, the inputs' at contents `x0`, `x1` and the output's at anything, runs to the
    continuation holding the inputs' as they were and the output's at `out1_2 x0 x1`. -/
theorem sound_kernel1 (c : Dev nD) (E : Set ℕ) (i : grid1.Coords) (arg0 : Memref sig .tc .vmem S200x10000 .f32) (harg0 : arg0.IsWhole) (arg1 : Memref sig .tc .vmem S10000x16 .f32) (harg1 : arg1.IsWhole) (arg2 : Memref sig .tc .vmem S200x32 .bf16) (harg2 : arg2.IsWhole)
    (x0 : Vec F S200x10000 .f32) (x1 : Vec F S10000x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__xw_body i arg0 harg0 arg1 harg1 arg2 harg2) K := by
  simp only [cc1__xw_body_eq_skeleton]; unfold cc1__xw_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of region 1 on core `c`: the arrays as the region finds them (`V`); after the body at point `t`
    each input's buffer at its block and the output's at `out1_2` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- Entering the region: the invariant at the first point is the scoped rest and the generator register. -/
theorem hin1 (c : Dev nD) : Pipeline.ΦA spec1 c ⊢ (dat1 V c).Φ 0 := .rfl
/-- Leaving it: the invariant after the last point is the same. -/
theorem hout1 (c : Dev nD) : (dat1 V c).Φ (Fin.last cfg1.N) ⊢ Pipeline.ΦA spec1 c := .rfl

end Cert.Kernel.Hand
-- ==== Proof.Word.PropInRuns.lean ====
/-
  Region 2 (the propagation of the two feature products through the adjacency matrix): what the three control
  cases of its body share.

  The body runs on a grid of 50 row bands of the adjacency matrix.  At every band it stores the band's rows of
  the second result (window 4).  It accumulates the first result's transposed sum in a scratch buffer carried
  from band to band: the first band (case A) stores its own contribution, every later band (cases B and C) adds
  its contribution to what the scratch held, and the last band (case C) then reads the finished sum and stores
  the first result whole (window 3, idle before).
-/
import proofs.«111736_g88691074663054_cont_9to1c4b_58_39_alg».proof.Proof.Gen.Kernel.Launch
import proofs.«111736_g88691074663054_cont_9to1c4b_58_39_alg».proof.Proof.Gen.Kernel.Skeleton
import proofs.«111736_g88691074663054_cont_9to1c4b_58_39_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinate -/

/-- The first conditional: the band is the first one. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second conditional: the band is not the first one. -/
abbrev cond2_1 (i : grid2.Coords) : Prop := (Scalar.cmpi .ne (Scalar.extui (Scalar.cmpi .ne (BitVec.ofNat 32 (i 0).val) 0#32)) 0#32) = 1#1
theorem hcond2_1 : ∀ t : Fin cfg2.N, cond2_1 (grid2.coords t) ↔ t.val ≠ 0 :=
  (by decide +kernel : ∀ t : Fin grid2.N, cond2_1 (grid2.coords t) ↔ t.val ≠ 0)

/-- The third conditional: the band is the last one. -/
abbrev cond2_2 (i : grid2.Coords) : Prop := k2_cond3 i = 1#1
theorem hcond2_2 : ∀ t : Fin cfg2.N, cond2_2 (grid2.coords t) ↔ t.val = 49 :=
  (by decide +kernel : ∀ t : Fin grid2.N, cond2_2 (grid2.coords t) ↔ t.val = 49)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_4 : ∀ t : Fin cfg2.N, cfg2.idle 4 (grid2.coords t) = false := by decide +kernel
/-- Before the last band nothing is stored into window 3, -/
theorem idleAt2_3 : ∀ t : Fin cfg2.N, ¬cond2_2 (grid2.coords t) → cfg2.idle 3 (grid2.coords t) = true := by decide +kernel
/-- and its block is not written back there. -/
theorem noFlush2_3 : ∀ t : Fin cfg2.N, ¬cond2_2 (grid2.coords t) → (cfg2.win 3).flush t = false := by decide +kernel
/-- At the last band it is stored. -/
theorem liveAt2_3 : ∀ t : Fin cfg2.N, cond2_2 (grid2.coords t) → cfg2.idle 3 (grid2.coords t) = false := by decide +kernel

/-! ## The memrefs the body is called with -/

/-- One staging buffer of each output window, through which its contents are stated. -/
abbrev VO2_3 : View sig .tc .vmem S10000x32 .bf16 := (Memref.whole cc2_stg3_0 : Memref sig .tc .vmem S10000x32 .bf16).view
abbrev VO2_4 : View sig .tc .vmem S200x32 .bf16 := (Memref.whole cc2_stg4_0 : Memref sig .tc .vmem S200x32 .bf16).view
/-- Each window's current staging memref at point `t`, and its wholeness. -/
abbrev ms2_0 (t : Fin cfg2.N) : Memref sig .tc .vmem S200x10000 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S200x32 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x32 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x32 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S200x32 .bf16 := win2_4.stage (cfg2.slots t 4)
abbrev hs2_4 (t : Fin cfg2.N) : (ms2_4 t).IsWhole := hstage2_4 ((cfg2.slots t 4).cast nbuf2_4)
/-- The scratch operand: a whole scoped buffer of the kernel's own, carried between points. -/
abbrev scM2 : Memref sig .tc .vmem S32x10000 .f32 := Memref.whole cc2_scratch0
abbrev VS2 : View sig .tc .vmem S32x10000 .f32 := scM2.view

/-- The scoped buffers of the core that the region's body never names. -/
abbrev restBut2 (c : Dev nD) : sProp 𝕄 :=
  Pipeline.scopedRestBut (Ix := Unit) (Name := ℕ) (U := UR sig nD τ) (Lvl := ℕ) (Val := Elt F) spec2 c [cc2_scratch0]

/-- The region's entry invariant with the scratch operand as a memref owned at some contents. -/
theorem PhiA2_eq (c : Dev nD) :
    (Pipeline.ΦA spec2 c : sProp 𝕄)
      = iprop(iprop((∃ d, owns (c : Thread nD τ) scM2 fullShare d) ∗ restBut2 (F := F) c) ∗ (∃ r, prngReg c r)) := by
  unfold Pipeline.ΦA; rw [scopedRest2_split]; simp only [scM2, owns_whole]; try rfl

/-! ## The body's triple, case by case -/

set_option maxHeartbeats 1000000 in
/-- CASE A (the first band).  On whole staging memrefs — the inputs' at their contents, window 3's (idle) at
    contents handed back untouched, window 4's and the scratch at anything — the body runs to the continuation
    holding the inputs' as they were, window 4's buffer and the scratch with the pieces the body stored
    (the pieces are the witness the run finds). -/
noncomputable def kernelRun2_A (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) :
    Σ' (L3 : List (View.Piece (Elt F) S10000x32 .bf16)) (L4 : List (View.Piece (Elt F) S200x32 .bf16)), { LS : List (View.Piece (Elt F) S32x10000 .f32) //
      ∀ (xi3 : Vec F S10000x32 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc2__h_body i arg1 harg1 arg2 harg2 arg3 harg3 arg4 harg4 arg5 harg5 arg6 harg6) K } := by
  refine ⟨[], ?_, ?_, fun xi3 E K => ?run⟩
  case run =>
    simp only [cc2__h_body_eq_skeleton]; unfold cc2__h_body_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

set_option maxHeartbeats 1000000 in
/-- CASE B (a band that is neither the first nor the last).  As case A, but the scratch comes at the contents
    `xs` the band before left, and the body adds to them. -/
noncomputable def kernelRun2_B (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) :
    Σ' (L3 : List (View.Piece (Elt F) S10000x32 .bf16)) (L4 : List (View.Piece (Elt F) S200x32 .bf16)), { LS : List (View.Piece (Elt F) S32x10000 .f32) //
      ∀ (xi3 : Vec F S10000x32 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc2__h_body i arg1 harg1 arg2 harg2 arg3 harg3 arg4 harg4 arg5 harg5 arg6 harg6) K } := by
  refine ⟨[], ?_, ?_, fun xi3 E K => ?run⟩
  case run =>
    simp only [cc2__h_body_eq_skeleton]; unfold cc2__h_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

set_option maxHeartbeats 1000000 in
/-- CASE C (the last band).  The scratch comes at the contents `xs` the band before left; the body adds to
    them, reads the sum back and stores window 3, whose buffer comes at anything. -/
noncomputable def kernelRun2_C (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) :
    Σ' (L3 : List (View.Piece (Elt F) S10000x32 .bf16)) (L4 : List (View.Piece (Elt F) S200x32 .bf16)), { LS : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc2__h_body i arg1 harg1 arg2 harg2 arg3 harg3 arg4 harg4 arg5 harg5 arg6 harg6) K } := by
  refine ⟨?_, ?_, ?_, fun E K => ?run⟩
  case run =>
    simp only [cc2__h_body_eq_skeleton]; unfold cc2__h_body_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg1.eq_unread hf0; obtain rfl := harg2.eq_unread hf1; obtain rfl := harg3.eq_unread hf2; obtain rfl := harg6.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS

end Cert.Kernel.Hand

end
-- ==== Proof.Word.PropInFrame.lean ====
/-
  Region 2: the frame.  What the three control cases leave in window 3, window 4 and the carried scratch;
  those contents band by band (`outsAt2`); the proof data of the region at entry contents `V`; the body
  obligation; and the invariant's two ends.
-/
import proofs.«111736_g88691074663054_cont_9to1c4b_58_39_alg».proof.Proof.Word.PropInRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in window 3, window 4 and the scratch -/

/-- At the first band nothing is stored into window 3 (idle there, not written back): a placeholder nothing consults. -/
def out2_A_3 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) : Vec F S10000x32 .bf16 :=
  VO2_3.read (Elt F) (VO2_3.writes (Elt F) VO2_3.junk (kernelRun2_A c i arg1 harg1 arg2 harg2 arg3 harg3 arg4 harg4 arg5 harg5 arg6 harg6 hc0 hc1 hc2 x0 x1 x2).1)

/-- At the first band the one store into window 4 covers its block. -/
theorem cover2_A_4 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) (y : S200x32.Idx) :
    ∃ pc ∈ (kernelRun2_A c i arg1 harg1 arg2 harg2 arg3 harg3 arg4 harg4 arg5 harg5 arg6 harg6 hc0 hc1 hc2 x0 x1 x2).2.1, y ∈ pc.1.set :=
  View.cover_of_tiledL (kernelRun2_A c i arg1 harg1 arg2 harg2 arg3 harg3 arg4 harg4 arg5 harg5 arg6 harg6 hc0 hc1 hc2 x0 x1 x2).2.1 S200x32.size (by sl_kernel_rfl) y

/-- What the first band leaves in window 4's staging buffer: its pieces read back. -/
def out2_A_4 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) : Vec F S200x32 .bf16 :=
  VO2_4.read (Elt F) (VO2_4.writes (Elt F) VO2_4.junk (kernelRun2_A c i arg1 harg1 arg2 harg2 arg3 harg3 arg4 harg4 arg5 harg5 arg6 harg6 hc0 hc1 hc2 x0 x1 x2).2.1)

/-- At the first band the stores into the scratch cover it. -/
theorem scover2_A (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) (y : S32x10000.Idx) :
    ∃ pc ∈ (kernelRun2_A c i arg1 harg1 arg2 harg2 arg3 harg3 arg4 harg4 arg5 harg5 arg6 harg6 hc0 hc1 hc2 x0 x1 x2).2.2.1, y ∈ pc.1.set :=
  View.cover_of_tiledL (kernelRun2_A c i arg1 harg1 arg2 harg2 arg3 harg3 arg4 harg4 arg5 harg5 arg6 harg6 hc0 hc1 hc2 x0 x1 x2).2.2.1 S32x10000.size (by sl_kernel_rfl) y

/-- What the first band leaves in the scratch: its pieces read back. -/
def sout2_A (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S200x10000 .f32) (x1 : Vec F S200x32 .bf16) (x2 : Vec F S10000x32 .bf16) : Vec F S32x10000 .f32 :=
  VS2.read (Elt F) (VS2.writes (Elt F) VS2.junk (kernelRun2_A c i arg1 harg1 arg2 harg2 arg3 harg3 arg4 harg4 arg5 harg5 arg6 harg6 hc0 hc1 hc2 x0 x1 x2).2.2.1)

/-- At a middle band nothing is stored into window 3 (idle there, not written back): a placeholder nothing consults. -/
def out2_B_3 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) : Vec F S10000x32 .bf16 :=
  VO2_3.read (Elt F) (VO2_3.writes (Elt F) VO2_3.junk (kernelRun2_B c i arg1 harg1 arg2 harg2 arg3 harg3 arg4 harg4 arg5 harg5 arg6 harg6 hc0 hc1 hc2 x0 x1 x2 xs).1)

/-- At a middle band the one store into window 4 covers its block. -/
theorem cover2_B_4 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) (y : S200x32.Idx) :
    ∃ pc ∈ (kernelRun2_B c i arg1 harg1 arg2 harg2 arg3 harg3 arg4 harg4 arg5 harg5 arg6 harg6 hc0 hc1 hc2 x0 x1 x2 xs).2.1, y ∈ pc.1.set :=
  View.cover_of_tiledL (kernelRun2_B c i arg1 harg1 arg2 harg2 arg3 harg3 arg4 harg4 arg5 harg5 arg6 harg6 hc0 hc1 hc2 x0 x1 x2 xs).2.1 S200x32.size (by sl_kernel_rfl) y

/-- What a middle band leaves in window 4's staging buffer: its pieces read back. -/
def out2_B_4 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) : Vec F S200x32 .bf16 :=
  VO2_4.read (Elt F) (VO2_4.writes (Elt F) VO2_4.junk (kernelRun2_B c i arg1 harg1 arg2 harg2 arg3 harg3 arg4 harg4 arg5 harg5 arg6 harg6 hc0 hc1 hc2 x0 x1 x2 xs).2.1)

/-- At a middle band the stores into the scratch cover it. -/
theorem scover2_B (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) (y : S32x10000.Idx) :
    ∃ pc ∈ (kernelRun2_B c i arg1 harg1 arg2 harg2 arg3 harg3 arg4 harg4 arg5 harg5 arg6 harg6 hc0 hc1 hc2 x0 x1 x2 xs).2.2.1, y ∈ pc.1.set :=
  View.cover_of_tiledL (kernelRun2_B c i arg1 harg1 arg2 harg2 arg3 harg3 arg4 harg4 arg5 harg5 arg6 harg6 hc0 hc1 hc2 x0 x1 x2 xs).2.2.1 S32x10000.size (by sl_kernel_rfl) y

/-- What a middle band leaves in the scratch: its pieces read back. -/
def sout2_B (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S200x10000 .f32) (x1 : Vec F S200x32 .bf16) (x2 : Vec F S10000x32 .bf16) (xs : Vec F S32x10000 .f32) : Vec F S32x10000 .f32 :=
  VS2.read (Elt F) (VS2.writes (Elt F) VS2.junk (kernelRun2_B c i arg1 harg1 arg2 harg2 arg3 harg3 arg4 harg4 arg5 harg5 arg6 harg6 hc0 hc1 hc2 x0 x1 x2 xs).2.2.1)

/-- At the last band the one store into window 3 covers its block. -/
theorem cover2_C_3 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) (y : S10000x32.Idx) :
    ∃ pc ∈ (kernelRun2_C c i arg1 harg1 arg2 harg2 arg3 harg3 arg4 harg4 arg5 harg5 arg6 harg6 hc0 hc1 hc2 x0 x1 x2 xs).1, y ∈ pc.1.set :=
  View.cover_of_tiledL (kernelRun2_C c i arg1 harg1 arg2 harg2 arg3 harg3 arg4 harg4 arg5 harg5 arg6 harg6 hc0 hc1 hc2 x0 x1 x2 xs).1 S10000x32.size (by sl_kernel_rfl) y

/-- What the last band leaves in window 3's staging buffer: its pieces read back. -/
def out2_C_3 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) : Vec F S10000x32 .bf16 :=
  VO2_3.read (Elt F) (VO2_3.writes (Elt F) VO2_3.junk (kernelRun2_C c i arg1 harg1 arg2 harg2 arg3 harg3 arg4 harg4 arg5 harg5 arg6 harg6 hc0 hc1 hc2 x0 x1 x2 xs).1)

/-- At the last band the one store into window 4 covers its block. -/
theorem cover2_C_4 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) (y : S200x32.Idx) :
    ∃ pc ∈ (kernelRun2_C c i arg1 harg1 arg2 harg2 arg3 harg3 arg4 harg4 arg5 harg5 arg6 harg6 hc0 hc1 hc2 x0 x1 x2 xs).2.1, y ∈ pc.1.set :=
  View.cover_of_tiledL (kernelRun2_C c i arg1 harg1 arg2 harg2 arg3 harg3 arg4 harg4 arg5 harg5 arg6 harg6 hc0 hc1 hc2 x0 x1 x2 xs).2.1 S200x32.size (by sl_kernel_rfl) y

/-- What the last band leaves in window 4's staging buffer: its pieces read back. -/
def out2_C_4 (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) : Vec F S200x32 .bf16 :=
  VO2_4.read (Elt F) (VO2_4.writes (Elt F) VO2_4.junk (kernelRun2_C c i arg1 harg1 arg2 harg2 arg3 harg3 arg4 harg4 arg5 harg5 arg6 harg6 hc0 hc1 hc2 x0 x1 x2 xs).2.1)

/-- At the last band the stores into the scratch cover it. -/
theorem scover2_C (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) (y : S32x10000.Idx) :
    ∃ pc ∈ (kernelRun2_C c i arg1 harg1 arg2 harg2 arg3 harg3 arg4 harg4 arg5 harg5 arg6 harg6 hc0 hc1 hc2 x0 x1 x2 xs).2.2.1, y ∈ pc.1.set :=
  View.cover_of_tiledL (kernelRun2_C c i arg1 harg1 arg2 harg2 arg3 harg3 arg4 harg4 arg5 harg5 arg6 harg6 hc0 hc1 hc2 x0 x1 x2 xs).2.2.1 S32x10000.size (by sl_kernel_rfl) y

/-- What the last band leaves in the scratch: its pieces read back. -/
def sout2_C (c : Dev nD) (i : grid2.Coords) (arg1 : Memref sig .tc .vmem S200x10000 .f32) (harg1 : arg1.IsWhole) (arg2 : Memref sig .tc .vmem S200x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S200x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S200x10000 .f32) (x1 : Vec F S200x32 .bf16) (x2 : Vec F S10000x32 .bf16) (xs : Vec F S32x10000 .f32) : Vec F S32x10000 .f32 :=
  VS2.read (Elt F) (VS2.writes (Elt F) VS2.junk (kernelRun2_C c i arg1 harg1 arg2 harg2 arg3 harg3 arg4 harg4 arg5 harg5 arg6 harg6 hc0 hc1 hc2 x0 x1 x2 xs).2.2.1)

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the outputs and the scratch hold after each band -/

/-- THE ACCUMULATION.  What window 3's buffer, window 4's buffer and the scratch hold after the body at band `n`:
    the first band by case A; a later band by case B, or C at the last, over the scratch the band before left. -/
def outsAt2 (c : Dev nD) : (n : ℕ) → n < cfg2.N → Vec F S10000x32 .bf16 × Vec F S200x32 .bf16 × Vec F S32x10000 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr rfl) (fun h => (hcond2_1 ⟨0, hn⟩).mp h rfl) (fun h => (fun h => by (try dsimp only at h); omega) ((hcond2_2 ⟨0, hn⟩).mp h)) (iblk2 V c 0 ⟨0, hn⟩) (iblk2 V c 1 ⟨0, hn⟩) (iblk2 V c 2 ⟨0, hn⟩), out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr rfl) (fun h => (hcond2_1 ⟨0, hn⟩).mp h rfl) (fun h => (fun h => by (try dsimp only at h); omega) ((hcond2_2 ⟨0, hn⟩).mp h)) (iblk2 V c 0 ⟨0, hn⟩) (iblk2 V c 1 ⟨0, hn⟩) (iblk2 V c 2 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr rfl) (fun h => (hcond2_1 ⟨0, hn⟩).mp h rfl) (fun h => (fun h => by (try dsimp only at h); omega) ((hcond2_2 ⟨0, hn⟩).mp h)) (iblk2 V c 0 ⟨0, hn⟩) (iblk2 V c 1 ⟨0, hn⟩) (iblk2 V c 2 ⟨0, hn⟩))
  | n + 1, hn =>
    if h2 : n + 1 = 49 then
      (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2_0 ⟨n + 1, hn⟩).mp h)) ((hcond2_1 ⟨n + 1, hn⟩).mpr (Nat.succ_ne_zero n)) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2_0 ⟨n + 1, hn⟩).mp h)) ((hcond2_1 ⟨n + 1, hn⟩).mpr (Nat.succ_ne_zero n)) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2.2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2_0 ⟨n + 1, hn⟩).mp h)) ((hcond2_1 ⟨n + 1, hn⟩).mpr (Nat.succ_ne_zero n)) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2.2)
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2_0 ⟨n + 1, hn⟩).mp h)) ((hcond2_1 ⟨n + 1, hn⟩).mpr (Nat.succ_ne_zero n)) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2, out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2_0 ⟨n + 1, hn⟩).mp h)) ((hcond2_1 ⟨n + 1, hn⟩).mpr (Nat.succ_ne_zero n)) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2_0 ⟨n + 1, hn⟩).mp h)) ((hcond2_1 ⟨n + 1, hn⟩).mpr (Nat.succ_ne_zero n)) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2)

/-- `outsAt2` at the first band. -/
theorem outsAt2_A (c : Dev nD) (t : Fin cfg2.N) (h0 : t.val = 0) (h2 : ¬t.val = 49) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => (hcond2_1 t).mp h h0) (fun h => h2 ((hcond2_2 t).mp h)) (iblk2 V c 0 t) (iblk2 V c 1 t) (iblk2 V c 2 t), out2_A_4 c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => (hcond2_1 t).mp h h0) (fun h => h2 ((hcond2_2 t).mp h)) (iblk2 V c 0 t) (iblk2 V c 1 t) (iblk2 V c 2 t), sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => (hcond2_1 t).mp h h0) (fun h => h2 ((hcond2_2 t).mp h)) (iblk2 V c 0 t) (iblk2 V c 1 t) (iblk2 V c 2 t)) := by
  obtain ⟨n, hn⟩ := t
  cases n with
  | zero => exact rfl
  | succ n => exact absurd h0 (Nat.succ_ne_zero n)

/-- `outsAt2` at a middle band: over what the band before left. -/
theorem outsAt2_B (c : Dev nD) (t : Fin cfg2.N) (h0 : ¬t.val = 0) (h2 : ¬t.val = 49) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) (fun h => h2 ((hcond2_2 t).mp h)) (iblk2 V c 0 t) (iblk2 V c 1 t) (iblk2 V c 2 t) (outsAt2 V c (t.val - 1) (Nat.lt_of_le_of_lt (Nat.sub_le _ _) t.isLt)).2.2, out2_B_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) (fun h => h2 ((hcond2_2 t).mp h)) (iblk2 V c 0 t) (iblk2 V c 1 t) (iblk2 V c 2 t) (outsAt2 V c (t.val - 1) (Nat.lt_of_le_of_lt (Nat.sub_le _ _) t.isLt)).2.2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) (fun h => h2 ((hcond2_2 t).mp h)) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact absurd rfl h0
  | succ n => exact (dif_neg h2).trans rfl

/-- `outsAt2` at the last band: over what the band before left. -/
theorem outsAt2_C (c : Dev nD) (t : Fin cfg2.N) (h0 : ¬t.val = 0) (h2 : t.val = 49) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) ((hcond2_2 t).mpr h2) (iblk2 V c 0 t) (iblk2 V c 1 t) (iblk2 V c 2 t) (outsAt2 V c (t.val - 1) (Nat.lt_of_le_of_lt (Nat.sub_le _ _) t.isLt)).2.2, out2_C_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) ((hcond2_2 t).mpr h2) (iblk2 V c 0 t) (iblk2 V c 1 t) (iblk2 V c 2 t) (outsAt2 V c (t.val - 1) (Nat.lt_of_le_of_lt (Nat.sub_le _ _) t.isLt)).2.2, sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h0) ((hcond2_2 t).mpr h2) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact absurd rfl h0
  | succ n => exact (dif_pos h2).trans rfl

/-! ## The region's invariant -/

/-- Before band `n`: before the first band what the launch hands the region; afterwards the scratch at what the band
    before left in it, the core's other scoped buffers unopened, and the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2.2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2.2) ∗ restBut2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2.2) ∗ restBut2 (F := F) c) ∗ (∃ r, prngReg c r)) := by
  cases n with
  | zero => exact absurd rfl hz
  | succ n => rfl

/-! ## The region's proof data -/

/-- The proof data of region 2 on core `c`: the arrays as the region finds them (`V`); after the body at band `t`
    each input's buffer at its block, the outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic band -/

/-- What the body is called with at band `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any band: the inputs' memrefs hold their blocks; the band's position says which case it is in; the
    invariant hands the body the scratch at what the band before left (at anything at the first band) and takes it
    back at this band's contents; window 3's buffer is handed back untouched before the last band. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  by_cases h0 : t.val = 0
  · have h2 : ¬t.val = 49 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 4 t = owns (c : Thread nD τ) (ms2_4 t) fullShare ((dat2 V c).after 4 t) from by
      unfold Dat.leavesExact; rw [liveAt2_4 t], after2_4]
    rw [Dat.leavesExact_idle (dat2 V c) 3 t (idleAt2_3 t (fun h => h2 ((hcond2_2 t).mp h))) (noFlush2_3 t (fun h => h2 ((hcond2_2 t).mp h)))]
    rw [outsAt2_A V c t h0 h2]
    unfold out2_A_4 sout2_A; (try dsimp only)
    rw [PhiS2_castSucc V c t, PhiS2_zero V c _ _ h0, PhiA2_eq]
    iintro ⟨⟨⟨HS, HR⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ ((hcond2_0 t).mpr h0) (fun h => (hcond2_1 t).mp h h0) (fun h => h2 ((hcond2_2 t).mp h)) (iblk2 V c 0 t) (iblk2 V c 1 t) (iblk2 V c 2 t)).2.2.2 _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HR Hg]
    · isplitl [HS HR]
      · isplitl [HS]
        · unfold owns; iexists _; isplitr
          swap; · iexact HS
          ipureintro; exact View.read_writes_of_cover _ _ _ _ _ (scover2_A c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexists _; iexact H3
    unfold owns; iexists _; isplitr
    swap; · iexact H4
    ipureintro; exact View.read_writes_of_cover _ _ _ _ _ (cover2_A_4 c _ _ _ _ _ _ _ _ _ _ _ _ _ _ _ _ _ _ _)
  · by_cases h2 : t.val = 49
    · have hz : t.val ≠ 0 := h0
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 4 t = owns (c : Thread nD τ) (ms2_4 t) fullShare ((dat2 V c).after 4 t) from by
        unfold Dat.leavesExact; rw [liveAt2_4 t], after2_4]
      rw [show (dat2 V c).leavesExact 3 t = owns (c : Thread nD τ) (ms2_3 t) fullShare ((dat2 V c).after 3 t) from by
        unfold Dat.leavesExact; rw [liveAt2_3 t ((hcond2_2 t).mpr h2)], after2_3]
      rw [outsAt2_C V c t h0 h2]
      unfold out2_C_3 out2_C_4 sout2_C; (try dsimp only)
      rw [PhiS2_castSucc V c t, PhiS2_pos V c _ _ h0]
      iintro ⟨⟨⟨HS, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h0) ((hcond2_2 t).mpr h2) (iblk2 V c 0 t) (iblk2 V c 1 t) (iblk2 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _ _)
    · have hz : t.val ≠ 0 := h0
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 3 t (idleAt2_3 t (fun h => h2 ((hcond2_2 t).mp h))) (noFlush2_3 t (fun h => h2 ((hcond2_2 t).mp h)))]
      rw [outsAt2_B V c t h0 h2]
      unfold out2_B_4 sout2_B; (try dsimp only)
      rw [PhiS2_castSucc V c t, PhiS2_pos V c _ _ h0]
      iintro ⟨⟨⟨HS, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) ((hcond2_1 t).mpr h0) (fun h => h2 ((hcond2_2 t).mp h)) (iblk2 V c 0 t) (iblk2 V c 1 t) (iblk2 V c 2 t) _).2.2.2 _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (cover2_B_4 c _ _ _ _ _ _ _ _ _ _ _ _ _ _ _ _ _ _ _ _)

/-- The library's body obligation, at every band. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first band. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any band the invariant gives the entry invariant back: the scratch's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

/-- The same after the last band. -/
theorem hout2 (c : Dev nD) : (dat2 V c).Φ (Fin.last cfg2.N) ⊢ Pipeline.ΦA spec2 c :=
  Phi_out2 V c _ (by rw [Fin.val_last]; have : cfg2.N = 50 := N_2; omega)

end Cert.Kernel.Hand

end
-- ==== Proof.Word.PropOutRuns.lean ====
/- The fourth tiled stage: the blocks of its windows, its three control cases in closed form, the buffers its body is
   called with, and the body's run at the first band. -/
import proofs.«111736_g88691074663054_cont_9to1c4b_58_39_alg».proof.Proof.Gen.Kernel.Launch
import proofs.«111736_g88691074663054_cont_9to1c4b_58_39_alg».proof.Proof.Gen.Kernel.Skeleton
import proofs.«111736_g88691074663054_cont_9to1c4b_58_39_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # The fourth tiled stage (the second propagation): what the case runs share

The stage walks the fifty row bands of the adjacency matrix. At each band it writes the band's rows of the first
result, and adds the band's contribution to an accumulator it keeps between bands; at the last band it turns the
accumulator into the second result. Three control cases: the first band (the accumulator is set), a middle band
(it is added to), the last band (it is added to, then read). -/

section Region3
variable (V : (c : Dev nD) → (b : Ref sig .tc) → Buf (Elt F) ((c : Thread nD τ).loc b))

/-- Window `w`'s block at point `t`, read off its array as the stage finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input's current buffer holds its block at every point, fetched there or not: where it is not fetched its
    block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The three conditions, in closed form over the fifty points -/

/-- "this is the first band". -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
/-- "this is not the first band". -/
abbrev cond3_1 (i : grid3.Coords) : Prop := (Scalar.cmpi .ne (Scalar.extui (Scalar.cmpi .ne (BitVec.ofNat 32 (i 0).val) 0#32)) 0#32) = 1#1
theorem hcond3_1 : ∀ t : Fin cfg3.N, cond3_1 (grid3.coords t) ↔ ¬t.val = 0 :=
  (by decide +kernel : ∀ t : Fin grid3.N, cond3_1 (grid3.coords t) ↔ ¬t.val = 0)
/-- "this is the last band". -/
abbrev cond3_2 (i : grid3.Coords) : Prop := k3_cond3 i = 1#1
theorem hcond3_2 : ∀ t : Fin cfg3.N, cond3_2 (grid3.coords t) ↔ t.val = 49 :=
  (by decide +kernel : ∀ t : Fin grid3.N, cond3_2 (grid3.coords t) ↔ t.val = 49)

/-! ## Where the windows are idle: only the second result's, away from the last band -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
theorem liveAt3_8 : ∀ t : Fin cfg3.N, cfg3.idle 8 (grid3.coords t) = false := by decide +kernel
theorem liveAt3_9 : ∀ t : Fin cfg3.N, cfg3.idle 9 (grid3.coords t) = false := by decide +kernel
theorem idleAt3_10 : ∀ t : Fin cfg3.N, ¬cond3_2 (grid3.coords t) → cfg3.idle 10 (grid3.coords t) = true := by decide +kernel
theorem noFlush3_10 : ∀ t : Fin cfg3.N, ¬cond3_2 (grid3.coords t) → (cfg3.win 10).flush t = false := by decide +kernel
theorem liveAt3_10 : ∀ t : Fin cfg3.N, cond3_2 (grid3.coords t) → cfg3.idle 10 (grid3.coords t) = false := by decide +kernel

/-! ## The buffers the body is called with -/

abbrev ms3_0 (t : Fin cfg3.N) : Memref sig .tc .vmem S200x10000 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x32 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S200x32 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S16x4 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S16x4 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S16x4 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S16x4 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S200x4 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S10000x4 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S200x4 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S10000x4 .f32 := win3_10.stage (cfg3.slots t 10)
abbrev hs3_10 (t : Fin cfg3.N) : (ms3_10 t).IsWhole := hstage3_10 ((cfg3.slots t 10).cast nbuf3_10)
/-- The accumulator: a whole buffer of the stage's own, passed beside the windows. -/
abbrev scM3_0 : Memref sig .tc .vmem S32x10000 .f32 := Memref.whole cc3_scratch0
abbrev VS3_0 : View sig .tc .vmem S32x10000 .f32 := scM3_0.view
/-- One buffer of each result window, through which its contents are stated. -/
abbrev VO3_9 : View sig .tc .vmem S200x4 .f32 := (Memref.whole cc3_stg9_0 : Memref sig .tc .vmem S200x4 .f32).view
abbrev VO3_10 : View sig .tc .vmem S10000x4 .f32 := (Memref.whole cc3_stg10_0 : Memref sig .tc .vmem S10000x4 .f32).view

/-- What the launch hands the stage, with the accumulator split off as a whole buffer at some contents; the other
    scoped buffers stay unopened. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

set_option maxHeartbeats 4000000 in
/-- The body at the first point (the first conditional taken, the other two not): the pieces its stores leave in the block of the first result and in
    the accumulator, with the proof that on whole buffers — the nine inputs at their contents, the first result's at anything,
    the second result's handed back as found, the accumulator at anything — the body runs to the continuation holding
    the inputs as they were and each stored buffer with its pieces written. -/
noncomputable def kernelRun3_A (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) :
    Σ' (L9 : List (View.Piece (Elt F) S200x4 .f32)), { LS0 : List (View.Piece (Elt F) S32x10000 .f32) //
      ∀ (xi10 : Vec F S10000x4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc3__z_body i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc3__z_body_eq_skeleton]; unfold cc3__z_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.Kernel.Hand

end
-- ==== Proof.Word.PropOutRunB.lean ====
/- The fourth tiled stage: the body's run at a middle band. -/
import proofs.«111736_g88691074663054_cont_9to1c4b_58_39_alg».proof.Proof.Word.PropOutRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (the second conditional taken, the other two not): the pieces its stores leave in the block of the first result and in
    the accumulator, with the proof that on whole buffers — the nine inputs at their contents, the first result's at anything,
    the second result's handed back as found, the accumulator at what the point before left — the body runs to the continuation holding
    the inputs as they were and each stored buffer with its pieces written. -/
noncomputable def kernelRun3_B (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) :
    Σ' (L9 : List (View.Piece (Elt F) S200x4 .f32)), { LS0 : List (View.Piece (Elt F) S32x10000 .f32) //
      ∀ (xi10 : Vec F S10000x4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc3__z_body i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc3__z_body_eq_skeleton]; unfold cc3__z_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.Kernel.Hand

end
-- ==== Proof.Word.PropOutRunC.lean ====
/- The fourth tiled stage: the body's run at the last band. -/
import proofs.«111736_g88691074663054_cont_9to1c4b_58_39_alg».proof.Proof.Word.PropOutRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (the second and third conditionals taken, the first not): the pieces its stores leave in the block of the first result, in the second result's buffer and in
    the accumulator, with the proof that on whole buffers — the nine inputs at their contents, the first result's at anything,
    the second result's at anything, the accumulator at what the point before left — the body runs to the continuation holding
    the inputs as they were and each stored buffer with its pieces written. -/
noncomputable def kernelRun3_C (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) :
    Σ' (L9 : List (View.Piece (Elt F) S200x4 .f32)) (L10 : List (View.Piece (Elt F) S10000x4 .f32)), { LS0 : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc3__z_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc3__z_body_eq_skeleton]; unfold cc3__z_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.Kernel.Hand

end
-- ==== Proof.Word.PropOutFrame.lean ====
/- The fourth tiled stage: what each control case leaves in the two results' buffers and in the accumulator, band by
   band; the proof data; the body obligation; the invariant at the stage's two ends. -/
import proofs.«111736_g88691074663054_cont_9to1c4b_58_39_alg».proof.Proof.Word.PropOutRunB
import proofs.«111736_g88691074663054_cont_9to1c4b_58_39_alg».proof.Proof.Word.PropOutRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first band the pieces stored into the first result's block tile it. -/
theorem cover3_A_9 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (y : S200x4.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).1 S200x4.size (by sl_kernel_rfl) y

/-- What the first band leaves in the first result's block: its pieces read back. -/
def out3_A_9 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) : Vec F S200x4 .f32 :=
  VO3_9.read (Elt F) (VO3_9.writes (Elt F) VO3_9.junk (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).1)

/-- At the first band the pieces stored into the accumulator tile it. -/
theorem scover3_A_0 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (y : S32x10000.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.1 S32x10000.size (by sl_kernel_rfl) y

/-- What the first band leaves in the accumulator: its pieces read back. -/
def sout3_A_0 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) : Vec F S32x10000 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.1)

/-- At a middle band the pieces stored into the first result's block tile it. -/
theorem cover3_B_9 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) (y : S200x4.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1 S200x4.size (by sl_kernel_rfl) y

/-- What a middle band leaves in the first result's block: its pieces read back. -/
def out3_B_9 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) : Vec F S200x4 .f32 :=
  VO3_9.read (Elt F) (VO3_9.writes (Elt F) VO3_9.junk (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1)

/-- At a middle band the pieces stored into the accumulator tile it. -/
theorem scover3_B_0 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) (y : S32x10000.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1 S32x10000.size (by sl_kernel_rfl) y

/-- What a middle band leaves in the accumulator: its pieces read back. -/
def sout3_B_0 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) : Vec F S32x10000 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1)

/-- At the last band the pieces stored into the first result's block tile it. -/
theorem cover3_C_9 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) (y : S200x4.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1 S200x4.size (by sl_kernel_rfl) y

/-- What the last band leaves in the first result's block: its pieces read back. -/
def out3_C_9 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) : Vec F S200x4 .f32 :=
  VO3_9.read (Elt F) (VO3_9.writes (Elt F) VO3_9.junk (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1)

/-- At the last band the pieces stored into the accumulator tile it. -/
theorem scover3_C_0 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) (y : S32x10000.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1 S32x10000.size (by sl_kernel_rfl) y

/-- What the last band leaves in the accumulator: its pieces read back. -/
def sout3_C_0 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) : Vec F S32x10000 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1)

/-- At the last band the pieces stored into the second result's buffer tile it. -/
theorem cover3_C_10 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) (y : S10000x4.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1 S10000x4.size (by sl_kernel_rfl) y

/-- What the last band leaves in the second result's buffer: its pieces read back. -/
def out3_C_10 (c : Dev nD) (i : grid3.Coords) (arg1 : Memref sig .tc .vmem S200x10000 .f32) (harg1 : arg1.IsWhole) (arg2 : Memref sig .tc .vmem S10000x32 .bf16) (harg2 : arg2.IsWhole) (arg3 : Memref sig .tc .vmem S200x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S200x4 .f32) (harg8 : arg8.IsWhole) (arg9 : Memref sig .tc .vmem S10000x4 .f32) (harg9 : arg9.IsWhole) (arg10 : Memref sig .tc .vmem S200x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S200x10000 .f32) (x1 : Vec F S10000x32 .bf16) (x2 : Vec F S200x32 .bf16) (x3 : Vec F S16x4 .f32) (x4 : Vec F S16x4 .f32) (x5 : Vec F S16x4 .f32) (x6 : Vec F S16x4 .f32) (x7 : Vec F S200x4 .f32) (x8 : Vec F S10000x4 .f32) (xs0 : Vec F S32x10000 .f32) : Vec F S10000x4 .f32 :=
  VO3_10.read (Elt F) (VO3_10.writes (Elt F) VO3_10.junk (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1)

/-- Away from the last band nothing is stored into the second result's buffer: a placeholder nothing consults
    (the buffer is handed back as found, and is not written back there). -/
def idle3_10 : Vec F S10000x4 .f32 := VO3_10.read (Elt F) (VO3_10.writes (Elt F) VO3_10.junk [])

section Region3
variable (V : (c : Dev nD) → (b : Ref sig .tc) → Buf (Elt F) ((c : Thread nD τ).loc b))

/-! ## What the result buffers and the accumulator hold after each band -/

/-- After the body at band `n`: the first result's block, the second result's buffer, the accumulator — the case the
    band is in, run on the band's blocks, the accumulator taken from the band before. -/
def outsAt3 (c : Dev nD) : (n : ℕ) → n < cfg3.N → Vec F S200x4 .f32 × Vec F S10000x4 .f32 × Vec F S32x10000 .f32
  | 0, hn => (out3_A_9 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) scM3_0 (Memref.isWhole_whole _) ((hcond3_0 ⟨0, hn⟩).mpr (rfl : (0 : ℕ) = 0)) (fun h => (hcond3_1 ⟨0, hn⟩).mp h (rfl : (0 : ℕ) = 0)) (fun h => absurd (((hcond3_2 ⟨0, hn⟩).mp h).symm.trans (rfl : (0 : ℕ) = 0)) (by decide)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩), idle3_10, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) scM3_0 (Memref.isWhole_whole _) ((hcond3_0 ⟨0, hn⟩).mpr (rfl : (0 : ℕ) = 0)) (fun h => (hcond3_1 ⟨0, hn⟩).mp h (rfl : (0 : ℕ) = 0)) (fun h => absurd (((hcond3_2 ⟨0, hn⟩).mp h).symm.trans (rfl : (0 : ℕ) = 0)) (by decide)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩))
  | n + 1, hn =>
    if h2 : n + 1 = 49 then
      (out3_C_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => (Nat.succ_ne_zero n) ((hcond3_0 ⟨n + 1, hn⟩).mp h)) ((hcond3_1 ⟨n + 1, hn⟩).mpr (Nat.succ_ne_zero n)) ((hcond3_2 ⟨n + 1, hn⟩).mpr h2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2, out3_C_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => (Nat.succ_ne_zero n) ((hcond3_0 ⟨n + 1, hn⟩).mp h)) ((hcond3_1 ⟨n + 1, hn⟩).mpr (Nat.succ_ne_zero n)) ((hcond3_2 ⟨n + 1, hn⟩).mpr h2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => (Nat.succ_ne_zero n) ((hcond3_0 ⟨n + 1, hn⟩).mp h)) ((hcond3_1 ⟨n + 1, hn⟩).mpr (Nat.succ_ne_zero n)) ((hcond3_2 ⟨n + 1, hn⟩).mpr h2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2)
    else
      (out3_B_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => (Nat.succ_ne_zero n) ((hcond3_0 ⟨n + 1, hn⟩).mp h)) ((hcond3_1 ⟨n + 1, hn⟩).mpr (Nat.succ_ne_zero n)) (fun h => h2 ((hcond3_2 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2, idle3_10, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3_0 (Memref.isWhole_whole _) (fun h => (Nat.succ_ne_zero n) ((hcond3_0 ⟨n + 1, hn⟩).mp h)) ((hcond3_1 ⟨n + 1, hn⟩).mpr (Nat.succ_ne_zero n)) (fun h => h2 ((hcond3_2 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (outsAt3 c n (Nat.lt_of_succ_lt hn)).2.2)

theorem outsAt3_A (c : Dev nD) (t : Fin cfg3.N) (h0 : t.val = 0) :
    outsAt3 V c t.val t.isLt = (out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) ((hcond3_0 t).mpr h0) (fun h => (hcond3_1 t).mp h h0) (fun h => absurd (((hcond3_2 t).mp h).symm.trans h0) (by decide)) (iblk3 V c 0 t) (iblk3 V c 1 t) (iblk3 V c 2 t) (iblk3 V c 3 t) (iblk3 V c 4 t) (iblk3 V c 5 t) (iblk3 V c 6 t) (iblk3 V c 7 t) (iblk3 V c 8 t), idle3_10, sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) ((hcond3_0 t).mpr h0) (fun h => (hcond3_1 t).mp h h0) (fun h => absurd (((hcond3_2 t).mp h).symm.trans h0) (by decide)) (iblk3 V c 0 t) (iblk3 V c 1 t) (iblk3 V c 2 t) (iblk3 V c 3 t) (iblk3 V c 4 t) (iblk3 V c 5 t) (iblk3 V c 6 t) (iblk3 V c 7 t) (iblk3 V c 8 t)) := by
  obtain ⟨n, hn⟩ := t
  cases n with
  | zero => exact rfl
  | succ n => exact absurd h0 (Nat.succ_ne_zero n)

theorem outsAt3_B (c : Dev nD) (t : Fin cfg3.N) (h0 : ¬t.val = 0) (h2 : ¬t.val = 49) :
    outsAt3 V c t.val t.isLt = (out3_B_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, idle3_10, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2) := by
  obtain ⟨n, hn⟩ := t
  cases n with
  | zero => exact absurd rfl h0
  | succ n => exact (dif_neg h2).trans rfl

theorem outsAt3_C (c : Dev nD) (t : Fin cfg3.N) (h0 : ¬t.val = 0) (h2 : t.val = 49) :
    outsAt3 V c t.val t.isLt = (out3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, out3_C_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (fun h => h0 ((hcond3_0 t).mp h)) ((hcond3_1 t).mpr h0) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2) := by
  obtain ⟨n, hn⟩ := t
  cases n with
  | zero => exact absurd rfl h0
  | succ n => exact (dif_pos h2).trans rfl

/-- The stage's invariant before band `n`: before the first band what the launch hands over (the accumulator at
    anything); afterwards the accumulator at what the band before left, the other scoped buffers unopened, the generator
    register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the stage finds them; after the body at band `t` each input's buffer at its block, the results'
    buffers at `outsAt3`'s components; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => (outsAt3 V c t.val t.isLt).1
    | ⟨10, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = (outsAt3 V c t.val t.isLt).1 := by dsimp only [dat3]
theorem after3_10 (c : Dev nD) (t : Fin cfg3.N) : (dat3 V c).after 10 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! What the body must leave in each window's buffer, window by window. -/
theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (ms3_3 t) fullShare (iblk3 V c 3 t) := by
  unfold Dat.leavesExact; rw [liveAt3_3 t, after3_3]
theorem leaves3_4 (c : Dev nD) (t : Fin cfg3.N) :
    (dat3 V c).leavesExact 4 t = owns (c : Thread nD τ) (ms3_4 t) fullShare (iblk3 V c 4 t) := by
  unfold Dat.leavesExact; rw [liveAt3_4 t, after3_4]
theorem leaves3_5 (c : Dev nD) (t : Fin cfg3.N) :
    (dat3 V c).leavesExact 5 t = owns (c : Thread nD τ) (ms3_5 t) fullShare (iblk3 V c 5 t) := by
  unfold Dat.leavesExact; rw [liveAt3_5 t, after3_5]
theorem leaves3_6 (c : Dev nD) (t : Fin cfg3.N) :
    (dat3 V c).leavesExact 6 t = owns (c : Thread nD τ) (ms3_6 t) fullShare (iblk3 V c 6 t) := by
  unfold Dat.leavesExact; rw [liveAt3_6 t, after3_6]
theorem leaves3_7 (c : Dev nD) (t : Fin cfg3.N) :
    (dat3 V c).leavesExact 7 t = owns (c : Thread nD τ) (ms3_7 t) fullShare (iblk3 V c 7 t) := by
  unfold Dat.leavesExact; rw [liveAt3_7 t, after3_7]
theorem leaves3_8 (c : Dev nD) (t : Fin cfg3.N) :
    (dat3 V c).leavesExact 8 t = owns (c : Thread nD τ) (ms3_8 t) fullShare (iblk3 V c 8 t) := by
  unfold Dat.leavesExact; rw [liveAt3_8 t, after3_8]
theorem leaves3_9 (c : Dev nD) (t : Fin cfg3.N) :
    (dat3 V c).leavesExact 9 t = owns (c : Thread nD τ) (ms3_9 t) fullShare ((outsAt3 V c t.val t.isLt).1) := by
  unfold Dat.leavesExact; rw [liveAt3_9 t, after3_9]
theorem leaves3_10_live (c : Dev nD) (t : Fin cfg3.N) (h : cond3_2 (grid3.coords t)) :
    (dat3 V c).leavesExact 10 t = owns (c : Thread nD τ) (ms3_10 t) fullShare ((outsAt3 V c t.val t.isLt).2.1) := by
  unfold Dat.leavesExact; rw [liveAt3_10 t h, after3_10]

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t)

set_option maxHeartbeats 8000000 in
/-- The body at any band: the inputs' buffers hold their blocks; the band's number says which case it is; the case's
    run applies, taking the accumulator from the invariant (at anything before the first band, at what the band before
    left afterwards) and handing it back at this band's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0 V, before3_1 V, before3_2 V, before3_3 V, before3_4 V, before3_5 V, before3_6 V, before3_7 V, before3_8 V]
  rw [show (dat3 V c).owesAt () t.succ = (dat3 V c).owesAt () t.castSucc from rfl]
  rw [show (dat3 V c).Φ t.succ = PhiS3 V c (t.val + 1) t.isLt from rfl, PhiS3_succ]
  rw [leaves3_0 V c t, leaves3_1 V c t, leaves3_2 V c t, leaves3_3 V c t, leaves3_4 V c t, leaves3_5 V c t, leaves3_6 V c t, leaves3_7 V c t, leaves3_8 V c t, leaves3_9 V c t]
  have hN : t.val < 50 := lt_of_lt_of_eq t.isLt (show cfg3.N = 50 from N_3)
  by_cases h0 : t.val = 0
  · have hc2 : ¬cond3_2 (grid3.coords t) := fun h => by have := (hcond3_2 t).mp h; omega
    rw [Dat.leavesExact_idle (dat3 V c) 10 t (idleAt3_10 t hc2) (noFlush3_10 t hc2)]
    rw [outsAt3_A V c t h0]
    unfold out3_A_9 sout3_A_0; (try dsimp only)
    rw [PhiS3_castSucc V c t, PhiS3_zero V c _ _ h0, PhiA3_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun3_A c (grid3.coords t) _ _ _ _ _ _ _ _ _ _ _ _ _ _ _ _ _ _ _ _ _ _ _ _ ((hcond3_0 t).mpr h0) (fun h => (hcond3_1 t).mp h h0) (fun h => absurd (((hcond3_2 t).mp h).symm.trans h0) (by decide)) (iblk3 V c 0 t) (iblk3 V c 1 t) (iblk3 V c 2 t) (iblk3 V c 3 t) (iblk3 V c 4 t) (iblk3 V c 5 t) (iblk3 V c 6 t) (iblk3 V c 7 t) (iblk3 V c 8 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [HS0]; · iexact HS0
    iintro ⟨H0, H1, H2, H3, H4, H5, H6, H7, H8, ⟨%e9, H9⟩, H10, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover3_A_9 c _ _ _ _ _ _ _ _ _ _ _ _ _ _ _ _ _ _ _ _ _ _ _ _ _ _ _ _ _ _ _ _ _ _ _ _ _)
    iexists _; iexact H10
  · by_cases h2 : t.val = 49
    · have hc2 : cond3_2 (grid3.coords t) := (hcond3_2 t).mpr h2
      rw [leaves3_10_live V c t hc2]
      rw [outsAt3_C V c t h0 h2]
      unfold out3_C_9 out3_C_10 sout3_C_0; (try dsimp only)
      rw [PhiS3_castSucc V c t, PhiS3_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_C c (grid3.coords t) _ _ _ _ _ _ _ _ _ _ _ _ _ _ _ _ _ _ _ _ _ _ _ _ (fun h => h0 ((hcond3_0 t).mp h)) ((hcond3_1 t).mpr h0) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, ⟨%e9, H9⟩, ⟨%e10, H10⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover3_C_9 c _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover3_C_10 c _ _ _ _ _ _ _ _ _ _ _ _ _ _ _ _ _ _ _ _ _ _ _ _ _ _ _ _ _ _ _ _ _ _ _ _ _ _)
    · have hc2 : ¬cond3_2 (grid3.coords t) := fun h => h2 ((hcond3_2 t).mp h)
      rw [Dat.leavesExact_idle (dat3 V c) 10 t (idleAt3_10 t hc2) (noFlush3_10 t hc2)]
      rw [outsAt3_B V c t h0 h2]
      unfold out3_B_9 sout3_B_0; (try dsimp only)
      rw [PhiS3_castSucc V c t, PhiS3_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_B c (grid3.coords t) _ _ _ _ _ _ _ _ _ _ _ _ _ _ _ _ _ _ _ _ _ _ _ _ (fun h => h0 ((hcond3_0 t).mp h)) ((hcond3_1 t).mpr h0) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS0]; · iexact HS0
      iintro ⟨H0, H1, H2, H3, H4, H5, H6, H7, H8, ⟨%e9, H9⟩, H10, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover3_B_9 c _ _ _ _ _ _ _ _ _ _ _ _ _ _ _ _ _ _ _ _ _ _ _ _ _ _ _ _ _ _ _ _ _ _ _ _ _ _)
      iexists _; iexact H10

/-- The library's body obligation, at every band. -/
theorem body_obligation3 (c : Dev nD) : BodyObligation (dat3 (F := F) V c) (defs₀ (F := F)) Variants.none () Set.univ := fun t => by
  rw [bigSep_W3, bigSep_W3]
  exact sound_body3 V c t

/-- What the launch hands the stage is the invariant before the first band. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any band the invariant gives back what the launch handed over: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

theorem hout3 (c : Dev nD) : (dat3 V c).Φ (Fin.last cfg3.N) ⊢ Pipeline.ΦA spec3 c :=
  Phi_out3 V c _ (by rw [Fin.val_last]; have : cfg3.N = 50 := N_3; omega)

end Region3

end Cert.Kernel.Hand

end
-- ==== Proof.Word.DecodeFrame.lean ====
import proofs.«111736_g88691074663054_cont_9to1c4b_58_39_alg».proof.Proof.Gen.Kernel.Launch
import proofs.«111736_g88691074663054_cont_9to1c4b_58_39_alg».proof.Proof.Gen.Kernel.Skeleton
import proofs.«111736_g88691074663054_cont_9to1c4b_58_39_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural recursion goes once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: the parameter everything below is stated at
variable (V : (c : Dev nD) → (b : Ref sig .tc) → Buf (Elt F) ((c : Thread nD τ).loc b))

/-! # Region 4: one row band of `logistic (Z₁ · Z₂ᵀ)`

The grid has 50 points; point `t` reads rows `200·t … 200·t + 199` of `Z₁` (window 0), the whole of `Z₂`
(window 1, brought in once, at the first point), and writes the band's 200 × 10000 block of the result
(window 2) at every point. The body has one control case: it loads its three staging buffers whole,
computes one payload from the two inputs, and stores it whole. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first factor's staging buffer holds the band of point `t` at every point, for any proof data whose array is
    `V`'s and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The second factor's staging buffer holds the whole factor at every point, fetched there (the first point) or not
    (its block index never moves afterwards). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S200x4 := Rect.unit (s := S200x4) ![0, 0] S200x4.size inb_S200x4_S200x4_0_0
abbrev r4_1 : Rect S10000x4 := Rect.unit (s := S10000x4) ![0, 0] S10000x4.size inb_S10000x4_S10000x4_0_0
abbrev r4_2 : Rect S200x10000 := Rect.unit (s := S200x10000) ![0, 0] S200x10000.size inb_S200x10000_S200x10000_0_0

/-! ## What the body leaves in the output window's buffer -/

/-- The result band's staging buffer after the body, from the two input blocks: its one store, of the payload. -/
def out4_2 (x0 : Vec F S200x4 .f32) (x1 : Vec F S10000x4 .f32) : Vec F S200x10000 .f32 :=
  View.canon [⟨r4_2, k4_pay1 (View.ld x0 r4_0) (View.ld x1 r4_1)⟩]

/-- The one store is of the whole buffer, so it covers it. -/
theorem cover4_2 (p0 : Vec F S200x10000 .f32) (y : S200x10000.Idx) :
    ∃ pc ∈ ([⟨r4_2, p0⟩] : List (View.Piece (Elt F) S200x10000 .f32)), y ∈ pc.1.set :=
  View.cover_of_tiled [⟨r4_2, p0⟩] S200x10000.size (by rfl) y

/-! ## The body's triple -/

set_option maxHeartbeats 1000000 in
/-- The body on whole staging memrefs, the inputs' at contents `x0`, `x1` and the output's at anything, runs to the
    continuation holding the inputs' as they were and the output's at `out4_2 x0 x1`. -/
theorem sound_kernel4 (c : Dev nD) (E : Set ℕ) (i : grid4.Coords) (arg0 : Memref sig .tc .vmem S200x4 .f32) (harg0 : arg0.IsWhole) (arg1 : Memref sig .tc .vmem S10000x4 .f32) (harg1 : arg1.IsWhole) (arg2 : Memref sig .tc .vmem S200x10000 .f32) (harg2 : arg2.IsWhole)
    (x0 : Vec F S200x4 .f32) (x1 : Vec F S10000x4 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__dec_body i arg0 harg0 arg1 harg1 arg2 harg2) K := by
  simp only [cc4__dec_body_eq_skeleton]; unfold cc4__dec_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of region 4 on core `c`: the arrays as the region finds them (`V`); after the body at point `t`
    each input's buffer at its block and the output's at `out4_2` of the input blocks; the invariant is the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- Entering the region: the invariant at the first point is the scoped rest and the generator register. -/
theorem hin4 (c : Dev nD) : Pipeline.ΦA spec4 c ⊢ (dat4 V c).Φ 0 := .rfl
/-- Leaving it: the invariant after the last point is the same. -/
theorem hout4 (c : Dev nD) : (dat4 V c).Φ (Fin.last cfg4.N) ⊢ Pipeline.ΦA spec4 c := .rfl

end Cert.Kernel.Hand
-- ==== Proof.Word.KernelRun.lean ====
/-
  The five tiled stages chained: what every buffer outside the kernels' private memory holds between two
  stages (a fold from the launch memory: a stage's arrays at what its write-backs leave, every other buffer as it
  was), each stage entered from what the one before it left, and the whole program's run — every weakly fair
  execution terminates with every such buffer at the last fold.  From it: the argument arrays end unchanged
  (no stage writes one), and the three results are the last stages' arrays.
-/
import proofs.«111736_g88691074663054_cont_9to1c4b_58_39_alg».proof.Proof.Word.XwFrame0
import proofs.«111736_g88691074663054_cont_9to1c4b_58_39_alg».proof.Proof.Word.XwFrame1
import proofs.«111736_g88691074663054_cont_9to1c4b_58_39_alg».proof.Proof.Word.PropInFrame
import proofs.«111736_g88691074663054_cont_9to1c4b_58_39_alg».proof.Proof.Word.PropOutFrame
import proofs.«111736_g88691074663054_cont_9to1c4b_58_39_alg».proof.Proof.Word.DecodeFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between stages -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After stage 0: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- An input window's array leaves the stage as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))

/-- After stage 1: its arrays at what its write-backs leave, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- An input window's array leaves the stage as it entered. -/
theorem W2_in (c : Dev nD) (w : Fin cfg1.W) (hw : (cfg1.win w).isOut = false) :
    W2 m ρ c (Proc.devRef .tc (Pipeline.arrRef spec1 w)) = W1 m ρ c (Proc.devRef .tc (Pipeline.arrRef spec1 w)) :=
  (W2_arr m ρ c w).trans (((dat1 (V1 m ρ) c).arrAt_in w hw _).trans (A_eq1 (V1 m ρ) c w))

/-- After stage 2: its arrays at what its write-backs leave, every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- An input window's array leaves the stage as it entered. -/
theorem W3_in (c : Dev nD) (w : Fin cfg2.W) (hw : (cfg2.win w).isOut = false) :
    W3 m ρ c (Proc.devRef .tc (Pipeline.arrRef spec2 w)) = W2 m ρ c (Proc.devRef .tc (Pipeline.arrRef spec2 w)) :=
  (W3_arr m ρ c w).trans (((dat2 (V2 m ρ) c).arrAt_in w hw _).trans (A_eq2 (V2 m ρ) c w))

/-- After stage 3: its arrays at what its write-backs leave, every other buffer as entered. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)
/-- An input window's array leaves the stage as it entered. -/
theorem W4_in (c : Dev nD) (w : Fin cfg3.W) (hw : (cfg3.win w).isOut = false) :
    W4 m ρ c (Proc.devRef .tc (Pipeline.arrRef spec3 w)) = W3 m ρ c (Proc.devRef .tc (Pipeline.arrRef spec3 w)) :=
  (W4_arr m ρ c w).trans (((dat3 (V3 m ρ) c).arrAt_in w hw _).trans (A_eq3 (V3 m ρ) c w))

/-- After stage 4: its arrays at what its write-backs leave, every other buffer as entered. -/
def W5 (c : Dev nD) : Valuation τ sig (Elt F) :=
  Pipeline.withArrays spec4 c (W4 m ρ c) fun w => (dat4 (V4 m ρ) c).arrAt w cfg4.N
theorem W5_arr (c : Dev nD) (w : Fin cfg4.W) :
    W5 m ρ c (Proc.devRef .tc (Pipeline.arrRef spec4 w)) = (dat4 (V4 m ρ) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
abbrev V5 : (c : Dev nD) → (b : Ref sig .tc) → Buf (Elt F) ((c : Thread nD τ).loc b) := fun c b => W5 m ρ c b
theorem hF4 (c : Dev nD) (w : Fin cfg4.W) : (dat4 (V4 m ρ) c).arrAt w cfg4.N = V5 m ρ c (Pipeline.arrRef spec4 w) :=
  (W5_arr m ρ c w).symm
theorem hrest4 (c : Dev nD) : ∀ b, b ∉ Finset.univ.image (Pipeline.arrRef spec4) → V5 m ρ c b = V4 m ρ c b :=
  fun b hb => W5_of_ne m ρ c b fun w e => hb (Finset.mem_image.mpr ⟨w, Finset.mem_univ _, e⟩)
/-- An input window's array leaves the stage as it entered. -/
theorem W5_in (c : Dev nD) (w : Fin cfg4.W) (hw : (cfg4.win w).isOut = false) :
    W5 m ρ c (Proc.devRef .tc (Pipeline.arrRef spec4 w)) = W4 m ρ c (Proc.devRef .tc (Pipeline.arrRef spec4 w)) :=
  (W5_arr m ρ c w).trans (((dat4 (V4 m ρ) c).arrAt_in w hw _).trans (A_eq4 (V4 m ρ) c w))

/-! ## The proof data family and the thread state -/

/-- No stage has a prefetched table. -/
abbrev adm : (p : Fin 5) → (pcfgs (F := F) p).Adm := fun p => (cfgs p).toPCfg_adm
/-- Every stage's proof data, each at the contents its stage is entered from. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every stage: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The stages as segments -/

set_option backward.isDefEq.respectTransparency.types false in
/-- Stage 0: entered from every buffer at `W0`, left at `W1`; its arrays split out of the buffers and put back at
    the exit contents; the generator register into the stage's invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m ρ) c
    unfold Pipeline.ΦA at h
    show _ ⊢ (dat0 (V0 m ρ) c).Φ 0
    iintro ⟨Hp, -, Hr⟩
    iapply h
    isplitl [Hr]; · iexact Hr
    iexact Hp
  hout c := by
    rw [Pipeline.ownSems0_none]
    have h := hout0 (V0 m ρ) c
    unfold Pipeline.ΦA at h
    show (dat0 (V0 m ρ) c).Φ (Fin.last _) ⊢ _
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1: entered from every buffer at `W1`, left at `W2`; its arrays split out of the buffers and put back at
    the exit contents; the generator register into the stage's invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun w => A_eq1 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V1 m ρ) c
    unfold Pipeline.ΦA at h
    show _ ⊢ (dat1 (V1 m ρ) c).Φ 0
    iintro ⟨Hp, -, Hr⟩
    iapply h
    isplitl [Hr]; · iexact Hr
    iexact Hp
  hout c := by
    rw [Pipeline.ownSems0_none]
    have h := hout1 (V1 m ρ) c
    unfold Pipeline.ΦA at h
    show (dat1 (V1 m ρ) c).Φ (Fin.last _) ⊢ _
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2: entered from every buffer at `W2`, left at `W3`; its arrays split out of the buffers and put back at
    the exit contents; the generator register into the stage's invariant and out; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun w => A_eq2 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V2 m ρ) c
    unfold Pipeline.ΦA at h
    show _ ⊢ (dat2 (V2 m ρ) c).Φ 0
    iintro ⟨Hp, -, Hr⟩
    iapply h
    isplitl [Hr]; · iexact Hr
    iexact Hp
  hout c := by
    rw [Pipeline.ownSems0_none]
    have h := hout2 (V2 m ρ) c
    unfold Pipeline.ΦA at h
    show (dat2 (V2 m ρ) c).Φ (Fin.last _) ⊢ _
    iintro Hphi
    ihave H := h $$ Hphi
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 3: entered from every buffer at `W3`, left at `W4`; its arrays split out of the buffers and put back at
    the exit contents; the generator register into the stage's invariant and out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun w => A_eq3 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (V3 m ρ) c
    unfold Pipeline.ΦA at h
    show _ ⊢ (dat3 (V3 m ρ) c).Φ 0
    iintro ⟨Hp, -, Hr⟩
    iapply h
    isplitl [Hr]; · iexact Hr
    iexact Hp
  hout c := by
    rw [Pipeline.ownSems0_none]
    have h := hout3 (V3 m ρ) c
    unfold Pipeline.ΦA at h
    show (dat3 (V3 m ρ) c).Φ (Fin.last _) ⊢ _
    iintro Hphi
    ihave H := h $$ Hphi
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 4: entered from every buffer at `W4`, left at `W5`; its arrays split out of the buffers and put back at
    the exit contents; the generator register into the stage's invariant and out; nothing owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V4 m ρ c) fun w => A_eq4 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V4 m ρ) c
    unfold Pipeline.ΦA at h
    show _ ⊢ (dat4 (V4 m ρ) c).Φ 0
    iintro ⟨Hp, -, Hr⟩
    iapply h
    isplitl [Hr]; · iexact Hr
    iexact Hp
  hout c := by
    rw [Pipeline.ownSems0_none]
    have h := hout4 (V4 m ρ) c
    unfold Pipeline.ΦA at h
    show (dat4 (V4 m ρ) c).Φ (Fin.last _) ⊢ _
    iintro Hphi
    ihave H := h $$ Hphi
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V4 m ρ c) (V5 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]

theorem main_run (c : Dev nD) : main (F := F) c = Pipeline.Seg.run (segs m ρ) := (main_chain c).trans (by chain_rfl)

set_option backward.isDefEq.respectTransparency.types false in
/-- Every weakly fair execution of the program terminates, nothing faulting, and every final state has every buffer
    outside the kernels' private memory at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! ## What a stage leaves alone -/

/-- A buffer that is no OUTPUT array of stage 0 leaves it as it entered. -/
theorem W1_keep (c : Dev nD) (b : Ref sig .tc) (h : ∀ w, (cfg0.win w).isOut = true → Pipeline.arrRef spec0 w ≠ b) :
    W1 m ρ c (Proc.devRef .tc b) = W0 m ρ c (Proc.devRef .tc b) := by
  by_cases hb : ∃ w, Pipeline.arrRef spec0 w = b
  · obtain ⟨w, rfl⟩ := hb
    cases ho : (cfg0.win w).isOut
    · exact W1_in m ρ c w ho
    · exact absurd rfl (h w ho)
  · exact W1_of_ne m ρ c b fun w e => hb ⟨w, e⟩

/-- A buffer that is no OUTPUT array of stage 1 leaves it as it entered. -/
theorem W2_keep (c : Dev nD) (b : Ref sig .tc) (h : ∀ w, (cfg1.win w).isOut = true → Pipeline.arrRef spec1 w ≠ b) :
    W2 m ρ c (Proc.devRef .tc b) = W1 m ρ c (Proc.devRef .tc b) := by
  by_cases hb : ∃ w, Pipeline.arrRef spec1 w = b
  · obtain ⟨w, rfl⟩ := hb
    cases ho : (cfg1.win w).isOut
    · exact W2_in m ρ c w ho
    · exact absurd rfl (h w ho)
  · exact W2_of_ne m ρ c b fun w e => hb ⟨w, e⟩

/-- A buffer that is no OUTPUT array of stage 2 leaves it as it entered. -/
theorem W3_keep (c : Dev nD) (b : Ref sig .tc) (h : ∀ w, (cfg2.win w).isOut = true → Pipeline.arrRef spec2 w ≠ b) :
    W3 m ρ c (Proc.devRef .tc b) = W2 m ρ c (Proc.devRef .tc b) := by
  by_cases hb : ∃ w, Pipeline.arrRef spec2 w = b
  · obtain ⟨w, rfl⟩ := hb
    cases ho : (cfg2.win w).isOut
    · exact W3_in m ρ c w ho
    · exact absurd rfl (h w ho)
  · exact W3_of_ne m ρ c b fun w e => hb ⟨w, e⟩

/-- A buffer that is no OUTPUT array of stage 3 leaves it as it entered. -/
theorem W4_keep (c : Dev nD) (b : Ref sig .tc) (h : ∀ w, (cfg3.win w).isOut = true → Pipeline.arrRef spec3 w ≠ b) :
    W4 m ρ c (Proc.devRef .tc b) = W3 m ρ c (Proc.devRef .tc b) := by
  by_cases hb : ∃ w, Pipeline.arrRef spec3 w = b
  · obtain ⟨w, rfl⟩ := hb
    cases ho : (cfg3.win w).isOut
    · exact W4_in m ρ c w ho
    · exact absurd rfl (h w ho)
  · exact W4_of_ne m ρ c b fun w e => hb ⟨w, e⟩

/-- A buffer that is no OUTPUT array of stage 4 leaves it as it entered. -/
theorem W5_keep (c : Dev nD) (b : Ref sig .tc) (h : ∀ w, (cfg4.win w).isOut = true → Pipeline.arrRef spec4 w ≠ b) :
    W5 m ρ c (Proc.devRef .tc b) = W4 m ρ c (Proc.devRef .tc b) := by
  by_cases hb : ∃ w, Pipeline.arrRef spec4 w = b
  · obtain ⟨w, rfl⟩ := hb
    cases ho : (cfg4.win w).isOut
    · exact W5_in m ρ c w ho
    · exact absurd rfl (h w ho)
  · exact W5_of_ne m ρ c b fun w e => hb ⟨w, e⟩

/-- A buffer no stage writes holds its launch contents at the end. -/
theorem W5_launch (c : Dev nD) (b : Ref sig .tc)
    (h0 : ∀ w, (cfg0.win w).isOut = true → Pipeline.arrRef spec0 w ≠ b) (h1 : ∀ w, (cfg1.win w).isOut = true → Pipeline.arrRef spec1 w ≠ b)
    (h2 : ∀ w, (cfg2.win w).isOut = true → Pipeline.arrRef spec2 w ≠ b) (h3 : ∀ w, (cfg3.win w).isOut = true → Pipeline.arrRef spec3 w ≠ b)
    (h4 : ∀ w, (cfg4.win w).isOut = true → Pipeline.arrRef spec4 w ≠ b) :
    W5 m ρ c (Proc.devRef .tc b) = m ((c : Thread nD τ).loc b) :=
  (W5_keep m ρ c b h4).trans <| (W4_keep m ρ c b h3).trans <| (W3_keep m ρ c b h2).trans <| (W2_keep m ρ c b h1).trans <| (W1_keep m ρ c b h0).trans rfl

/-! ## The frame: every argument array ends as launched -/

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W5_launch m ρ c main_arg0 (by decide) (by decide) (by decide) (by decide) (by decide)),
    (h c _ (mem_uc main_arg1 (by decide))).trans (W5_launch m ρ c main_arg1 (by decide) (by decide) (by decide) (by decide) (by decide)),
    (h c _ (mem_uc main_arg2 (by decide))).trans (W5_launch m ρ c main_arg2 (by decide) (by decide) (by decide) (by decide) (by decide)),
    (h c _ (mem_uc main_arg3 (by decide))).trans (W5_launch m ρ c main_arg3 (by decide) (by decide) (by decide) (by decide) (by decide)),
    (h c _ (mem_uc main_arg4 (by decide))).trans (W5_launch m ρ c main_arg4 (by decide) (by decide) (by decide) (by decide) (by decide)),
    (h c _ (mem_uc main_arg5 (by decide))).trans (W5_launch m ρ c main_arg5 (by decide) (by decide) (by decide) (by decide) (by decide)),
    (h c _ (mem_uc main_arg6 (by decide))).trans (W5_launch m ρ c main_arg6 (by decide) (by decide) (by decide) (by decide) (by decide)),
    (h c _ (mem_uc main_arg7 (by decide))).trans (W5_launch m ρ c main_arg7 (by decide) (by decide) (by decide) (by decide) (by decide)),
    (h c _ (mem_uc main_arg8 (by decide))).trans (W5_launch m ρ c main_arg8 (by decide) (by decide) (by decide) (by decide) (by decide)),
    (h c _ (mem_uc main_arg9 (by decide))).trans (W5_launch m ρ c main_arg9 (by decide) (by decide) (by decide) (by decide) (by decide)),
    (h c _ (mem_uc main_arg10 (by decide))).trans (W5_launch m ρ c main_arg10 (by decide) (by decide) (by decide) (by decide) (by decide))⟩) (run_all m ρ)

end Cert.Kernel.Hand

end
-- ==== Proof.Algebra.lean ====
/-
  The algebra between the tiled arrangement and the plain one, on the extended reals.

  Every law here is about finite sums of products.  The extended reals are a commutative monoid under
  multiplication with `x * 0 = 0` for every `x`, and a commutative monoid under addition, so re-indexing a sum,
  dropping zero terms and commuting a product need no hypothesis.  Distributivity fails at the infinities; the two
  regrouping laws `(A·H)·W = A·(H·W)` are therefore proved for arrays all of whose entries are real numbers, by
  moving the whole expression into the reals.
-/
import proofs.«111736_g88691074663054_cont_9to1c4b_58_39_alg».proof.Proof.Spec

noncomputable section

namespace Cert.Spec

open Idealize.ShloMosaic Idealize.ShloMosaic.ValueIdx
open scoped BigOperators

/-! ## Real entries -/

/-- Every entry of the array is a real number. -/
abbrev AllReal {ι : Type} (A : ι → EReal) : Prop := ∀ i, ∃ x : ℝ, A i = (x : EReal)

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max (x y : ℝ) : ((max x y : ℝ) : EReal) = max (x : EReal) (y : EReal) :=
  (EReal.coe_strictMono.monotone).map_max

/-- A real number minus itself is zero. -/
theorem sub_self_of_real {x : EReal} (h : ∃ r : ℝ, x = (r : EReal)) : x - x = 0 := by
  obtain ⟨r, rfl⟩ := h
  rw [← EReal.coe_sub, sub_self, EReal.coe_zero]

/-- Regrouping a triple product, for real entries: `Σ_q (Σ_k A k · H k q) · W q = Σ_k A k · Σ_q H k q · W q`. -/
theorem sum_regroup {ι κ : Type} [Fintype ι] [Fintype κ] (A : κ → EReal) (H : κ → ι → EReal) (W : ι → EReal)
    (hA : ∀ k, ∃ x : ℝ, A k = (x : EReal)) (hH : ∀ k q, ∃ x : ℝ, H k q = (x : EReal))
    (hW : ∀ q, ∃ x : ℝ, W q = (x : EReal)) :
    ∑ q, (∑ k, A k * H k q) * W q = ∑ k, A k * ∑ q, H k q * W q := by
  choose a ha using hA
  choose h hh using hH
  choose w hw using hW
  simp only [ha, hh, hw, ← EReal.coe_mul, ← coe_sum]
  rw [EReal.coe_eq_coe_iff]
  simp only [Finset.sum_mul, Finset.mul_sum]
  rw [Finset.sum_comm]
  exact Finset.sum_congr rfl fun k _ => Finset.sum_congr rfl fun q _ => by ring

/-! ## Real entries are kept by every stage -/

theorem mm_real {a k b : Nat} {φ₁ φ₂ : FTy} {X : FVec Ideal (Sh a k) φ₁} {W : FVec Ideal (Sh k b) φ₂}
    (hX : AllReal X) (hW : AllReal W) : AllReal (mm X W) := by
  intro j
  choose x hx using hX
  choose w hw using hW
  refine ⟨∑ q : Fin k, x (ix2 (j 0) q) * w (ix2 q (j 1)), ?_⟩
  show ∑ q : Fin k, X (ix2 (j 0) q) * W (ix2 q (j 1)) = _
  simp only [hx, hw, ← EReal.coe_mul, ← coe_sum]

theorem tr_real {a b : Nat} {φ : FTy} {Y : FVec Ideal (Sh a b) φ} (hY : AllReal Y) : AllReal (tr Y) :=
  fun j => hY (ix2 (j 1) (j 0))

theorem relu_real {a b : Nat} {Y : FVec Ideal (Sh a b) .f32} (hY : AllReal Y) : AllReal (relu Y) := by
  intro j
  obtain ⟨y, hy⟩ := hY j
  refine ⟨max y 0, ?_⟩
  show max (Y j) 0 = _
  rw [hy, coe_max, EReal.coe_zero]

theorem sample_real {a b : Nat} {n l m : FVec Ideal (Sh a b) .f32} (hn : AllReal n) (hl : AllReal l) (hm : AllReal m) :
    AllReal (sample n l m) := by
  intro j
  obtain ⟨x, hx⟩ := hn j
  obtain ⟨y, hy⟩ := hl j
  obtain ⟨z, hz⟩ := hm j
  refine ⟨x * Real.exp y + z, ?_⟩
  show n j * Ideal.exp (l j) + m j = _
  rw [hx, hy, hz, Ideal.exp_coe, ← EReal.coe_mul, ← EReal.coe_add]

/-! ## The pair of halves of a real array is `[Y | 0]`, and a product against it adds nothing -/

/-- The first sixteen columns of the pair are the array itself. -/
theorem hilo_lo {n : Nat} (Y : FVec Ideal (Sh n 16) .f32) (r : Fin n) (c : Fin 32) (h : c.val < 16) :
    hilo Y (ix2 r c) = Y (ix2 r ⟨c.val, h⟩) := by
  unfold hilo
  exact dif_pos h

/-- The last sixteen columns of the pair of a real array are zero. -/
theorem hilo_hi {n : Nat} {Y : FVec Ideal (Sh n 16) .f32} (hY : AllReal Y) (r : Fin n) (c : Fin 32) (h : ¬ c.val < 16) :
    hilo Y (ix2 r c) = 0 := by
  unfold hilo
  exact (dif_neg h).trans (sub_self_of_real (hY _))

/-- `A · [Y | 0]` with its two column halves added back is `A · Y`. -/
theorem halves_mm_hilo {a n : Nat} {φ : FTy} (A : FVec Ideal (Sh a n) φ) {Y : FVec Ideal (Sh n 16) .f32} (hY : AllReal Y) :
    halves (mm A (hilo Y)) = mm A Y := by
  funext j
  have lo : ∀ q : Fin n, hilo Y (ix2 q (⟨(j 1).val, by have := idx2_lt1 j; omega⟩ : Fin 32)) = Y (ix2 q (j 1)) :=
    fun q => hilo_lo Y q _ (idx2_lt1 j)
  have hi : ∀ q : Fin n, hilo Y (ix2 q (⟨(j 1).val + 16, by have := idx2_lt1 j; omega⟩ : Fin 32)) = 0 :=
    fun q => hilo_hi hY q _ (by show ¬ (j 1).val + 16 < 16; omega)
  show (∑ q : Fin n, A (ix2 (j 0) q) * hilo Y (ix2 q (⟨(j 1).val, _⟩ : Fin 32)))
      + (∑ q : Fin n, A (ix2 (j 0) q) * hilo Y (ix2 q (⟨(j 1).val + 16, _⟩ : Fin 32)))
      = ∑ q : Fin n, A (ix2 (j 0) q) * Y (ix2 q (j 1))
  simp only [lo, hi, mul_zero, Finset.sum_const_zero, add_zero]

/-- `[Y | 0]ᵀ · A` with its two row halves added back is `Yᵀ · A`. -/
theorem halves0_mmTN_hilo {n b : Nat} {φ : FTy} {Y : FVec Ideal (Sh n 16) .f32} (hY : AllReal Y) (A : FVec Ideal (Sh n b) φ) :
    halves0 (mmTN (hilo Y) A) = mmTN Y A := by
  funext j
  have lo : ∀ q : Fin n, hilo Y (ix2 q (⟨(j 0).val, by have := idx2_lt0 j; omega⟩ : Fin 32)) = Y (ix2 q (j 0)) :=
    fun q => hilo_lo Y q _ (idx2_lt0 j)
  have hi : ∀ q : Fin n, hilo Y (ix2 q (⟨(j 0).val + 16, by have := idx2_lt0 j; omega⟩ : Fin 32)) = 0 :=
    fun q => hilo_hi hY q _ (by show ¬ (j 0).val + 16 < 16; omega)
  show (∑ q : Fin n, hilo Y (ix2 q (⟨(j 0).val, _⟩ : Fin 32)) * A (ix2 q (j 1)))
      + (∑ q : Fin n, hilo Y (ix2 q (⟨(j 0).val + 16, _⟩ : Fin 32)) * A (ix2 q (j 1)))
      = ∑ q : Fin n, Y (ix2 q (j 0)) * A (ix2 q (j 1))
  simp only [lo, hi, zero_mul, Finset.sum_const_zero, add_zero]

/-! ## The banded sum is the whole sum -/

/-- Band `t` holds the rows `200·t + r`: (band, row in the band) ↔ row. -/
def bandEquiv : Fin 50 × Fin 200 ≃ Fin 10000 where
  toFun p := ⟨200 * p.1.val + p.2.val, by omega⟩
  invFun q := (⟨q.val / 200, by omega⟩, ⟨q.val % 200, by omega⟩)
  left_inv p := by
    rcases p with ⟨t, r⟩
    refine Prod.ext (Fin.ext ?_) (Fin.ext ?_)
    · show (200 * t.val + r.val) / 200 = t.val
      omega
    · show (200 * t.val + r.val) % 200 = r.val
      omega
  right_inv q := Fin.ext (by
    show 200 * (q.val / 200) + q.val % 200 = q.val
    omega)

/-- Summing band by band is summing over all rows. -/
theorem bandSum_eq_mmTN {a b : Nat} {φ₁ φ₂ : FTy} (X : FVec Ideal (Sh 10000 a) φ₁) (W : FVec Ideal (Sh 10000 b) φ₂) :
    bandSum X W = mmTN X W := by
  funext j
  show _ = ∑ q : Fin 10000, X (ix2 q (j 0)) * W (ix2 q (j 1))
  rw [← Equiv.sum_comp bandEquiv (fun q : Fin 10000 => X (ix2 q (j 0)) * W (ix2 q (j 1))), Fintype.sum_prod_type]
  rfl

/-! ## Transposes -/

/-- `(Yᵀ·A)ᵀ = Aᵀ·Y`: products of extended reals commute. -/
theorem tr_mmTN {a k b : Nat} {φ₁ φ₂ : FTy} (Y : FVec Ideal (Sh k a) φ₁) (A : FVec Ideal (Sh k b) φ₂) :
    tr (mmTN Y A) = mm (tr A) Y := by
  funext j
  show ∑ q : Fin k, Y (ix2 q (j 1)) * A (ix2 q (j 0)) = ∑ q : Fin k, A (ix2 q (j 0)) * Y (ix2 q (j 1))
  exact Finset.sum_congr rfl fun q _ => mul_comm _ _

/-- The positive part is taken entry by entry, so it commutes with the transpose. -/
theorem tr_relu {a b : Nat} (Z : FVec Ideal (Sh a b) .f32) : tr (relu Z) = relu (tr Z) := rfl

/-- A product against a transpose is the product with the second factor's indices exchanged. -/
theorem mm_tr {a k b : Nat} {φ₁ φ₂ : FTy} (X : FVec Ideal (Sh a k) φ₁) (W : FVec Ideal (Sh b k) φ₂) :
    mm X (tr W) = mmNT X W := rfl

/-- `sample` is entry by entry, so it commutes with the transpose. -/
theorem tr_sample {a b : Nat} (n : FVec Ideal (Sh a b) .f32) (L M : FVec Ideal (Sh b a) .f32) :
    tr (sample (tr n) L M) = sample n (tr L) (tr M) := by
  funext j
  have e : tr n (ix2 (j 1) (j 0)) = n j := congrArg n (eq_ix2 j).symm
  show tr n (ix2 (j 1) (j 0)) * Ideal.exp (L (ix2 (j 1) (j 0))) + M (ix2 (j 1) (j 0))
      = n j * Ideal.exp (L (ix2 (j 1) (j 0))) + M (ix2 (j 1) (j 0))
  rw [e]

/-! ## Regrouping: `(A·H)·W = A·(H·W)` for real entries -/

theorem mm_assoc {a k l b : Nat} {φ₁ φ₂ φ₃ : FTy} {A : FVec Ideal (Sh a k) φ₁} {H : FVec Ideal (Sh k l) φ₂}
    {W : FVec Ideal (Sh l b) φ₃} (hA : AllReal A) (hH : AllReal H) (hW : AllReal W) :
    mm (mm A H) W = mm A (mm H W) := by
  funext j
  show ∑ q : Fin l, (∑ p : Fin k, A (ix2 (j 0) p) * H (ix2 p q)) * W (ix2 q (j 1))
      = ∑ p : Fin k, A (ix2 (j 0) p) * ∑ q : Fin l, H (ix2 p q) * W (ix2 q (j 1))
  exact sum_regroup (fun p => A (ix2 (j 0) p)) (fun p q => H (ix2 p q)) (fun q => W (ix2 q (j 1)))
    (fun _ => hA _) (fun _ _ => hH _) (fun _ => hW _)

/-- `(Wᵀ·(Hᵀ·A))ᵀ = Aᵀ·(H·W)` for real entries. -/
theorem tr_mmTN_mmTN {a k l b : Nat} {φ₁ φ₂ φ₃ : FTy} {W : FVec Ideal (Sh l b) φ₁} {H : FVec Ideal (Sh k l) φ₂}
    {A : FVec Ideal (Sh k a) φ₃} (hW : AllReal W) (hH : AllReal H) (hA : AllReal A) :
    tr (mmTN W (mmTN H A)) = mm (tr A) (mm H W) := by
  rw [tr_mmTN, tr_mmTN, mm_assoc (tr_real hA) hH hW]

/-! ## The identity matrix -/

theorem mm_eye4 {a : Nat} (y : FVec Ideal (Sh a 4) .f32) : mm y eye4 = y := by
  funext j
  obtain ⟨r, c, rfl⟩ : ∃ (r : Fin a) (c : Fin 4), j = ix2 r c := ⟨j 0, j 1, eq_ix2 j⟩
  show ∑ q : Fin 4, y (ix2 r q) * (if q.val = c.val then 1 else 0) = y (ix2 r c)
  refine (Finset.sum_eq_single c (fun q _ hq => ?_) (fun h => absurd (Finset.mem_univ _) h)).trans ?_
  · rw [if_neg (fun h => hq (Fin.ext h)), mul_zero]
  · rw [if_pos rfl, mul_one]

/-! ## The three results -/

section Results

variable (X1 X2 adj : FVec Ideal (Sh 10000 10000) .f32) (Wb1 Wb2 : FVec Ideal (Sh 10000 16) .f32)
  (Wm1 Wl1 Wm2 Wl2 : FVec Ideal (Sh 16 4) .f32) (n1 n2 : FVec Ideal (Sh 10000 4) .f32)

theorem rH1_real (hX : AllReal X1) (hadj : AllReal adj) (hWb : AllReal Wb1) : AllReal (rH1 X1 adj Wb1) :=
  relu_real (mm_real (tr_real hadj) (mm_real hX hWb))

theorem rH2_real (hX : AllReal X2) (hadj : AllReal adj) (hWb : AllReal Wb2) : AllReal (rH2 X2 adj Wb2) :=
  relu_real (mm_real hadj (mm_real hX hWb))

/-- The first tiled stage pair gives the plain first hidden layer, as a pair of halves. -/
theorem h1Pair_xwPair (hX : AllReal X1) (hWb : AllReal Wb1) :
    h1Pair adj (xwPair X1 Wb1) = hilo (rH1 X1 adj Wb1) := by
  unfold h1Pair xwPair rH1
  rw [bandSum_eq_mmTN, halves0_mmTN_hilo (mm_real hX hWb), tr_relu, tr_mmTN]

/-- The second tiled stage pair gives the plain second hidden layer, as a pair of halves. -/
theorem h2Pair_xwPair (hX : AllReal X2) (hWb : AllReal Wb2) :
    h2Pair adj (xwPair X2 Wb2) = hilo (rH2 X2 adj Wb2) := by
  unfold h2Pair xwPair rH2
  rw [halves_mm_hilo adj (mm_real hX hWb)]

theorem kZ1_eq_rZ1 (hX : AllReal X1) (hadj : AllReal adj) (hWb : AllReal Wb1) (hWm : AllReal Wm1) (hWl : AllReal Wl1) :
    kZ1 X1 adj Wb1 Wm1 Wl1 n1 = rZ1 X1 adj Wb1 Wm1 Wl1 n1 := by
  have hH := rH1_real X1 adj Wb1 hX hadj hWb
  unfold kZ1 z1 rZ1
  rw [h1Pair_xwPair X1 adj Wb1 hX hWb, halves_mm_hilo adj hH, mm_assoc hadj hH hWl, mm_assoc hadj hH hWm]

theorem kZ2_eq_rZ2 (hX : AllReal X2) (hadj : AllReal adj) (hWb : AllReal Wb2) (hWm : AllReal Wm2) (hWl : AllReal Wl2) :
    kZ2 X2 adj Wb2 Wm2 Wl2 n2 = rZ2 X2 adj Wb2 Wm2 Wl2 n2 := by
  have hH := rH2_real X2 adj Wb2 hX hadj hWb
  unfold kZ2 z2 rZ2
  rw [h2Pair_xwPair X2 adj Wb2 hX hWb, bandSum_eq_mmTN, halves0_mmTN_hilo hH, tr_sample,
    tr_mmTN_mmTN hWl hH hadj, tr_mmTN_mmTN hWm hH hadj]

theorem rZ1_real (hX : AllReal X1) (hadj : AllReal adj) (hWb : AllReal Wb1) (hWm : AllReal Wm1) (hWl : AllReal Wl1)
    (hn : AllReal n1) : AllReal (rZ1 X1 adj Wb1 Wm1 Wl1 n1) :=
  have hH := rH1_real X1 adj Wb1 hX hadj hWb
  sample_real hn (mm_real hadj (mm_real hH hWl)) (mm_real hadj (mm_real hH hWm))

theorem rZ2_real (hX : AllReal X2) (hadj : AllReal adj) (hWb : AllReal Wb2) (hWm : AllReal Wm2) (hWl : AllReal Wl2)
    (hn : AllReal n2) : AllReal (rZ2 X2 adj Wb2 Wm2 Wl2 n2) :=
  have hH := rH2_real X2 adj Wb2 hX hadj hWb
  sample_real hn (mm_real (tr_real hadj) (mm_real hH hWl)) (mm_real (tr_real hadj) (mm_real hH hWm))

/-- The decoder: multiplying by the identity matrix changes nothing, for any entries. -/
theorem decode_eq_rDecode (y1 y2 : FVec Ideal (Sh 10000 4) .f32) : decode y1 y2 = rDecode y1 y2 := by
  unfold decode rDecode
  rw [mm_eye4, mm_tr]

end Results

end Cert.Spec

end
-- ==== Proof.RefValue.lean ====
/-
  The plain program, read one operation at a time, is the specification's plain form.

  Each `dot_general` of the plain program contracts the second axis of its left operand with the first axis of its
  right operand, so its element `(r, c)` is `Σ_k L(r, k) · R(k, c)`: the product `mm`.  Each `transpose` exchanges
  the two coordinates: `tr`.  The positive part is a maximum with a zero splat, the identity matrix is an equality
  test of the two coordinates converted to a float, and the logistic function is spelt `1 / (1 + exp (-x))`, which
  is its definition on the extended reals.
-/
import proofs.«111736_g88691074663054_cont_9to1c4b_58_39_alg».proof.Proof.Gen.ReferenceIdeal.Read
import proofs.«111736_g88691074663054_cont_9to1c4b_58_39_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.Spec (Sh mm tr relu sample rH1 rH2 rZ1 rZ2 eye4 rDecode)
open scoped BigOperators

/-- Two rank-2 indices with the same two coordinates are equal. -/
local macro "coords" : tactic => `(tactic| (funext a; match a with | ⟨0, _⟩ => rfl | ⟨1, _⟩ => rfl))

/-- A sum `Σ_q L(r, q) · R(q, c)` at the index `(r, c)` is the product `mm L R` there. -/
theorem sum_as_mm {a k b : Nat} (L : (Sh a k).Idx → EReal) (R : (Sh k b).Idx → EReal) (i : (Sh a b).Idx)
    (li : Fin k → (Sh a k).Idx) (ri : Fin k → (Sh k b).Idx)
    (hl : ∀ q, li q = ix2 (i 0) q) (hr : ∀ q, ri q = ix2 q (i 1)) :
    ∑ q : Fin k, L (li q) * R (ri q) = mm (φ₁ := .f32) (φ₂ := .f32) L R i := by
  simp only [hl, hr]
  rfl

local notation "mmf" => mm (φ₁ := FTy.f32) (φ₂ := FTy.f32)
local notation "trf" => tr (φ := FTy.f32)

variable (x0 x1 x2 : (⟨S10000x10000, .f32⟩ : BufTy).Contents (Elt Ideal))
  (x3 x6 : (⟨S10000x16, .f32⟩ : BufTy).Contents (Elt Ideal))
  (x4 x5 x7 x8 : (⟨S16x4, .f32⟩ : BufTy).Contents (Elt Ideal))
  (x9 x10 : (⟨S10000x4, .f32⟩ : BufTy).Contents (Elt Ideal))

/-! ## The first encoder -/

theorem v0_eq : val_main_v0 (F := Ideal) x2 = trf x2 := by
  funext i
  rw [val_main_v0_apply]
  exact congrArg x2 (by coords)

theorem v1_eq : val_main_v1 (F := Ideal) x0 x3 = mmf x0 x3 := by
  funext i
  rw [val_main_v1_apply]
  exact sum_as_mm x0 x3 i _ _ (fun q => by coords) (fun q => by coords)

theorem v2_eq : val_main_v2 (F := Ideal) x0 x2 x3 = mmf (trf x2) (mmf x0 x3) := by
  funext i
  rw [val_main_v2_apply, v0_eq, v1_eq]
  exact sum_as_mm _ _ i _ _ (fun q => by coords) (fun q => by coords)

theorem v3_eq : val_main_v3 (F := Ideal) x0 x2 x3 = rH1 x0 x2 x3 := by
  funext i
  rw [val_main_v3_apply, v2_eq, val_main_call0_v0_apply, val_main_call0_cst_apply]
  show max (mmf (trf x2) (mmf x0 x3) i) (Ideal.ofBits .f32 0x00000000#32) = max (mmf (trf x2) (mmf x0 x3) i) 0
  rw [Ideal.ofBits_zero_f32]

theorem v4_eq : val_main_v4 (F := Ideal) x0 x2 x3 x4 = mmf (rH1 x0 x2 x3) x4 := by
  funext i
  rw [val_main_v4_apply, v3_eq]
  exact sum_as_mm _ _ i _ _ (fun q => by coords) (fun q => by coords)

theorem v5_eq : val_main_v5 (F := Ideal) x0 x2 x3 x4 = mmf x2 (mmf (rH1 x0 x2 x3) x4) := by
  funext i
  rw [val_main_v5_apply, v4_eq]
  exact sum_as_mm _ _ i _ _ (fun q => by coords) (fun q => by coords)

theorem v6_eq : val_main_v6 (F := Ideal) x0 x2 x3 x5 = mmf (rH1 x0 x2 x3) x5 := by
  funext i
  rw [val_main_v6_apply, v3_eq]
  exact sum_as_mm _ _ i _ _ (fun q => by coords) (fun q => by coords)

theorem v7_eq : val_main_v7 (F := Ideal) x0 x2 x3 x5 = mmf x2 (mmf (rH1 x0 x2 x3) x5) := by
  funext i
  rw [val_main_v7_apply, v6_eq]
  exact sum_as_mm _ _ i _ _ (fun q => by coords) (fun q => by coords)

/-- The first result: `noise₁ · exp(adj · (h₁ · W_logstd₁)) + adj · (h₁ · W_mean₁)`. -/
theorem v10_eq : val_main_v10 (F := Ideal) x0 x2 x3 x4 x5 x9 = rZ1 x0 x2 x3 x4 x5 x9 := by
  funext i
  rw [val_main_v10_apply, val_main_v9_apply, val_main_v8_apply, v7_eq, v5_eq]
  rfl

/-! ## The second encoder -/

theorem v11_eq : val_main_v11 (F := Ideal) x1 x6 = mmf x1 x6 := by
  funext i
  rw [val_main_v11_apply]
  exact sum_as_mm x1 x6 i _ _ (fun q => by coords) (fun q => by coords)

theorem v12_eq : val_main_v12 (F := Ideal) x1 x2 x6 = mmf x2 (mmf x1 x6) := by
  funext i
  rw [val_main_v12_apply, v11_eq]
  exact sum_as_mm _ _ i _ _ (fun q => by coords) (fun q => by coords)

theorem v13_eq : val_main_v13 (F := Ideal) x1 x2 x6 = rH2 x1 x2 x6 := by
  funext i
  rw [val_main_v13_apply, v12_eq, val_main_call1_v0_apply, val_main_call1_cst_apply]
  show max (mmf x2 (mmf x1 x6) i) (Ideal.ofBits .f32 0x00000000#32) = max (mmf x2 (mmf x1 x6) i) 0
  rw [Ideal.ofBits_zero_f32]

theorem v14_eq : val_main_v14 (F := Ideal) x2 = trf x2 := by
  funext i
  rw [val_main_v14_apply]
  exact congrArg x2 (by coords)

theorem v15_eq : val_main_v15 (F := Ideal) x1 x2 x6 x7 = mmf (rH2 x1 x2 x6) x7 := by
  funext i
  rw [val_main_v15_apply, v13_eq]
  exact sum_as_mm _ _ i _ _ (fun q => by coords) (fun q => by coords)

theorem v16_eq : val_main_v16 (F := Ideal) x1 x2 x6 x7 = mmf (trf x2) (mmf (rH2 x1 x2 x6) x7) := by
  funext i
  rw [val_main_v16_apply, v14_eq, v15_eq]
  exact sum_as_mm _ _ i _ _ (fun q => by coords) (fun q => by coords)

theorem v17_eq : val_main_v17 (F := Ideal) x2 = trf x2 := by
  funext i
  rw [val_main_v17_apply]
  exact congrArg x2 (by coords)

theorem v18_eq : val_main_v18 (F := Ideal) x1 x2 x6 x8 = mmf (rH2 x1 x2 x6) x8 := by
  funext i
  rw [val_main_v18_apply, v13_eq]
  exact sum_as_mm _ _ i _ _ (fun q => by coords) (fun q => by coords)

theorem v19_eq : val_main_v19 (F := Ideal) x1 x2 x6 x8 = mmf (trf x2) (mmf (rH2 x1 x2 x6) x8) := by
  funext i
  rw [val_main_v19_apply, v17_eq, v18_eq]
  exact sum_as_mm _ _ i _ _ (fun q => by coords) (fun q => by coords)

/-- The second result: `noise₂ · exp(adjᵀ · (h₂ · W_logstd₂)) + adjᵀ · (h₂ · W_mean₂)`. -/
theorem v22_eq : val_main_v22 (F := Ideal) x1 x2 x6 x7 x8 x10 = rZ2 x1 x2 x6 x7 x8 x10 := by
  funext i
  rw [val_main_v22_apply, val_main_v21_apply, val_main_v20_apply, v19_eq, v16_eq]
  rfl

/-! ## The decoder -/

/-- The equality test of the two coordinates, converted to a float, is the identity matrix. -/
theorem v28_eq : val_main_v28 (F := Ideal) = eye4 := by
  funext i
  rw [val_main_v28_apply, val_main_v27_apply, val_main_v26_apply, val_main_v23_apply, val_main_v25_apply,
    val_main_c_apply, val_main_v24_apply]
  show ((((IntOp.cmpi .eq (IntOp.addi (BitVec.ofNat 32 (i 0).val) 0#32) (BitVec.ofNat 32 (i 1).val)).toNat : ℕ) : ℝ) : EReal)
      = if (i 0).val = (i 1).val then 1 else 0
  have h0 := idx2_lt0 i
  have h1 := idx2_lt1 i
  have hadd : IntOp.addi (BitVec.ofNat 32 (i 0).val) 0#32 = BitVec.ofNat 32 (i 0).val := BitVec.add_zero _
  rw [hadd]
  by_cases h : (i 0).val = (i 1).val
  · rw [if_pos h, h, IntOp.cmpi_eq.2 rfl]
    norm_num
  · have hne : IntOp.cmpi .eq (BitVec.ofNat 32 (i 0).val) (BitVec.ofNat 32 (i 1).val) = 0#1 :=
      eq_zero_of_ne_one fun e => h (by
        have := congrArg BitVec.toNat (IntOp.cmpi_eq.1 e)
        simp only [BitVec.toNat_ofNat] at this
        omega)
    rw [if_neg h, hne]
    norm_num

theorem v29_eq : val_main_v29 (F := Ideal) x0 x2 x3 x4 x5 x9 = mmf (rZ1 x0 x2 x3 x4 x5 x9) eye4 := by
  funext i
  rw [val_main_v29_apply, v10_eq, v28_eq]
  exact sum_as_mm _ _ i _ _ (fun q => by coords) (fun q => by coords)

theorem v30_eq : val_main_v30 (F := Ideal) x1 x2 x6 x7 x8 x10 = trf (rZ2 x1 x2 x6 x7 x8 x10) := by
  funext i
  rw [val_main_v30_apply, v22_eq]
  exact congrArg (rZ2 x1 x2 x6 x7 x8 x10) (by coords)

theorem v31_eq : val_main_v31 (F := Ideal) x0 x1 x2 x3 x4 x5 x6 x7 x8 x9 x10
    = mmf (mmf (rZ1 x0 x2 x3 x4 x5 x9) eye4) (trf (rZ2 x1 x2 x6 x7 x8 x10)) := by
  funext i
  rw [val_main_v31_apply, v29_eq, v30_eq]
  exact sum_as_mm _ _ i _ _ (fun q => by coords) (fun q => by coords)

/-- The third result: the logistic function of `(z₁ · I) · z₂ᵀ`; `1 / (1 + exp (-x))` is the logistic function's
    definition on the extended reals. -/
theorem v37_eq : val_main_v37 (F := Ideal) x0 x1 x2 x3 x4 x5 x6 x7 x8 x9 x10
    = rDecode (rZ1 x0 x2 x3 x4 x5 x9) (rZ2 x1 x2 x6 x7 x8 x10) := by
  funext i
  rw [val_main_v37_apply, val_main_v36_apply, val_main_cst_0_apply, val_main_v35_apply, val_main_v34_apply,
    val_main_cst_apply, val_main_v33_apply, val_main_v32_apply, v31_eq]
  show Ideal.div (Ideal.ofBits .f32 0x3F800000#32) (Ideal.ofBits .f32 0x3F800000#32
      + Ideal.exp (-(mmf (mmf (rZ1 x0 x2 x3 x4 x5 x9) eye4) (trf (rZ2 x1 x2 x6 x7 x8 x10)) i)))
    = Ideal.div 1 (1 + Ideal.exp (-(mmf (mmf (rZ1 x0 x2 x3 x4 x5 x9) eye4) (trf (rZ2 x1 x2 x6 x7 x8 x10)) i)))
  rw [Ideal.ofBits_one_f32]

end Cert.ReferenceIdeal.RefValue

end
-- ==== Proof.Finite.lean ====
/-
  From the precondition to "every entry of every input is a real number".

  The precondition is the conjunction, over the eleven inputs, of "every entry has absolute value below +∞".  An
  extended real whose absolute value `max x (-x)` is below `⊤` is neither `⊤` nor `⊥`, so it is a real number.
-/
import proofs.«111736_g88691074663054_cont_9to1c4b_58_39_alg».proof.Pre_finite_inputs
import Idealize.ShloMosaic.Lib.ReduceAll
import Idealize.ShloMosaic.Lib.IdealHost

noncomputable section

namespace Cert.Finite

open Idealize.ShloMosaic Idealize.ShloMosaic.ValueIdx Cert.Pre_finite_inputs Cert.Pre_finite_inputs.Facts

variable [Cert.Pre_finite_inputs.Facts]

/-- The scalar shape has one index. -/
instance : Subsingleton S_.Idx := ⟨fun a b => funext fun d => d.elim0⟩

/-- The f32 pattern `0x7F800000` is `+∞`. -/
theorem ofBits_inf_f32 : Ideal.ofBits .f32 0x7F800000#32 = ⊤ := by simp [Ideal.ofBits, Ideal.ieee]

/-- An extended real whose absolute value is below `+∞` is a real number. -/
theorem real_of_abs_lt_top {x : EReal} (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- One conjunct of the precondition: all entries of `x` have absolute value below `+∞`, so all are real. -/
theorem real_of_all {s : Shape} {axes : List (Fin s.rank)} (x : FVec Ideal s .f32) (bc : S_.BroadcastsInDim s ![])
    (red : s.ReducesTo axes S_) (hu : 0 < S_.numel) (j : S_.Idx)
    (e : Host.reduce IntOp.andi (cmpf .olt (Host.absf x) (broadcastInDim s ![] bc (constant (F := Ideal) S_ .f32 0x7F800000#32)))
        (constantI S_ 1 1#1) red hu j = 1#1) :
    ∀ i, ∃ r : ℝ, x i = (r : EReal) := by
  intro i
  have h := Host.reduce_andi_all _ _ red hu j e i
  have hb : broadcastInDim s ![] bc (constant (F := Ideal) S_ .f32 0x7F800000#32) i = ⊤ := by
    rw [broadcastInDim_scalar_apply]
    exact ofBits_inf_f32
  rw [cmpf_apply, hb] at h
  exact real_of_abs_lt_top h

theorem finite_of_pre (a0 a1 a2 : FVec Ideal S10000x10000 .f32) (a3 : FVec Ideal S10000x16 .f32)
    (a4 a5 : FVec Ideal S16x4 .f32) (a6 : FVec Ideal S10000x16 .f32) (a7 a8 : FVec Ideal S16x4 .f32)
    (a9 a10 : FVec Ideal S10000x4 .f32)
    (h : Cert.Pre_finite_inputs.fn (F := Ideal) a0 a1 a2 a3 a4 a5 a6 a7 a8 a9 a10 = (fun _ => 1#1)) :
    (∀ i, ∃ x : ℝ, a0 i = (x : EReal)) ∧ (∀ i, ∃ x : ℝ, a1 i = (x : EReal)) ∧ (∀ i, ∃ x : ℝ, a2 i = (x : EReal))
    ∧ (∀ i, ∃ x : ℝ, a3 i = (x : EReal)) ∧ (∀ i, ∃ x : ℝ, a4 i = (x : EReal)) ∧ (∀ i, ∃ x : ℝ, a5 i = (x : EReal))
    ∧ (∀ i, ∃ x : ℝ, a6 i = (x : EReal)) ∧ (∀ i, ∃ x : ℝ, a7 i = (x : EReal)) ∧ (∀ i, ∃ x : ℝ, a8 i = (x : EReal))
    ∧ (∀ i, ∃ x : ℝ, a9 i = (x : EReal)) ∧ (∀ i, ∃ x : ℝ, a10 i = (x : EReal)) := by
  have h0 := congrFun h ix0
  dsimp only [fn, fn_part1, fn_part2, fn_part3] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6, real_of_all a7 _ _ _ _ e7,
    real_of_all a8 _ _ _ _ e8, real_of_all a9 _ _ _ _ e9, real_of_all a10 _ _ _ _ e10⟩

end Cert.Finite

end
-- ==== Proof.lean ====
/-
  The certificate of the tiled graph auto-encoder against its plain reference: both programs terminate, fault
  nowhere and leave their arguments unchanged; the idealized tiled program is the tiled program's sanctioned
  idealization (four format round trips read as the identity); and at the exact values the two programs' three
  results agree entry by entry whenever every input entry is a real number.

  The tiled program's results are read off its five stages one after the other (KernelRun, KernelValue); the
  reference's off its generated run (RefValue); the two are joined by the algebra of finite sums of reals
  (Algebra): a residue `y - y` is zero, a sum taken band by band is the whole sum, `(A·H)·W = A·(H·W)`, and a
  product with the identity matrix changes nothing.  The precondition gives that every entry is real (Finite).
-/
import proofs.«111736_g88691074663054_cont_9to1c4b_58_39_alg».proof.Defs
import proofs.«111736_g88691074663054_cont_9to1c4b_58_39_alg».proof.Proof.Gen.Kernel
import proofs.«111736_g88691074663054_cont_9to1c4b_58_39_alg».proof.Proof.Gen.KernelIdeal
import proofs.«111736_g88691074663054_cont_9to1c4b_58_39_alg».proof.Proof.Gen.ReferenceIdeal
import proofs.«111736_g88691074663054_cont_9to1c4b_58_39_alg».proof.Proof.Gen.Pre_finite_inputs
import proofs.«111736_g88691074663054_cont_9to1c4b_58_39_alg».proof.Proof.Gen.ReferenceIdeal.Run
import proofs.«111736_g88691074663054_cont_9to1c4b_58_39_alg».proof.Proof.Gen.ReferenceIdeal.Read
import proofs.«111736_g88691074663054_cont_9to1c4b_58_39_alg».proof.Proof.KernelRun
import proofs.«111736_g88691074663054_cont_9to1c4b_58_39_alg».proof.Proof.KernelValue
import proofs.«111736_g88691074663054_cont_9to1c4b_58_39_alg».proof.Proof.Word.KernelRun
import proofs.«111736_g88691074663054_cont_9to1c4b_58_39_alg».proof.Proof.Algebra
import proofs.«111736_g88691074663054_cont_9to1c4b_58_39_alg».proof.Proof.RefValue
import proofs.«111736_g88691074663054_cont_9to1c4b_58_39_alg».proof.Proof.Finite
import Idealize.ShloMosaic.Adequacy
import Idealize.ShloMosaic.Init

noncomputable section

namespace Cert.Proof

open Idealize.ShloMosaic Idealize.SL.Sem

/-- The tiled program's frame, at the machine's words. -/
theorem frame_p : Cert.frame_Kernel := fun m ρ _ => Cert.Kernel.Hand.frame m ρ

/-- The idealized tiled program's frame. -/
theorem frame_pi : Cert.frame_KernelIdeal := fun m ρ _ => Cert.KernelIdeal.Hand.frame m ρ

/-- The reference's frame: its generated run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The four format round trips the idealization removed are the identity at the exact values. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- At the exact values, from memories agreeing on the arguments, both programs run and their three results agree:
    the tiled program's are its stages' value functions composed, the reference's its run's terms, and on real
    entries the two are the same functions. -/
theorem algebraic : Cert.algebraic_KernelIdeal_ReferenceIdeal := by
  intro m ρ m' ρ' hpre hagree
  refine ⟨_, _, _, Cert.KernelIdeal.Hand.run_values m ρ, ?_⟩
  refine (θ_run Cert.ReferenceIdeal.defs _ _).mono (fun _ h c => ?_) (Cert.ReferenceIdeal.Value.run (F := Ideal) m' ρ')
  obtain ⟨h37, h10, h22, hargs⟩ := h c
  obtain ⟨e0, e1, e2, e3, e4, e5, e6, e7, e8, e9, e10⟩ := hagree c
  obtain ⟨f0, f1, f2, f3, f4, f5, f6, f7, f8, f9, f10⟩ := Cert.Finite.finite_of_pre _ _ _ _ _ _ _ _ _ _ _ (hpre c)
  refine ⟨h37.trans ?_, h10.trans ?_, h22.trans ?_, hargs⟩
  · -- the decoded matrix
    rw [e0, e1, e2, e3, e4, e5, e6, e7, e8, e9, e10, Cert.ReferenceIdeal.Read.val_main_v37_eq, Cert.ReferenceIdeal.RefValue.v37_eq,
      Cert.Spec.decode_eq_rDecode, Cert.Spec.kZ1_eq_rZ1 _ _ _ _ _ _ f0 f2 f3 f4 f5, Cert.Spec.kZ2_eq_rZ2 _ _ _ _ _ _ f1 f2 f6 f7 f8]
  · -- the first embedding
    rw [e0, e2, e3, e4, e5, e9, Cert.ReferenceIdeal.Read.val_main_v10_eq, Cert.ReferenceIdeal.RefValue.v10_eq,
      Cert.Spec.kZ1_eq_rZ1 _ _ _ _ _ _ f0 f2 f3 f4 f5]
  · -- the second embedding
    rw [e1, e2, e6, e7, e8, e10, Cert.ReferenceIdeal.Read.val_main_v22_eq, Cert.ReferenceIdeal.RefValue.v22_eq,
      Cert.Spec.kZ2_eq_rZ2 _ _ _ _ _ _ f1 f2 f6 f7 f8]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
